-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x768 : Shape := ⟨3, ![8, 128, 768]⟩
abbrev S8x64x768 : Shape := ⟨3, ![8, 64, 768]⟩
abbrev S512x768 : Shape := ⟨2, ![512, 768]⟩
abbrev S512 : Shape := ⟨1, ![512]⟩
abbrev S512x512 : Shape := ⟨2, ![512, 512]⟩
abbrev S256x512 : Shape := ⟨2, ![256, 512]⟩
abbrev S256 : Shape := ⟨1, ![256]⟩
abbrev S1024x512 : Shape := ⟨2, ![1024, 512]⟩
abbrev S1024 : Shape := ⟨1, ![1024]⟩
abbrev S_ : Shape := ⟨0, ![]⟩

class Facts : Prop where
  bcast_S_S8x128x768 : S_.BroadcastsInDim S8x128x768 (![] : Fin 0 → Fin S8x128x768.rank)
  reducesTo_S8x128x768_S_d0_1_2 : S8x128x768.ReducesTo [0, 1, 2] S_
  h_S_ : 0 < S_.numel
  bcast_S_S8x64x768 : S_.BroadcastsInDim S8x64x768 (![] : Fin 0 → Fin S8x64x768.rank)
  reducesTo_S8x64x768_S_d0_1_2 : S8x64x768.ReducesTo [0, 1, 2] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn_part8 {F : FTy → Type} [FloatOps F] (main_arg28 : FVec F S1024 .f32) (main_v133 : IVec S_ 1) (main_v136 : IVec S1024 1) : IVec S_ 1 :=
  let main_c_53 : IVec S_ 1 := constantI S_ 1 1#1
  let main_v137 : IVec S_ 1 := (fun x v => Host.reduce IntOp.andi x v reducesTo_S1024_S_d0 h_S_) main_v136 main_c_53
  let main_v138 : IVec S_ 1 := andi main_v133 main_v137
  let main_v139 : FVec F S1024 .f32 := Host.absf main_arg28
  let main_cst_54 : FVec F S_ .f32 := constant S_ .f32 0x7F800000#32
  let main_v140 : FVec F S1024 .f32 := broadcastInDim S1024 ![] bcast_S_S1024 main_cst_54
  let main_v141 : IVec S1024 1 := cmpf .olt main_v139 main_v140
  let main_c_55 : IVec S_ 1 := constantI S_ 1 1#1
  let main_v142 : IVec S_ 1 := (fun x v => Host.reduce IntOp.andi x v reducesTo_S1024_S_d0 h_S_) main_v141 main_c_55
  let main_v143 : IVec S_ 1 := andi main_v138 main_v142
  main_v143

def fn_part7 {F : FTy → Type} [FloatOps F] (main_arg25 : FVec F S512 .f32) (main_arg26 : FVec F S1024x512 .f32) (main_arg27 : FVec F S1024 .f32) (main_arg28 : FVec F S1024 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_v124 : FVec F S512 .f32 := Host.absf main_arg25
  let main_cst_48 : FVec F S_ .f32 := constant S_ .f32 0x7F800000#32
  let main_v125 : FVec F S512 .f32 := broadcastInDim S512 ![] bcast_S_S512 main_cst_48
  let main_v126 : IVec S512 1 := cmpf .olt main_v124 main_v125
  let main_c_49 : IVec S_ 1 := constantI S_ 1 1#1
  let main_v127 : IVec S_ 1 := (fun x v => Host.reduce IntOp.andi x v reducesTo_S512_S_d0 h_S_) main_v126 main_c_49
  let main_v128 : IVec S_ 1 := andi main_v123 main_v127
  let main_v129 : FVec F S1024x512 .f32 := Host.absf main_arg26
  let main_cst_50 : FVec F S_ .f32 := constant S_ .f32 0x7F800000#32
  let main_v130 : FVec F S1024x512 .f32 := broadcastInDim S1024x512 ![] bcast_S_S1024x512 main_cst_50
  let main_v131 : IVec S1024x512 1 := cmpf .olt main_v129 main_v130
  let main_c_51 : IVec S_ 1 := constantI S_ 1 1#1
  let main_v132 : IVec S_ 1 := (fun x v => Host.reduce IntOp.andi x v reducesTo_S1024x512_S_d0_1 h_S_) main_v131 main_c_51
  let main_v133 : IVec S_ 1 := andi main_v128 main_v132
  let main_v134 : FVec F S1024 .f32 := Host.absf main_arg27
  let main_cst_52 : FVec F S_ .f32 := constant S_ .f32 0x7F800000#32
  let main_v135 : FVec F S1024 .f32 := broadcastInDim S1024 ![] bcast_S_S1024 main_cst_52
  let main_v136 : IVec S1024 1 := cmpf .olt main_v134 main_v135
  fn_part8 (F := F) main_arg28 main_v133 main_v136

def fn_part6 {F : FTy → Type} [FloatOps F] (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) (main_v98 : IVec S_ 1) (main_v101 : IVec S512x512 1) (main_c_39 : IVec S_ 1) : IVec S_ 1 :=
  let main_v102 : IVec S_ 1 := (fun x v => Host.reduce IntOp.andi x v reducesTo_S512x512_S_d0_1 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512x768 .f32 := Host.absf main_arg22
  let main_cst_42 : FVec F S_ .f32 := constant S_ .f32 0x7F800000#32
  let main_v110 : FVec F S512x768 .f32 := broadcastInDim S512x768 ![] bcast_S_S512x768 main_cst_42
  let main_v111 : IVec S512x768 1 := cmpf .olt main_v109 main_v110
  let main_c_43 : IVec S_ 1 := constantI S_ 1 1#1
  let main_v112 : IVec S_ 1 := (fun x v => Host.reduce IntOp.andi x v reducesTo_S512x768_S_d0_1 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg24
  fn_part7 (F := F) main_arg25 main_arg26 main_arg27 main_arg28 main_v118 main_v119

def fn_part5 {F : FTy → Type} [FloatOps F] (main_arg18 : FVec F S512x512 .f32) (main_arg19 : FVec F S512 .f32) (main_arg20 : FVec F S512x512 .f32) (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S512x512 .f32 := Host.absf main_arg18
  let main_cst_34 : FVec F S_ .f32 := constant S_ .f32 0x7F800000#32
  let main_v90 : FVec F S512x512 .f32 := broadcastInDim S512x512 ![] bcast_S_S512x512 main_cst_34
  let main_v91 : IVec S512x512 1 := cmpf .olt main_v89 main_v90
  let main_c_35 : IVec S_ 1 := constantI S_ 1 1#1
  let main_v92 : IVec S_ 1 := (fun x v => Host.reduce IntOp.andi x v reducesTo_S512x512_S_d0_1 h_S_) main_v91 main_c_35
  let main_v93 : IVec S_ 1 := andi main_v88 main_v92
  let main_v94 : FVec F S512 .f32 := Host.absf main_arg19
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x512 .f32 := Host.absf main_arg20
  let main_cst_38 : FVec F S_ .f32 := constant S_ .f32 0x7F800000#32
  let main_v100 : FVec F S512x512 .f32 := broadcastInDim S512x512 ![] bcast_S_S512x512 main_cst_38
  let main_v101 : IVec S512x512 1 := cmpf .olt main_v99 main_v100
  let main_c_39 : IVec S_ 1 := constantI S_ 1 1#1
  fn_part6 (F := F) main_arg21 main_arg22 main_arg23 main_arg24 main_arg25 main_arg26 main_arg27 main_arg28 main_v98 main_v101 main_c_39

def fn_part4 {F : FTy → Type} [FloatOps F] (main_arg14 : FVec F S256x512 .f32) (main_arg15 : FVec F S256 .f32) (main_arg16 : FVec F S256 .f32) (main_arg17 : FVec F S256 .f32) (main_arg18 : FVec F S512x512 .f32) (main_arg19 : FVec F S512 .f32) (main_arg20 : FVec F S512x512 .f32) (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) (main_v63 : IVec S_ 1) (main_v67 : IVec S_ 1) : IVec S_ 1 :=
  let main_v68 : IVec S_ 1 := andi main_v63 main_v67
  let main_v69 : FVec F S256x512 .f32 := Host.absf main_arg14
  let main_cst_26 : FVec F S_ .f32 := constant S_ .f32 0x7F800000#32
  let main_v70 : FVec F S256x512 .f32 := broadcastInDim S256x512 ![] bcast_S_S256x512 main_cst_26
  let main_v71 : IVec S256x512 1 := cmpf .olt main_v69 main_v70
  let main_c_27 : IVec S_ 1 := constantI S_ 1 1#1
  let main_v72 : IVec S_ 1 := (fun x v => Host.reduce IntOp.andi x v reducesTo_S256x512_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_v83 main_v84 main_cst_32

def fn_part3 {F : FTy → Type} [FloatOps F] (main_arg11 : FVec F S512 .f32) (main_arg12 : FVec F S512 .f32) (main_arg13 : FVec F S512 .f32) (main_arg14 : FVec F S256x512 .f32) (main_arg15 : FVec F S256 .f32) (main_arg16 : FVec F S256 .f32) (main_arg17 : FVec F S256 .f32) (main_arg18 : FVec F S512x512 .f32) (main_arg19 : FVec F S512 .f32) (main_arg20 : FVec F S512x512 .f32) (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_arg14 : FVec F S256x512 .f32) (main_arg15 : FVec F S256 .f32) (main_arg16 : FVec F S256 .f32) (main_arg17 : FVec F S256 .f32) (main_arg18 : FVec F S512x512 .f32) (main_arg19 : FVec F S512 .f32) (main_arg20 : FVec F S512x512 .f32) (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S512 .f32) (main_arg5 : FVec F S512 .f32) (main_arg6 : FVec F S512x768 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_arg14 : FVec F S256x512 .f32) (main_arg15 : FVec F S256 .f32) (main_arg16 : FVec F S256 .f32) (main_arg17 : FVec F S256 .f32) (main_arg18 : FVec F S512x512 .f32) (main_arg19 : FVec F S512 .f32) (main_arg20 : FVec F S512x512 .f32) (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x768 .f32 := Host.absf main_arg6
  let main_cst_10 : FVec F S_ .f32 := constant S_ .f32 0x7F800000#32
  let main_v30 : FVec F S512x768 .f32 := broadcastInDim S512x768 ![] bcast_S_S512x768 main_cst_10
  let main_v31 : IVec S512x768 1 := cmpf .olt main_v29 main_v30
  let main_c_11 : IVec S_ 1 := constantI S_ 1 1#1
  let main_v32 : IVec S_ 1 := (fun x v => Host.reduce IntOp.andi x v reducesTo_S512x768_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S8x128x768 .f32) (main_arg1 : FVec F S8x64x768 .f32) (main_arg2 : FVec F S512x768 .f32) (main_arg3 : FVec F S512 .f32) (main_arg4 : FVec F S512 .f32) (main_arg5 : FVec F S512 .f32) (main_arg6 : FVec F S512x768 .f32) (main_arg7 : FVec F S512 .f32) (main_arg8 : FVec F S512 .f32) (main_arg9 : FVec F S512 .f32) (main_arg10 : FVec F S512x512 .f32) (main_arg11 : FVec F S512 .f32) (main_arg12 : FVec F S512 .f32) (main_arg13 : FVec F S512 .f32) (main_arg14 : FVec F S256x512 .f32) (main_arg15 : FVec F S256 .f32) (main_arg16 : FVec F S256 .f32) (main_arg17 : FVec F S256 .f32) (main_arg18 : FVec F S512x512 .f32) (main_arg19 : FVec F S512 .f32) (main_arg20 : FVec F S512x512 .f32) (main_arg21 : FVec F S512 .f32) (main_arg22 : FVec F S512x768 .f32) (main_arg23 : FVec F S512 .f32) (main_arg24 : FVec F S512 .f32) (main_arg25 : FVec F S512 .f32) (main_arg26 : FVec F S1024x512 .f32) (main_arg27 : FVec F S1024 .f32) (main_arg28 : FVec F S1024 .f32) : IVec S_ 1 :=
  let main_v0 : FVec F S8x128x768 .f32 := Host.absf main_arg0
  let main_cst : FVec F S_ .f32 := constant S_ .f32 0x7F800000#32
  let main_v1 : FVec F S8x128x768 .f32 := broadcastInDim S8x128x768 ![] bcast_S_S8x128x768 main_cst
  let main_v2 : IVec S8x128x768 1 := cmpf .olt main_v0 main_v1
  let main_c : IVec S_ 1 := constantI S_ 1 1#1
  let main_v3 : IVec S_ 1 := (fun x v => Host.reduce IntOp.andi x v reducesTo_S8x128x768_S_d0_1_2 h_S_) main_v2 main_c
  let main_v4 : FVec F S8x64x768 .f32 := Host.absf main_arg1
  let main_cst_0 : FVec F S_ .f32 := constant S_ .f32 0x7F800000#32
  let main_v5 : FVec F S8x64x768 .f32 := broadcastInDim S8x64x768 ![] bcast_S_S8x64x768 main_cst_0
  let main_v6 : IVec S8x64x768 1 := cmpf .olt main_v4 main_v5
  let main_c_1 : IVec S_ 1 := constantI S_ 1 1#1
  let main_v7 : IVec S_ 1 := (fun x v => Host.reduce IntOp.andi x v reducesTo_S8x64x768_S_d0_1_2 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S8x128x768 : Shape := ⟨3, ![8, 128, 768]⟩
abbrev S8x64x768 : Shape := ⟨3, ![8, 64, 768]⟩
abbrev S512x768 : Shape := ⟨2, ![512, 768]⟩
abbrev S512 : Shape := ⟨1, ![512]⟩
abbrev S512x512 : Shape := ⟨2, ![512, 512]⟩
abbrev S256x512 : Shape := ⟨2, ![256, 512]⟩
abbrev S256 : Shape := ⟨1, ![256]⟩
abbrev S1024x512 : Shape := ⟨2, ![1024, 512]⟩
abbrev S1024 : Shape := ⟨1, ![1024]⟩
abbrev S768x512 : Shape := ⟨2, ![768, 512]⟩
abbrev S512x256 : Shape := ⟨2, ![512, 256]⟩
abbrev S8x128x512 : Shape := ⟨3, ![8, 128, 512]⟩
abbrev S8x64x512 : Shape := ⟨3, ![8, 64, 512]⟩
abbrev S1x128x768 : Shape := ⟨3, ![1, 128, 768]⟩
abbrev S1x64x768 : Shape := ⟨3, ![1, 64, 768]⟩
abbrev S1x128x512 : Shape := ⟨3, ![1, 128, 512]⟩
abbrev S1x64x512 : Shape := ⟨3, ![1, 64, 512]⟩
abbrev S128x768 : Shape := ⟨2, ![128, 768]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S64x768 : Shape := ⟨2, ![64, 768]⟩
abbrev S64x512 : Shape := ⟨2, ![64, 512]⟩
abbrev S64 : Shape := ⟨1, ![64]⟩
abbrev S64x1 : Shape := ⟨2, ![64, 1]⟩
abbrev S512x1024 : Shape := ⟨2, ![512, 1024]⟩
abbrev S8x128x64x1024 : Shape := ⟨4, ![8, 128, 64, 1024]⟩
abbrev S1x16x512 : Shape := ⟨3, ![1, 16, 512]⟩
abbrev S1x16x64x1024 : Shape := ⟨4, ![1, 16, 64, 1024]⟩
abbrev S16x512 : Shape := ⟨2, ![16, 512]⟩
abbrev S16x1x512 : Shape := ⟨3, ![16, 1, 512]⟩
abbrev S16x64x512 : Shape := ⟨3, ![16, 64, 512]⟩
abbrev S1024x1 : Shape := ⟨2, ![1024, 1]⟩
abbrev S1024x256 : Shape := ⟨2, ![1024, 256]⟩
abbrev S1x256 : Shape := ⟨2, ![1, 256]⟩
abbrev S1024x1024 : Shape := ⟨2, ![1024, 1024]⟩
abbrev S1x1024 : Shape := ⟨2, ![1, 1024]⟩
abbrev S16x64x1024 : Shape := ⟨3, ![16, 64, 1024]⟩

abbrev nBuf : Space → Nat
  | .hbm => 53
  | .vmem => 46
  | .smem => 0
  | _ => 0

abbrev bufTy : (tb : Table) → Fin (tcTables nBuf tb) → BufTy
  | .hbm, ⟨0, _⟩ => ⟨S8x128x768, .f32⟩
  | .hbm, ⟨1, _⟩ => ⟨S8x64x768, .f32⟩
  | .hbm, ⟨2, _⟩ => ⟨S512x768, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x768, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S256x512, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S512x512, .f32⟩
  | .hbm, ⟨19, _⟩ => ⟨S512, .f32⟩
  | .hbm, ⟨20, _⟩ => ⟨S512x512, .f32⟩
  | .hbm, ⟨21, _⟩ => ⟨S512, .f32⟩
  | .hbm, ⟨22, _⟩ => ⟨S512x768, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1024x512, .f32⟩
  | .hbm, ⟨27, _⟩ => ⟨S1024, .f32⟩
  | .hbm, ⟨28, _⟩ => ⟨S1024, .f32⟩
  | .hbm, ⟨29, _⟩ => ⟨S768x512, .f32⟩
  | .hbm, ⟨30, _⟩ => ⟨S768x512, .bf16⟩
  | .hbm, ⟨31, _⟩ => ⟨S768x512, .f32⟩
  | .hbm, ⟨32, _⟩ => ⟨S768x512, .bf16⟩
  | .hbm, ⟨33, _⟩ => ⟨S512x512, .f32⟩
  | .hbm, ⟨34, _⟩ => ⟨S512x512, .bf16⟩
  | .hbm, ⟨35, _⟩ => ⟨S512x512, .f32⟩
  | .hbm, ⟨36, _⟩ => ⟨S512x512, .bf16⟩
  | .hbm, ⟨37, _⟩ => ⟨S512x512, .f32⟩
  | .hbm, ⟨38, _⟩ => ⟨S512x512, .bf16⟩
  | .hbm, ⟨39, _⟩ => ⟨S512x256, .f32⟩
  | .hbm, ⟨40, _⟩ => ⟨S512x512, .f32⟩
  | .hbm, ⟨41, _⟩ => ⟨S512x512, .f32⟩
  | .hbm, ⟨42, _⟩ => ⟨S512x512, .bf16⟩
  | .hbm, ⟨43, _⟩ => ⟨S8x128x512, .f32⟩
  | .hbm, ⟨44, _⟩ => ⟨S8x64x512, .f32⟩
  | .hbm, ⟨45, _⟩ => ⟨S8x64x512, .f32⟩
  | .hbm, ⟨46, _⟩ => ⟨S512x256, .f32⟩
  | .hbm, ⟨47, _⟩ => ⟨S512x256, .bf16⟩
  | .hbm, ⟨48, _⟩ => ⟨S256x512, .f32⟩
  | .hbm, ⟨49, _⟩ => ⟨S256x512, .bf16⟩
  | .hbm, ⟨50, _⟩ => ⟨S512x1024, .f32⟩
  | .hbm, ⟨51, _⟩ => ⟨S512x1024, .bf16⟩
  | .hbm, ⟨52, _⟩ => ⟨S8x128x64x1024, .f32⟩
  | .local _ .vmem, ⟨0, _⟩ => ⟨S1x128x768, .f32⟩
  | .local _ .vmem, ⟨1, _⟩ => ⟨S1x128x768, .f32⟩
  | .local _ .vmem, ⟨2, _⟩ => ⟨S1x64x768, .f32⟩
  | .local _ .vmem, ⟨3, _⟩ => ⟨S1x64x768, .f32⟩
  | .local _ .vmem, ⟨4, _⟩ => ⟨S768x512, .bf16⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S768x512, .bf16⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512x512, .bf16⟩
  | .local _ .vmem, ⟨13, _⟩ => ⟨S512, .f32⟩
  | .local _ .vmem, ⟨14, _⟩ => ⟨S512x512, .bf16⟩
  | .local _ .vmem, ⟨15, _⟩ => ⟨S512, .f32⟩
  | .local _ .vmem, ⟨16, _⟩ => ⟨S512x512, .bf16⟩
  | .local _ .vmem, ⟨17, _⟩ => ⟨S512, .f32⟩
  | .local _ .vmem, ⟨18, _⟩ => ⟨S512x512, .bf16⟩
  | .local _ .vmem, ⟨19, _⟩ => ⟨S512, .f32⟩
  | .local _ .vmem, ⟨20, _⟩ => ⟨S1x128x512, .f32⟩
  | .local _ .vmem, ⟨21, _⟩ => ⟨S1x128x512, .f32⟩
  | .local _ .vmem, ⟨22, _⟩ => ⟨S1x64x512, .f32⟩
  | .local _ .vmem, ⟨23, _⟩ => ⟨S1x64x512, .f32⟩
  | .local _ .vmem, ⟨24, _⟩ => ⟨S1x64x512, .f32⟩
  | .local _ .vmem, ⟨25, _⟩ => ⟨S1x64x512, .f32⟩
  | .local _ .vmem, ⟨26, _⟩ => ⟨S1x16x512, .f32⟩
  | .local _ .vmem, ⟨27, _⟩ => ⟨S1x16x512, .f32⟩
  | .local _ .vmem, ⟨28, _⟩ => ⟨S1x64x512, .f32⟩
  | .local _ .vmem, ⟨29, _⟩ => ⟨S1x64x512, .f32⟩
  | .local _ .vmem, ⟨30, _⟩ => ⟨S1x64x512, .f32⟩
  | .local _ .vmem, ⟨31, _⟩ => ⟨S1x64x512, .f32⟩
  | .local _ .vmem, ⟨32, _⟩ => ⟨S512, .f32⟩
  | .local _ .vmem, ⟨33, _⟩ => ⟨S512, .f32⟩
  | .local _ .vmem, ⟨34, _⟩ => ⟨S512x256, .bf16⟩
  | .local _ .vmem, ⟨35, _⟩ => ⟨S256, .f32⟩
  | .local _ .vmem, ⟨36, _⟩ => ⟨S256, .f32⟩
  | .local _ .vmem, ⟨37, _⟩ => ⟨S256, .f32⟩
  | .local _ .vmem, ⟨38, _⟩ => ⟨S256x512, .bf16⟩
  | .local _ .vmem, ⟨39, _⟩ => ⟨S512, .f32⟩
  | .local _ .vmem, ⟨40, _⟩ => ⟨S512, .f32⟩
  | .local _ .vmem, ⟨41, _⟩ => ⟨S512x1024, .bf16⟩
  | .local _ .vmem, ⟨42, _⟩ => ⟨S1024, .f32⟩
  | .local _ .vmem, ⟨43, _⟩ => ⟨S1024, .f32⟩
  | .local _ .vmem, ⟨44, _⟩ => ⟨S1x16x64x1024, .f32⟩
  | .local _ .vmem, ⟨45, _⟩ => ⟨S1x16x64x1024, .f32⟩
  | _, _ => ⟨S8x128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14_0 : Ref sig .tc := ⟨.hbm, 43, rfl⟩
abbrev main_v14_1 : Ref sig .tc := ⟨.hbm, 44, rfl⟩
abbrev main_v14_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg13_0 : Ref sig .tc := ⟨.vmem, 42, rfl⟩
abbrev cc1_stg14_0 : Ref sig .tc := ⟨.vmem, 43, rfl⟩
abbrev cc1_stg15_0 : Ref sig .tc := ⟨.vmem, 44, rfl⟩
abbrev cc1_stg15_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem13_0 : DmaSem sig := 42
abbrev cc1_sem14_0 : DmaSem sig := 43
abbrev cc1_sem15_0 : DmaSem sig := 44
abbrev cc1_sem15_1 : DmaSem sig := 45

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x64x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x64x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_15 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S256x512 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S512x1024 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x16x64x1024 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

class Facts₀ : Prop where
  transposes_S512x768_S768x512_1_0 : S512x768.Transposes [1, 0] S768x512
  bitsLt_bf16_f32 : FTy.bits .bf16 < FTy.bits .f32
  transposes_S512x512_S512x512_1_0 : S512x512.Transposes [1, 0] S512x512
  slices_S512x768_S512x256_0_0 : S512x768.Slices ![0, 0] S512x256
  slices_S512x768_S512x512_0_256 : S512x768.Slices ![0, 256] S512x512
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  reduces_S128x512_S128 : S128x512.Reduces [1] S128
  shapeCasts_S128_S128x1 : S128.ShapeCasts S128x1
  broadcasts_S128x1_S128x512 : S128x1.Broadcasts S128x512
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  broadcasts_S1x512_S64x512 : S1x512.Broadcasts S64x512
  reduces_S64x512_S64 : S64x512.Reduces [1] S64
  shapeCasts_S64_S64x1 : S64.ShapeCasts S64x1
  broadcasts_S64x1_S64x512 : S64x1.Broadcasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  transposes_S256x512_S512x256_1_0 : S256x512.Transposes [1, 0] S512x256
  transposes_S512x256_S256x512_1_0 : S512x256.Transposes [1, 0] S256x512
  transposes_S1024x512_S512x1024_1_0 : S1024x512.Transposes [1, 0] S512x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x512_S16x1x512 : S16x512.ShapeCasts S16x1x512
  broadcasts_S16x1x512_S16x64x512 : S16x1x512.Broadcasts S16x64x512
  broadcasts_S1x64x512_S16x64x512 : S1x64x512.Broadcasts S16x64x512
  shapeCasts_S16x64x512_S1024x512 : S16x64x512.ShapeCasts S1024x512
  reduces_S1024x512_S1024 : S1024x512.Reduces [1] S1024
  shapeCasts_S1024_S1024x1 : S1024.ShapeCasts S1024x1
  broadcasts_S1024x1_S1024x512 : S1024x1.Broadcasts S1024x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  broadcasts_S1024x1_S1024x256 : S1024x1.Broadcasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  shapeCasts_S1024x512_S16x64x512 : S1024x512.ShapeCasts S16x64x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S128x768_S768x512_S128x512_1_0_0_1_n_n_wf : DotDims.WF S128x768 S768x512 S128x512 [1] [0] [0] [1] [] []
  dot_S64x768_S768x512_S64x512_1_0_0_1_n_n_wf : DotDims.WF S64x768 S768x512 S64x512 [1] [0] [0] [1] [] []
  dot_S128x512_S512x512_S128x512_1_0_0_1_n_n_wf : DotDims.WF S128x512 S512x512 S128x512 [1] [0] [0] [1] [] []
  dot_S64x512_S512x512_S64x512_1_0_0_1_n_n_wf : DotDims.WF S64x512 S512x512 S64x512 [1] [0] [0] [1] [] []
  dot_S1024x512_S512x256_S1024x256_1_0_0_1_n_n_wf : DotDims.WF S1024x512 S512x256 S1024x256 [1] [0] [0] [1] [] []
  dot_S1024x256_S256x512_S1024x512_1_0_0_1_n_n_wf : DotDims.WF S1024x256 S256x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S8x128x768.size a
  hwx0_0 : ∀ i : grid0.Coords, EltTy.bits .f32 = 32 ∨ (Rect.block (s := S8x128x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x768.size a ≤ S8x64x768.size a
  hwx0_1 : ∀ i : grid0.Coords, EltTy.bits .f32 = 32 ∨ (Rect.block (s := S8x64x768) S1x64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .bf16 = 32 ∨ (Rect.block (s := S768x512) S768x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x512.size a ≤ S768x512.size a
  hwx0_6 : ∀ i : grid0.Coords, EltTy.bits .bf16 = 32 ∨ (Rect.block (s := S768x512) S768x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S512x512.size a
  hwx0_10 : ∀ i : grid0.Coords, EltTy.bits .bf16 = 32 ∨ (Rect.block (s := S512x512) S512x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S512x512.size a
  hwx0_12 : ∀ i : grid0.Coords, EltTy.bits .bf16 = 32 ∨ (Rect.block (s := S512x512) S512x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512.size a ≤ S512.size a
  hwx0_13 : ∀ i : grid0.Coords, EltTy.bits .f32 = 32 ∨ (Rect.block (s := S512) S512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S512x512.size a
  hwx0_14 : ∀ i : grid0.Coords, EltTy.bits .bf16 = 32 ∨ (Rect.block (s := S512x512) S512x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S512x512.size a
  hwx0_16 : ∀ i : grid0.Coords, EltTy.bits .bf16 = 32 ∨ (Rect.block (s := S512x512) S512x512.size (cc0_transform_16 i) (hinb0_16 i)).WholeWords (EltTy.packing .bf16)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x128x512.size a ≤ S8x128x512.size a
  hwx0_18 : ∀ i : grid0.Coords, EltTy.bits .f32 = 32 ∨ (Rect.block (s := S8x128x512) S1x128x512.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x64x512.size a ≤ S8x64x512.size a
  hwx0_19 : ∀ i : grid0.Coords, EltTy.bits .f32 = 32 ∨ (Rect.block (s := S8x64x512) S1x64x512.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1x64x512.size a ≤ S8x64x512.size a
  hwx0_20 : ∀ i : grid0.Coords, EltTy.bits .f32 = 32 ∨ (Rect.block (s := S8x64x512) S1x64x512.size (cc0_transform_20 i) (hinb0_20 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x512.size a ≤ S8x128x512.size a
  hwx1_0 : ∀ i : grid1.Coords, EltTy.bits .f32 = 32 ∨ (Rect.block (s := S8x128x512) S1x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x512.size a ≤ S8x64x512.size a
  hwx1_1 : ∀ i : grid1.Coords, EltTy.bits .f32 = 32 ∨ (Rect.block (s := S8x64x512) S1x64x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x512.size a ≤ S8x64x512.size a
  hwx1_2 : ∀ i : grid1.Coords, EltTy.bits .f32 = 32 ∨ (Rect.block (s := S8x64x512) S1x64x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S512.size a
  hwx1_3 : ∀ i : grid1.Coords, EltTy.bits .f32 = 32 ∨ (Rect.block (s := S512) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x512.size a ≤ S256x512.size a
  hwx1_9 : ∀ i : grid1.Coords, EltTy.bits .bf16 = 32 ∨ (Rect.block (s := S256x512) S256x512.size (cc1_transform_9 i) (hinb1_9 i)).WholeWords (EltTy.packing .bf16)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512.size a ≤ S512.size a
  hwx1_10 : ∀ i : grid1.Coords, EltTy.bits .f32 = 32 ∨ (Rect.block (s := S512) S512.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S512.size a ≤ S512.size a
  hwx1_11 : ∀ i : grid1.Coords, EltTy.bits .f32 = 32 ∨ (Rect.block (s := S512) S512.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S512x1024.size a ≤ S512x1024.size a
  hwx1_12 : ∀ i : grid1.Coords, EltTy.bits .bf16 = 32 ∨ (Rect.block (s := S512x1024) S512x1024.size (cc1_transform_12 i) (hinb1_12 i)).WholeWords (EltTy.packing .bf16)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1024.size a ≤ S1024.size a
  hwx1_13 : ∀ i : grid1.Coords, EltTy.bits .f32 = 32 ∨ (Rect.block (s := S1024) S1024.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1024.size a ≤ S1024.size a
  hwx1_14 : ∀ i : grid1.Coords, EltTy.bits .f32 = 32 ∨ (Rect.block (s := S1024) S1024.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1x16x64x1024.size a ≤ S8x128x64x1024.size a
  hwx1_15 : ∀ i : grid1.Coords, EltTy.bits .f32 = 32 ∨ (Rect.block (s := S8x128x64x1024) S1x16x64x1024.size (cc1_transform_15 i) (hinb1_15 i)).WholeWords (EltTy.packing .f32)

variable [Facts₀]

def dot_S128x768_S768x512_S128x512_1_0_0_1_n_n : DotDims S128x768 S768x512 S128x512 where
  lhsContracting := [1]
  rhsContracting := [0]
  lhsNonContracting := [0]
  rhsNonContracting := [1]
  lhsBatch := []
  rhsBatch := []
  wf := dot_S128x768_S768x512_S128x512_1_0_0_1_n_n_wf
def dot_S64x768_S768x512_S64x512_1_0_0_1_n_n : DotDims S64x768 S768x512 S64x512 where
  lhsContracting := [1]
  rhsContracting := [0]
  lhsNonContracting := [0]
  rhsNonContracting := [1]
  lhsBatch := []
  rhsBatch := []
  wf := dot_S64x768_S768x512_S64x512_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S768x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S512x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S512x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg21) S512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S512x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg11) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S512x512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg23) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v14_0) S1x128x512.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v14_1) S1x64x512.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v14_2) S1x64x512.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

abbrev win1_0 : Pipeline.Window sig grid1 :=
  Pipeline.Window.ofSpec (Memref.whole main_v14_0) S1x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S1x64x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1x64x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg16) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S256x512.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg24) S512.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg25) S512.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v20) S512x1024.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg27) S1024.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg28) S1024.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v21) S1x16x64x1024.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

class Facts : Prop extends Facts₀ where

variable [Facts]
-- ==== ReferenceIdeal.lean ====
abbrev S8x128x768 : Shape := ⟨3, ![8, 128, 768]⟩
abbrev S8x64x768 : Shape := ⟨3, ![8, 64, 768]⟩
abbrev S512x768 : Shape := ⟨2, ![512, 768]⟩
abbrev S512 : Shape := ⟨1, ![512]⟩
abbrev S512x512 : Shape := ⟨2, ![512, 512]⟩
abbrev S256x512 : Shape := ⟨2, ![256, 512]⟩
abbrev S256 : Shape := ⟨1, ![256]⟩
abbrev S1024x512 : Shape := ⟨2, ![1024, 512]⟩
abbrev S1024 : Shape := ⟨1, ![1024]⟩
abbrev S8x128x512 : Shape := ⟨3, ![8, 128, 512]⟩
abbrev S1x1x512 : Shape := ⟨3, ![1, 1, 512]⟩
abbrev S_ : Shape := ⟨0, ![]⟩
abbrev S8x128 : Shape := ⟨2, ![8, 128]⟩
abbrev S8x128x1 : Shape := ⟨3, ![8, 128, 1]⟩
abbrev S8x64x512 : Shape := ⟨3, ![8, 64, 512]⟩
abbrev S8x64 : Shape := ⟨2, ![8, 64]⟩
abbrev S8x64x1 : Shape := ⟨3, ![8, 64, 1]⟩
abbrev S8x128x1x512 : Shape := ⟨4, ![8, 128, 1, 512]⟩
abbrev S8x1x64x512 : Shape := ⟨4, ![8, 1, 64, 512]⟩
abbrev S8x128x64x512 : Shape := ⟨4, ![8, 128, 64, 512]⟩
abbrev S1x1x1x512 : Shape := ⟨4, ![1, 1, 1, 512]⟩
abbrev S8x128x64 : Shape := ⟨3, ![8, 128, 64]⟩
abbrev S8x128x64x1 : Shape := ⟨4, ![8, 128, 64, 1]⟩
abbrev S8x128x64x256 : Shape := ⟨4, ![8, 128, 64, 256]⟩
abbrev S1x1x1x256 : Shape := ⟨4, ![1, 1, 1, 256]⟩
abbrev S8x128x64x768 : Shape := ⟨4, ![8, 128, 64, 768]⟩
abbrev S8x128x64x1024 : Shape := ⟨4, ![8, 128, 64, 1024]⟩
abbrev S1x1x1x1024 : Shape := ⟨4, ![1, 1, 1, 1024]⟩

abbrev nBuf : Space → Nat
  | .hbm => 232
  | .vmem => 0
  | .smem => 0
  | _ => 0

abbrev hbmTy0_0 (i : Nat) : BufTy := match i % 128 with
  | 0 => ⟨S8x128x768, .f32⟩
  | 1 => ⟨S8x64x768, .f32⟩
  | 2 => ⟨S512x768, .f32⟩
  | 3 => ⟨S512, .f32⟩
  | 4 => ⟨S512, .f32⟩
  | 5 => ⟨S512, .f32⟩
  | 6 => ⟨S512x768, .f32⟩
  | 7 => ⟨S512, .f32⟩
  | 8 => ⟨S512, .f32⟩
  | 9 => ⟨S512, .f32⟩
  | 10 => ⟨S512x512, .f32⟩
  | 11 => ⟨S512, .f32⟩
  | 12 => ⟨S512, .f32⟩
  | 13 => ⟨S512, .f32⟩
  | 14 => ⟨S256x512, .f32⟩
  | 15 => ⟨S256, .f32⟩
  | 16 => ⟨S256, .f32⟩
  | 17 => ⟨S256, .f32⟩
  | 18 => ⟨S512x512, .f32⟩
  | 19 => ⟨S512, .f32⟩
  | 20 => ⟨S512x512, .f32⟩
  | 21 => ⟨S512, .f32⟩
  | 22 => ⟨S512x768, .f32⟩
  | 23 => ⟨S512, .f32⟩
  | 24 => ⟨S512, .f32⟩
  | 25 => ⟨S512, .f32⟩
  | 26 => ⟨S1024x512, .f32⟩
  | 27 => ⟨S1024, .f32⟩
  | 28 => ⟨S1024, .f32⟩
  | 29 => ⟨S8x128x512, .f32⟩
  | 30 => ⟨S1x1x512, .f32⟩
  | 31 => ⟨S8x128x512, .f32⟩
  | 32 => ⟨S8x128x512, .f32⟩
  | 33 => ⟨S_, .f32⟩
  | 34 => ⟨S8x128, .f32⟩
  | 35 => ⟨S8x128x1, .f32⟩
  | 36 => ⟨S_, .f32⟩
  | 37 => ⟨S8x128x1, .f32⟩
  | 38 => ⟨S8x128x1, .f32⟩
  | 39 => ⟨S8x128x512, .f32⟩
  | 40 => ⟨S8x128x512, .f32⟩
  | 41 => ⟨S8x128x512, .f32⟩
  | 42 => ⟨S_, .f32⟩
  | 43 => ⟨S8x128, .f32⟩
  | 44 => ⟨S8x128x1, .f32⟩
  | 45 => ⟨S_, .f32⟩
  | 46 => ⟨S8x128x1, .f32⟩
  | 47 => ⟨S8x128x1, .f32⟩
  | 48 => ⟨S8x128x512, .f32⟩
  | 49 => ⟨S8x128x512, .f32⟩
  | 50 => ⟨S_, .f32⟩
  | 51 => ⟨S8x128x1, .f32⟩
  | 52 => ⟨S8x128x1, .f32⟩
  | 53 => ⟨S8x128x1, .f32⟩
  | 54 => ⟨S8x128x512, .f32⟩
  | 55 => ⟨S8x128x512, .f32⟩
  | 56 => ⟨S1x1x512, .f32⟩
  | 57 => ⟨S8x128x512, .f32⟩
  | 58 => ⟨S8x128x512, .f32⟩
  | 59 => ⟨S1x1x512, .f32⟩
  | 60 => ⟨S8x128x512, .f32⟩
  | 61 => ⟨S8x128x512, .f32⟩
  | 62 => ⟨S_, .f32⟩
  | 63 => ⟨S8x128x512, .f32⟩
  | 64 => ⟨S8x128x512, .f32⟩
  | 65 => ⟨S8x64x512, .f32⟩
  | 66 => ⟨S1x1x512, .f32⟩
  | 67 => ⟨S8x64x512, .f32⟩
  | 68 => ⟨S8x64x512, .f32⟩
  | 69 => ⟨S_, .f32⟩
  | 70 => ⟨S8x64, .f32⟩
  | 71 => ⟨S8x64x1, .f32⟩
  | 72 => ⟨S_, .f32⟩
  | 73 => ⟨S8x64x1, .f32⟩
  | 74 => ⟨S8x64x1, .f32⟩
  | 75 => ⟨S8x64x512, .f32⟩
  | 76 => ⟨S8x64x512, .f32⟩
  | 77 => ⟨S8x64x512, .f32⟩
  | 78 => ⟨S_, .f32⟩
  | 79 => ⟨S8x64, .f32⟩
  | 80 => ⟨S8x64x1, .f32⟩
  | 81 => ⟨S_, .f32⟩
  | 82 => ⟨S8x64x1, .f32⟩
  | 83 => ⟨S8x64x1, .f32⟩
  | 84 => ⟨S8x64x512, .f32⟩
  | 85 => ⟨S8x64x512, .f32⟩
  | 86 => ⟨S_, .f32⟩
  | 87 => ⟨S8x64x1, .f32⟩
  | 88 => ⟨S8x64x1, .f32⟩
  | 89 => ⟨S8x64x1, .f32⟩
  | 90 => ⟨S8x64x512, .f32⟩
  | 91 => ⟨S8x64x512, .f32⟩
  | 92 => ⟨S1x1x512, .f32⟩
  | 93 => ⟨S8x64x512, .f32⟩
  | 94 => ⟨S8x64x512, .f32⟩
  | 95 => ⟨S1x1x512, .f32⟩
  | 96 => ⟨S8x64x512, .f32⟩
  | 97 => ⟨S8x64x512, .f32⟩
  | 98 => ⟨S_, .f32⟩
  | 99 => ⟨S8x64x512, .f32⟩
  | 100 => ⟨S8x64x512, .f32⟩
  | 101 => ⟨S8x128x1x512, .f32⟩
  | 102 => ⟨S8x1x64x512, .f32⟩
  | 103 => ⟨S8x128x64x512, .f32⟩
  | 104 => ⟨S8x128x64x512, .f32⟩
  | 105 => ⟨S8x128x64x512, .f32⟩
  | 106 => ⟨S8x128x64x512, .f32⟩
  | 107 => ⟨S1x1x1x512, .f32⟩
  | 108 => ⟨S8x128x64x512, .f32⟩
  | 109 => ⟨S8x128x64x512, .f32⟩
  | 110 => ⟨S_, .f32⟩
  | 111 => ⟨S8x128x64, .f32⟩
  | 112 => ⟨S8x128x64x1, .f32⟩
  | 113 => ⟨S_, .f32⟩
  | 114 => ⟨S8x128x64x1, .f32⟩
  | 115 => ⟨S8x128x64x1, .f32⟩
  | 116 => ⟨S8x128x64x512, .f32⟩
  | 117 => ⟨S8x128x64x512, .f32⟩
  | 118 => ⟨S8x128x64x512, .f32⟩
  | 119 => ⟨S_, .f32⟩
  | 120 => ⟨S8x128x64, .f32⟩
  | 121 => ⟨S8x128x64x1, .f32⟩
  | 122 => ⟨S_, .f32⟩
  | 123 => ⟨S8x128x64x1, .f32⟩
  | 124 => ⟨S8x128x64x1, .f32⟩
  | 125 => ⟨S8x128x64x512, .f32⟩
  | 126 => ⟨S8x128x64x512, .f32⟩
  | 127 => ⟨S_, .f32⟩
  | _ => ⟨S8x128x768, .f32⟩

abbrev hbmTy0_1 (i : Nat) : BufTy := match i % 128 with
  | 0 => ⟨S8x128x64x1, .f32⟩
  | 1 => ⟨S8x128x64x1, .f32⟩
  | 2 => ⟨S8x128x64x1, .f32⟩
  | 3 => ⟨S8x128x64x512, .f32⟩
  | 4 => ⟨S8x128x64x512, .f32⟩
  | 5 => ⟨S1x1x1x512, .f32⟩
  | 6 => ⟨S8x128x64x512, .f32⟩
  | 7 => ⟨S8x128x64x512, .f32⟩
  | 8 => ⟨S1x1x1x512, .f32⟩
  | 9 => ⟨S8x128x64x512, .f32⟩
  | 10 => ⟨S8x128x64x512, .f32⟩
  | 11 => ⟨S_, .f32⟩
  | 12 => ⟨S8x128x64x512, .f32⟩
  | 13 => ⟨S8x128x64x512, .f32⟩
  | 14 => ⟨S8x128x64x256, .f32⟩
  | 15 => ⟨S1x1x1x256, .f32⟩
  | 16 => ⟨S8x128x64x256, .f32⟩
  | 17 => ⟨S8x128x64x256, .f32⟩
  | 18 => ⟨S_, .f32⟩
  | 19 => ⟨S8x128x64, .f32⟩
  | 20 => ⟨S8x128x64x1, .f32⟩
  | 21 => ⟨S_, .f32⟩
  | 22 => ⟨S8x128x64x1, .f32⟩
  | 23 => ⟨S8x128x64x1, .f32⟩
  | 24 => ⟨S8x128x64x256, .f32⟩
  | 25 => ⟨S8x128x64x256, .f32⟩
  | 26 => ⟨S8x128x64x256, .f32⟩
  | 27 => ⟨S_, .f32⟩
  | 28 => ⟨S8x128x64, .f32⟩
  | 29 => ⟨S8x128x64x1, .f32⟩
  | 30 => ⟨S_, .f32⟩
  | 31 => ⟨S8x128x64x1, .f32⟩
  | 32 => ⟨S8x128x64x1, .f32⟩
  | 33 => ⟨S8x128x64x256, .f32⟩
  | 34 => ⟨S8x128x64x256, .f32⟩
  | 35 => ⟨S_, .f32⟩
  | 36 => ⟨S8x128x64x1, .f32⟩
  | 37 => ⟨S8x128x64x1, .f32⟩
  | 38 => ⟨S8x128x64x1, .f32⟩
  | 39 => ⟨S8x128x64x256, .f32⟩
  | 40 => ⟨S8x128x64x256, .f32⟩
  | 41 => ⟨S1x1x1x256, .f32⟩
  | 42 => ⟨S8x128x64x256, .f32⟩
  | 43 => ⟨S8x128x64x256, .f32⟩
  | 44 => ⟨S1x1x1x256, .f32⟩
  | 45 => ⟨S8x128x64x256, .f32⟩
  | 46 => ⟨S8x128x64x256, .f32⟩
  | 47 => ⟨S_, .f32⟩
  | 48 => ⟨S8x128x64x256, .f32⟩
  | 49 => ⟨S8x128x64x256, .f32⟩
  | 50 => ⟨S8x64x512, .f32⟩
  | 51 => ⟨S1x1x512, .f32⟩
  | 52 => ⟨S8x64x512, .f32⟩
  | 53 => ⟨S8x64x512, .f32⟩
  | 54 => ⟨S8x64x512, .f32⟩
  | 55 => ⟨S1x1x512, .f32⟩
  | 56 => ⟨S8x64x512, .f32⟩
  | 57 => ⟨S8x64x512, .f32⟩
  | 58 => ⟨S8x1x64x512, .f32⟩
  | 59 => ⟨S8x128x64x512, .f32⟩
  | 60 => ⟨S8x128x64x768, .f32⟩
  | 61 => ⟨S8x128x64x512, .f32⟩
  | 62 => ⟨S1x1x1x512, .f32⟩
  | 63 => ⟨S8x128x64x512, .f32⟩
  | 64 => ⟨S8x128x64x512, .f32⟩
  | 65 => ⟨S_, .f32⟩
  | 66 => ⟨S8x128x64, .f32⟩
  | 67 => ⟨S8x128x64x1, .f32⟩
  | 68 => ⟨S_, .f32⟩
  | 69 => ⟨S8x128x64x1, .f32⟩
  | 70 => ⟨S8x128x64x1, .f32⟩
  | 71 => ⟨S8x128x64x512, .f32⟩
  | 72 => ⟨S8x128x64x512, .f32⟩
  | 73 => ⟨S8x128x64x512, .f32⟩
  | 74 => ⟨S_, .f32⟩
  | 75 => ⟨S8x128x64, .f32⟩
  | 76 => ⟨S8x128x64x1, .f32⟩
  | 77 => ⟨S_, .f32⟩
  | 78 => ⟨S8x128x64x1, .f32⟩
  | 79 => ⟨S8x128x64x1, .f32⟩
  | 80 => ⟨S8x128x64x512, .f32⟩
  | 81 => ⟨S8x128x64x512, .f32⟩
  | 82 => ⟨S_, .f32⟩
  | 83 => ⟨S8x128x64x1, .f32⟩
  | 84 => ⟨S8x128x64x1, .f32⟩
  | 85 => ⟨S8x128x64x1, .f32⟩
  | 86 => ⟨S8x128x64x512, .f32⟩
  | 87 => ⟨S8x128x64x512, .f32⟩
  | 88 => ⟨S1x1x1x512, .f32⟩
  | 89 => ⟨S8x128x64x512, .f32⟩
  | 90 => ⟨S8x128x64x512, .f32⟩
  | 91 => ⟨S1x1x1x512, .f32⟩
  | 92 => ⟨S8x128x64x512, .f32⟩
  | 93 => ⟨S8x128x64x512, .f32⟩
  | 94 => ⟨S_, .f32⟩
  | 95 => ⟨S8x128x64x512, .f32⟩
  | 96 => ⟨S8x128x64x512, .f32⟩
  | 97 => ⟨S8x128x64x1024, .f32⟩
  | 98 => ⟨S1x1x1x1024, .f32⟩
  | 99 => ⟨S8x128x64x1024, .f32⟩
  | 100 => ⟨S8x128x64x1024, .f32⟩
  | 101 => ⟨S1x1x1x1024, .f32⟩
  | 102 => ⟨S8x128x64x1024, .f32⟩
  | 103 => ⟨S8x128x64x1024, .f32⟩
  | _ => ⟨S8x128x768, .f32⟩

abbrev hbmTy (i : Nat) : BufTy := match i / 128 with
  | 0 => hbmTy0_0 i
  | 1 => hbmTy0_1 i
  | _ => ⟨S8x128x768, .f32⟩

abbrev bufTy : (tb : Table) → Fin (tcTables nBuf tb) → BufTy
  | .hbm, ⟨i, _⟩ => hbmTy i
  | _, _ => ⟨S8x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_cst : Ref sig .tc := ⟨.hbm, 33, rfl⟩
abbrev main_v4 : Ref sig .tc := ⟨.hbm, 34, rfl⟩
abbrev main_v5 : Ref sig .tc := ⟨.hbm, 35, rfl⟩
abbrev main_cst_0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_cst_3 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call0_cst : Ref sig .tc := ⟨.hbm, 62, rfl⟩
abbrev main_call0_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_4 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_8 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call1_cst : Ref sig .tc := ⟨.hbm, 98, rfl⟩
abbrev main_call1_v0 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_9 : Ref sig .tc := ⟨.hbm, 110, rfl⟩
abbrev main_v67 : Ref sig .tc := ⟨.hbm, 111, rfl⟩
abbrev main_v68 : Ref sig .tc := ⟨.hbm, 112, rfl⟩
abbrev main_cst_10 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_cst_11 : Ref sig .tc := ⟨.hbm, 119, rfl⟩
abbrev main_v74 : Ref sig .tc := ⟨.hbm, 120, rfl⟩
abbrev main_v75 : Ref sig .tc := ⟨.hbm, 121, rfl⟩
abbrev main_cst_12 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_cst_13 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_call2_cst : Ref sig .tc := ⟨.hbm, 139, rfl⟩
abbrev main_call2_v0 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_14 : Ref sig .tc := ⟨.hbm, 146, rfl⟩
abbrev main_v96 : Ref sig .tc := ⟨.hbm, 147, rfl⟩
abbrev main_v97 : Ref sig .tc := ⟨.hbm, 148, rfl⟩
abbrev main_cst_15 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_16 : Ref sig .tc := ⟨.hbm, 155, rfl⟩
abbrev main_v103 : Ref sig .tc := ⟨.hbm, 156, rfl⟩
abbrev main_v104 : Ref sig .tc := ⟨.hbm, 157, rfl⟩
abbrev main_cst_17 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_18 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call3_cst : Ref sig .tc := ⟨.hbm, 175, rfl⟩
abbrev main_call3_v0 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_19 : Ref sig .tc := ⟨.hbm, 193, rfl⟩
abbrev main_v136 : Ref sig .tc := ⟨.hbm, 194, rfl⟩
abbrev main_v137 : Ref sig .tc := ⟨.hbm, 195, rfl⟩
abbrev main_cst_20 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_21 : Ref sig .tc := ⟨.hbm, 202, rfl⟩
abbrev main_v143 : Ref sig .tc := ⟨.hbm, 203, rfl⟩
abbrev main_v144 : Ref sig .tc := ⟨.hbm, 204, rfl⟩
abbrev main_cst_22 : Ref sig .tc := ⟨.hbm, 205, rfl⟩
abbrev main_v145 : Ref sig .tc := ⟨.hbm, 206, rfl⟩
abbrev main_v146 : Ref sig .tc := ⟨.hbm, 207, rfl⟩
abbrev main_v147 : Ref sig .tc := ⟨.hbm, 208, rfl⟩
abbrev main_v148 : Ref sig .tc := ⟨.hbm, 209, rfl⟩
abbrev main_cst_23 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_call4_cst : Ref sig .tc := ⟨.hbm, 222, rfl⟩
abbrev main_call4_v0 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x128x512_0_1_2 : S1x1x512.BroadcastsInDim S8x128x512 (![0, 1, 2] : Fin 3 → Fin S8x128x512.rank)
  reducesTo_S8x128x512_S8x128_d2 : S8x128x512.ReducesTo [2] S8x128
  h_S_ : 0 < S_.numel
  bcast_S8x128_S8x128x1_0_1 : S8x128.BroadcastsInDim S8x128x1 (![0, 1] : Fin 2 → Fin S8x128x1.rank)
  bcast_S_S8x128x1 : S_.BroadcastsInDim S8x128x1 (![] : Fin 0 → Fin S8x128x1.rank)
  bcast_S8x128x1_S8x128x512_0_1_2 : S8x128x1.BroadcastsInDim S8x128x512 (![0, 1, 2] : Fin 3 → Fin S8x128x512.rank)
  bcast_S_S8x128x512 : S_.BroadcastsInDim S8x128x512 (![] : Fin 0 → Fin S8x128x512.rank)
  bcast_S1x1x512_S8x64x512_0_1_2 : S1x1x512.BroadcastsInDim S8x64x512 (![0, 1, 2] : Fin 3 → Fin S8x64x512.rank)
  reducesTo_S8x64x512_S8x64_d2 : S8x64x512.ReducesTo [2] S8x64
  bcast_S8x64_S8x64x1_0_1 : S8x64.BroadcastsInDim S8x64x1 (![0, 1] : Fin 2 → Fin S8x64x1.rank)
  bcast_S_S8x64x1 : S_.BroadcastsInDim S8x64x1 (![] : Fin 0 → Fin S8x64x1.rank)
  bcast_S8x64x1_S8x64x512_0_1_2 : S8x64x1.BroadcastsInDim S8x64x512 (![0, 1, 2] : Fin 3 → Fin S8x64x512.rank)
  bcast_S_S8x64x512 : S_.BroadcastsInDim S8x64x512 (![] : Fin 0 → Fin S8x64x512.rank)
  bcast_S8x128x512_S8x128x1x512_0_1_3 : S8x128x512.BroadcastsInDim S8x128x1x512 (![0, 1, 3] : Fin 3 → Fin S8x128x1x512.rank)
  bcast_S8x64x512_S8x1x64x512_0_2_3 : S8x64x512.BroadcastsInDim S8x1x64x512 (![0, 2, 3] : Fin 3 → Fin S8x1x64x512.rank)
  bcast_S8x128x1x512_S8x128x64x512_0_1_2_3 : S8x128x1x512.BroadcastsInDim S8x128x64x512 (![0, 1, 2, 3] : Fin 4 → Fin S8x128x64x512.rank)
  bcast_S8x1x64x512_S8x128x64x512_0_1_2_3 : S8x1x64x512.BroadcastsInDim S8x128x64x512 (![0, 1, 2, 3] : Fin 4 → Fin S8x128x64x512.rank)
  bcast_S512_S1x1x1x512_3 : S512.BroadcastsInDim S1x1x1x512 (![3] : Fin 1 → Fin S1x1x1x512.rank)
  bcast_S1x1x1x512_S8x128x64x512_0_1_2_3 : S1x1x1x512.BroadcastsInDim S8x128x64x512 (![0, 1, 2, 3] : Fin 4 → Fin S8x128x64x512.rank)
  reducesTo_S8x128x64x512_S8x128x64_d3 : S8x128x64x512.ReducesTo [3] S8x128x64
  bcast_S8x128x64_S8x128x64x1_0_1_2 : S8x128x64.BroadcastsInDim S8x128x64x1 (![0, 1, 2] : Fin 3 → Fin S8x128x64x1.rank)
  bcast_S_S8x128x64x1 : S_.BroadcastsInDim S8x128x64x1 (![] : Fin 0 → Fin S8x128x64x1.rank)
  bcast_S8x128x64x1_S8x128x64x512_0_1_2_3 : S8x128x64x1.BroadcastsInDim S8x128x64x512 (![0, 1, 2, 3] : Fin 4 → Fin S8x128x64x512.rank)
  bcast_S_S8x128x64x512 : S_.BroadcastsInDim S8x128x64x512 (![] : Fin 0 → Fin S8x128x64x512.rank)
  bcast_S256_S1x1x1x256_3 : S256.BroadcastsInDim S1x1x1x256 (![3] : Fin 1 → Fin S1x1x1x256.rank)
  bcast_S1x1x1x256_S8x128x64x256_0_1_2_3 : S1x1x1x256.BroadcastsInDim S8x128x64x256 (![0, 1, 2, 3] : Fin 4 → Fin S8x128x64x256.rank)
  reducesTo_S8x128x64x256_S8x128x64_d3 : S8x128x64x256.ReducesTo [3] S8x128x64
  bcast_S8x128x64x1_S8x128x64x256_0_1_2_3 : S8x128x64x1.BroadcastsInDim S8x128x64x256 (![0, 1, 2, 3] : Fin 4 → Fin S8x128x64x256.rank)
  bcast_S_S8x128x64x256 : S_.BroadcastsInDim S8x128x64x256 (![] : Fin 0 → Fin S8x128x64x256.rank)
  concatenates_S8x128x64x256_S8x128x64x512_S8x128x64x768_d3 : Shape.Concatenates [S8x128x64x256, S8x128x64x512] S8x128x64x768 3
  bcast_S1024_S1x1x1x1024_3 : S1024.BroadcastsInDim S1x1x1x1024 (![3] : Fin 1 → Fin S1x1x1x1024.rank)
  bcast_S1x1x1x1024_S8x128x64x1024_0_1_2_3 : S1x1x1x1024.BroadcastsInDim S8x128x64x1024 (![0, 1, 2, 3] : Fin 4 → Fin S8x128x64x1024.rank)
  dot_S8x128x768_S512x768_S8x128x512_2_1_01_0_n_n_wf : DotDims.WF S8x128x768 S512x768 S8x128x512 [2] [1] [0, 1] [0] [] []
  dot_S8x64x768_S512x768_S8x64x512_2_1_01_0_n_n_wf : DotDims.WF S8x64x768 S512x768 S8x64x512 [2] [1] [0, 1] [0] [] []
  dot_S8x128x64x512_S512x512_S8x128x64x512_3_1_012_0_n_n_wf : DotDims.WF S8x128x64x512 S512x512 S8x128x64x512 [3] [1] [0, 1, 2] [0] [] []
  dot_S8x128x64x512_S256x512_S8x128x64x256_3_1_012_0_n_n_wf : DotDims.WF S8x128x64x512 S256x512 S8x128x64x256 [3] [1] [0, 1, 2] [0] [] []
  dot_S8x64x512_S512x512_S8x64x512_2_1_01_0_n_n_wf : DotDims.WF S8x64x512 S512x512 S8x64x512 [2] [1] [0, 1] [0] [] []
  dot_S8x128x64x768_S512x768_S8x128x64x512_3_1_012_0_n_n_wf : DotDims.WF S8x128x64x768 S512x768 S8x128x64x512 [3] [1] [0, 1, 2] [0] [] []
  dot_S8x128x64x512_S1024x512_S8x128x64x1024_3_1_012_0_n_n_wf : DotDims.WF S8x128x64x512 S1024x512 S8x128x64x1024 [3] [1] [0, 1, 2] [0] [] []

variable [Facts₀]

def dot_S8x128x768_S512x768_S8x128x512_2_1_01_0_n_n : DotDims S8x128x768 S512x768 S8x128x512 where
  lhsContracting := [2]
  rhsContracting := [1]
  lhsNonContracting := [0, 1]
  rhsNonContracting := [0]
  lhsBatch := []
  rhsBatch := []
  wf := dot_S8x128x768_S512x768_S8x128x512_2_1_01_0_n_n_wf
def dot_S8x64x768_S512x768_S8x64x512_2_1_01_0_n_n : DotDims S8x64x768 S512x768 S8x64x512 where
  lhsContracting := [2]
  rhsContracting := [1]
  lhsNonContracting := [0, 1]
  rhsNonContracting := [0]
  lhsBatch := []
  rhsBatch := []
  wf := dot_S8x64x768_S512x768_S8x64x512_2_1_01_0_n_n_wf
def dot_S8x128x64x512_S512x512_S8x128x64x512_3_1_012_0_n_n : DotDims S8x128x64x512 S512x512 S8x128x64x512 where
  lhsContracting := [3]
  rhsContracting := [1]
  lhsNonContracting := [0, 1, 2]
  rhsNonContracting := [0]
  lhsBatch := []
  rhsBatch := []
  wf := dot_S8x128x64x512_S512x512_S8x128x64x512_3_1_012_0_n_n_wf
def dot_S8x128x64x512_S256x512_S8x128x64x256_3_1_012_0_n_n : DotDims S8x128x64x512 S256x512 S8x128x64x256 where
  lhsContracting := [3]
  rhsContracting := [1]
  lhsNonContracting := [0, 1, 2]
  rhsNonContracting := [0]
  lhsBatch := []
  rhsBatch := []
  wf := dot_S8x128x64x512_S256x512_S8x128x64x256_3_1_012_0_n_n_wf
def dot_S8x64x512_S512x512_S8x64x512_2_1_01_0_n_n : DotDims S8x64x512 S512x512 S8x64x512 where
  lhsContracting := [2]
  rhsContracting := [1]
  lhsNonContracting := [0, 1]
  rhsNonContracting := [0]
  lhsBatch := []
  rhsBatch := []
  wf := dot_S8x64x512_S512x512_S8x64x512_2_1_01_0_n_n_wf
def dot_S8x128x64x768_S512x768_S8x128x64x512_3_1_012_0_n_n : DotDims S8x128x64x768 S512x768 S8x128x64x512 where
  lhsContracting := [3]
  rhsContracting := [1]
  lhsNonContracting := [0, 1, 2]
  rhsNonContracting := [0]
  lhsBatch := []
  rhsBatch := []
  wf := dot_S8x128x64x768_S512x768_S8x128x64x512_3_1_012_0_n_n_wf
def dot_S8x128x64x512_S1024x512_S8x128x64x1024_3_1_012_0_n_n : DotDims S8x128x64x512 S1024x512 S8x128x64x1024 where
  lhsContracting := [3]
  rhsContracting := [1]
  lhsNonContracting := [0, 1, 2]
  rhsNonContracting := [0]
  lhsBatch := []
  rhsBatch := []
  wf := dot_S8x128x64x512_S1024x512_S8x128x64x1024_3_1_012_0_n_n_wf

class Facts : Prop extends Facts₀ where

variable [Facts]
-- ==== Proof.KRun.lean ====
/-
  The two-stage program's run with its result named.

  @main is four segments: the host operations that transpose and convert the stage-one matrices, stage one over its
  eight grid points, the host operations that transpose and convert the stage-two matrices, stage two over its 8 × 8
  grid points. Every weakly fair execution ends with every buffer the thread state holds at the last segment boundary's
  contents (`Gen.W4`): the arguments as launched and the result at what stage two's write-backs leave.
-/
import proofs.«140755_j31396210934102_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable [hFacts : Cert.KernelIdeal.Facts]
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every buffer the last thread state holds at
    the last boundary's contents. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.RunOut

end
-- ==== Proof.RefKept.lean ====
/-
  No operation of the plain program writes an argument buffer: the fold of its operations leaves every argument as launched.
-/
import proofs.«140755_j31396210934102_2_alg».proof.Proof.RefRunP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the 203 operations write, in order. -/
def written : List (Ref sig .tc) :=
  [main_v0, main_v1, main_v2, main_v3, main_cst, main_v4, main_v5, main_cst_0, main_v6, main_v7, main_v8, main_v9, main_v10, main_cst_1, main_v11, main_v12, main_cst_2, main_v13, main_v14, main_v15, main_v16, main_cst_3, main_v17, main_v18, main_v19, main_v20, main_v21, main_v22, main_v23, main_v24, main_v25, main_v26, main_v27, main_call0_cst, main_call0_v0, main_v28, main_v29, main_v30, main_v31, main_v32, main_cst_4, main_v33, main_v34, main_cst_5, main_v35, main_v36, main_v37, main_v38, main_v39, main_cst_6, main_v40, main_v41, main_cst_7, main_v42, main_v43, main_v44, main_v45, main_cst_8, main_v46, main_v47, main_v48, main_v49, main_v50, main_v51, main_v52, main_v53, main_v54, main_v55, main_v56, main_call1_cst, main_call1_v0, main_v57, main_v58, main_v59, main_v60, main_v61, main_v62, main_v63, main_v64, main_v65, main_v66, main_cst_9, main_v67, main_v68, main_cst_10, main_v69, main_v70, main_v71, main_v72, main_v73, main_cst_11, main_v74, main_v75, main_cst_12, main_v76, main_v77, main_v78, main_v79, main_cst_13, main_v80, main_v81, main_v82, main_v83, main_v84, main_v85, main_v86, main_v87, main_v88, main_v89, main_v90, main_call2_cst, main_call2_v0, main_v91, main_v92, main_v93, main_v94, main_v95, main_cst_14, main_v96, main_v97, main_cst_15, main_v98, main_v99, main_v100, main_v101, main_v102, main_cst_16, main_v103, main_v104, main_cst_17, main_v105, main_v106, main_v107, main_v108, main_cst_18, main_v109, main_v110, main_v111, main_v112, main_v113, main_v114, main_v115, main_v116, main_v117, main_v118, main_v119, main_call3_cst, main_call3_v0, main_v120, main_v121, main_v122, main_v123, main_v124, main_v125, main_v126, main_v127, main_v128, main_v129, main_v130, main_v131, main_v132, main_v133, main_v134, main_v135, main_cst_19, main_v136, main_v137, main_cst_20, main_v138, main_v139, main_v140, main_v141, main_v142, main_cst_21, main_v143, main_v144, main_cst_22, main_v145, main_v146, main_v147, main_v148, main_cst_23, main_v149, main_v150, main_v151, main_v152, main_v153, main_v154, main_v155, main_v156, main_v157, main_v158, main_v159, main_call4_cst, main_call4_v0, main_v160, main_v161, main_v162, main_v163, main_v164, main_v165, main_v166, main_v167]

theorem single_sub {y : Ref sig .tc} (hy : y ∈ written) :
    ({Proc.devRef (τ := τ) .tc y} : Finset (DevRef τ sig)) ⊆ (written.map (Proc.devRef (τ := τ) .tc)).toFinset :=
  Finset.singleton_subset_iff.mpr (List.mem_toFinset.mpr (List.mem_map_of_mem hy))

set_option maxRecDepth 8192 in
/-- Every operation writes only buffers of that list. -/
theorem ops_writes : (Cert.ReferenceIdeal.ValueP.ops (F := F)).Forall fun op => op.writes ⊆ (written.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩

/-- A buffer not in the list keeps its contents through the fold. -/
theorem kept (V : Valuation τ sig (Elt F)) {r : Ref sig .tc} (hr : r ∉ written) :
    after (Cert.ReferenceIdeal.ValueP.ops (F := F)) V (Proc.devRef .tc r) = V (Proc.devRef .tc r) :=
  after_of_writes_sub _ V ops_writes hr

end Cert.ReferenceIdeal.RefRun

end
-- ==== Proof.RefRun.lean ====
/-
  The plain program's run: every weakly fair execution of its 203 host operations terminates with the result buffer at
  the operations' fold over the launch contents and every argument unchanged (no operation writes an argument).
-/
import proofs.«140755_j31396210934102_2_alg».proof.Proof.RefKept

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The run, with the result at the fold and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v167)
        = after (Cert.ReferenceIdeal.ValueP.ops (F := F)) (launchContents m c) (Proc.devRef .tc main_v167)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28) :=
  (θ_run defs _ _).mono (fun _ h c => ⟨h c main_v167,
      (h c main_arg0).trans (kept (launchContents m c) (by decide)),
      (h c main_arg1).trans (kept (launchContents m c) (by decide)),
      (h c main_arg2).trans (kept (launchContents m c) (by decide)),
      (h c main_arg3).trans (kept (launchContents m c) (by decide)),
      (h c main_arg4).trans (kept (launchContents m c) (by decide)),
      (h c main_arg5).trans (kept (launchContents m c) (by decide)),
      (h c main_arg6).trans (kept (launchContents m c) (by decide)),
      (h c main_arg7).trans (kept (launchContents m c) (by decide)),
      (h c main_arg8).trans (kept (launchContents m c) (by decide)),
      (h c main_arg9).trans (kept (launchContents m c) (by decide)),
      (h c main_arg10).trans (kept (launchContents m c) (by decide)),
      (h c main_arg11).trans (kept (launchContents m c) (by decide)),
      (h c main_arg12).trans (kept (launchContents m c) (by decide)),
      (h c main_arg13).trans (kept (launchContents m c) (by decide)),
      (h c main_arg14).trans (kept (launchContents m c) (by decide)),
      (h c main_arg15).trans (kept (launchContents m c) (by decide)),
      (h c main_arg16).trans (kept (launchContents m c) (by decide)),
      (h c main_arg17).trans (kept (launchContents m c) (by decide)),
      (h c main_arg18).trans (kept (launchContents m c) (by decide)),
      (h c main_arg19).trans (kept (launchContents m c) (by decide)),
      (h c main_arg20).trans (kept (launchContents m c) (by decide)),
      (h c main_arg21).trans (kept (launchContents m c) (by decide)),
      (h c main_arg22).trans (kept (launchContents m c) (by decide)),
      (h c main_arg23).trans (kept (launchContents m c) (by decide)),
      (h c main_arg24).trans (kept (launchContents m c) (by decide)),
      (h c main_arg25).trans (kept (launchContents m c) (by decide)),
      (h c main_arg26).trans (kept (launchContents m c) (by decide)),
      (h c main_arg27).trans (kept (launchContents m c) (by decide)),
      (h c main_arg28).trans (kept (launchContents m c) (by decide))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefRun

end
-- ==== Proof.Spec.lean ====
/-
  The joint network, index by index, on the extended reals.

  A row is layer-normalised and clipped at zero (`lnRelu`): with `μ` the row's mean and `σ²` the mean of its squared
  deviations, entry `j` is `max ((x j − μ) · rsqrt(σ² + ε) · g j + b j) 0`; the two divisions by the row length and the
  `rsqrt` are the extended reals' (`Ideal.div`, `Ideal.rsqrt`), the row length and `ε` are the programs' own float words.

  `logits` is the network as the plain program computes it: both inputs projected (`encP`, `decP`), every pair of a
  `t` row and a `u` row added and passed through two normalised linear layers (`fRow`, `fusedRow`), the `u` rows through
  two plain linear layers (`attRow`), the two results joined along the feature axis (`catRow`: 256 + 512 features), one
  more normalised layer over the 768 joined features (`hRow`) and the output layer scaled column by column.

  `kLogits` is the same network as the two-stage program computes it. Stage one (`kEncF`, `kDecF`, `kAttH`) applies the
  first joint layer's matrix to the `t` rows and to the `u` rows SEPARATELY (the bias with the `u` half) and the last 512
  columns of the third layer's matrix, with its bias, to the attention rows; stage two adds a `t` half and a `u` half
  where the plain program multiplies their sum (`kF`), and adds the attention half to the product with the first 256
  columns where the plain program multiplies the joined row (`kH`). All its matrices are read transposed.

  `kLogits_eq_logits`: the two agree. The first step is `(a + c) · w = a · w + c · w` summed over the features — on the
  extended reals this needs `a, c ≥ 0`, and both are clipped at zero —, the second is a sum over 768 = 256 + 512 indices
  split in two. Nothing else is used: no entry need be finite.
-/
import Idealize.ShloMosaic.PureOps.Ideal
import Idealize.ShloMosaic.Lib.ValueIdx

noncomputable section

open scoped BigOperators

namespace Cert.JointNet

open Idealize.ShloMosaic Idealize.ShloMosaic.ValueIdx

/-- The mean of a row: its sum over the row length `n` (an extended real: the program's own float word). -/
def rowMean {N : Nat} (n : EReal) (x : Fin N → EReal) : EReal := Ideal.div (∑ k, x k) n

/-- The mean of a row's squared deviations from its mean. -/
def rowVar {N : Nat} (n : EReal) (x : Fin N → EReal) : EReal :=
  Ideal.div (∑ k, (x k - rowMean n x) * (x k - rowMean n x)) n

/-- Layer normalisation of a row with scale `g` and shift `b`, clipped at zero. -/
def lnRelu {N : Nat} (n ε : EReal) (x g b : Fin N → EReal) (j : Fin N) : EReal :=
  max ((x j - rowMean n x) * Ideal.rsqrt (rowVar n x + ε) * g j + b j) 0

theorem lnRelu_nonneg {N : Nat} (n ε : EReal) (x g b : Fin N → EReal) (j : Fin N) : 0 ≤ lnRelu n ε x g b j :=
  le_max_right _ _

theorem lnRelu_congr {N : Nat} (n ε : EReal) {x x' : Fin N → EReal} (g b : Fin N → EReal) (h : ∀ j, x j = x' j) :
    lnRelu n ε x g b = lnRelu n ε x' g b := by
  have : x = x' := funext h
  rw [this]

/-- 512, 256 and 1e-5 as the programs write them. -/
abbrev n512 : EReal := Ideal.ofBits .f32 0x44000000#32
abbrev n256 : EReal := Ideal.ofBits .f32 0x43800000#32
abbrev eps : EReal := Ideal.ofBits .f32 0x3727C5AC#32

/-! ## The plain program -/

section Plain

variable (enc : FVec Ideal ⟨3, ![8, 128, 768]⟩ .f32) (dec : FVec Ideal ⟨3, ![8, 64, 768]⟩ .f32)
  (We : FVec Ideal ⟨2, ![512, 768]⟩ .f32) (be ge bne : FVec Ideal ⟨1, ![512]⟩ .f32)
  (Wd : FVec Ideal ⟨2, ![512, 768]⟩ .f32) (bd gd bnd : FVec Ideal ⟨1, ![512]⟩ .f32)
  (Wf1 : FVec Ideal ⟨2, ![512, 512]⟩ .f32) (bf1 gf1 bnf1 : FVec Ideal ⟨1, ![512]⟩ .f32)
  (Wf2 : FVec Ideal ⟨2, ![256, 512]⟩ .f32) (bf2 gf2 bnf2 : FVec Ideal ⟨1, ![256]⟩ .f32)
  (Wv : FVec Ideal ⟨2, ![512, 512]⟩ .f32) (bv : FVec Ideal ⟨1, ![512]⟩ .f32)
  (Wo : FVec Ideal ⟨2, ![512, 512]⟩ .f32) (bo : FVec Ideal ⟨1, ![512]⟩ .f32)
  (W1 : FVec Ideal ⟨2, ![512, 768]⟩ .f32) (b1 g1 bn1 : FVec Ideal ⟨1, ![512]⟩ .f32)
  (W2 : FVec Ideal ⟨2, ![1024, 512]⟩ .f32) (b2 ssw : FVec Ideal ⟨1, ![1024]⟩ .f32)

/-- Row `(b, t)` of the first input, projected to 512 features, normalised, clipped. -/
def encP (b : Fin 8) (t : Fin 128) : Fin 512 → EReal :=
  lnRelu n512 eps (fun i => (∑ k : Fin 768, enc (ix3 b t k) * We (ix2 i k)) + be (ix1 i)) (fun i => ge (ix1 i)) (fun i => bne (ix1 i))

/-- Row `(b, u)` of the second input, projected, normalised, clipped. -/
def decP (b : Fin 8) (u : Fin 64) : Fin 512 → EReal :=
  lnRelu n512 eps (fun i => (∑ k : Fin 768, dec (ix3 b u k) * Wd (ix2 i k)) + bd (ix1 i)) (fun i => gd (ix1 i)) (fun i => bnd (ix1 i))

/-- The first joint layer on the SUM of a `t` row and a `u` row. -/
def fRow (b : Fin 8) (t : Fin 128) (u : Fin 64) : Fin 512 → EReal :=
  lnRelu n512 eps (fun o => (∑ i : Fin 512, (encP enc We be ge bne b t i + decP dec Wd bd gd bnd b u i) * Wf1 (ix2 o i)) + bf1 (ix1 o))
    (fun i => gf1 (ix1 i)) (fun i => bnf1 (ix1 i))

/-- The second joint layer, to 256 features. -/
def fusedRow (b : Fin 8) (t : Fin 128) (u : Fin 64) : Fin 256 → EReal :=
  lnRelu n256 eps (fun o => (∑ i : Fin 512, fRow enc dec We be ge bne Wd bd gd bnd Wf1 bf1 gf1 bnf1 b t u i * Wf2 (ix2 o i)) + bf2 (ix1 o))
    (fun i => gf2 (ix1 i)) (fun i => bnf2 (ix1 i))

/-- The value projection of a `u` row. -/
def vRow (b : Fin 8) (u : Fin 64) : Fin 512 → EReal :=
  fun j => (∑ i : Fin 512, decP dec Wd bd gd bnd b u i * Wv (ix2 j i)) + bv (ix1 j)

/-- The attention output of a `u` row (one key: the softmax weight is one). -/
def attRow (b : Fin 8) (u : Fin 64) : Fin 512 → EReal :=
  fun o => (∑ j : Fin 512, vRow dec Wd bd gd bnd Wv bv b u j * Wo (ix2 o j)) + bo (ix1 o)

/-- The 256 fused features followed by the 512 attention features. -/
def catRow (b : Fin 8) (t : Fin 128) (u : Fin 64) : Fin 768 → EReal :=
  fun k => if h : k.val < 256 then fusedRow enc dec We be ge bne Wd bd gd bnd Wf1 bf1 gf1 bnf1 Wf2 bf2 gf2 bnf2 b t u ⟨k.val, h⟩
    else attRow dec Wd bd gd bnd Wv bv Wo bo b u ⟨k.val - 256, by omega⟩

/-- The third normalised layer, over the 768 joined features. -/
def hRow (b : Fin 8) (t : Fin 128) (u : Fin 64) : Fin 512 → EReal :=
  lnRelu n512 eps (fun o => (∑ k : Fin 768, catRow enc dec We be ge bne Wd bd gd bnd Wf1 bf1 gf1 bnf1 Wf2 bf2 gf2 bnf2 Wv bv Wo bo b t u k * W1 (ix2 o k)) + b1 (ix1 o))
    (fun i => g1 (ix1 i)) (fun i => bn1 (ix1 i))

/-- The plain program's result. -/
def logits : FVec Ideal ⟨4, ![8, 128, 64, 1024]⟩ .f32 :=
  fun j => ((∑ i : Fin 512, hRow enc dec We be ge bne Wd bd gd bnd Wf1 bf1 gf1 bnf1 Wf2 bf2 gf2 bnf2 Wv bv Wo bo W1 b1 g1 bn1 (j 0) (j 1) (j 2) i * W2 (ix2 (j 3) i))
    + b2 (ix1 (j 3))) * ssw (ix1 (j 3))

end Plain

/-! ## The two-stage program (matrices transposed) -/

section Staged

variable (enc : FVec Ideal ⟨3, ![8, 128, 768]⟩ .f32) (dec : FVec Ideal ⟨3, ![8, 64, 768]⟩ .f32)
  (WeT : FVec Ideal ⟨2, ![768, 512]⟩ .bf16) (be ge bne : FVec Ideal ⟨1, ![512]⟩ .f32)
  (WdT : FVec Ideal ⟨2, ![768, 512]⟩ .bf16) (bd gd bnd : FVec Ideal ⟨1, ![512]⟩ .f32)
  (WvT : FVec Ideal ⟨2, ![512, 512]⟩ .bf16) (bv : FVec Ideal ⟨1, ![512]⟩ .f32)
  (WoT : FVec Ideal ⟨2, ![512, 512]⟩ .bf16) (bo : FVec Ideal ⟨1, ![512]⟩ .f32)
  (Wf1T : FVec Ideal ⟨2, ![512, 512]⟩ .bf16) (bf1 : FVec Ideal ⟨1, ![512]⟩ .f32)
  (W1bT : FVec Ideal ⟨2, ![512, 512]⟩ .bf16) (b1 : FVec Ideal ⟨1, ![512]⟩ .f32)

/-- Stage one's projection of a `t` row. -/
def kEncP (b : Fin 8) (t : Fin 128) : Fin 512 → EReal :=
  lnRelu n512 eps (fun i => (∑ k : Fin 768, enc (ix3 b t k) * WeT (ix2 k i)) + be (ix1 i)) (fun i => ge (ix1 i)) (fun i => bne (ix1 i))

/-- Stage one's projection of a `u` row. -/
def kDecP (b : Fin 8) (u : Fin 64) : Fin 512 → EReal :=
  lnRelu n512 eps (fun i => (∑ k : Fin 768, dec (ix3 b u k) * WdT (ix2 k i)) + bd (ix1 i)) (fun i => gd (ix1 i)) (fun i => bnd (ix1 i))

/-- The first joint layer's matrix on the `t` rows alone: stage one's first result array. -/
def kEncF : FVec Ideal ⟨3, ![8, 128, 512]⟩ .f32 :=
  fun j => ∑ i : Fin 512, kEncP enc WeT be ge bne (j 0) (j 1) i * Wf1T (ix2 i (j 2))

/-- The same matrix on the `u` rows, with the layer's bias: stage one's second result array. -/
def kDecF : FVec Ideal ⟨3, ![8, 64, 512]⟩ .f32 :=
  fun j => (∑ i : Fin 512, kDecP dec WdT bd gd bnd (j 0) (j 1) i * Wf1T (ix2 i (j 2))) + bf1 (ix1 (j 2))

/-- Stage one's value projection and attention output of a `u` row. -/
def kVRow (b : Fin 8) (u : Fin 64) : Fin 512 → EReal :=
  fun j => (∑ i : Fin 512, kDecP dec WdT bd gd bnd b u i * WvT (ix2 i j)) + bv (ix1 j)
def kAttRow (b : Fin 8) (u : Fin 64) : Fin 512 → EReal :=
  fun o => (∑ j : Fin 512, kVRow dec WdT bd gd bnd WvT bv b u j * WoT (ix2 j o)) + bo (ix1 o)

/-- The attention rows through the last 512 columns of the third layer's matrix, with that layer's bias: stage one's
    third result array. -/
def kAttH : FVec Ideal ⟨3, ![8, 64, 512]⟩ .f32 :=
  fun j => (∑ k : Fin 512, kAttRow dec WdT bd gd bnd WvT bv WoT bo (j 0) (j 1) k * W1bT (ix2 k (j 2))) + b1 (ix1 (j 2))

variable (ef : FVec Ideal ⟨3, ![8, 128, 512]⟩ .f32) (df ah : FVec Ideal ⟨3, ![8, 64, 512]⟩ .f32)
  (gf1 bnf1 : FVec Ideal ⟨1, ![512]⟩ .f32)
  (Wf2T : FVec Ideal ⟨2, ![512, 256]⟩ .bf16) (bf2 gf2 bnf2 : FVec Ideal ⟨1, ![256]⟩ .f32)
  (W1aT : FVec Ideal ⟨2, ![256, 512]⟩ .bf16) (g1 bn1 : FVec Ideal ⟨1, ![512]⟩ .f32)
  (W2T : FVec Ideal ⟨2, ![512, 1024]⟩ .bf16) (b2 ssw : FVec Ideal ⟨1, ![1024]⟩ .f32)

/-- Stage two's first layer: the `t` half plus the `u` half, normalised, clipped. -/
def kF (b : Fin 8) (t : Fin 128) (u : Fin 64) : Fin 512 → EReal :=
  lnRelu n512 eps (fun o => ef (ix3 b t o) + df (ix3 b u o)) (fun i => gf1 (ix1 i)) (fun i => bnf1 (ix1 i))

/-- Stage two's second layer. -/
def kFused (b : Fin 8) (t : Fin 128) (u : Fin 64) : Fin 256 → EReal :=
  lnRelu n256 eps (fun o => (∑ i : Fin 512, kF ef df gf1 bnf1 b t u i * Wf2T (ix2 i o)) + bf2 (ix1 o)) (fun i => gf2 (ix1 i)) (fun i => bnf2 (ix1 i))

/-- Stage two's third layer: the product with the first 256 columns plus the attention half. -/
def kH (b : Fin 8) (t : Fin 128) (u : Fin 64) : Fin 512 → EReal :=
  lnRelu n512 eps (fun o => (∑ k : Fin 256, kFused ef df gf1 bnf1 Wf2T bf2 gf2 bnf2 b t u k * W1aT (ix2 k o)) + ah (ix3 b u o))
    (fun i => g1 (ix1 i)) (fun i => bn1 (ix1 i))

/-- The two-stage program's result, of stage one's three arrays. -/
def kLogits : FVec Ideal ⟨4, ![8, 128, 64, 1024]⟩ .f32 :=
  fun j => ((∑ i : Fin 512, kH ef df ah gf1 bnf1 Wf2T bf2 gf2 bnf2 W1aT g1 bn1 (j 0) (j 1) (j 2) i * W2T (ix2 i (j 3)))
    + b2 (ix1 (j 3))) * ssw (ix1 (j 3))

end Staged

end Cert.JointNet

end
-- ==== Proof.Algebra.lean ====
/-
  The two-stage network is the plain network.

  Stage one applies the first joint layer's matrix to a `t` row and to a `u` row separately and stage two adds the two
  products, where the plain program multiplies the sum of the rows: `Σ (a i + c i) · w i = Σ a i · w i + Σ c i · w i`. On the
  extended reals `(a + c) · w = a · w + c · w` can fail (`a = ⊤`, `c = ⊥`), but it holds when `0 ≤ a` and `0 ≤ c`, and every
  entry of both rows is a maximum with zero. The third layer multiplies a row of 768 = 256 + 512 joined features; stage two
  multiplies the first 256 and adds the product of the last 512, which stage one has computed with the bias: a sum over
  `Fin (256 + 512)` split in two, and associativity of the sum. The transposed matrices are read back entry by entry.
-/
import proofs.«140755_j31396210934102_2_alg».proof.Proof.Spec

noncomputable section

open scoped BigOperators

namespace Cert.JointNet

open Idealize.ShloMosaic Idealize.ShloMosaic.ValueIdx

/-- A dot product with a sum of two rows of nonnegative entries is the sum of the two dot products. -/
theorem dot_add_of_nonneg {K : ℕ} (a c w : Fin K → EReal) (ha : ∀ i, 0 ≤ a i) (hc : ∀ i, 0 ≤ c i) :
    ∑ i, (a i + c i) * w i = (∑ i, a i * w i) + ∑ i, c i * w i := by
  rw [← Finset.sum_add_distrib]
  exact Finset.sum_congr rfl fun i _ => EReal.right_distrib_of_nonneg (ha i) (hc i)

/-- A sum over 768 joined features is the sum over the first 256 plus the sum over the last 512. -/
theorem sum_768_split (f : Fin 768 → EReal) :
    ∑ k : Fin 768, f k = (∑ k : Fin 256, f ⟨k.val, by omega⟩) + ∑ k : Fin 512, f ⟨256 + k.val, by omega⟩ := by
  have h := Fin.sum_univ_add (a := 256) (b := 512) (f := (f : Fin (256 + 512) → EReal))
  exact h

section
variable (enc : FVec Ideal ⟨3, ![8, 128, 768]⟩ .f32) (dec : FVec Ideal ⟨3, ![8, 64, 768]⟩ .f32)
  (We : FVec Ideal ⟨2, ![512, 768]⟩ .f32) (be ge bne : FVec Ideal ⟨1, ![512]⟩ .f32)
  (Wd : FVec Ideal ⟨2, ![512, 768]⟩ .f32) (bd gd bnd : FVec Ideal ⟨1, ![512]⟩ .f32)
  (Wf1 : FVec Ideal ⟨2, ![512, 512]⟩ .f32) (bf1 gf1 bnf1 : FVec Ideal ⟨1, ![512]⟩ .f32)
  (Wf2 : FVec Ideal ⟨2, ![256, 512]⟩ .f32) (bf2 gf2 bnf2 : FVec Ideal ⟨1, ![256]⟩ .f32)
  (Wv : FVec Ideal ⟨2, ![512, 512]⟩ .f32) (bv : FVec Ideal ⟨1, ![512]⟩ .f32)
  (Wo : FVec Ideal ⟨2, ![512, 512]⟩ .f32) (bo : FVec Ideal ⟨1, ![512]⟩ .f32)
  (W1 : FVec Ideal ⟨2, ![512, 768]⟩ .f32) (b1 g1 bn1 : FVec Ideal ⟨1, ![512]⟩ .f32)
  (W2 : FVec Ideal ⟨2, ![1024, 512]⟩ .f32) (b2 ssw : FVec Ideal ⟨1, ![1024]⟩ .f32)
  (WeT WdT : FVec Ideal ⟨2, ![768, 512]⟩ .bf16) (WvT WoT Wf1T W1bT : FVec Ideal ⟨2, ![512, 512]⟩ .bf16)
  (Wf2T : FVec Ideal ⟨2, ![512, 256]⟩ .bf16) (W1aT : FVec Ideal ⟨2, ![256, 512]⟩ .bf16)
  (W2T : FVec Ideal ⟨2, ![512, 1024]⟩ .bf16)

/-- The two-stage network on transposed matrices is the plain network. -/
theorem kLogits_eq_logits
    (hWe : ∀ (k : Fin 768) (i : Fin 512), WeT (ix2 k i) = We (ix2 i k))
    (hWd : ∀ (k : Fin 768) (i : Fin 512), WdT (ix2 k i) = Wd (ix2 i k))
    (hWv : ∀ (i j : Fin 512), WvT (ix2 i j) = Wv (ix2 j i))
    (hWo : ∀ (j o : Fin 512), WoT (ix2 j o) = Wo (ix2 o j))
    (hWf1 : ∀ (i o : Fin 512), Wf1T (ix2 i o) = Wf1 (ix2 o i))
    (hW1b : ∀ (k o : Fin 512), W1bT (ix2 k o) = W1 (ix2 o (⟨256 + k.val, by omega⟩ : Fin 768)))
    (hWf2 : ∀ (i : Fin 512) (o : Fin 256), Wf2T (ix2 i o) = Wf2 (ix2 o i))
    (hW1a : ∀ (k : Fin 256) (o : Fin 512), W1aT (ix2 k o) = W1 (ix2 o (⟨k.val, by omega⟩ : Fin 768)))
    (hW2 : ∀ (i : Fin 512) (v : Fin 1024), W2T (ix2 i v) = W2 (ix2 v i)) :
    kLogits (kEncF enc WeT be ge bne Wf1T) (kDecF dec WdT bd gd bnd Wf1T bf1)
        (kAttH dec WdT bd gd bnd WvT bv WoT bo W1bT b1) gf1 bnf1 Wf2T bf2 gf2 bnf2 W1aT g1 bn1 W2T b2 ssw
      = logits enc dec We be ge bne Wd bd gd bnd Wf1 bf1 gf1 bnf1 Wf2 bf2 gf2 bnf2 Wv bv Wo bo W1 b1 g1 bn1 W2 b2 ssw := by
  have hEncP : ∀ b t, kEncP enc WeT be ge bne b t = encP enc We be ge bne b t := fun b t => by
    unfold kEncP encP; simp only [hWe]
  have hDecP : ∀ b u, kDecP dec WdT bd gd bnd b u = decP dec Wd bd gd bnd b u := fun b u => by
    unfold kDecP decP; simp only [hWd]
  have hF : ∀ b t u, kF (kEncF enc WeT be ge bne Wf1T) (kDecF dec WdT bd gd bnd Wf1T bf1) gf1 bnf1 b t u
      = fRow enc dec We be ge bne Wd bd gd bnd Wf1 bf1 gf1 bnf1 b t u := fun b t u => by
    unfold kF fRow
    refine lnRelu_congr _ _ _ _ fun o => ?_
    show (∑ i : Fin 512, kEncP enc WeT be ge bne b t i * Wf1T (ix2 i o))
        + ((∑ i : Fin 512, kDecP dec WdT bd gd bnd b u i * Wf1T (ix2 i o)) + bf1 (ix1 o)) = _
    rw [hEncP, hDecP, ← add_assoc,
      ← dot_add_of_nonneg (encP enc We be ge bne b t) (decP dec Wd bd gd bnd b u) (fun i => Wf1T (ix2 i o))
        (fun i => lnRelu_nonneg _ _ _ _ _ i) (fun i => lnRelu_nonneg _ _ _ _ _ i)]
    simp only [hWf1]
  have hFused : ∀ b t u, kFused (kEncF enc WeT be ge bne Wf1T) (kDecF dec WdT bd gd bnd Wf1T bf1) gf1 bnf1 Wf2T bf2 gf2 bnf2 b t u
      = fusedRow enc dec We be ge bne Wd bd gd bnd Wf1 bf1 gf1 bnf1 Wf2 bf2 gf2 bnf2 b t u := fun b t u => by
    unfold kFused fusedRow; simp only [hF, hWf2]
  have hAtt : ∀ b u, kAttRow dec WdT bd gd bnd WvT bv WoT bo b u = attRow dec Wd bd gd bnd Wv bv Wo bo b u := fun b u => by
    unfold kAttRow kVRow attRow vRow; simp only [hDecP, hWv, hWo]
  have hH : ∀ b t u, kH (kEncF enc WeT be ge bne Wf1T) (kDecF dec WdT bd gd bnd Wf1T bf1)
        (kAttH dec WdT bd gd bnd WvT bv WoT bo W1bT b1) gf1 bnf1 Wf2T bf2 gf2 bnf2 W1aT g1 bn1 b t u
      = hRow enc dec We be ge bne Wd bd gd bnd Wf1 bf1 gf1 bnf1 Wf2 bf2 gf2 bnf2 Wv bv Wo bo W1 b1 g1 bn1 b t u := fun b t u => by
    unfold kH hRow
    refine lnRelu_congr _ _ _ _ fun o => ?_
    show (∑ k : Fin 256, kFused (kEncF enc WeT be ge bne Wf1T) (kDecF dec WdT bd gd bnd Wf1T bf1) gf1 bnf1 Wf2T bf2 gf2 bnf2 b t u k * W1aT (ix2 k o))
        + ((∑ k : Fin 512, kAttRow dec WdT bd gd bnd WvT bv WoT bo b u k * W1bT (ix2 k o)) + b1 (ix1 o)) = _
    rw [sum_768_split, ← add_assoc, hFused, hAtt]
    refine congrArg (· + b1 (ix1 o)) (congrArg₂ (· + ·) (Finset.sum_congr rfl fun k _ => ?_) (Finset.sum_congr rfl fun k _ => ?_))
    · rw [hW1a]
      unfold catRow
      rw [dif_pos (show (⟨k.val, by omega⟩ : Fin 768).val < 256 from k.isLt)]
    · rw [hW1b]
      unfold catRow
      rw [dif_neg (show ¬ (⟨256 + k.val, by omega⟩ : Fin 768).val < 256 from by simp)]
      refine congrArg (fun z => attRow dec Wd bd gd bnd Wv bv Wo bo b u z * _) (Fin.ext ?_)
      show k.val = 256 + k.val - 256
      omega
  funext j
  obtain ⟨b, t, u, v, rfl⟩ : ∃ (b : Fin 8) (t : Fin 128) (u : Fin 64) (v : Fin 1024), j = ix4 b t u v :=
    ⟨j 0, j 1, j 2, j 3, eq_ix4 j⟩
  show ((∑ i : Fin 512, kH (kEncF enc WeT be ge bne Wf1T) (kDecF dec WdT bd gd bnd Wf1T bf1)
        (kAttH dec WdT bd gd bnd WvT bv WoT bo W1bT b1) gf1 bnf1 Wf2T bf2 gf2 bnf2 W1aT g1 bn1 b t u i * W2T (ix2 i v))
      + b2 (ix1 v)) * ssw (ix1 v)
    = ((∑ i : Fin 512, hRow enc dec We be ge bne Wd bd gd bnd Wf1 bf1 gf1 bnf1 Wf2 bf2 gf2 bnf2 Wv bv Wo bo W1 b1 g1 bn1 b t u i
        * W2 (ix2 v i)) + b2 (ix1 v)) * ssw (ix1 v)
  rw [hH]
  simp only [hW2]

end

end Cert.JointNet

end
-- ==== Proof.KHost.lean ====
/-
  What the two stages find in their matrix and vector buffers.

  Before stage one the host transposes five matrices (and the last 512 columns of a sixth, cut out first) and changes their
  format — the identity on the extended reals —; before stage two it does the same with three more, one of them the first
  256 columns of the sixth matrix, cut out before stage one. So a matrix buffer at `(k, i)` is the argument at `(i, k)`
  (shifted by 256 columns for the cut), a vector buffer is the argument itself, and stage two's three data arrays are what
  stage one's write-backs left.
-/
import proofs.«140755_j31396210934102_2_alg».proof.Proof.Gen.KernelIdeal.Frame
import Idealize.ShloMosaic.Lib.ValueIdx
import Idealize.ShloMosaic.Lib.ValueLayout
import Idealize.ShloMosaic.Lib.StableHlo.Run

set_option maxRecDepth 16384

noncomputable section

namespace Cert.KernelIdeal.HostArrays

open Cert.KernelIdeal Cert.KernelIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg)

/-! ## Stage one's buffers -/

theorem V1_main_arg0 (c : Dev nD) : V1 (F := Ideal) m ρ c main_arg0 = m ((c : Thread nD τ).loc main_arg0) := by
  dsimp only [V1, W1, hostOps0]; after_results <;> rfl

theorem V1_main_arg1 (c : Dev nD) : V1 (F := Ideal) m ρ c main_arg1 = m ((c : Thread nD τ).loc main_arg1) := by
  dsimp only [V1, W1, hostOps0]; after_results <;> rfl

theorem V1_main_arg3 (c : Dev nD) : V1 (F := Ideal) m ρ c main_arg3 = m ((c : Thread nD τ).loc main_arg3) := by
  dsimp only [V1, W1, hostOps0]; after_results <;> rfl

theorem V1_main_arg4 (c : Dev nD) : V1 (F := Ideal) m ρ c main_arg4 = m ((c : Thread nD τ).loc main_arg4) := by
  dsimp only [V1, W1, hostOps0]; after_results <;> rfl

theorem V1_main_arg5 (c : Dev nD) : V1 (F := Ideal) m ρ c main_arg5 = m ((c : Thread nD τ).loc main_arg5) := by
  dsimp only [V1, W1, hostOps0]; after_results <;> rfl

theorem V1_main_arg7 (c : Dev nD) : V1 (F := Ideal) m ρ c main_arg7 = m ((c : Thread nD τ).loc main_arg7) := by
  dsimp only [V1, W1, hostOps0]; after_results <;> rfl

theorem V1_main_arg8 (c : Dev nD) : V1 (F := Ideal) m ρ c main_arg8 = m ((c : Thread nD τ).loc main_arg8) := by
  dsimp only [V1, W1, hostOps0]; after_results <;> rfl

theorem V1_main_arg9 (c : Dev nD) : V1 (F := Ideal) m ρ c main_arg9 = m ((c : Thread nD τ).loc main_arg9) := by
  dsimp only [V1, W1, hostOps0]; after_results <;> rfl

theorem V1_main_arg11 (c : Dev nD) : V1 (F := Ideal) m ρ c main_arg11 = m ((c : Thread nD τ).loc main_arg11) := by
  dsimp only [V1, W1, hostOps0]; after_results <;> rfl

theorem V1_main_arg19 (c : Dev nD) : V1 (F := Ideal) m ρ c main_arg19 = m ((c : Thread nD τ).loc main_arg19) := by
  dsimp only [V1, W1, hostOps0]; after_results <;> rfl

theorem V1_main_arg21 (c : Dev nD) : V1 (F := Ideal) m ρ c main_arg21 = m ((c : Thread nD τ).loc main_arg21) := by
  dsimp only [V1, W1, hostOps0]; after_results <;> rfl

theorem V1_main_arg23 (c : Dev nD) : V1 (F := Ideal) m ρ c main_arg23 = m ((c : Thread nD τ).loc main_arg23) := by
  dsimp only [V1, W1, hostOps0]; after_results <;> rfl

theorem V1_main_arg12 (c : Dev nD) : V1 (F := Ideal) m ρ c main_arg12 = m ((c : Thread nD τ).loc main_arg12) := by
  dsimp only [V1, W1, hostOps0]; after_results <;> rfl

theorem V1_main_arg13 (c : Dev nD) : V1 (F := Ideal) m ρ c main_arg13 = m ((c : Thread nD τ).loc main_arg13) := by
  dsimp only [V1, W1, hostOps0]; after_results <;> rfl

theorem V1_main_arg14 (c : Dev nD) : V1 (F := Ideal) m ρ c main_arg14 = m ((c : Thread nD τ).loc main_arg14) := by
  dsimp only [V1, W1, hostOps0]; after_results <;> rfl

theorem V1_main_arg15 (c : Dev nD) : V1 (F := Ideal) m ρ c main_arg15 = m ((c : Thread nD τ).loc main_arg15) := by
  dsimp only [V1, W1, hostOps0]; after_results <;> rfl

theorem V1_main_arg16 (c : Dev nD) : V1 (F := Ideal) m ρ c main_arg16 = m ((c : Thread nD τ).loc main_arg16) := by
  dsimp only [V1, W1, hostOps0]; after_results <;> rfl

theorem V1_main_arg17 (c : Dev nD) : V1 (F := Ideal) m ρ c main_arg17 = m ((c : Thread nD τ).loc main_arg17) := by
  dsimp only [V1, W1, hostOps0]; after_results <;> rfl

theorem V1_main_arg24 (c : Dev nD) : V1 (F := Ideal) m ρ c main_arg24 = m ((c : Thread nD τ).loc main_arg24) := by
  dsimp only [V1, W1, hostOps0]; after_results <;> rfl

theorem V1_main_arg25 (c : Dev nD) : V1 (F := Ideal) m ρ c main_arg25 = m ((c : Thread nD τ).loc main_arg25) := by
  dsimp only [V1, W1, hostOps0]; after_results <;> rfl

theorem V1_main_arg26 (c : Dev nD) : V1 (F := Ideal) m ρ c main_arg26 = m ((c : Thread nD τ).loc main_arg26) := by
  dsimp only [V1, W1, hostOps0]; after_results <;> rfl

theorem V1_main_arg27 (c : Dev nD) : V1 (F := Ideal) m ρ c main_arg27 = m ((c : Thread nD τ).loc main_arg27) := by
  dsimp only [V1, W1, hostOps0]; after_results <;> rfl

theorem V1_main_arg28 (c : Dev nD) : V1 (F := Ideal) m ρ c main_arg28 = m ((c : Thread nD τ).loc main_arg28) := by
  dsimp only [V1, W1, hostOps0]; after_results <;> rfl

/-- The transposed matrix `main_v1` at `(k, i)` is argument `main_arg2` at `(i, k)`. -/
theorem V1_v1 (c : Dev nD) (k : Fin 768) (i : Fin 512) :
    (V1 (F := Ideal) m ρ c main_v1 : S768x512.Idx → EReal) (ix2 k i) = (m ((c : Thread nD τ).loc main_arg2) : S512x768.Idx → EReal) (ix2 i k) := by
  dsimp only [V1, W1, hostOps0]
  after_results
  exact transpose_ix2_apply _ _ k i

/-- The transposed matrix `main_v3` at `(k, i)` is argument `main_arg6` at `(i, k)`. -/
theorem V1_v3 (c : Dev nD) (k : Fin 768) (i : Fin 512) :
    (V1 (F := Ideal) m ρ c main_v3 : S768x512.Idx → EReal) (ix2 k i) = (m ((c : Thread nD τ).loc main_arg6) : S512x768.Idx → EReal) (ix2 i k) := by
  dsimp only [V1, W1, hostOps0]
  after_results
  exact transpose_ix2_apply _ _ k i

/-- The transposed matrix `main_v5` at `(k, i)` is argument `main_arg18` at `(i, k)`. -/
theorem V1_v5 (c : Dev nD) (k : Fin 512) (i : Fin 512) :
    (V1 (F := Ideal) m ρ c main_v5 : S512x512.Idx → EReal) (ix2 k i) = (m ((c : Thread nD τ).loc main_arg18) : S512x512.Idx → EReal) (ix2 i k) := by
  dsimp only [V1, W1, hostOps0]
  after_results
  exact transpose_ix2_apply _ _ k i

/-- The transposed matrix `main_v7` at `(k, i)` is argument `main_arg20` at `(i, k)`. -/
theorem V1_v7 (c : Dev nD) (k : Fin 512) (i : Fin 512) :
    (V1 (F := Ideal) m ρ c main_v7 : S512x512.Idx → EReal) (ix2 k i) = (m ((c : Thread nD τ).loc main_arg20) : S512x512.Idx → EReal) (ix2 i k) := by
  dsimp only [V1, W1, hostOps0]
  after_results
  exact transpose_ix2_apply _ _ k i

/-- The transposed matrix `main_v9` at `(k, i)` is argument `main_arg10` at `(i, k)`. -/
theorem V1_v9 (c : Dev nD) (k : Fin 512) (i : Fin 512) :
    (V1 (F := Ideal) m ρ c main_v9 : S512x512.Idx → EReal) (ix2 k i) = (m ((c : Thread nD τ).loc main_arg10) : S512x512.Idx → EReal) (ix2 i k) := by
  dsimp only [V1, W1, hostOps0]
  after_results
  exact transpose_ix2_apply _ _ k i

/-- The last 512 columns of argument `main_arg22`, transposed: at `(k, o)` the argument at `(o, 256 + k)`. -/
theorem V1_v13 (c : Dev nD) (k o : Fin 512) :
    (V1 (F := Ideal) m ρ c main_v13 : S512x512.Idx → EReal) (ix2 k o)
      = (m ((c : Thread nD τ).loc main_arg22) : S512x768.Idx → EReal) (ix2 o (⟨256 + k.val, by omega⟩ : Fin 768)) := by
  dsimp only [V1, W1, hostOps0]
  after_results
  refine (truncf_apply (φ := .f32) (ψ := .bf16) _ _ _).trans ?_
  refine (transpose_ix2_apply _ _ k o).trans ?_
  exact slice2_axis1_apply 256 _ _ o k ⟨256 + k.val, by omega⟩ rfl

/-- The first 256 columns of argument `main_arg22`, cut out before stage one. -/
theorem V1_v10 (c : Dev nD) (o : Fin 512) (k : Fin 256) :
    (V1 (F := Ideal) m ρ c main_v10 : S512x256.Idx → EReal) (ix2 o k)
      = (m ((c : Thread nD τ).loc main_arg22) : S512x768.Idx → EReal) (ix2 o (⟨k.val, by omega⟩ : Fin 768)) := by
  dsimp only [V1, W1, hostOps0]
  after_results
  exact slice2_axis1_apply 0 _ _ o k ⟨k.val, by omega⟩ (Nat.zero_add _).symm

/-! ## Stage two's buffers -/

theorem V3_main_arg12 (c : Dev nD) : V3 (F := Ideal) m ρ c main_arg12 = m ((c : Thread nD τ).loc main_arg12) := by
  have e : V3 (F := Ideal) m ρ c main_arg12 = W2 m ρ c (Proc.devRef .tc main_arg12) := by
    dsimp only [V3, W3, hostOps1]; after_results <;> rfl
  rw [e, W2_of_ne m ρ c main_arg12 (by decide)]
  exact V1_main_arg12 m ρ c

theorem V3_main_arg13 (c : Dev nD) : V3 (F := Ideal) m ρ c main_arg13 = m ((c : Thread nD τ).loc main_arg13) := by
  have e : V3 (F := Ideal) m ρ c main_arg13 = W2 m ρ c (Proc.devRef .tc main_arg13) := by
    dsimp only [V3, W3, hostOps1]; after_results <;> rfl
  rw [e, W2_of_ne m ρ c main_arg13 (by decide)]
  exact V1_main_arg13 m ρ c

theorem V3_main_arg15 (c : Dev nD) : V3 (F := Ideal) m ρ c main_arg15 = m ((c : Thread nD τ).loc main_arg15) := by
  have e : V3 (F := Ideal) m ρ c main_arg15 = W2 m ρ c (Proc.devRef .tc main_arg15) := by
    dsimp only [V3, W3, hostOps1]; after_results <;> rfl
  rw [e, W2_of_ne m ρ c main_arg15 (by decide)]
  exact V1_main_arg15 m ρ c

theorem V3_main_arg16 (c : Dev nD) : V3 (F := Ideal) m ρ c main_arg16 = m ((c : Thread nD τ).loc main_arg16) := by
  have e : V3 (F := Ideal) m ρ c main_arg16 = W2 m ρ c (Proc.devRef .tc main_arg16) := by
    dsimp only [V3, W3, hostOps1]; after_results <;> rfl
  rw [e, W2_of_ne m ρ c main_arg16 (by decide)]
  exact V1_main_arg16 m ρ c

theorem V3_main_arg17 (c : Dev nD) : V3 (F := Ideal) m ρ c main_arg17 = m ((c : Thread nD τ).loc main_arg17) := by
  have e : V3 (F := Ideal) m ρ c main_arg17 = W2 m ρ c (Proc.devRef .tc main_arg17) := by
    dsimp only [V3, W3, hostOps1]; after_results <;> rfl
  rw [e, W2_of_ne m ρ c main_arg17 (by decide)]
  exact V1_main_arg17 m ρ c

theorem V3_main_arg24 (c : Dev nD) : V3 (F := Ideal) m ρ c main_arg24 = m ((c : Thread nD τ).loc main_arg24) := by
  have e : V3 (F := Ideal) m ρ c main_arg24 = W2 m ρ c (Proc.devRef .tc main_arg24) := by
    dsimp only [V3, W3, hostOps1]; after_results <;> rfl
  rw [e, W2_of_ne m ρ c main_arg24 (by decide)]
  exact V1_main_arg24 m ρ c

theorem V3_main_arg25 (c : Dev nD) : V3 (F := Ideal) m ρ c main_arg25 = m ((c : Thread nD τ).loc main_arg25) := by
  have e : V3 (F := Ideal) m ρ c main_arg25 = W2 m ρ c (Proc.devRef .tc main_arg25) := by
    dsimp only [V3, W3, hostOps1]; after_results <;> rfl
  rw [e, W2_of_ne m ρ c main_arg25 (by decide)]
  exact V1_main_arg25 m ρ c

theorem V3_main_arg27 (c : Dev nD) : V3 (F := Ideal) m ρ c main_arg27 = m ((c : Thread nD τ).loc main_arg27) := by
  have e : V3 (F := Ideal) m ρ c main_arg27 = W2 m ρ c (Proc.devRef .tc main_arg27) := by
    dsimp only [V3, W3, hostOps1]; after_results <;> rfl
  rw [e, W2_of_ne m ρ c main_arg27 (by decide)]
  exact V1_main_arg27 m ρ c

theorem V3_main_arg28 (c : Dev nD) : V3 (F := Ideal) m ρ c main_arg28 = m ((c : Thread nD τ).loc main_arg28) := by
  have e : V3 (F := Ideal) m ρ c main_arg28 = W2 m ρ c (Proc.devRef .tc main_arg28) := by
    dsimp only [V3, W3, hostOps1]; after_results <;> rfl
  rw [e, W2_of_ne m ρ c main_arg28 (by decide)]
  exact V1_main_arg28 m ρ c

/-- Stage two's three data arrays are what stage one's write-backs left. -/
theorem V3_v14_0 (c : Dev nD) : V3 (F := Ideal) m ρ c main_v14_0 = (dat0 (V1 m ρ) c).arrAt 18 cfg0.N := by
  have e : V3 (F := Ideal) m ρ c main_v14_0 = W2 m ρ c (Proc.devRef .tc main_v14_0) := by
    dsimp only [V3, W3, hostOps1]; after_results <;> rfl
  rw [e]; exact W2_arr m ρ c 18
theorem V3_v14_1 (c : Dev nD) : V3 (F := Ideal) m ρ c main_v14_1 = (dat0 (V1 m ρ) c).arrAt 19 cfg0.N := by
  have e : V3 (F := Ideal) m ρ c main_v14_1 = W2 m ρ c (Proc.devRef .tc main_v14_1) := by
    dsimp only [V3, W3, hostOps1]; after_results <;> rfl
  rw [e]; exact W2_arr m ρ c 19
theorem V3_v14_2 (c : Dev nD) : V3 (F := Ideal) m ρ c main_v14_2 = (dat0 (V1 m ρ) c).arrAt 20 cfg0.N := by
  have e : V3 (F := Ideal) m ρ c main_v14_2 = W2 m ρ c (Proc.devRef .tc main_v14_2) := by
    dsimp only [V3, W3, hostOps1]; after_results <;> rfl
  rw [e]; exact W2_arr m ρ c 20

/-- The second joint layer's matrix, transposed. -/
theorem V3_v16 (c : Dev nD) (i : Fin 512) (o : Fin 256) :
    (V3 (F := Ideal) m ρ c main_v16 : S512x256.Idx → EReal) (ix2 i o) = (m ((c : Thread nD τ).loc main_arg14) : S256x512.Idx → EReal) (ix2 o i) := by
  dsimp only [V3, W3, hostOps1]
  after_results
  show transpose S512x256 [1, 0] _ _ (ix2 i o) = _
  refine (transpose_ix2_apply _ _ i o).trans ?_
  first
  | rfl
  | (rw [W2_of_ne m ρ c main_arg14 (by decide)]; exact congrFun (V1_main_arg14 m ρ c) _)

/-- The first 256 columns of the third layer's matrix, transposed. -/
theorem V3_v18 (c : Dev nD) (k : Fin 256) (o : Fin 512) :
    (V3 (F := Ideal) m ρ c main_v18 : S256x512.Idx → EReal) (ix2 k o)
      = (m ((c : Thread nD τ).loc main_arg22) : S512x768.Idx → EReal) (ix2 o (⟨k.val, by omega⟩ : Fin 768)) := by
  dsimp only [V3, W3, hostOps1]
  after_results
  refine (truncf_apply (φ := .f32) (ψ := .bf16) _ _ _).trans ?_
  refine (transpose_ix2_apply _ _ k o).trans ?_
  first
  | exact slice2_axis1_apply 0 _ _ o k ⟨k.val, by omega⟩ (Nat.zero_add _).symm
  | (rw [W2_of_ne m ρ c main_v10 (by decide)]; exact V1_v10 m ρ c o k)

/-- The output layer's matrix, transposed. -/
theorem V3_v20 (c : Dev nD) (i : Fin 512) (v : Fin 1024) :
    (V3 (F := Ideal) m ρ c main_v20 : S512x1024.Idx → EReal) (ix2 i v) = (m ((c : Thread nD τ).loc main_arg26) : S1024x512.Idx → EReal) (ix2 v i) := by
  dsimp only [V3, W3, hostOps1]
  after_results
  show transpose S512x1024 [1, 0] _ _ (ix2 i v) = _
  refine (transpose_ix2_apply _ _ i v).trans ?_
  first
  | rfl
  | (rw [W2_of_ne m ρ c main_arg26 (by decide)]; exact congrFun (V1_main_arg26 m ρ c) _)

end Cert.KernelIdeal.HostArrays

end
-- ==== Proof.K0Blk.lean ====
/-
  Where the blocks of stage one's windows sit in their arrays.

  The grid has one axis, the batch. At point `t` the two input windows and the three result windows hold batch `t` of their
  arrays — a block with a leading unit axis —, and every other window (the matrices, the bias, scale and shift vectors) holds
  its whole array. So an input block's entry `(u, p, k)` is the array's entry `(t, p, k)`, a whole-array window's block is
  the array, and a result block's entry `(u, p, q)` lands at `(t, p, q)`; the result blocks of the eight points cover their
  arrays.
-/
import proofs.«140755_j31396210934102_2_alg».proof.Proof.Gen.KernelIdeal.Frame
import Idealize.ShloMosaic.Lib.Pipeline.Value
import Idealize.ShloMosaic.Lib.ValueIdx

noncomputable section

open scoped BigOperators

namespace Cert.KernelIdeal.Stage0

open Cert.KernelIdeal Cert.KernelIdeal.Gen Idealize.ShloMosaic Idealize.ShloMosaic.ValueIdx

open Idealize.ShloMosaic.TcCoe Idealize.SL.Sem
open Idealize.ShloMosaic.Pipeline (Dat Cfg Window)

variable (V : (c : Dev nD) → (b : Ref sig .tc) → Buf (Elt Ideal) ((c : Thread nD τ).loc b))

/-- The batched windows' block index at point `t` is `(t, 0, 0)`: decided over the grid. -/
theorem idx_batched : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_18.index t (0 : Fin 3) = t.val ∧ win0_18.index t (1 : Fin 3) = 0 ∧ win0_18.index t (2 : Fin 3) = 0
    ∧ win0_19.index t (0 : Fin 3) = t.val ∧ win0_19.index t (1 : Fin 3) = 0 ∧ win0_19.index t (2 : Fin 3) = 0
    ∧ win0_20.index t (0 : Fin 3) = t.val ∧ win0_20.index t (1 : Fin 3) = 0 ∧ win0_20.index t (2 : Fin 3) = 0 :=
  (by decide +kernel : ∀ t : Fin grid0.N, _)

/-- Every other window's block index is zero on each axis. -/
theorem idx_whole : ∀ t : Fin cfg0.N,
    win0_2.index t (0 : Fin 2) = 0 ∧ win0_2.index t (1 : Fin 2) = 0
    ∧ win0_3.index t (0 : Fin 1) = 0
    ∧ win0_4.index t (0 : Fin 1) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = 0
    ∧ win0_9.index t (0 : Fin 1) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 1) = 0
    ∧ win0_14.index t (0 : Fin 2) = 0 ∧ win0_14.index t (1 : Fin 2) = 0
    ∧ win0_15.index t (0 : Fin 1) = 0
    ∧ win0_16.index t (0 : Fin 2) = 0 ∧ win0_16.index t (1 : Fin 2) = 0
    ∧ win0_17.index t (0 : Fin 1) = 0 :=
  (by decide +kernel : ∀ t : Fin grid0.N, _)

/-- A point of the grid is a batch number. -/
theorem point_lt (t : Fin cfg0.N) : t.val < 8 := by have := t.isLt; have h : cfg0.N = 8 := N_0; omega

/-- The batch a point works on. -/
abbrev batch (t : Fin cfg0.N) : Fin 8 := ⟨t.val, point_lt t⟩

/-- The first input's block at point `t`: batch `t` of the array. -/
theorem iblk0_0_apply (c : Dev nD) (t : Fin cfg0.N) (u : Fin 1) (p : Fin 128) (k : Fin 768) :
    iblk0 (F := Ideal) V c 0 t (ix3 u p k) = (V c main_arg0 : S8x128x768.Idx → EReal) (ix3 (batch t) p k) := by
  obtain ⟨e0, e1, e2, -⟩ := idx_batched t
  unfold iblk0
  rw [View.read_apply]
  show V c main_arg0 (((cfg0.win 0).blk t).view.emb (ix3 u p k)) = V c main_arg0 _
  refine congrArg (V c main_arg0) ?_
  funext a
  apply Fin.ext
  have hu : u.val = 0 := by omega
  match a with
  | ⟨0, _⟩ => show win0_0.index t (0 : Fin 3) * 1 + 1 * u.val = t.val; omega
  | ⟨1, _⟩ => show win0_0.index t (1 : Fin 3) * 128 + 1 * p.val = p.val; omega
  | ⟨2, _⟩ => show win0_0.index t (2 : Fin 3) * 768 + 1 * k.val = k.val; omega

/-- The second input's block at point `t`: batch `t` of the array. -/
theorem iblk0_1_apply (c : Dev nD) (t : Fin cfg0.N) (u : Fin 1) (p : Fin 64) (k : Fin 768) :
    iblk0 (F := Ideal) V c 1 t (ix3 u p k) = (V c main_arg1 : S8x64x768.Idx → EReal) (ix3 (batch t) p k) := by
  obtain ⟨-, -, -, e0, e1, e2, -⟩ := idx_batched t
  unfold iblk0
  rw [View.read_apply]
  show V c main_arg1 (((cfg0.win 1).blk t).view.emb (ix3 u p k)) = V c main_arg1 _
  refine congrArg (V c main_arg1) ?_
  funext a
  apply Fin.ext
  have hu : u.val = 0 := by omega
  match a with
  | ⟨0, _⟩ => show win0_1.index t (0 : Fin 3) * 1 + 1 * u.val = t.val; omega
  | ⟨1, _⟩ => show win0_1.index t (1 : Fin 3) * 64 + 1 * p.val = p.val; omega
  | ⟨2, _⟩ => show win0_1.index t (2 : Fin 3) * 768 + 1 * k.val = k.val; omega

/-- Window 2's block is its whole array. -/
theorem iblk0_2_eq (c : Dev nD) (t : Fin cfg0.N) :
    iblk0 (F := Ideal) V c 2 t = (V c main_v1 : S768x512.Idx → EReal) := by
  obtain ⟨e0, e1, -, -, -, -, -, -, -, -, -, -, -, -, -, -, -, -, -, -, -, -⟩ := idx_whole t
  unfold iblk0
  funext y
  rw [View.read_apply]
  show V c main_v1 (((cfg0.win 2).blk t).view.emb y) = V c main_v1 y
  refine congrArg (V c main_v1) ?_
  funext a
  apply Fin.ext
  match a with
  | ⟨0, _⟩ => show win0_2.index t (0 : Fin 2) * 768 + 1 * (y 0).val = (y 0).val; omega
  | ⟨1, _⟩ => show win0_2.index t (1 : Fin 2) * 512 + 1 * (y 1).val = (y 1).val; omega

/-- Window 3's block is its whole array. -/
theorem iblk0_3_eq (c : Dev nD) (t : Fin cfg0.N) :
    iblk0 (F := Ideal) V c 3 t = (V c main_arg3 : S512.Idx → EReal) := by
  obtain ⟨-, -, e0, -, -, -, -, -, -, -, -, -, -, -, -, -, -, -, -, -, -, -⟩ := idx_whole t
  unfold iblk0
  funext y
  rw [View.read_apply]
  show V c main_arg3 (((cfg0.win 3).blk t).view.emb y) = V c main_arg3 y
  refine congrArg (V c main_arg3) ?_
  funext a
  apply Fin.ext
  match a with
  | ⟨0, _⟩ => show win0_3.index t (0 : Fin 1) * 512 + 1 * (y 0).val = (y 0).val; omega

/-- Window 4's block is its whole array. -/
theorem iblk0_4_eq (c : Dev nD) (t : Fin cfg0.N) :
    iblk0 (F := Ideal) V c 4 t = (V c main_arg4 : S512.Idx → EReal) := by
  obtain ⟨-, -, -, e0, -, -, -, -, -, -, -, -, -, -, -, -, -, -, -, -, -, -⟩ := idx_whole t
  unfold iblk0
  funext y
  rw [View.read_apply]
  show V c main_arg4 (((cfg0.win 4).blk t).view.emb y) = V c main_arg4 y
  refine congrArg (V c main_arg4) ?_
  funext a
  apply Fin.ext
  match a with
  | ⟨0, _⟩ => show win0_4.index t (0 : Fin 1) * 512 + 1 * (y 0).val = (y 0).val; omega

/-- Window 5's block is its whole array. -/
theorem iblk0_5_eq (c : Dev nD) (t : Fin cfg0.N) :
    iblk0 (F := Ideal) V c 5 t = (V c main_arg5 : S512.Idx → EReal) := by
  obtain ⟨-, -, -, -, e0, -, -, -, -, -, -, -, -, -, -, -, -, -, -, -, -, -⟩ := idx_whole t
  unfold iblk0
  funext y
  rw [View.read_apply]
  show V c main_arg5 (((cfg0.win 5).blk t).view.emb y) = V c main_arg5 y
  refine congrArg (V c main_arg5) ?_
  funext a
  apply Fin.ext
  match a with
  | ⟨0, _⟩ => show win0_5.index t (0 : Fin 1) * 512 + 1 * (y 0).val = (y 0).val; omega

/-- Window 6's block is its whole array. -/
theorem iblk0_6_eq (c : Dev nD) (t : Fin cfg0.N) :
    iblk0 (F := Ideal) V c 6 t = (V c main_v3 : S768x512.Idx → EReal) := by
  obtain ⟨-, -, -, -, -, e0, e1, -, -, -, -, -, -, -, -, -, -, -, -, -, -, -⟩ := idx_whole t
  unfold iblk0
  funext y
  rw [View.read_apply]
  show V c main_v3 (((cfg0.win 6).blk t).view.emb y) = V c main_v3 y
  refine congrArg (V c main_v3) ?_
  funext a
  apply Fin.ext
  match a with
  | ⟨0, _⟩ => show win0_6.index t (0 : Fin 2) * 768 + 1 * (y 0).val = (y 0).val; omega
  | ⟨1, _⟩ => show win0_6.index t (1 : Fin 2) * 512 + 1 * (y 1).val = (y 1).val; omega

/-- Window 7's block is its whole array. -/
theorem iblk0_7_eq (c : Dev nD) (t : Fin cfg0.N) :
    iblk0 (F := Ideal) V c 7 t = (V c main_arg7 : S512.Idx → EReal) := by
  obtain ⟨-, -, -, -, -, -, -, e0, -, -, -, -, -, -, -, -, -, -, -, -, -, -⟩ := idx_whole t
  unfold iblk0
  funext y
  rw [View.read_apply]
  show V c main_arg7 (((cfg0.win 7).blk t).view.emb y) = V c main_arg7 y
  refine congrArg (V c main_arg7) ?_
  funext a
  apply Fin.ext
  match a with
  | ⟨0, _⟩ => show win0_7.index t (0 : Fin 1) * 512 + 1 * (y 0).val = (y 0).val; omega

/-- Window 8's block is its whole array. -/
theorem iblk0_8_eq (c : Dev nD) (t : Fin cfg0.N) :
    iblk0 (F := Ideal) V c 8 t = (V c main_arg8 : S512.Idx → EReal) := by
  obtain ⟨-, -, -, -, -, -, -, -, e0, -, -, -, -, -, -, -, -, -, -, -, -, -⟩ := idx_whole t
  unfold iblk0
  funext y
  rw [View.read_apply]
  show V c main_arg8 (((cfg0.win 8).blk t).view.emb y) = V c main_arg8 y
  refine congrArg (V c main_arg8) ?_
  funext a
  apply Fin.ext
  match a with
  | ⟨0, _⟩ => show win0_8.index t (0 : Fin 1) * 512 + 1 * (y 0).val = (y 0).val; omega

/-- Window 9's block is its whole array. -/
theorem iblk0_9_eq (c : Dev nD) (t : Fin cfg0.N) :
    iblk0 (F := Ideal) V c 9 t = (V c main_arg9 : S512.Idx → EReal) := by
  obtain ⟨-, -, -, -, -, -, -, -, -, e0, -, -, -, -, -, -, -, -, -, -, -, -⟩ := idx_whole t
  unfold iblk0
  funext y
  rw [View.read_apply]
  show V c main_arg9 (((cfg0.win 9).blk t).view.emb y) = V c main_arg9 y
  refine congrArg (V c main_arg9) ?_
  funext a
  apply Fin.ext
  match a with
  | ⟨0, _⟩ => show win0_9.index t (0 : Fin 1) * 512 + 1 * (y 0).val = (y 0).val; omega

/-- Window 10's block is its whole array. -/
theorem iblk0_10_eq (c : Dev nD) (t : Fin cfg0.N) :
    iblk0 (F := Ideal) V c 10 t = (V c main_v5 : S512x512.Idx → EReal) := by
  obtain ⟨-, -, -, -, -, -, -, -, -, -, e0, e1, -, -, -, -, -, -, -, -, -, -⟩ := idx_whole t
  unfold iblk0
  funext y
  rw [View.read_apply]
  show V c main_v5 (((cfg0.win 10).blk t).view.emb y) = V c main_v5 y
  refine congrArg (V c main_v5) ?_
  funext a
  apply Fin.ext
  match a with
  | ⟨0, _⟩ => show win0_10.index t (0 : Fin 2) * 512 + 1 * (y 0).val = (y 0).val; omega
  | ⟨1, _⟩ => show win0_10.index t (1 : Fin 2) * 512 + 1 * (y 1).val = (y 1).val; omega

/-- Window 11's block is its whole array. -/
theorem iblk0_11_eq (c : Dev nD) (t : Fin cfg0.N) :
    iblk0 (F := Ideal) V c 11 t = (V c main_arg19 : S512.Idx → EReal) := by
  obtain ⟨-, -, -, -, -, -, -, -, -, -, -, -, e0, -, -, -, -, -, -, -, -, -⟩ := idx_whole t
  unfold iblk0
  funext y
  rw [View.read_apply]
  show V c main_arg19 (((cfg0.win 11).blk t).view.emb y) = V c main_arg19 y
  refine congrArg (V c main_arg19) ?_
  funext a
  apply Fin.ext
  match a with
  | ⟨0, _⟩ => show win0_11.index t (0 : Fin 1) * 512 + 1 * (y 0).val = (y 0).val; omega

/-- Window 12's block is its whole array. -/
theorem iblk0_12_eq (c : Dev nD) (t : Fin cfg0.N) :
    iblk0 (F := Ideal) V c 12 t = (V c main_v7 : S512x512.Idx → EReal) := by
  obtain ⟨-, -, -, -, -, -, -, -, -, -, -, -, -, e0, e1, -, -, -, -, -, -, -⟩ := idx_whole t
  unfold iblk0
  funext y
  rw [View.read_apply]
  show V c main_v7 (((cfg0.win 12).blk t).view.emb y) = V c main_v7 y
  refine congrArg (V c main_v7) ?_
  funext a
  apply Fin.ext
  match a with
  | ⟨0, _⟩ => show win0_12.index t (0 : Fin 2) * 512 + 1 * (y 0).val = (y 0).val; omega
  | ⟨1, _⟩ => show win0_12.index t (1 : Fin 2) * 512 + 1 * (y 1).val = (y 1).val; omega

/-- Window 13's block is its whole array. -/
theorem iblk0_13_eq (c : Dev nD) (t : Fin cfg0.N) :
    iblk0 (F := Ideal) V c 13 t = (V c main_arg21 : S512.Idx → EReal) := by
  obtain ⟨-, -, -, -, -, -, -, -, -, -, -, -, -, -, -, e0, -, -, -, -, -, -⟩ := idx_whole t
  unfold iblk0
  funext y
  rw [View.read_apply]
  show V c main_arg21 (((cfg0.win 13).blk t).view.emb y) = V c main_arg21 y
  refine congrArg (V c main_arg21) ?_
  funext a
  apply Fin.ext
  match a with
  | ⟨0, _⟩ => show win0_13.index t (0 : Fin 1) * 512 + 1 * (y 0).val = (y 0).val; omega

/-- Window 14's block is its whole array. -/
theorem iblk0_14_eq (c : Dev nD) (t : Fin cfg0.N) :
    iblk0 (F := Ideal) V c 14 t = (V c main_v9 : S512x512.Idx → EReal) := by
  obtain ⟨-, -, -, -, -, -, -, -, -, -, -, -, -, -, -, -, e0, e1, -, -, -, -⟩ := idx_whole t
  unfold iblk0
  funext y
  rw [View.read_apply]
  show V c main_v9 (((cfg0.win 14).blk t).view.emb y) = V c main_v9 y
  refine congrArg (V c main_v9) ?_
  funext a
  apply Fin.ext
  match a with
  | ⟨0, _⟩ => show win0_14.index t (0 : Fin 2) * 512 + 1 * (y 0).val = (y 0).val; omega
  | ⟨1, _⟩ => show win0_14.index t (1 : Fin 2) * 512 + 1 * (y 1).val = (y 1).val; omega

/-- Window 15's block is its whole array. -/
theorem iblk0_15_eq (c : Dev nD) (t : Fin cfg0.N) :
    iblk0 (F := Ideal) V c 15 t = (V c main_arg11 : S512.Idx → EReal) := by
  obtain ⟨-, -, -, -, -, -, -, -, -, -, -, -, -, -, -, -, -, -, e0, -, -, -⟩ := idx_whole t
  unfold iblk0
  funext y
  rw [View.read_apply]
  show V c main_arg11 (((cfg0.win 15).blk t).view.emb y) = V c main_arg11 y
  refine congrArg (V c main_arg11) ?_
  funext a
  apply Fin.ext
  match a with
  | ⟨0, _⟩ => show win0_15.index t (0 : Fin 1) * 512 + 1 * (y 0).val = (y 0).val; omega

/-- Window 16's block is its whole array. -/
theorem iblk0_16_eq (c : Dev nD) (t : Fin cfg0.N) :
    iblk0 (F := Ideal) V c 16 t = (V c main_v13 : S512x512.Idx → EReal) := by
  obtain ⟨-, -, -, -, -, -, -, -, -, -, -, -, -, -, -, -, -, -, -, e0, e1, -⟩ := idx_whole t
  unfold iblk0
  funext y
  rw [View.read_apply]
  show V c main_v13 (((cfg0.win 16).blk t).view.emb y) = V c main_v13 y
  refine congrArg (V c main_v13) ?_
  funext a
  apply Fin.ext
  match a with
  | ⟨0, _⟩ => show win0_16.index t (0 : Fin 2) * 512 + 1 * (y 0).val = (y 0).val; omega
  | ⟨1, _⟩ => show win0_16.index t (1 : Fin 2) * 512 + 1 * (y 1).val = (y 1).val; omega

/-- Window 17's block is its whole array. -/
theorem iblk0_17_eq (c : Dev nD) (t : Fin cfg0.N) :
    iblk0 (F := Ideal) V c 17 t = (V c main_arg23 : S512.Idx → EReal) := by
  obtain ⟨-, -, -, -, -, -, -, -, -, -, -, -, -, -, -, -, -, -, -, -, -, e0⟩ := idx_whole t
  unfold iblk0
  funext y
  rw [View.read_apply]
  show V c main_arg23 (((cfg0.win 17).blk t).view.emb y) = V c main_arg23 y
  refine congrArg (V c main_arg23) ?_
  funext a
  apply Fin.ext
  match a with
  | ⟨0, _⟩ => show win0_17.index t (0 : Fin 1) * 512 + 1 * (y 0).val = (y 0).val; omega

end Cert.KernelIdeal.Stage0

end
-- ==== Proof.K0Cover.lean ====
/-
  Where a result block's entries land, and that the eight points' blocks cover each result array.
-/
import proofs.«140755_j31396210934102_2_alg».proof.Proof.Gen.KernelIdeal.Frame
import proofs.«140755_j31396210934102_2_alg».proof.Proof.K0Blk
import Idealize.ShloMosaic.Lib.Pipeline.Value
import Idealize.ShloMosaic.Lib.ValueIdx

noncomputable section

open scoped BigOperators

namespace Cert.KernelIdeal.Stage0

open Cert.KernelIdeal Cert.KernelIdeal.Gen Idealize.ShloMosaic Idealize.ShloMosaic.ValueIdx

open Idealize.ShloMosaic.TcCoe Idealize.SL.Sem
open Idealize.ShloMosaic.Pipeline (Dat Cfg Window)

/-- Entry `(u, p, q)` of result window 18's block at point `t` is entry `(t, p, q)` of its array. -/
theorem emb18 (t : Fin cfg0.N) (u : Fin 1) (p : Fin 128) (q : Fin 512) :
    ((cfg0.win 18).blk t).view.emb (ix3 u p q) = (ix3 (batch t) p q : S8x128x512.Idx) := by
  obtain ⟨-, -, -, -, -, -, e0, e1, e2, -, -, -, -, -, -⟩ := idx_batched t
  funext a
  apply Fin.ext
  have hu : u.val = 0 := by omega
  match a with
  | ⟨0, _⟩ => show win0_18.index t (0 : Fin 3) * 1 + 1 * u.val = t.val; omega
  | ⟨1, _⟩ => show win0_18.index t (1 : Fin 3) * 128 + 1 * p.val = p.val; omega
  | ⟨2, _⟩ => show win0_18.index t (2 : Fin 3) * 512 + 1 * q.val = q.val; omega

/-- Every entry of result array 18 is in the block of the point that works on its batch. -/
theorem cover18 (i : S8x128x512.Idx) : ∃ t : Fin cfg0.N, (cfg0.win 18).flush t = true ∧ i ∈ ((cfg0.win 18).blk t).view.set := by
  have hN : cfg0.N = 8 := N_0
  have h0 : (i 0).val < 8 := (i 0).isLt
  have h1 : (i 1).val < 128 := (i 1).isLt
  have h2 : (i 2).val < 512 := (i 2).isLt
  obtain ⟨t, ht⟩ : ∃ t : Fin cfg0.N, t.val = (i 0).val := ⟨⟨(i 0).val, by omega⟩, rfl⟩
  refine ⟨t, flush0_18 t, ?_⟩
  obtain ⟨-, -, -, -, -, -, e0, e1, e2, -, -, -, -, -, -⟩ := idx_batched t
  show i ∈ ((View.whole main_v14_0).slice (win0_18.rect t)).set
  rw [View.set_slice_whole, Rect.mem_set_unit]
  intro a
  match a with
  | ⟨0, _⟩ => show win0_18.index t (0 : Fin 3) * 1 ≤ (i 0).val ∧ (i 0).val < win0_18.index t (0 : Fin 3) * 1 + 1; omega
  | ⟨1, _⟩ => show win0_18.index t (1 : Fin 3) * 128 ≤ (i 1).val ∧ (i 1).val < win0_18.index t (1 : Fin 3) * 128 + 128; omega
  | ⟨2, _⟩ => show win0_18.index t (2 : Fin 3) * 512 ≤ (i 2).val ∧ (i 2).val < win0_18.index t (2 : Fin 3) * 512 + 512; omega

/-- Entry `(u, p, q)` of result window 19's block at point `t` is entry `(t, p, q)` of its array. -/
theorem emb19 (t : Fin cfg0.N) (u : Fin 1) (p : Fin 64) (q : Fin 512) :
    ((cfg0.win 19).blk t).view.emb (ix3 u p q) = (ix3 (batch t) p q : S8x64x512.Idx) := by
  obtain ⟨-, -, -, -, -, -, -, -, -, e0, e1, e2, -, -, -⟩ := idx_batched t
  funext a
  apply Fin.ext
  have hu : u.val = 0 := by omega
  match a with
  | ⟨0, _⟩ => show win0_19.index t (0 : Fin 3) * 1 + 1 * u.val = t.val; omega
  | ⟨1, _⟩ => show win0_19.index t (1 : Fin 3) * 64 + 1 * p.val = p.val; omega
  | ⟨2, _⟩ => show win0_19.index t (2 : Fin 3) * 512 + 1 * q.val = q.val; omega

/-- Every entry of result array 19 is in the block of the point that works on its batch. -/
theorem cover19 (i : S8x64x512.Idx) : ∃ t : Fin cfg0.N, (cfg0.win 19).flush t = true ∧ i ∈ ((cfg0.win 19).blk t).view.set := by
  have hN : cfg0.N = 8 := N_0
  have h0 : (i 0).val < 8 := (i 0).isLt
  have h1 : (i 1).val < 64 := (i 1).isLt
  have h2 : (i 2).val < 512 := (i 2).isLt
  obtain ⟨t, ht⟩ : ∃ t : Fin cfg0.N, t.val = (i 0).val := ⟨⟨(i 0).val, by omega⟩, rfl⟩
  refine ⟨t, flush0_19 t, ?_⟩
  obtain ⟨-, -, -, -, -, -, -, -, -, e0, e1, e2, -, -, -⟩ := idx_batched t
  show i ∈ ((View.whole main_v14_1).slice (win0_19.rect t)).set
  rw [View.set_slice_whole, Rect.mem_set_unit]
  intro a
  match a with
  | ⟨0, _⟩ => show win0_19.index t (0 : Fin 3) * 1 ≤ (i 0).val ∧ (i 0).val < win0_19.index t (0 : Fin 3) * 1 + 1; omega
  | ⟨1, _⟩ => show win0_19.index t (1 : Fin 3) * 64 ≤ (i 1).val ∧ (i 1).val < win0_19.index t (1 : Fin 3) * 64 + 64; omega
  | ⟨2, _⟩ => show win0_19.index t (2 : Fin 3) * 512 ≤ (i 2).val ∧ (i 2).val < win0_19.index t (2 : Fin 3) * 512 + 512; omega

/-- Entry `(u, p, q)` of result window 20's block at point `t` is entry `(t, p, q)` of its array. -/
theorem emb20 (t : Fin cfg0.N) (u : Fin 1) (p : Fin 64) (q : Fin 512) :
    ((cfg0.win 20).blk t).view.emb (ix3 u p q) = (ix3 (batch t) p q : S8x64x512.Idx) := by
  obtain ⟨-, -, -, -, -, -, -, -, -, -, -, -, e0, e1, e2⟩ := idx_batched t
  funext a
  apply Fin.ext
  have hu : u.val = 0 := by omega
  match a with
  | ⟨0, _⟩ => show win0_20.index t (0 : Fin 3) * 1 + 1 * u.val = t.val; omega
  | ⟨1, _⟩ => show win0_20.index t (1 : Fin 3) * 64 + 1 * p.val = p.val; omega
  | ⟨2, _⟩ => show win0_20.index t (2 : Fin 3) * 512 + 1 * q.val = q.val; omega

/-- Every entry of result array 20 is in the block of the point that works on its batch. -/
theorem cover20 (i : S8x64x512.Idx) : ∃ t : Fin cfg0.N, (cfg0.win 20).flush t = true ∧ i ∈ ((cfg0.win 20).blk t).view.set := by
  have hN : cfg0.N = 8 := N_0
  have h0 : (i 0).val < 8 := (i 0).isLt
  have h1 : (i 1).val < 64 := (i 1).isLt
  have h2 : (i 2).val < 512 := (i 2).isLt
  obtain ⟨t, ht⟩ : ∃ t : Fin cfg0.N, t.val = (i 0).val := ⟨⟨(i 0).val, by omega⟩, rfl⟩
  refine ⟨t, flush0_20 t, ?_⟩
  obtain ⟨-, -, -, -, -, -, -, -, -, -, -, -, e0, e1, e2⟩ := idx_batched t
  show i ∈ ((View.whole main_v14_2).slice (win0_20.rect t)).set
  rw [View.set_slice_whole, Rect.mem_set_unit]
  intro a
  match a with
  | ⟨0, _⟩ => show win0_20.index t (0 : Fin 3) * 1 ≤ (i 0).val ∧ (i 0).val < win0_20.index t (0 : Fin 3) * 1 + 1; omega
  | ⟨1, _⟩ => show win0_20.index t (1 : Fin 3) * 64 ≤ (i 1).val ∧ (i 1).val < win0_20.index t (1 : Fin 3) * 64 + 64; omega
  | ⟨2, _⟩ => show win0_20.index t (2 : Fin 3) * 512 ≤ (i 2).val ∧ (i 2).val < win0_20.index t (2 : Fin 3) * 512 + 512; omega

end Cert.KernelIdeal.Stage0

end
-- ==== Proof.K0Mat.lean ====
/-
  A matrix product into the zero matrix, read at an entry: the sum of the products along the contracted axis, for the four
  pairs of shapes stage one multiplies.
-/
import proofs.«140755_j31396210934102_2_alg».proof.Proof.Gen.KernelIdeal.Skeleton
import Idealize.ShloMosaic.PureOps.Ideal.Laws
import Idealize.ShloMosaic.Lib.ValueIdx

noncomputable section

open scoped BigOperators

namespace Cert.KernelIdeal.Stage0

open Cert.KernelIdeal Cert.KernelIdeal.Gen Idealize.ShloMosaic Idealize.ShloMosaic.ValueIdx

theorem matmul_128x768x512_apply_lhs0 (i : S128x512.Idx) (k : dot_S128x768_S768x512_S128x512_1_0_0_1_n_n.contr.Idx) : (dot_S128x768_S768x512_S128x512_1_0_0_1_n_n.lhsIdx i k 0).val = (i 0).val := by
  unfold DotDims.lhsIdx
  rw [dif_neg (show ¬(0 : Fin S128x768.rank) ∈ dot_S128x768_S768x512_S128x512_1_0_0_1_n_n.lhsBatch by decide), dif_pos (show (0 : Fin S128x768.rank) ∈ dot_S128x768_S768x512_S128x512_1_0_0_1_n_n.lhsNonContracting by decide)]
  rfl
theorem matmul_128x768x512_apply_lhs1 (i : S128x512.Idx) (k : dot_S128x768_S768x512_S128x512_1_0_0_1_n_n.contr.Idx) : (dot_S128x768_S768x512_S128x512_1_0_0_1_n_n.lhsIdx i k 1).val = (k ⟨0, by decide⟩).val :=
  dot_S128x768_S768x512_S128x512_1_0_0_1_n_n.lhsIdx_val_of_single rfl i k
theorem matmul_128x768x512_apply_rhs0 (i : S128x512.Idx) (k : dot_S128x768_S768x512_S128x512_1_0_0_1_n_n.contr.Idx) : (dot_S128x768_S768x512_S128x512_1_0_0_1_n_n.rhsIdx i k 0).val = (k ⟨0, by decide⟩).val :=
  dot_S128x768_S768x512_S128x512_1_0_0_1_n_n.rhsIdx_val_of_single rfl i k
theorem matmul_128x768x512_apply_rhs1 (i : S128x512.Idx) (k : dot_S128x768_S768x512_S128x512_1_0_0_1_n_n.contr.Idx) : (dot_S128x768_S768x512_S128x512_1_0_0_1_n_n.rhsIdx i k 1).val = (i 1).val := by
  unfold DotDims.rhsIdx
  rw [dif_neg (show ¬(1 : Fin S768x512.rank) ∈ dot_S128x768_S768x512_S128x512_1_0_0_1_n_n.rhsBatch by decide), dif_pos (show (1 : Fin S768x512.rank) ∈ dot_S128x768_S768x512_S128x512_1_0_0_1_n_n.rhsNonContracting by decide)]
  rfl

/-- The 128×768 by 768×512 product into the zero matrix, at (p, q): the sum over the 768 contracted positions. -/
theorem matmul_128x768x512_apply {φ₁ φ₂ : FTy} (l : FVec Ideal S128x768 φ₁) (r : FVec Ideal S768x512 φ₂) (p : Fin 128) (q : Fin 512) :
    matmul (F := Ideal) dot_S128x768_S768x512_S128x512_1_0_0_1_n_n none l r (constant (F := Ideal) S128x512 .f32 0x00000000#32) (ix2 p q)
      = ∑ k : Fin 768, l (ix2 p k) * r (ix2 k q) := by
  show FloatOps.matmul dot_S128x768_S768x512_S128x512_1_0_0_1_n_n none l r (constant (F := Ideal) S128x512 .f32 0x00000000#32) (ix2 p q) = _
  rw [Ideal.matmul_constant_zero_apply, ← Equiv.sum_comp (contrEquiv1 dot_S128x768_S768x512_S128x512_1_0_0_1_n_n 768 rfl rfl).symm]
  refine Finset.sum_congr rfl fun k _ => ?_
  have hk := contrEquiv1_symm_val dot_S128x768_S768x512_S128x512_1_0_0_1_n_n 768 rfl rfl k
  have el : dot_S128x768_S768x512_S128x512_1_0_0_1_n_n.lhsIdx (ix2 p q) ((contrEquiv1 dot_S128x768_S768x512_S128x512_1_0_0_1_n_n 768 rfl rfl).symm k) = ix2 p k := funext fun a => Fin.ext (by
    match a with
    | ⟨0, _⟩ => exact matmul_128x768x512_apply_lhs0 _ _
    | ⟨1, _⟩ => exact (matmul_128x768x512_apply_lhs1 _ _).trans hk)
  have er : dot_S128x768_S768x512_S128x512_1_0_0_1_n_n.rhsIdx (ix2 p q) ((contrEquiv1 dot_S128x768_S768x512_S128x512_1_0_0_1_n_n 768 rfl rfl).symm k) = ix2 k q := funext fun a => Fin.ext (by
    match a with
    | ⟨0, _⟩ => exact (matmul_128x768x512_apply_rhs0 _ _).trans hk
    | ⟨1, _⟩ => exact matmul_128x768x512_apply_rhs1 _ _)
  rw [el, er]

theorem matmul_64x768x512_apply_lhs0 (i : S64x512.Idx) (k : dot_S64x768_S768x512_S64x512_1_0_0_1_n_n.contr.Idx) : (dot_S64x768_S768x512_S64x512_1_0_0_1_n_n.lhsIdx i k 0).val = (i 0).val := by
  unfold DotDims.lhsIdx
  rw [dif_neg (show ¬(0 : Fin S64x768.rank) ∈ dot_S64x768_S768x512_S64x512_1_0_0_1_n_n.lhsBatch by decide), dif_pos (show (0 : Fin S64x768.rank) ∈ dot_S64x768_S768x512_S64x512_1_0_0_1_n_n.lhsNonContracting by decide)]
  rfl
theorem matmul_64x768x512_apply_lhs1 (i : S64x512.Idx) (k : dot_S64x768_S768x512_S64x512_1_0_0_1_n_n.contr.Idx) : (dot_S64x768_S768x512_S64x512_1_0_0_1_n_n.lhsIdx i k 1).val = (k ⟨0, by decide⟩).val :=
  dot_S64x768_S768x512_S64x512_1_0_0_1_n_n.lhsIdx_val_of_single rfl i k
theorem matmul_64x768x512_apply_rhs0 (i : S64x512.Idx) (k : dot_S64x768_S768x512_S64x512_1_0_0_1_n_n.contr.Idx) : (dot_S64x768_S768x512_S64x512_1_0_0_1_n_n.rhsIdx i k 0).val = (k ⟨0, by decide⟩).val :=
  dot_S64x768_S768x512_S64x512_1_0_0_1_n_n.rhsIdx_val_of_single rfl i k
theorem matmul_64x768x512_apply_rhs1 (i : S64x512.Idx) (k : dot_S64x768_S768x512_S64x512_1_0_0_1_n_n.contr.Idx) : (dot_S64x768_S768x512_S64x512_1_0_0_1_n_n.rhsIdx i k 1).val = (i 1).val := by
  unfold DotDims.rhsIdx
  rw [dif_neg (show ¬(1 : Fin S768x512.rank) ∈ dot_S64x768_S768x512_S64x512_1_0_0_1_n_n.rhsBatch by decide), dif_pos (show (1 : Fin S768x512.rank) ∈ dot_S64x768_S768x512_S64x512_1_0_0_1_n_n.rhsNonContracting by decide)]
  rfl

/-- The 64×768 by 768×512 product into the zero matrix, at (p, q): the sum over the 768 contracted positions. -/
theorem matmul_64x768x512_apply {φ₁ φ₂ : FTy} (l : FVec Ideal S64x768 φ₁) (r : FVec Ideal S768x512 φ₂) (p : Fin 64) (q : Fin 512) :
    matmul (F := Ideal) dot_S64x768_S768x512_S64x512_1_0_0_1_n_n none l r (constant (F := Ideal) S64x512 .f32 0x00000000#32) (ix2 p q)
      = ∑ k : Fin 768, l (ix2 p k) * r (ix2 k q) := by
  show FloatOps.matmul dot_S64x768_S768x512_S64x512_1_0_0_1_n_n none l r (constant (F := Ideal) S64x512 .f32 0x00000000#32) (ix2 p q) = _
  rw [Ideal.matmul_constant_zero_apply, ← Equiv.sum_comp (contrEquiv1 dot_S64x768_S768x512_S64x512_1_0_0_1_n_n 768 rfl rfl).symm]
  refine Finset.sum_congr rfl fun k _ => ?_
  have hk := contrEquiv1_symm_val dot_S64x768_S768x512_S64x512_1_0_0_1_n_n 768 rfl rfl k
  have el : dot_S64x768_S768x512_S64x512_1_0_0_1_n_n.lhsIdx (ix2 p q) ((contrEquiv1 dot_S64x768_S768x512_S64x512_1_0_0_1_n_n 768 rfl rfl).symm k) = ix2 p k := funext fun a => Fin.ext (by
    match a with
    | ⟨0, _⟩ => exact matmul_64x768x512_apply_lhs0 _ _
    | ⟨1, _⟩ => exact (matmul_64x768x512_apply_lhs1 _ _).trans hk)
  have er : dot_S64x768_S768x512_S64x512_1_0_0_1_n_n.rhsIdx (ix2 p q) ((contrEquiv1 dot_S64x768_S768x512_S64x512_1_0_0_1_n_n 768 rfl rfl).symm k) = ix2 k q := funext fun a => Fin.ext (by
    match a with
    | ⟨0, _⟩ => exact (matmul_64x768x512_apply_rhs0 _ _).trans hk
    | ⟨1, _⟩ => exact matmul_64x768x512_apply_rhs1 _ _)
  rw [el, er]

theorem matmul_128x512x512_apply_lhs0 (i : S128x512.Idx) (k : dot_S128x512_S512x512_S128x512_1_0_0_1_n_n.contr.Idx) : (dot_S128x512_S512x512_S128x512_1_0_0_1_n_n.lhsIdx i k 0).val = (i 0).val := by
  unfold DotDims.lhsIdx
  rw [dif_neg (show ¬(0 : Fin S128x512.rank) ∈ dot_S128x512_S512x512_S128x512_1_0_0_1_n_n.lhsBatch by decide), dif_pos (show (0 : Fin S128x512.rank) ∈ dot_S128x512_S512x512_S128x512_1_0_0_1_n_n.lhsNonContracting by decide)]
  rfl
theorem matmul_128x512x512_apply_lhs1 (i : S128x512.Idx) (k : dot_S128x512_S512x512_S128x512_1_0_0_1_n_n.contr.Idx) : (dot_S128x512_S512x512_S128x512_1_0_0_1_n_n.lhsIdx i k 1).val = (k ⟨0, by decide⟩).val :=
  dot_S128x512_S512x512_S128x512_1_0_0_1_n_n.lhsIdx_val_of_single rfl i k
theorem matmul_128x512x512_apply_rhs0 (i : S128x512.Idx) (k : dot_S128x512_S512x512_S128x512_1_0_0_1_n_n.contr.Idx) : (dot_S128x512_S512x512_S128x512_1_0_0_1_n_n.rhsIdx i k 0).val = (k ⟨0, by decide⟩).val :=
  dot_S128x512_S512x512_S128x512_1_0_0_1_n_n.rhsIdx_val_of_single rfl i k
theorem matmul_128x512x512_apply_rhs1 (i : S128x512.Idx) (k : dot_S128x512_S512x512_S128x512_1_0_0_1_n_n.contr.Idx) : (dot_S128x512_S512x512_S128x512_1_0_0_1_n_n.rhsIdx i k 1).val = (i 1).val := by
  unfold DotDims.rhsIdx
  rw [dif_neg (show ¬(1 : Fin S512x512.rank) ∈ dot_S128x512_S512x512_S128x512_1_0_0_1_n_n.rhsBatch by decide), dif_pos (show (1 : Fin S512x512.rank) ∈ dot_S128x512_S512x512_S128x512_1_0_0_1_n_n.rhsNonContracting by decide)]
  rfl

/-- The 128×512 by 512×512 product into the zero matrix, at (p, q): the sum over the 512 contracted positions. -/
theorem matmul_128x512x512_apply {φ₁ φ₂ : FTy} (l : FVec Ideal S128x512 φ₁) (r : FVec Ideal S512x512 φ₂) (p : Fin 128) (q : Fin 512) :
    matmul (F := Ideal) dot_S128x512_S512x512_S128x512_1_0_0_1_n_n none l r (constant (F := Ideal) S128x512 .f32 0x00000000#32) (ix2 p q)
      = ∑ k : Fin 512, l (ix2 p k) * r (ix2 k q) := by
  show FloatOps.matmul dot_S128x512_S512x512_S128x512_1_0_0_1_n_n none l r (constant (F := Ideal) S128x512 .f32 0x00000000#32) (ix2 p q) = _
  rw [Ideal.matmul_constant_zero_apply, ← Equiv.sum_comp (contrEquiv1 dot_S128x512_S512x512_S128x512_1_0_0_1_n_n 512 rfl rfl).symm]
  refine Finset.sum_congr rfl fun k _ => ?_
  have hk := contrEquiv1_symm_val dot_S128x512_S512x512_S128x512_1_0_0_1_n_n 512 rfl rfl k
  have el : dot_S128x512_S512x512_S128x512_1_0_0_1_n_n.lhsIdx (ix2 p q) ((contrEquiv1 dot_S128x512_S512x512_S128x512_1_0_0_1_n_n 512 rfl rfl).symm k) = ix2 p k := funext fun a => Fin.ext (by
    match a with
    | ⟨0, _⟩ => exact matmul_128x512x512_apply_lhs0 _ _
    | ⟨1, _⟩ => exact (matmul_128x512x512_apply_lhs1 _ _).trans hk)
  have er : dot_S128x512_S512x512_S128x512_1_0_0_1_n_n.rhsIdx (ix2 p q) ((contrEquiv1 dot_S128x512_S512x512_S128x512_1_0_0_1_n_n 512 rfl rfl).symm k) = ix2 k q := funext fun a => Fin.ext (by
    match a with
    | ⟨0, _⟩ => exact (matmul_128x512x512_apply_rhs0 _ _).trans hk
    | ⟨1, _⟩ => exact matmul_128x512x512_apply_rhs1 _ _)
  rw [el, er]

theorem matmul_64x512x512_apply_lhs0 (i : S64x512.Idx) (k : dot_S64x512_S512x512_S64x512_1_0_0_1_n_n.contr.Idx) : (dot_S64x512_S512x512_S64x512_1_0_0_1_n_n.lhsIdx i k 0).val = (i 0).val := by
  unfold DotDims.lhsIdx
  rw [dif_neg (show ¬(0 : Fin S64x512.rank) ∈ dot_S64x512_S512x512_S64x512_1_0_0_1_n_n.lhsBatch by decide), dif_pos (show (0 : Fin S64x512.rank) ∈ dot_S64x512_S512x512_S64x512_1_0_0_1_n_n.lhsNonContracting by decide)]
  rfl
theorem matmul_64x512x512_apply_lhs1 (i : S64x512.Idx) (k : dot_S64x512_S512x512_S64x512_1_0_0_1_n_n.contr.Idx) : (dot_S64x512_S512x512_S64x512_1_0_0_1_n_n.lhsIdx i k 1).val = (k ⟨0, by decide⟩).val :=
  dot_S64x512_S512x512_S64x512_1_0_0_1_n_n.lhsIdx_val_of_single rfl i k
theorem matmul_64x512x512_apply_rhs0 (i : S64x512.Idx) (k : dot_S64x512_S512x512_S64x512_1_0_0_1_n_n.contr.Idx) : (dot_S64x512_S512x512_S64x512_1_0_0_1_n_n.rhsIdx i k 0).val = (k ⟨0, by decide⟩).val :=
  dot_S64x512_S512x512_S64x512_1_0_0_1_n_n.rhsIdx_val_of_single rfl i k
theorem matmul_64x512x512_apply_rhs1 (i : S64x512.Idx) (k : dot_S64x512_S512x512_S64x512_1_0_0_1_n_n.contr.Idx) : (dot_S64x512_S512x512_S64x512_1_0_0_1_n_n.rhsIdx i k 1).val = (i 1).val := by
  unfold DotDims.rhsIdx
  rw [dif_neg (show ¬(1 : Fin S512x512.rank) ∈ dot_S64x512_S512x512_S64x512_1_0_0_1_n_n.rhsBatch by decide), dif_pos (show (1 : Fin S512x512.rank) ∈ dot_S64x512_S512x512_S64x512_1_0_0_1_n_n.rhsNonContracting by decide)]
  rfl

/-- The 64×512 by 512×512 product into the zero matrix, at (p, q): the sum over the 512 contracted positions. -/
theorem matmul_64x512x512_apply {φ₁ φ₂ : FTy} (l : FVec Ideal S64x512 φ₁) (r : FVec Ideal S512x512 φ₂) (p : Fin 64) (q : Fin 512) :
    matmul (F := Ideal) dot_S64x512_S512x512_S64x512_1_0_0_1_n_n none l r (constant (F := Ideal) S64x512 .f32 0x00000000#32) (ix2 p q)
      = ∑ k : Fin 512, l (ix2 p k) * r (ix2 k q) := by
  show FloatOps.matmul dot_S64x512_S512x512_S64x512_1_0_0_1_n_n none l r (constant (F := Ideal) S64x512 .f32 0x00000000#32) (ix2 p q) = _
  rw [Ideal.matmul_constant_zero_apply, ← Equiv.sum_comp (contrEquiv1 dot_S64x512_S512x512_S64x512_1_0_0_1_n_n 512 rfl rfl).symm]
  refine Finset.sum_congr rfl fun k _ => ?_
  have hk := contrEquiv1_symm_val dot_S64x512_S512x512_S64x512_1_0_0_1_n_n 512 rfl rfl k
  have el : dot_S64x512_S512x512_S64x512_1_0_0_1_n_n.lhsIdx (ix2 p q) ((contrEquiv1 dot_S64x512_S512x512_S64x512_1_0_0_1_n_n 512 rfl rfl).symm k) = ix2 p k := funext fun a => Fin.ext (by
    match a with
    | ⟨0, _⟩ => exact matmul_64x512x512_apply_lhs0 _ _
    | ⟨1, _⟩ => exact (matmul_64x512x512_apply_lhs1 _ _).trans hk)
  have er : dot_S64x512_S512x512_S64x512_1_0_0_1_n_n.rhsIdx (ix2 p q) ((contrEquiv1 dot_S64x512_S512x512_S64x512_1_0_0_1_n_n 512 rfl rfl).symm k) = ix2 k q := funext fun a => Fin.ext (by
    match a with
    | ⟨0, _⟩ => exact (matmul_64x512x512_apply_rhs0 _ _).trans hk
    | ⟨1, _⟩ => exact matmul_64x512x512_apply_rhs1 _ _)
  rw [el, er]

end Cert.KernelIdeal.Stage0

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.KLn.lean ====
/-
  The kernel's row normalisation, read at an index.

  A value of `R` rows and `N` columns is normalised row by row: the lane sum of each row is kept as a column, divided by the
  row length, spread back over the columns and subtracted; the same is done with the squares of the differences; `ε` is
  added, `rsqrt` taken, and the difference scaled by it, by the scale vector `g` and shifted by `b` (both spread over the
  rows from a one-row matrix), then clipped at zero. `kLnBlock` is that text as the vector operations spell it, over any
  witnesses of the shape side conditions; `kLnBlock_apply`: at `(p, q)` it is `lnRelu` of row `p` at `q`.
-/
import Idealize.ShloMosaic.Lib.Pipeline.Value
import Idealize.ShloMosaic.Lib.ValueIdx
import Idealize.ShloMosaic.Lib.ValueLayout
import Idealize.ShloMosaic.PureOps.Ideal.Laws
import proofs.«140755_j31396210934102_2_alg».proof.Proof.LibKeepdims
import proofs.«140755_j31396210934102_2_alg».proof.Proof.Spec

noncomputable section

open scoped BigOperators

namespace Cert.JointNet

open Idealize.ShloMosaic Idealize.ShloMosaic.ValueIdx

variable {R N : ℕ}

/-- The lane sum of a row of an `R × N` value. -/
theorem laneSum_apply (x : FVec Ideal ⟨2, ![R, N]⟩ .f32) (h : (⟨2, ![R, N]⟩ : Shape).Reduces [1] ⟨1, ![R]⟩)
    (hφ : FKind.Formats .f32) (hacc : (0x00000000#32 : BitVec 32) = FKind.add.neutral .f32 hφ) (p : Fin R) :
    multiReduction (F := Ideal) .add [1] ⟨1, ![R]⟩ x 0x00000000#32 h hφ hacc (ix1 p) = ∑ k : Fin N, x (ix2 p k) := by
  refine (Ideal.multiReduction_add_single x 0x00000000#32 h hφ hacc (ix1 p)).trans ?_
  refine Finset.sum_congr rfl fun k _ => congrArg x ?_
  funext a
  apply Fin.ext
  rw [h.lift_val]
  match a with
  | ⟨0, _⟩ => rfl
  | ⟨1, _⟩ => rfl

/-- A row's lane sum kept as a column and divided by the row length `nb` (a float word). -/
abbrev kMeanCol (x : FVec Ideal ⟨2, ![R, N]⟩ .f32) (nb : BitVec 32) (h : (⟨2, ![R, N]⟩ : Shape).Reduces [1] ⟨1, ![R]⟩)
    (hφ : FKind.Formats .f32) (hacc : (0x00000000#32 : BitVec 32) = FKind.add.neutral .f32 hφ)
    (hc1 : (⟨1, ![R]⟩ : Shape).ShapeCasts ⟨2, ![R, 1]⟩) : FVec Ideal ⟨2, ![R, 1]⟩ .f32 :=
  divf (shapeCast ⟨2, ![R, 1]⟩ (multiReduction (F := Ideal) .add [1] ⟨1, ![R]⟩ x 0x00000000#32 h hφ hacc) hc1)
    (broadcast ⟨2, ![R, 1]⟩ (Scalar.ofBits (F := Ideal) .f32 nb))

theorem kMeanCol_apply (x : FVec Ideal ⟨2, ![R, N]⟩ .f32) (nb : BitVec 32) (h : (⟨2, ![R, N]⟩ : Shape).Reduces [1] ⟨1, ![R]⟩)
    (hφ : FKind.Formats .f32) (hacc : (0x00000000#32 : BitVec 32) = FKind.add.neutral .f32 hφ)
    (hc1 : (⟨1, ![R]⟩ : Shape).ShapeCasts ⟨2, ![R, 1]⟩) (p : Fin R) (u : Fin 1) :
    kMeanCol x nb h hφ hacc hc1 (ix2 p u) = rowMean (Ideal.ofBits .f32 nb) (fun k => x (ix2 p k)) := by
  show Ideal.div (shapeCast ⟨2, ![R, 1]⟩ (multiReduction (F := Ideal) .add [1] ⟨1, ![R]⟩ x 0x00000000#32 h hφ hacc) hc1 (ix2 p u)) (Ideal.ofBits .f32 nb) = _
  rw [Cert.Gcn.shapeCast_a_a1_apply, laneSum_apply]
  rfl

/-- The normalisation block as the vector operations spell it. -/
abbrev kLnBlock (x : FVec Ideal ⟨2, ![R, N]⟩ .f32) (g b : (⟨1, ![N]⟩ : Shape).Idx → Ideal .f32) (nb eb : BitVec 32)
    (h : (⟨2, ![R, N]⟩ : Shape).Reduces [1] ⟨1, ![R]⟩)
    (hφ : FKind.Formats .f32) (hacc : (0x00000000#32 : BitVec 32) = FKind.add.neutral .f32 hφ)
    (hc1 : (⟨1, ![R]⟩ : Shape).ShapeCasts ⟨2, ![R, 1]⟩) (hb1 : (⟨2, ![R, 1]⟩ : Shape).Broadcasts ⟨2, ![R, N]⟩)
    (hc2 : (⟨1, ![N]⟩ : Shape).ShapeCasts ⟨2, ![1, N]⟩) (hb2 : (⟨2, ![1, N]⟩ : Shape).Broadcasts ⟨2, ![R, N]⟩) :
    FVec Ideal ⟨2, ![R, N]⟩ .f32 :=
  maximumf
    (addf
      (mulf
        (mulf (subf x (broadcastTo ⟨2, ![R, N]⟩ (kMeanCol x nb h hφ hacc hc1) hb1))
          (broadcastTo ⟨2, ![R, N]⟩
            (rsqrt (addf
              (kMeanCol (mulf (subf x (broadcastTo ⟨2, ![R, N]⟩ (kMeanCol x nb h hφ hacc hc1) hb1))
                  (subf x (broadcastTo ⟨2, ![R, N]⟩ (kMeanCol x nb h hφ hacc hc1) hb1))) nb h hφ hacc hc1)
              (broadcast ⟨2, ![R, 1]⟩ (Scalar.ofBits (F := Ideal) .f32 eb)))) hb1))
        (broadcastTo ⟨2, ![R, N]⟩ (shapeCast ⟨2, ![1, N]⟩ g hc2) hb2))
      (broadcastTo ⟨2, ![R, N]⟩ (shapeCast ⟨2, ![1, N]⟩ b hc2) hb2))
    (broadcast ⟨2, ![R, N]⟩ (Scalar.ofBits (F := Ideal) .f32 0x00000000#32))

/-- At `(p, q)` the block is the normalised, clipped row `p` at `q`. -/
theorem kLnBlock_apply (x : FVec Ideal ⟨2, ![R, N]⟩ .f32) (g b : (⟨1, ![N]⟩ : Shape).Idx → Ideal .f32) (nb eb : BitVec 32)
    (h : (⟨2, ![R, N]⟩ : Shape).Reduces [1] ⟨1, ![R]⟩)
    (hφ : FKind.Formats .f32) (hacc : (0x00000000#32 : BitVec 32) = FKind.add.neutral .f32 hφ)
    (hc1 : (⟨1, ![R]⟩ : Shape).ShapeCasts ⟨2, ![R, 1]⟩) (hb1 : (⟨2, ![R, 1]⟩ : Shape).Broadcasts ⟨2, ![R, N]⟩)
    (hc2 : (⟨1, ![N]⟩ : Shape).ShapeCasts ⟨2, ![1, N]⟩) (hb2 : (⟨2, ![1, N]⟩ : Shape).Broadcasts ⟨2, ![R, N]⟩)
    (p : Fin R) (q : Fin N) :
    kLnBlock x g b nb eb h hφ hacc hc1 hb1 hc2 hb2 (ix2 p q)
      = lnRelu (Ideal.ofBits .f32 nb) (Ideal.ofBits .f32 eb) (fun k => x (ix2 p k)) (fun k => g (ix1 k)) (fun k => b (ix1 k)) q := by
  have hμ : ∀ k : Fin N, subf x (broadcastTo ⟨2, ![R, N]⟩ (kMeanCol x nb h hφ hacc hc1) hb1) (ix2 p k)
      = x (ix2 p k) - rowMean (Ideal.ofBits .f32 nb) (fun k => x (ix2 p k)) := fun k => by
    show x (ix2 p k) - broadcastTo ⟨2, ![R, N]⟩ (kMeanCol x nb h hφ hacc hc1) hb1 (ix2 p k) = _
    rw [Cert.Gcn.broadcastTo_a1_ab_apply, kMeanCol_apply]
  have hσ : kMeanCol (mulf (subf x (broadcastTo ⟨2, ![R, N]⟩ (kMeanCol x nb h hφ hacc hc1) hb1))
        (subf x (broadcastTo ⟨2, ![R, N]⟩ (kMeanCol x nb h hφ hacc hc1) hb1))) nb h hφ hacc hc1 (ix2 p (0 : Fin 1))
      = rowVar (Ideal.ofBits .f32 nb) (fun k => x (ix2 p k)) := by
    rw [kMeanCol_apply]
    unfold rowVar rowMean
    refine congrArg (fun s => Ideal.div s (Ideal.ofBits .f32 nb)) (Finset.sum_congr rfl fun k _ => ?_)
    show subf x _ (ix2 p k) * subf x _ (ix2 p k) = _
    rw [hμ k]; rfl
  show max (subf x (broadcastTo ⟨2, ![R, N]⟩ (kMeanCol x nb h hφ hacc hc1) hb1) (ix2 p q)
        * broadcastTo ⟨2, ![R, N]⟩ (rsqrt (addf _ (broadcast ⟨2, ![R, 1]⟩ (Scalar.ofBits (F := Ideal) .f32 eb)))) hb1 (ix2 p q)
        * broadcastTo ⟨2, ![R, N]⟩ (shapeCast ⟨2, ![1, N]⟩ g hc2) hb2 (ix2 p q)
        + broadcastTo ⟨2, ![R, N]⟩ (shapeCast ⟨2, ![1, N]⟩ b hc2) hb2 (ix2 p q)) (Ideal.ofBits .f32 0x00000000#32) = _
  rw [hμ q, Cert.Gcn.broadcastTo_a1_ab_apply, broadcastTo_1b_ab_apply, broadcastTo_1b_ab_apply,
    shapeCast_a_1a_apply, shapeCast_a_1a_apply, Ideal.ofBits_zero_f32]
  show max ((x (ix2 p q) - rowMean (Ideal.ofBits .f32 nb) fun k => x (ix2 p k))
      * Ideal.rsqrt (kMeanCol _ nb h hφ hacc hc1 (ix2 p (0 : Fin 1)) + Ideal.ofBits .f32 eb) * g (ix1 q) + b (ix1 q)) 0 = _
  rw [hσ]
  rfl

end Cert.JointNet

end
-- ==== Proof.K0Pay.lean ====
/-
  Stage one's arithmetic, read at an index.

  Every payload of the body is a composition of: a cast between a block with a leading unit axis and a matrix, a rounding
  to a narrower format (the identity on the extended reals), a matrix product into the zero matrix, a bias vector spread
  over the rows, and the row normalisation. Read at an entry each is the corresponding term of the specification.
-/
import proofs.«140755_j31396210934102_2_alg».proof.Proof.Gen.KernelIdeal.Skeleton
import proofs.«140755_j31396210934102_2_alg».proof.Proof.K0Mat
import proofs.«140755_j31396210934102_2_alg».proof.Proof.KLn
import proofs.«140755_j31396210934102_2_alg».proof.Proof.Spec
import Idealize.ShloMosaic.Lib.ValueLayout

noncomputable section

open scoped BigOperators

namespace Cert.KernelIdeal.Stage0

open Cert.KernelIdeal Cert.KernelIdeal.Gen Idealize.ShloMosaic Idealize.ShloMosaic.ValueIdx

open Cert.JointNet

/-- A vector of `N` entries made a one-row matrix and spread over `R` rows reads, at `(p, q)`, its entry `q`. -/
theorem biasRows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩) (p : Fin R) (q : Fin N) :
    broadcastTo ⟨2, ![R, N]⟩ (shapeCast ⟨2, ![1, N]⟩ b hc) hb (ix2 p q) = b (ix1 q) := by
  rw [broadcastTo_1b_ab_apply, shapeCast_a_1a_apply]

/-- The second input's block as a matrix, rounded: entry `(p, k)` of the block. -/
theorem pay3_apply (v38 : Vec Ideal S1x64x768 .f32) (p : Fin 64) (k : Fin 768) :
    k0_pay3 (F := Ideal) v38 (ix2 p k) = v38 (ix3 (0 : Fin 1) p k) := by
  unfold k0_pay3
  exact shapeCast_1ab_ab_apply v38 _ p k

/-- The first projection: row `p` of the first input's block times the matrix plus the bias, normalised and clipped. -/
theorem pay2_apply (v0 : Vec Ideal S1x128x768 .f32) (v3 : Vec Ideal S768x512 .bf16) (v6 v10 v11 : Vec Ideal S512 .f32)
    (p : Fin 128) (q : Fin 512) :
    k0_pay2 (F := Ideal) v0 v3 v6 v10 v11 (ix2 p q)
      = lnRelu n512 eps (fun i => (∑ k : Fin 768, v0 (ix3 (0 : Fin 1) p k) * v3 (ix2 k i)) + v6 (ix1 i))
          (fun i => v10 (ix1 i)) (fun i => v11 (ix1 i)) q := by
  unfold k0_pay2
  refine (kLnBlock_apply _ _ _ _ _ _ _ _ _ _ _ _ p q).trans ?_
  refine congrFun (lnRelu_congr _ _ _ _ fun i => ?_) q
  refine congrArg₂ (· + ·) ((matmul_128x768x512_apply _ _ p i).trans (Finset.sum_congr rfl fun k _ => ?_)) (biasRows_apply v6 _ _ p i)
  exact congrArg₂ (· * ·) (shapeCast_1ab_ab_apply v0 _ p k) (congrFun (shapeCast_self v3 _) (ix2 k i))

/-- The second projection, of the rounded block `v40`. -/
theorem pay4_apply (v40 : FVec Ideal S64x768 .bf16) (v41 : Vec Ideal S768x512 .bf16) (v44 v48 v49 : Vec Ideal S512 .f32)
    (p : Fin 64) (q : Fin 512) :
    k0_pay4 (F := Ideal) v40 v41 v44 v48 v49 (ix2 p q)
      = lnRelu n512 eps (fun i => (∑ k : Fin 768, v40 (ix2 p k) * v41 (ix2 k i)) + v44 (ix1 i))
          (fun i => v48 (ix1 i)) (fun i => v49 (ix1 i)) q := by
  unfold k0_pay4
  refine (kLnBlock_apply _ _ _ _ _ _ _ _ _ _ _ _ p q).trans ?_
  refine congrFun (lnRelu_congr _ _ _ _ fun i => ?_) q
  refine congrArg₂ (· + ·) ((matmul_64x768x512_apply _ _ p i).trans (Finset.sum_congr rfl fun k _ => ?_)) (biasRows_apply v44 _ _ p i)
  exact congrArg (v40 (ix2 p k) * ·) (congrFun (shapeCast_self v41 _) (ix2 k i))

end Cert.KernelIdeal.Stage0

end
-- ==== Proof.K0Pay2.lean ====
/-
  Stage one's arithmetic, read at an index: the products after the two projections, the attention rows, and the casts that
  put a leading unit axis back.
-/
import proofs.«140755_j31396210934102_2_alg».proof.Proof.Gen.KernelIdeal.Skeleton
import proofs.«140755_j31396210934102_2_alg».proof.Proof.K0Mat
import proofs.«140755_j31396210934102_2_alg».proof.Proof.K0Pay
import Idealize.ShloMosaic.Lib.ValueLayout

noncomputable section

open scoped BigOperators

namespace Cert.KernelIdeal.Stage0

open Cert.KernelIdeal Cert.KernelIdeal.Gen Idealize.ShloMosaic Idealize.ShloMosaic.ValueIdx

open Cert.JointNet

/-- The first projection's rows (rounded) times the joint layer's matrix. -/
theorem pay5_apply (v37 : FVec Ideal S128x512 .f32) (v77 : Vec Ideal S512x512 .bf16) (p : Fin 128) (q : Fin 512) :
    k0_pay5 (F := Ideal) v37 v77 (ix2 p q) = ∑ i : Fin 512, v37 (ix2 p i) * v77 (ix2 i q) := by
  unfold k0_pay5
  refine (matmul_128x512x512_apply _ _ p q).trans (Finset.sum_congr rfl fun i _ => ?_)
  exact congrArg (v37 (ix2 p i) * ·) (congrFun (shapeCast_self v77 _) (ix2 i q))

/-- The second projection rounded: the same entries. -/
theorem pay6_apply (v40 : FVec Ideal S64x768 .bf16) (v41 : Vec Ideal S768x512 .bf16) (v44 v48 v49 : Vec Ideal S512 .f32)
    (j : S64x512.Idx) : k0_pay6 (F := Ideal) v40 v41 v44 v48 v49 j = k0_pay4 (F := Ideal) v40 v41 v44 v48 v49 j := rfl

/-- A matrix cast to its own shape is itself. -/
theorem pay7_eq (v81 : Vec Ideal S512x512 .bf16) : k0_pay7 (F := Ideal) v81 = v81 := by
  unfold k0_pay7
  exact shapeCast_self v81 _

/-- The leading unit axis put back on a 128 × 512 matrix. -/
theorem pay8_apply (v79 : FVec Ideal S128x512 .f32) (u : Fin 1) (p : Fin 128) (q : Fin 512) :
    k0_pay8 (F := Ideal) v79 (ix3 u p q) = v79 (ix2 p q) := by
  unfold k0_pay8
  exact shapeCast_ab_1ab_apply v79 _ u p q

/-- The leading unit axis put back on a 64 × 512 matrix. -/
theorem pay1_apply (v117 : FVec Ideal S64x512 .f32) (u : Fin 1) (p : Fin 64) (q : Fin 512) :
    k0_pay1 (F := Ideal) v117 (ix3 u p q) = v117 (ix2 p q) := by
  unfold k0_pay1
  exact shapeCast_ab_1ab_apply v117 _ u p q

/-- The second projection's rows times the joint layer's matrix, plus that layer's bias. -/
theorem pay9_apply (v80 : FVec Ideal S64x512 .bf16) (v82 : FVec Ideal S512x512 .bf16) (v84 : Vec Ideal S512 .f32)
    (u : Fin 1) (p : Fin 64) (q : Fin 512) :
    k0_pay9 (F := Ideal) v80 v82 (constant (F := Ideal) S64x512 .f32 0x00000000#32) v84 (ix3 u p q)
      = (∑ i : Fin 512, v80 (ix2 p i) * v82 (ix2 i q)) + v84 (ix1 q) := by
  unfold k0_pay9
  refine (shapeCast_ab_1ab_apply _ _ u p q).trans ?_
  exact congrArg₂ (· + ·) (matmul_64x512x512_apply v80 v82 p q) (biasRows_apply v84 _ _ p q)

/-- A 64 × 512 value (rounded) times a 512 × 512 matrix plus a bias spread over the rows. -/
theorem lin64_apply (x : FVec Ideal S64x512 .f32) (w : FVec Ideal S512x512 .bf16) (b : FVec Ideal S512 .f32) (p : Fin 64) (q : Fin 512) :
    addf (matmul (F := Ideal) dot_S64x512_S512x512_S64x512_1_0_0_1_n_n none (truncf .bf16 x bitsLt_bf16_f32)
        (shapeCast S512x512 w shapeCasts_S512x512_S512x512) (constant (F := Ideal) S64x512 .f32 0x00000000#32))
      (broadcastTo S64x512 (shapeCast S1x512 b shapeCasts_S512_S1x512) broadcasts_S1x512_S64x512) (ix2 p q)
      = (∑ i : Fin 512, x (ix2 p i) * w (ix2 i q)) + b (ix1 q) := by
  refine congrArg₂ (· + ·) ((matmul_64x512x512_apply _ _ p q).trans (Finset.sum_congr rfl fun i _ => ?_)) (biasRows_apply b _ _ p q)
  exact congrArg (x (ix2 p i) * ·) (congrFun (shapeCast_self w _) (ix2 i q))

/-- The attention rows: three linear layers one after another. -/
theorem pay10_apply (v75 : FVec Ideal S64x512 .f32) (v95 : Vec Ideal S512x512 .bf16) (v98 : Vec Ideal S512 .f32)
    (v103 : Vec Ideal S512x512 .bf16) (v106 : Vec Ideal S512 .f32) (v111 : Vec Ideal S512x512 .bf16) (v114 : Vec Ideal S512 .f32)
    (p : Fin 64) (q : Fin 512) :
    k0_pay10 (F := Ideal) v75 v95 v98 v103 v106 v111 v114 (ix2 p q)
      = (∑ k : Fin 512, ((∑ j : Fin 512, ((∑ i : Fin 512, v75 (ix2 p i) * v95 (ix2 i j)) + v98 (ix1 j)) * v103 (ix2 j k)) + v106 (ix1 k))
          * v111 (ix2 k q)) + v114 (ix1 q) := by
  unfold k0_pay10
  refine (lin64_apply _ v111 v114 p q).trans ?_
  refine congrArg (· + v114 (ix1 q)) (Finset.sum_congr rfl fun k _ => congrArg (· * v111 (ix2 k q)) ?_)
  refine (lin64_apply _ v103 v106 p k).trans ?_
  refine congrArg (· + v106 (ix1 k)) (Finset.sum_congr rfl fun j _ => congrArg (· * v103 (ix2 j k)) ?_)
  exact lin64_apply v75 v95 v98 p j

end Cert.KernelIdeal.Stage0

end
-- ==== Proof.K0Out.lean ====
/-
  What the body leaves in each result block, entry by entry, as a term of the blocks it loaded.

  Each result block is ONE store of the whole block, so the block after the body is the stored value; each load is of a whole
  block, so it is the block. The stored values are the payloads read at an index before: the projections, the products and the attention rows.
-/
import proofs.«140755_j31396210934102_2_alg».proof.Proof.Gen.KernelIdeal.Frame
import proofs.«140755_j31396210934102_2_alg».proof.Proof.K0Pay
import proofs.«140755_j31396210934102_2_alg».proof.Proof.K0Pay2
import proofs.«140755_j31396210934102_2_alg».proof.Proof.Spec
import Idealize.ShloMosaic.Lib.Pipeline.Value

noncomputable section

open scoped BigOperators

namespace Cert.KernelIdeal.Stage0

open Cert.KernelIdeal Cert.KernelIdeal.Gen Idealize.ShloMosaic Idealize.ShloMosaic.ValueIdx

open Cert.JointNet

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The second projection of the second input's block, rows normalised and clipped. -/
theorem decRow_apply (x1 : Vec Ideal S1x64x768 .f32) (x6 : Vec Ideal S768x512 .bf16) (x7 x8 x9 : Vec Ideal S512 .f32) (p : Fin 64) (i : Fin 512) :
    k0_pay4 (F := Ideal) (k0_pay3 x1) x6 x7 x8 x9 (ix2 p i)
      = lnRelu n512 eps (fun i' => (∑ k : Fin 768, x1 (ix3 (0 : Fin 1) p k) * x6 (ix2 k i')) + x7 (ix1 i'))
          (fun i => x8 (ix1 i)) (fun i => x9 (ix1 i)) i := by
  refine (pay4_apply (k0_pay3 x1) x6 x7 x8 x9 p i).trans ?_
  exact congrFun (lnRelu_congr _ _ _ _ fun i' => congrArg (· + x7 (ix1 i'))
    (Finset.sum_congr rfl fun k _ => congrArg (· * x6 (ix2 k i')) (pay3_apply x1 p k))) i

/-- The first result block after the body. -/
theorem out18_apply (x0 : Vec Ideal S1x128x768 .f32) (x1 : Vec Ideal S1x64x768 .f32) (x2 : Vec Ideal S768x512 .bf16) (x3 x4 x5 : Vec Ideal S512 .f32) (x6 : Vec Ideal S768x512 .bf16) (x7 x8 x9 : Vec Ideal S512 .f32) (x10 : Vec Ideal S512x512 .bf16) (x11 : Vec Ideal S512 .f32) (x12 : Vec Ideal S512x512 .bf16) (x13 : Vec Ideal S512 .f32) (x14 : Vec Ideal S512x512 .bf16) (x15 : Vec Ideal S512 .f32) (x16 : Vec Ideal S512x512 .bf16) (x17 : Vec Ideal S512 .f32)
    (u : Fin 1) (p : Fin 128) (q : Fin 512) :
    out0_18 (F := Ideal) x0 x1 x2 x3 x4 x5 x6 x7 x8 x9 x10 x11 x12 x13 x14 x15 x16 x17 (ix3 u p q)
      = ∑ i : Fin 512, lnRelu n512 eps (fun i' => (∑ k : Fin 768, x0 (ix3 (0 : Fin 1) p k) * x2 (ix2 k i')) + x3 (ix1 i'))
          (fun i => x4 (ix1 i)) (fun i => x5 (ix1 i)) i * x14 (ix2 i q) := by
  unfold out0_18
  rw [View.canon_unit_zero hz3]
  simp only [View.ld_unit_zero (S := S1x128x768) hz3, View.ld_unit_zero (S := S1x64x768) hz3, View.ld_unit_zero (S := S768x512) hz2, View.ld_unit_zero (S := S512x512) hz2, View.ld_unit_zero (S := S512) hz1]
  refine (pay8_apply _ u p q).trans ?_
  refine (pay5_apply _ x14 p q).trans ?_
  exact Finset.sum_congr rfl fun i _ => congrArg (· * x14 (ix2 i q)) (pay2_apply x0 x2 x3 x4 x5 p i)

/-- The second result block after the body. -/
theorem out19_apply (x0 : Vec Ideal S1x128x768 .f32) (x1 : Vec Ideal S1x64x768 .f32) (x2 : Vec Ideal S768x512 .bf16) (x3 x4 x5 : Vec Ideal S512 .f32) (x6 : Vec Ideal S768x512 .bf16) (x7 x8 x9 : Vec Ideal S512 .f32) (x10 : Vec Ideal S512x512 .bf16) (x11 : Vec Ideal S512 .f32) (x12 : Vec Ideal S512x512 .bf16) (x13 : Vec Ideal S512 .f32) (x14 : Vec Ideal S512x512 .bf16) (x15 : Vec Ideal S512 .f32) (x16 : Vec Ideal S512x512 .bf16) (x17 : Vec Ideal S512 .f32)
    (u : Fin 1) (p : Fin 64) (q : Fin 512) :
    out0_19 (F := Ideal) x0 x1 x2 x3 x4 x5 x6 x7 x8 x9 x10 x11 x12 x13 x14 x15 x16 x17 (ix3 u p q)
      = (∑ i : Fin 512, lnRelu n512 eps (fun i' => (∑ k : Fin 768, x1 (ix3 (0 : Fin 1) p k) * x6 (ix2 k i')) + x7 (ix1 i'))
          (fun i => x8 (ix1 i)) (fun i => x9 (ix1 i)) i * x14 (ix2 i q)) + x15 (ix1 q) := by
  unfold out0_19
  rw [View.canon_unit_zero hz3]
  simp only [View.ld_unit_zero (S := S1x128x768) hz3, View.ld_unit_zero (S := S1x64x768) hz3, View.ld_unit_zero (S := S768x512) hz2, View.ld_unit_zero (S := S512x512) hz2, View.ld_unit_zero (S := S512) hz1]
  refine (pay9_apply _ _ x15 u p q).trans ?_
  refine congrArg (· + x15 (ix1 q)) (Finset.sum_congr rfl fun i _ => ?_)
  exact congrArg₂ (· * ·) ((pay6_apply _ x6 x7 x8 x9 (ix2 p i)).trans (decRow_apply x1 x6 x7 x8 x9 p i)) (congrFun (pay7_eq x14) (ix2 i q))

/-- The third result block after the body. -/
theorem out20_apply (x0 : Vec Ideal S1x128x768 .f32) (x1 : Vec Ideal S1x64x768 .f32) (x2 : Vec Ideal S768x512 .bf16) (x3 x4 x5 : Vec Ideal S512 .f32) (x6 : Vec Ideal S768x512 .bf16) (x7 x8 x9 : Vec Ideal S512 .f32) (x10 : Vec Ideal S512x512 .bf16) (x11 : Vec Ideal S512 .f32) (x12 : Vec Ideal S512x512 .bf16) (x13 : Vec Ideal S512 .f32) (x14 : Vec Ideal S512x512 .bf16) (x15 : Vec Ideal S512 .f32) (x16 : Vec Ideal S512x512 .bf16) (x17 : Vec Ideal S512 .f32)
    (u : Fin 1) (p : Fin 64) (q : Fin 512) :
    out0_20 (F := Ideal) x0 x1 x2 x3 x4 x5 x6 x7 x8 x9 x10 x11 x12 x13 x14 x15 x16 x17 (ix3 u p q)
      = (∑ k : Fin 512, ((∑ j : Fin 512, ((∑ i : Fin 512,
            lnRelu n512 eps (fun i' => (∑ k : Fin 768, x1 (ix3 (0 : Fin 1) p k) * x6 (ix2 k i')) + x7 (ix1 i'))
              (fun i => x8 (ix1 i)) (fun i => x9 (ix1 i)) i * x10 (ix2 i j)) + x11 (ix1 j)) * x12 (ix2 j k)) + x13 (ix1 k))
          * x16 (ix2 k q)) + x17 (ix1 q) := by
  unfold out0_20
  rw [View.canon_unit_zero hz3]
  simp only [View.ld_unit_zero (S := S1x128x768) hz3, View.ld_unit_zero (S := S1x64x768) hz3, View.ld_unit_zero (S := S768x512) hz2, View.ld_unit_zero (S := S512x512) hz2, View.ld_unit_zero (S := S512) hz1]
  refine (pay1_apply _ u p q).trans ?_
  refine (pay10_apply _ x10 x11 x12 x13 x16 x17 p q).trans ?_
  refine congrArg (· + x17 (ix1 q)) (Finset.sum_congr rfl fun k _ => congrArg (· * x16 (ix2 k q)) ?_)
  refine congrArg (· + x13 (ix1 k)) (Finset.sum_congr rfl fun j _ => congrArg (· * x12 (ix2 j k)) ?_)
  refine congrArg (· + x11 (ix1 j)) (Finset.sum_congr rfl fun i _ => congrArg (· * x10 (ix2 i j)) ?_)
  exact decRow_apply x1 x6 x7 x8 x9 p i

end Cert.KernelIdeal.Stage0

end
-- ==== Proof.K0Final.lean ====
/-
  Stage one's three result arrays after the region, as the specification's functions of the arrays the region found.

  At point `t` the body writes, into each result block, the specification's function of batch `t` of the two inputs and of the
  whole matrices and vectors; the block is written back to batch `t` of the result array; the eight points cover the array.
-/
import proofs.«140755_j31396210934102_2_alg».proof.Proof.Gen.KernelIdeal.Frame
import proofs.«140755_j31396210934102_2_alg».proof.Proof.K0Blk
import proofs.«140755_j31396210934102_2_alg».proof.Proof.K0Cover
import proofs.«140755_j31396210934102_2_alg».proof.Proof.K0Out
import proofs.«140755_j31396210934102_2_alg».proof.Proof.Spec
import Idealize.ShloMosaic.Lib.Pipeline.Value

noncomputable section

open scoped BigOperators

namespace Cert.KernelIdeal.Stage0

open Cert.KernelIdeal Cert.KernelIdeal.Gen Idealize.ShloMosaic Idealize.ShloMosaic.ValueIdx

open Cert.JointNet Idealize.ShloMosaic.TcCoe Idealize.SL.Sem
open Idealize.ShloMosaic.Pipeline (Dat Cfg Window)

section Blocks

variable (enc : FVec Ideal ⟨3, ![8, 128, 768]⟩ .f32) (dec : FVec Ideal ⟨3, ![8, 64, 768]⟩ .f32)
  (WeT : FVec Ideal ⟨2, ![768, 512]⟩ .bf16) (be ge bne : FVec Ideal ⟨1, ![512]⟩ .f32)
  (WdT : FVec Ideal ⟨2, ![768, 512]⟩ .bf16) (bd gd bnd : FVec Ideal ⟨1, ![512]⟩ .f32)
  (WvT : FVec Ideal ⟨2, ![512, 512]⟩ .bf16) (bv : FVec Ideal ⟨1, ![512]⟩ .f32)
  (WoT : FVec Ideal ⟨2, ![512, 512]⟩ .bf16) (bo : FVec Ideal ⟨1, ![512]⟩ .f32)
  (Wf1T : FVec Ideal ⟨2, ![512, 512]⟩ .bf16) (bf1 : FVec Ideal ⟨1, ![512]⟩ .f32)
  (W1bT : FVec Ideal ⟨2, ![512, 512]⟩ .bf16) (b1 : FVec Ideal ⟨1, ![512]⟩ .f32)

/-- The first result block's entries, when the first input's block is batch `b`, are the specification's first array there. -/
theorem encF_of_block (x0 : Vec Ideal S1x128x768 .f32) (b : Fin 8)
    (h0 : ∀ (p : Fin 128) (k : Fin 768), x0 (ix3 (0 : Fin 1) p k) = enc (ix3 b p k)) (p : Fin 128) (q : Fin 512) :
    (∑ i : Fin 512, lnRelu n512 eps (fun i' => (∑ k : Fin 768, x0 (ix3 (0 : Fin 1) p k) * WeT (ix2 k i')) + be (ix1 i'))
        (fun i => ge (ix1 i)) (fun i => bne (ix1 i)) i * Wf1T (ix2 i q))
      = kEncF enc WeT be ge bne Wf1T (ix3 b p q) := by
  simp only [h0]
  rfl

/-- The second result block's entries likewise. -/
theorem decF_of_block (x1 : Vec Ideal S1x64x768 .f32) (b : Fin 8)
    (h1 : ∀ (p : Fin 64) (k : Fin 768), x1 (ix3 (0 : Fin 1) p k) = dec (ix3 b p k)) (p : Fin 64) (q : Fin 512) :
    (∑ i : Fin 512, lnRelu n512 eps (fun i' => (∑ k : Fin 768, x1 (ix3 (0 : Fin 1) p k) * WdT (ix2 k i')) + bd (ix1 i'))
        (fun i => gd (ix1 i)) (fun i => bnd (ix1 i)) i * Wf1T (ix2 i q)) + bf1 (ix1 q)
      = kDecF dec WdT bd gd bnd Wf1T bf1 (ix3 b p q) := by
  simp only [h1]
  rfl

/-- The third result block's entries likewise. -/
theorem attH_of_block (x1 : Vec Ideal S1x64x768 .f32) (b : Fin 8)
    (h1 : ∀ (p : Fin 64) (k : Fin 768), x1 (ix3 (0 : Fin 1) p k) = dec (ix3 b p k)) (p : Fin 64) (q : Fin 512) :
    (∑ k : Fin 512, ((∑ j : Fin 512, ((∑ i : Fin 512,
          lnRelu n512 eps (fun i' => (∑ k : Fin 768, x1 (ix3 (0 : Fin 1) p k) * WdT (ix2 k i')) + bd (ix1 i'))
            (fun i => gd (ix1 i)) (fun i => bnd (ix1 i)) i * WvT (ix2 i j)) + bv (ix1 j)) * WoT (ix2 j k)) + bo (ix1 k))
        * W1bT (ix2 k q)) + b1 (ix1 q)
      = kAttH dec WdT bd gd bnd WvT bv WoT bo W1bT b1 (ix3 b p q) := by
  simp only [h1]
  rfl

end Blocks

variable (V : (c : Dev nD) → (b : Ref sig .tc) → Buf (Elt Ideal) ((c : Thread nD τ).loc b))

/-- What point `t` writes back to the first result array is block `t` of the specification's first array. -/
theorem flushed18_eq (c : Dev nD) (t : Fin cfg0.N) :
    (dat0 (F := Ideal) V c).flushed 18 t
      = ((cfg0.win 18).blk t).view.read (Elt Ideal) (kEncF (V c main_arg0) (V c main_v1) (V c main_arg3) (V c main_arg4) (V c main_arg5) (V c main_v9)) := by
  show (cfg0.win 18).cut (grid0.coords t) ((dat0 V c).after 18 t) = _
  rw [after0_18, iblk0_2_eq V c t, iblk0_3_eq V c t, iblk0_4_eq V c t, iblk0_5_eq V c t, iblk0_6_eq V c t, iblk0_7_eq V c t, iblk0_8_eq V c t, iblk0_9_eq V c t, iblk0_10_eq V c t, iblk0_11_eq V c t, iblk0_12_eq V c t, iblk0_13_eq V c t, iblk0_14_eq V c t, iblk0_15_eq V c t, iblk0_16_eq V c t, iblk0_17_eq V c t]
  funext y
  obtain ⟨u, p, q, rfl⟩ : ∃ (u : Fin 1) (p : Fin 128) (q : Fin 512), y = ix3 u p q := ⟨y 0, y 1, y 2, eq_ix3 y⟩
  show out0_18 (F := Ideal) (iblk0 V c 0 t) (iblk0 V c 1 t) (V c main_v1) (V c main_arg3) (V c main_arg4) (V c main_arg5) (V c main_v3) (V c main_arg7) (V c main_arg8) (V c main_arg9) (V c main_v5) (V c main_arg19) (V c main_v7) (V c main_arg21) (V c main_v9) (V c main_arg11) (V c main_v13) (V c main_arg23) (ix3 u p q)
    = kEncF (V c main_arg0) (V c main_v1) (V c main_arg3) (V c main_arg4) (V c main_arg5) (V c main_v9) (((cfg0.win 18).blk t).view.emb (ix3 u p q))
  rw [emb18 t u p q]
  refine (out18_apply (iblk0 V c 0 t) (iblk0 V c 1 t) (V c main_v1) (V c main_arg3) (V c main_arg4) (V c main_arg5) (V c main_v3) (V c main_arg7) (V c main_arg8) (V c main_arg9) (V c main_v5) (V c main_arg19) (V c main_v7) (V c main_arg21) (V c main_v9) (V c main_arg11) (V c main_v13) (V c main_arg23) u p q).trans ?_
  exact encF_of_block (V c main_arg0) (V c main_v1) (V c main_arg3) (V c main_arg4) (V c main_arg5) (V c main_v9) (iblk0 V c 0 t) (batch t) (fun p k => iblk0_0_apply V c t 0 p k) p q

/-- What point `t` writes back to the second result array. -/
theorem flushed19_eq (c : Dev nD) (t : Fin cfg0.N) :
    (dat0 (F := Ideal) V c).flushed 19 t
      = ((cfg0.win 19).blk t).view.read (Elt Ideal) (kDecF (V c main_arg1) (V c main_v3) (V c main_arg7) (V c main_arg8) (V c main_arg9) (V c main_v9) (V c main_arg11)) := by
  show (cfg0.win 19).cut (grid0.coords t) ((dat0 V c).after 19 t) = _
  rw [after0_19, iblk0_2_eq V c t, iblk0_3_eq V c t, iblk0_4_eq V c t, iblk0_5_eq V c t, iblk0_6_eq V c t, iblk0_7_eq V c t, iblk0_8_eq V c t, iblk0_9_eq V c t, iblk0_10_eq V c t, iblk0_11_eq V c t, iblk0_12_eq V c t, iblk0_13_eq V c t, iblk0_14_eq V c t, iblk0_15_eq V c t, iblk0_16_eq V c t, iblk0_17_eq V c t]
  funext y
  obtain ⟨u, p, q, rfl⟩ : ∃ (u : Fin 1) (p : Fin 64) (q : Fin 512), y = ix3 u p q := ⟨y 0, y 1, y 2, eq_ix3 y⟩
  show out0_19 (F := Ideal) (iblk0 V c 0 t) (iblk0 V c 1 t) (V c main_v1) (V c main_arg3) (V c main_arg4) (V c main_arg5) (V c main_v3) (V c main_arg7) (V c main_arg8) (V c main_arg9) (V c main_v5) (V c main_arg19) (V c main_v7) (V c main_arg21) (V c main_v9) (V c main_arg11) (V c main_v13) (V c main_arg23) (ix3 u p q)
    = kDecF (V c main_arg1) (V c main_v3) (V c main_arg7) (V c main_arg8) (V c main_arg9) (V c main_v9) (V c main_arg11) (((cfg0.win 19).blk t).view.emb (ix3 u p q))
  rw [emb19 t u p q]
  refine (out19_apply (iblk0 V c 0 t) (iblk0 V c 1 t) (V c main_v1) (V c main_arg3) (V c main_arg4) (V c main_arg5) (V c main_v3) (V c main_arg7) (V c main_arg8) (V c main_arg9) (V c main_v5) (V c main_arg19) (V c main_v7) (V c main_arg21) (V c main_v9) (V c main_arg11) (V c main_v13) (V c main_arg23) u p q).trans ?_
  exact decF_of_block (V c main_arg1) (V c main_v3) (V c main_arg7) (V c main_arg8) (V c main_arg9) (V c main_v9) (V c main_arg11) (iblk0 V c 1 t) (batch t) (fun p k => iblk0_1_apply V c t 0 p k) p q

/-- What point `t` writes back to the third result array. -/
theorem flushed20_eq (c : Dev nD) (t : Fin cfg0.N) :
    (dat0 (F := Ideal) V c).flushed 20 t
      = ((cfg0.win 20).blk t).view.read (Elt Ideal) (kAttH (V c main_arg1) (V c main_v3) (V c main_arg7) (V c main_arg8) (V c main_arg9) (V c main_v5) (V c main_arg19) (V c main_v7) (V c main_arg21) (V c main_v13) (V c main_arg23)) := by
  show (cfg0.win 20).cut (grid0.coords t) ((dat0 V c).after 20 t) = _
  rw [after0_20, iblk0_2_eq V c t, iblk0_3_eq V c t, iblk0_4_eq V c t, iblk0_5_eq V c t, iblk0_6_eq V c t, iblk0_7_eq V c t, iblk0_8_eq V c t, iblk0_9_eq V c t, iblk0_10_eq V c t, iblk0_11_eq V c t, iblk0_12_eq V c t, iblk0_13_eq V c t, iblk0_14_eq V c t, iblk0_15_eq V c t, iblk0_16_eq V c t, iblk0_17_eq V c t]
  funext y
  obtain ⟨u, p, q, rfl⟩ : ∃ (u : Fin 1) (p : Fin 64) (q : Fin 512), y = ix3 u p q := ⟨y 0, y 1, y 2, eq_ix3 y⟩
  show out0_20 (F := Ideal) (iblk0 V c 0 t) (iblk0 V c 1 t) (V c main_v1) (V c main_arg3) (V c main_arg4) (V c main_arg5) (V c main_v3) (V c main_arg7) (V c main_arg8) (V c main_arg9) (V c main_v5) (V c main_arg19) (V c main_v7) (V c main_arg21) (V c main_v9) (V c main_arg11) (V c main_v13) (V c main_arg23) (ix3 u p q)
    = kAttH (V c main_arg1) (V c main_v3) (V c main_arg7) (V c main_arg8) (V c main_arg9) (V c main_v5) (V c main_arg19) (V c main_v7) (V c main_arg21) (V c main_v13) (V c main_arg23) (((cfg0.win 20).blk t).view.emb (ix3 u p q))
  rw [emb20 t u p q]
  refine (out20_apply (iblk0 V c 0 t) (iblk0 V c 1 t) (V c main_v1) (V c main_arg3) (V c main_arg4) (V c main_arg5) (V c main_v3) (V c main_arg7) (V c main_arg8) (V c main_arg9) (V c main_v5) (V c main_arg19) (V c main_v7) (V c main_arg21) (V c main_v9) (V c main_arg11) (V c main_v13) (V c main_arg23) u p q).trans ?_
  exact attH_of_block (V c main_arg1) (V c main_v3) (V c main_arg7) (V c main_arg8) (V c main_arg9) (V c main_v5) (V c main_arg19) (V c main_v7) (V c main_arg21) (V c main_v13) (V c main_arg23) (iblk0 V c 1 t) (batch t) (fun p k => iblk0_1_apply V c t 0 p k) p q

/-- The first result array after the region. -/
theorem final18 (c : Dev nD) :
    (dat0 (F := Ideal) V c).arrAt 18 cfg0.N = Cert.JointNet.kEncF (V c main_arg0) (V c main_v1) (V c main_arg3) (V c main_arg4) (V c main_arg5) (V c main_v9) :=
  (dat0 (F := Ideal) V c).arrAt_eq_of_cover 18 (kEncF (V c main_arg0) (V c main_v1) (V c main_arg3) (V c main_arg4) (V c main_arg5) (V c main_v9)) (fun t _ => flushed18_eq V c t) cover18

/-- The second result array after the region. -/
theorem final19 (c : Dev nD) :
    (dat0 (F := Ideal) V c).arrAt 19 cfg0.N = Cert.JointNet.kDecF (V c main_arg1) (V c main_v3) (V c main_arg7) (V c main_arg8) (V c main_arg9) (V c main_v9) (V c main_arg11) :=
  (dat0 (F := Ideal) V c).arrAt_eq_of_cover 19 (kDecF (V c main_arg1) (V c main_v3) (V c main_arg7) (V c main_arg8) (V c main_arg9) (V c main_v9) (V c main_arg11)) (fun t _ => flushed19_eq V c t) cover19

/-- The third result array after the region. -/
theorem final20 (c : Dev nD) :
    (dat0 (F := Ideal) V c).arrAt 20 cfg0.N = Cert.JointNet.kAttH (V c main_arg1) (V c main_v3) (V c main_arg7) (V c main_arg8) (V c main_arg9) (V c main_v5) (V c main_arg19) (V c main_v7) (V c main_arg21) (V c main_v13) (V c main_arg23) :=
  (dat0 (F := Ideal) V c).arrAt_eq_of_cover 20 (kAttH (V c main_arg1) (V c main_v3) (V c main_arg7) (V c main_arg8) (V c main_arg9) (V c main_v5) (V c main_arg19) (V c main_v7) (V c main_arg21) (V c main_v13) (V c main_arg23)) (fun t _ => flushed20_eq V c t) cover20

end Cert.KernelIdeal.Stage0

end
-- ==== Proof.K1Layout.lean ====
/-
  Rows of a [16, 64, N] array laid out as the rows of a [1024, N] matrix, and the two broadcasts that build such an
  array from a [16, N] and a [64, N] matrix.

  Row (t, u) of the three-dimensional array is row t · 64 + u of the matrix: the two row-major offsets are the same
  number, so a reshape in either direction reads the same entry. A [16, N] matrix given a unit middle axis and
  broadcast along it reads its row t at (t, u, q), whatever u; a [1, 64, N] array broadcast along its first axis reads
  its row u at (t, u, q), whatever t. Nothing here depends on a program.
-/
import Idealize.ShloMosaic.Lib.Pipeline.Value
import Idealize.ShloMosaic.Lib.ValueIdx
import Idealize.ShloMosaic.Lib.ValueLayout

noncomputable section

namespace Cert.KernelIdeal.Stage1

open Idealize.ShloMosaic Idealize.ShloMosaic.ValueIdx

/-- Row (t, u) of a [16, 64, ·] array as a row of the [1024, ·] matrix with the same entries. -/
def row (t : Fin 16) (u : Fin 64) : Fin 1024 := ⟨t.val * 64 + u.val, by have := t.isLt; have := u.isLt; omega⟩

theorem row_val (t : Fin 16) (u : Fin 64) : (row t u).val = t.val * 64 + u.val := rfl

/-- Every row of the matrix is some (t, u). -/
theorem exists_row (r : Fin 1024) : ∃ (t : Fin 16) (u : Fin 64), r = row t u :=
  ⟨⟨r.val / 64, by have := r.isLt; omega⟩, ⟨r.val % 64, by omega⟩, Fin.ext (by show r.val = r.val / 64 * 64 + r.val % 64; omega)⟩

section Casts
variable {α : Type}

/-- A [16, 64, N] array cast to [1024, N] reads, at (row t u, q), the operand at (t, u, q). -/
theorem cast_16_64_N_apply {N : ℕ} (x : (⟨3, ![16, 64, N]⟩ : Shape).Idx → α)
    (h : (⟨3, ![16, 64, N]⟩ : Shape).ShapeCasts ⟨2, ![1024, N]⟩) (t : Fin 16) (u : Fin 64) (q : Fin N) :
    shapeCast ⟨2, ![1024, N]⟩ x h (ix2 (row t u) q) = x (ix3 t u q) :=
  shapeCast_apply x h _ _ (by
    rw [Shape.rowMajor_val_three, Shape.rowMajor_val_two]
    rfl)

/-- A [1024, N] matrix cast to [16, 64, N] reads, at (t, u, q), the operand at (row t u, q). -/
theorem cast_1024_N_apply {N : ℕ} (x : (⟨2, ![1024, N]⟩ : Shape).Idx → α)
    (h : (⟨2, ![1024, N]⟩ : Shape).ShapeCasts ⟨3, ![16, 64, N]⟩) (t : Fin 16) (u : Fin 64) (q : Fin N) :
    shapeCast ⟨3, ![16, 64, N]⟩ x h (ix3 t u q) = x (ix2 (row t u) q) :=
  shapeCast_apply x h _ _ (by
    rw [Shape.rowMajor_val_three, Shape.rowMajor_val_two]
    rfl)

/-- An [a, N] matrix cast to [a, 1, N] reads, at (t, z, q), the operand at (t, q), whatever the unit coordinate. -/
theorem cast_a_N_a1N_apply {a N : ℕ} (x : (⟨2, ![a, N]⟩ : Shape).Idx → α)
    (h : (⟨2, ![a, N]⟩ : Shape).ShapeCasts ⟨3, ![a, 1, N]⟩) (t : Fin a) (z : Fin 1) (q : Fin N) :
    shapeCast ⟨3, ![a, 1, N]⟩ x h (ix3 t z q) = x (ix2 t q) :=
  shapeCast_apply x h _ _ (by
    have hz : z.val = 0 := by omega
    rw [Shape.rowMajor_val_three, Shape.rowMajor_val_two]
    show t.val * N + q.val = (t.val * 1 + z.val) * N + q.val
    rw [hz, Nat.mul_one, Nat.add_zero])

/-- An [a, 1, N] array broadcast to [a, b, N] reads, at (t, u, q), the operand at (t, 0, q). -/
theorem bcast_a1N_abN_apply {a b N : ℕ} (v : (⟨3, ![a, 1, N]⟩ : Shape).Idx → α)
    (h : (⟨3, ![a, 1, N]⟩ : Shape).Broadcasts ⟨3, ![a, b, N]⟩) (t : Fin a) (u : Fin b) (q : Fin N) :
    broadcastTo ⟨3, ![a, b, N]⟩ v h (ix3 t u q) = v (ix3 t (0 : Fin 1) q) := by
  refine broadcastTo_apply v h (ix3 t u q) (ix3 t (0 : Fin 1) q) fun ax => ?_
  match ax with
  | ⟨0, _⟩ =>
    show t.val = if a = 1 then 0 else t.val
    split
    · have := t.isLt; omega
    · rfl
  | ⟨1, _⟩ => rfl
  | ⟨2, _⟩ =>
    show q.val = if N = 1 then 0 else q.val
    split
    · have := q.isLt; omega
    · rfl

/-- A [1, b, N] array broadcast to [a, b, N] reads, at (t, u, q), the operand at (0, u, q). -/
theorem bcast_1bN_abN_apply {a b N : ℕ} (v : (⟨3, ![1, b, N]⟩ : Shape).Idx → α)
    (h : (⟨3, ![1, b, N]⟩ : Shape).Broadcasts ⟨3, ![a, b, N]⟩) (t : Fin a) (u : Fin b) (q : Fin N) :
    broadcastTo ⟨3, ![a, b, N]⟩ v h (ix3 t u q) = v (ix3 (0 : Fin 1) u q) := by
  refine broadcastTo_apply v h (ix3 t u q) (ix3 (0 : Fin 1) u q) fun ax => ?_
  match ax with
  | ⟨0, _⟩ => rfl
  | ⟨1, _⟩ =>
    show u.val = if b = 1 then 0 else u.val
    split
    · have := u.isLt; omega
    · rfl
  | ⟨2, _⟩ =>
    show q.val = if N = 1 then 0 else q.val
    split
    · have := q.isLt; omega
    · rfl

end Casts

end Cert.KernelIdeal.Stage1

end
-- ==== Proof.K1Matmul.lean ====
/-
  The second stage's three matrix products, read at an index.

  Each multiplies a [1024, K] matrix by a [K, C] matrix into the zero matrix, contracting the left operand's columns with
  the right operand's rows: at (p, q) the result is the sum over k of the left entry (p, k) times the right entry (k, q).
  The contraction index has one axis; summing over it is summing over its one coordinate.
-/
import proofs.«140755_j31396210934102_2_alg».proof.Proof.Gen.KernelIdeal.Skeleton
import Idealize.ShloMosaic.Lib.ValueIdx
import Idealize.ShloMosaic.PureOps.Ideal.Laws

noncomputable section

open scoped BigOperators

namespace Cert.KernelIdeal.Stage1

open Cert.KernelIdeal Cert.KernelIdeal.Gen Idealize.ShloMosaic Idealize.ShloMosaic.ValueIdx

theorem matmul_512_256_apply_lhs0 (i : S1024x256.Idx) (k : dot_S1024x512_S512x256_S1024x256_1_0_0_1_n_n.contr.Idx) : (dot_S1024x512_S512x256_S1024x256_1_0_0_1_n_n.lhsIdx i k 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem matmul_512_256_apply_lhs1 (i : S1024x256.Idx) (k : dot_S1024x512_S512x256_S1024x256_1_0_0_1_n_n.contr.Idx) : (dot_S1024x512_S512x256_S1024x256_1_0_0_1_n_n.lhsIdx i k 1).val = (k ⟨0, by decide⟩).val :=
  dot_S1024x512_S512x256_S1024x256_1_0_0_1_n_n.lhsIdx_val_of_single rfl i k
theorem matmul_512_256_apply_rhs0 (i : S1024x256.Idx) (k : dot_S1024x512_S512x256_S1024x256_1_0_0_1_n_n.contr.Idx) : (dot_S1024x512_S512x256_S1024x256_1_0_0_1_n_n.rhsIdx i k 0).val = (k ⟨0, by decide⟩).val :=
  dot_S1024x512_S512x256_S1024x256_1_0_0_1_n_n.rhsIdx_val_of_single rfl i k
theorem matmul_512_256_apply_rhs1 (i : S1024x256.Idx) (k : dot_S1024x512_S512x256_S1024x256_1_0_0_1_n_n.contr.Idx) : (dot_S1024x512_S512x256_S1024x256_1_0_0_1_n_n.rhsIdx i k 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The [1024, 512] × [512, 256] product into the zero matrix, at (p, q): row p of the left operand against column q of the
    right one. -/
theorem matmul_512_256_apply (l : FVec Ideal S1024x512 .bf16) (r : FVec Ideal S512x256 .bf16) (p : Fin 1024) (q : Fin 256) :
    matmul dot_S1024x512_S512x256_S1024x256_1_0_0_1_n_n none l r (constant (F := Ideal) S1024x256 .f32 0x00000000#32) (ix2 p q)
      = ∑ k : Fin 512, l (ix2 p k) * r (ix2 k q) := by
  show FloatOps.matmul dot_S1024x512_S512x256_S1024x256_1_0_0_1_n_n none l r (constant (F := Ideal) S1024x256 .f32 0x00000000#32) (ix2 p q) = _
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 p q) ((contrEquiv1 dot_S1024x512_S512x256_S1024x256_1_0_0_1_n_n 512 rfl rfl).symm k) = ix2 p k := funext fun a => Fin.ext (by
    match a with
    | ⟨0, _⟩ => exact matmul_512_256_apply_lhs0 _ _
    | ⟨1, _⟩ => exact (matmul_512_256_apply_lhs1 _ _).trans hk)
  have er : dot_S1024x512_S512x256_S1024x256_1_0_0_1_n_n.rhsIdx (ix2 p q) ((contrEquiv1 dot_S1024x512_S512x256_S1024x256_1_0_0_1_n_n 512 rfl rfl).symm k) = ix2 k q := funext fun a => Fin.ext (by
    match a with
    | ⟨0, _⟩ => exact (matmul_512_256_apply_rhs0 _ _).trans hk
    | ⟨1, _⟩ => exact matmul_512_256_apply_rhs1 _ _)
  rw [el, er]

theorem matmul_256_512_apply_lhs0 (i : S1024x512.Idx) (k : dot_S1024x256_S256x512_S1024x512_1_0_0_1_n_n.contr.Idx) : (dot_S1024x256_S256x512_S1024x512_1_0_0_1_n_n.lhsIdx i k 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem matmul_256_512_apply_lhs1 (i : S1024x512.Idx) (k : dot_S1024x256_S256x512_S1024x512_1_0_0_1_n_n.contr.Idx) : (dot_S1024x256_S256x512_S1024x512_1_0_0_1_n_n.lhsIdx i k 1).val = (k ⟨0, by decide⟩).val :=
  dot_S1024x256_S256x512_S1024x512_1_0_0_1_n_n.lhsIdx_val_of_single rfl i k
theorem matmul_256_512_apply_rhs0 (i : S1024x512.Idx) (k : dot_S1024x256_S256x512_S1024x512_1_0_0_1_n_n.contr.Idx) : (dot_S1024x256_S256x512_S1024x512_1_0_0_1_n_n.rhsIdx i k 0).val = (k ⟨0, by decide⟩).val :=
  dot_S1024x256_S256x512_S1024x512_1_0_0_1_n_n.rhsIdx_val_of_single rfl i k
theorem matmul_256_512_apply_rhs1 (i : S1024x512.Idx) (k : dot_S1024x256_S256x512_S1024x512_1_0_0_1_n_n.contr.Idx) : (dot_S1024x256_S256x512_S1024x512_1_0_0_1_n_n.rhsIdx i k 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The [1024, 256] × [256, 512] product into the zero matrix, at (p, q): row p of the left operand against column q of the
    right one. -/
theorem matmul_256_512_apply (l : FVec Ideal S1024x256 .bf16) (r : FVec Ideal S256x512 .bf16) (p : Fin 1024) (q : Fin 512) :
    matmul dot_S1024x256_S256x512_S1024x512_1_0_0_1_n_n none l r (constant (F := Ideal) S1024x512 .f32 0x00000000#32) (ix2 p q)
      = ∑ k : Fin 256, l (ix2 p k) * r (ix2 k q) := by
  show FloatOps.matmul dot_S1024x256_S256x512_S1024x512_1_0_0_1_n_n none l r (constant (F := Ideal) S1024x512 .f32 0x00000000#32) (ix2 p q) = _
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun a => Fin.ext (by
    match a with
    | ⟨0, _⟩ => exact matmul_256_512_apply_lhs0 _ _
    | ⟨1, _⟩ => exact (matmul_256_512_apply_lhs1 _ _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun a => Fin.ext (by
    match a with
    | ⟨0, _⟩ => exact (matmul_256_512_apply_rhs0 _ _).trans hk
    | ⟨1, _⟩ => exact matmul_256_512_apply_rhs1 _ _)
  rw [el, er]

theorem matmul_512_1024_apply_lhs0 (i : S1024x1024.Idx) (k : dot_S1024x512_S512x1024_S1024x1024_1_0_0_1_n_n.contr.Idx) : (dot_S1024x512_S512x1024_S1024x1024_1_0_0_1_n_n.lhsIdx i k 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem matmul_512_1024_apply_lhs1 (i : S1024x1024.Idx) (k : dot_S1024x512_S512x1024_S1024x1024_1_0_0_1_n_n.contr.Idx) : (dot_S1024x512_S512x1024_S1024x1024_1_0_0_1_n_n.lhsIdx i k 1).val = (k ⟨0, by decide⟩).val :=
  dot_S1024x512_S512x1024_S1024x1024_1_0_0_1_n_n.lhsIdx_val_of_single rfl i k
theorem matmul_512_1024_apply_rhs0 (i : S1024x1024.Idx) (k : dot_S1024x512_S512x1024_S1024x1024_1_0_0_1_n_n.contr.Idx) : (dot_S1024x512_S512x1024_S1024x1024_1_0_0_1_n_n.rhsIdx i k 0).val = (k ⟨0, by decide⟩).val :=
  dot_S1024x512_S512x1024_S1024x1024_1_0_0_1_n_n.rhsIdx_val_of_single rfl i k
theorem matmul_512_1024_apply_rhs1 (i : S1024x1024.Idx) (k : dot_S1024x512_S512x1024_S1024x1024_1_0_0_1_n_n.contr.Idx) : (dot_S1024x512_S512x1024_S1024x1024_1_0_0_1_n_n.rhsIdx i k 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The [1024, 512] × [512, 1024] product into the zero matrix, at (p, q): row p of the left operand against column q of the
    right one. -/
theorem matmul_512_1024_apply (l : FVec Ideal S1024x512 .bf16) (r : FVec Ideal S512x1024 .bf16) (p : Fin 1024) (q : Fin 1024) :
    matmul dot_S1024x512_S512x1024_S1024x1024_1_0_0_1_n_n none l r (constant (F := Ideal) S1024x1024 .f32 0x00000000#32) (ix2 p q)
      = ∑ k : Fin 512, l (ix2 p k) * r (ix2 k q) := by
  show FloatOps.matmul dot_S1024x512_S512x1024_S1024x1024_1_0_0_1_n_n none l r (constant (F := Ideal) S1024x1024 .f32 0x00000000#32) (ix2 p q) = _
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact matmul_512_1024_apply_lhs0 _ _
    | ⟨1, _⟩ => exact (matmul_512_1024_apply_lhs1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (matmul_512_1024_apply_rhs0 _ _).trans hk
    | ⟨1, _⟩ => exact matmul_512_1024_apply_rhs1 _ _)
  rw [el, er]

end Cert.KernelIdeal.Stage1

end
-- ==== Proof.K1Pay.lean ====
/-
  The second stage's body, read at an index.

  The body works on 1024 rows: row (t, u) — t one of the tile's 16 t-rows, u one of the 64 u-rows — is row t · 64 + u.
  Its four payloads, each at a row (t, u) and a column:
  * the attention block with its unit axis dropped;
  * the t row of the first block plus the u row of the second, normalised and clipped;
  * that, times the second layer's matrix plus its bias, normalised and clipped, times the third layer's matrix, plus
    the attention block's u row;
  * that, normalised and clipped, times the output matrix plus its bias, scaled column by column.
  The layer normalisations are read by the block lemma, the products by the three product lemmas, the reshapes between
  [16, 64, ·] and [1024, ·] by the row-major offset t · 64 + u.
-/
import proofs.«140755_j31396210934102_2_alg».proof.Proof.Gen.KernelIdeal.Skeleton
import proofs.«140755_j31396210934102_2_alg».proof.Proof.KLn
import proofs.«140755_j31396210934102_2_alg».proof.Proof.K1Layout
import proofs.«140755_j31396210934102_2_alg».proof.Proof.K1Matmul

noncomputable section

open scoped BigOperators

namespace Cert.KernelIdeal.Stage1

open Cert.KernelIdeal Cert.KernelIdeal.Gen Cert.JointNet Idealize.ShloMosaic Idealize.ShloMosaic.ValueIdx

/-- The attention block with its unit axis dropped. -/
theorem pay1_apply (x2 : Vec Ideal S1x64x512 .f32) (u : Fin 64) (o : Fin 512) :
    k1_pay1 (F := Ideal) x2 (ix2 u o) = x2 (ix3 (0 : Fin 1) u o) := by
  unfold k1_pay1
  exact shapeCast_1ab_ab_apply _ _ u o

/-- The first layer: row (t, u) is the t row plus the u row, normalised and clipped. -/
theorem pay2_apply (x0 : Vec Ideal S1x16x512 .f32) (x1 : Vec Ideal S1x64x512 .f32) (g b : Vec Ideal S512 .f32)
    (t : Fin 16) (u : Fin 64) (q : Fin 512) :
    k1_pay2 (F := Ideal) x0 x1 g b (ix2 (row t u) q)
      = lnRelu n512 eps (fun k => x0 (ix3 (0 : Fin 1) t k) + x1 (ix3 (0 : Fin 1) u k)) (fun k => g (ix1 k)) (fun k => b (ix1 k)) q := by
  unfold k1_pay2
  refine (truncf_apply (φ := .f32) (ψ := .bf16) _ _ _).trans ?_
  refine (kLnBlock_apply _ _ _ _ _ _ _ _ _ _ _ _ (row t u) q).trans ?_
  refine congrFun (lnRelu_congr _ _ _ _ fun k => ?_) q
  refine (cast_16_64_N_apply _ _ t u k).trans ?_
  refine (addf_apply _ _ _).trans (congrArg₂ (· + ·) ?_ ?_)
  · exact (bcast_a1N_abN_apply _ _ t u k).trans ((cast_a_N_a1N_apply _ _ t 0 k).trans (shapeCast_1ab_ab_apply _ _ t k))
  · exact (bcast_1bN_abN_apply _ _ t u k).trans ((shapeCast_ab_1ab_apply _ _ 0 u k).trans (shapeCast_1ab_ab_apply _ _ u k))

/-- The second and third layers' products: row (t, u) of the first layer's result through the second layer, normalised
    and clipped, times the third layer's matrix, plus the attention block's row u. -/
theorem pay3_apply (a : FVec Ideal S64x512 .f32) (f : FVec Ideal S1024x512 .bf16) (W : Vec Ideal S512x256 .bf16)
    (bias g b : Vec Ideal S256 .f32) (W' : Vec Ideal S256x512 .bf16) (t : Fin 16) (u : Fin 64) (o : Fin 512) :
    k1_pay3 (F := Ideal) a f W bias g b W' (ix2 (row t u) o)
      = (∑ k : Fin 256, lnRelu n256 eps (fun j => (∑ i : Fin 512, f (ix2 (row t u) i) * W (ix2 i j)) + bias (ix1 j))
            (fun j => g (ix1 j)) (fun j => b (ix1 j)) k * W' (ix2 k o)) + a (ix2 u o) := by
  unfold k1_pay3
  refine (cast_16_64_N_apply _ _ t u o).trans ?_
  refine (addf_apply _ _ _).trans (congrArg₂ (· + ·) ?_ ?_)
  · refine (cast_1024_N_apply _ _ t u o).trans ?_
    refine (matmul_256_512_apply _ _ (row t u) o).trans ?_
    refine Finset.sum_congr rfl fun k _ => congrArg₂ (· * ·) ?_ ?_
    · refine (truncf_apply (φ := .f32) (ψ := .bf16) _ _ _).trans ?_
      refine (kLnBlock_apply _ _ _ _ _ _ _ _ _ _ _ _ (row t u) k).trans ?_
      refine congrFun (lnRelu_congr _ _ _ _ fun j => ?_) k
      refine (addf_apply _ _ _).trans (congrArg₂ (· + ·) ?_ ?_)
      · refine (matmul_512_256_apply _ _ (row t u) j).trans ?_
        exact Finset.sum_congr rfl fun i _ => congrArg (f (ix2 (row t u) i) * ·) (congrFun (shapeCast_self W _) _)
      · exact (broadcastTo_1b_ab_apply _ _ (row t u) j).trans (shapeCast_a_1a_apply _ _ 0 j)
    · exact congrFun (shapeCast_self W' _) _
  · exact (bcast_1bN_abN_apply _ _ t u o).trans (shapeCast_ab_1ab_apply _ _ 0 u o)

/-- The output layer: row (t, u) normalised and clipped, times the output matrix plus its bias, scaled by column. -/
theorem pay4_apply (h : FVec Ideal S1024x512 .f32) (g b : Vec Ideal S512 .f32) (W : Vec Ideal S512x1024 .bf16)
    (bias s : Vec Ideal S1024 .f32) (z : Fin 1) (t : Fin 16) (u : Fin 64) (v : Fin 1024) :
    k1_pay4 (F := Ideal) h g b W bias s (ix4 z t u v)
      = ((∑ i : Fin 512, lnRelu n512 eps (fun o => h (ix2 (row t u) o)) (fun k => g (ix1 k)) (fun k => b (ix1 k)) i * W (ix2 i v))
          + bias (ix1 v)) * s (ix1 v) := by
  unfold k1_pay4
  refine (shapeCast_abc_1abc_apply _ _ z t u v).trans ?_
  refine (cast_1024_N_apply _ _ t u v).trans ?_
  refine (mulf_apply _ _ _).trans (congrArg₂ (· * ·) ?_ ?_)
  · refine (addf_apply _ _ _).trans (congrArg₂ (· + ·) ?_ ?_)
    · refine (matmul_512_1024_apply _ _ (row t u) v).trans ?_
      refine Finset.sum_congr rfl fun i _ => congrArg₂ (· * ·) ?_ ?_
      · refine (truncf_apply (φ := .f32) (ψ := .bf16) _ _ _).trans ?_
        exact kLnBlock_apply _ _ _ _ _ _ _ _ _ _ _ _ (row t u) i
      · exact congrFun (shapeCast_self W _) _
    · exact (broadcastTo_1b_ab_apply _ _ (row t u) v).trans (shapeCast_a_1a_apply _ _ 0 v)
  · exact (broadcastTo_1b_ab_apply _ _ (row t u) v).trans (shapeCast_a_1a_apply _ _ 0 v)

end Cert.KernelIdeal.Stage1

end
-- ==== Proof.K1Out.lean ====
/-
  The second stage's body is the two-stage network's last stage, block by block.

  At (t, u, v) of its result block the body's value is the specification's `kLogits` at (b, tt, u, v), whenever row t of
  the first input block is row (b, tt) of the first array, the second and third blocks are batch b of their arrays, and
  the twelve weight blocks are the weight arrays. Each layer is unfolded in turn and the rows are matched by the
  normalisation's congruence.
-/
import proofs.«140755_j31396210934102_2_alg».proof.Proof.K1Pay

noncomputable section

open scoped BigOperators

namespace Cert.KernelIdeal.Stage1

open Cert.KernelIdeal Cert.KernelIdeal.Gen Cert.JointNet Idealize.ShloMosaic Idealize.ShloMosaic.ValueIdx

theorem out_eq_kLogits
    (ef : FVec Ideal ⟨3, ![8, 128, 512]⟩ .f32) (df ah : FVec Ideal ⟨3, ![8, 64, 512]⟩ .f32)
    (gf1 bnf1 : FVec Ideal ⟨1, ![512]⟩ .f32)
    (Wf2T : FVec Ideal ⟨2, ![512, 256]⟩ .bf16) (bf2 gf2 bnf2 : FVec Ideal ⟨1, ![256]⟩ .f32)
    (W1aT : FVec Ideal ⟨2, ![256, 512]⟩ .bf16) (g1 bn1 : FVec Ideal ⟨1, ![512]⟩ .f32)
    (W2T : FVec Ideal ⟨2, ![512, 1024]⟩ .bf16) (b2 ssw : FVec Ideal ⟨1, ![1024]⟩ .f32)
    (x0 : Vec Ideal S1x16x512 .f32) (x1 x2 : Vec Ideal S1x64x512 .f32) (x3 x4 : Vec Ideal S512 .f32)
    (x5 : Vec Ideal S512x256 .bf16) (x6 x7 x8 : Vec Ideal S256 .f32) (x9 : Vec Ideal S256x512 .bf16)
    (x10 x11 : Vec Ideal S512 .f32) (x12 : Vec Ideal S512x1024 .bf16) (x13 x14 : Vec Ideal S1024 .f32)
    (bb : Fin 8) (tt : Fin 128) (z : Fin 1) (t : Fin 16) (u : Fin 64) (v : Fin 1024)
    (h0 : ∀ q : Fin 512, x0 (ix3 (0 : Fin 1) t q) = ef (ix3 bb tt q))
    (h1 : ∀ (u : Fin 64) (q : Fin 512), x1 (ix3 (0 : Fin 1) u q) = df (ix3 bb u q))
    (h2 : ∀ (u : Fin 64) (q : Fin 512), x2 (ix3 (0 : Fin 1) u q) = ah (ix3 bb u q))
    (h3 : ∀ y, x3 y = gf1 y) (h4 : ∀ y, x4 y = bnf1 y) (h5 : ∀ y, x5 y = Wf2T y) (h6 : ∀ y, x6 y = bf2 y)
    (h7 : ∀ y, x7 y = gf2 y) (h8 : ∀ y, x8 y = bnf2 y) (h9 : ∀ y, x9 y = W1aT y) (h10 : ∀ y, x10 y = g1 y)
    (h11 : ∀ y, x11 y = bn1 y) (h12 : ∀ y, x12 y = W2T y) (h13 : ∀ y, x13 y = b2 y) (h14 : ∀ y, x14 y = ssw y) :
    k1_pay4 (F := Ideal) (k1_pay3 (k1_pay1 x2) (k1_pay2 x0 x1 x3 x4) x5 x6 x7 x8 x9) x10 x11 x12 x13 x14 (ix4 z t u v)
      = kLogits ef df ah gf1 bnf1 Wf2T bf2 gf2 bnf2 W1aT g1 bn1 W2T b2 ssw (ix4 bb tt u v) := by
  obtain rfl : x3 = gf1 := funext h3
  obtain rfl : x4 = bnf1 := funext h4
  obtain rfl : x5 = Wf2T := funext h5
  obtain rfl : x6 = bf2 := funext h6
  obtain rfl : x7 = gf2 := funext h7
  obtain rfl : x8 = bnf2 := funext h8
  obtain rfl : x9 = W1aT := funext h9
  obtain rfl : x10 = g1 := funext h10
  obtain rfl : x11 = bn1 := funext h11
  obtain rfl : x12 = W2T := funext h12
  obtain rfl : x13 = b2 := funext h13
  obtain rfl : x14 = ssw := funext h14
  refine (pay4_apply _ _ _ _ _ _ z t u v).trans ?_
  show _ = ((∑ i : Fin 512, kH ef df ah x3 x4 x5 x6 x7 x8 x9 x10 x11 bb tt u i * x12 (ix2 i v)) + x13 (ix1 v)) * x14 (ix1 v)
  refine congrArg (fun s => (s + x13 (ix1 v)) * x14 (ix1 v)) (Finset.sum_congr rfl fun i _ => congrArg (· * x12 (ix2 i v)) ?_)
  unfold kH
  refine congrFun (lnRelu_congr _ _ _ _ fun o => ?_) i
  refine (pay3_apply _ _ _ _ _ _ _ t u o).trans ?_
  refine congrArg₂ (· + ·) (Finset.sum_congr rfl fun k _ => congrArg (· * x9 (ix2 k o)) ?_) ((pay1_apply x2 u o).trans (h2 u o))
  unfold kFused
  refine congrFun (lnRelu_congr _ _ _ _ fun j => ?_) k
  refine congrArg (· + x6 (ix1 j)) (Finset.sum_congr rfl fun i' _ => congrArg (· * x5 (ix2 i' j)) ?_)
  refine (pay2_apply _ _ _ _ t u i').trans ?_
  unfold kF
  refine congrFun (lnRelu_congr _ _ _ _ fun q => ?_) i'
  rw [h0 q, h1 u q]

/-- The same at any index of the result block, written by its coordinates. -/
theorem out_eq_kLogits'
    (ef : FVec Ideal ⟨3, ![8, 128, 512]⟩ .f32) (df ah : FVec Ideal ⟨3, ![8, 64, 512]⟩ .f32)
    (gf1 bnf1 : FVec Ideal ⟨1, ![512]⟩ .f32)
    (Wf2T : FVec Ideal ⟨2, ![512, 256]⟩ .bf16) (bf2 gf2 bnf2 : FVec Ideal ⟨1, ![256]⟩ .f32)
    (W1aT : FVec Ideal ⟨2, ![256, 512]⟩ .bf16) (g1 bn1 : FVec Ideal ⟨1, ![512]⟩ .f32)
    (W2T : FVec Ideal ⟨2, ![512, 1024]⟩ .bf16) (b2 ssw : FVec Ideal ⟨1, ![1024]⟩ .f32)
    (x0 : Vec Ideal S1x16x512 .f32) (x1 x2 : Vec Ideal S1x64x512 .f32) (x3 x4 : Vec Ideal S512 .f32)
    (x5 : Vec Ideal S512x256 .bf16) (x6 x7 x8 : Vec Ideal S256 .f32) (x9 : Vec Ideal S256x512 .bf16)
    (x10 x11 : Vec Ideal S512 .f32) (x12 : Vec Ideal S512x1024 .bf16) (x13 x14 : Vec Ideal S1024 .f32)
    (bb : Fin 8) (tt : Fin 128) (y : S1x16x64x1024.Idx)
    (h0 : ∀ q : Fin 512, x0 (ix3 (0 : Fin 1) (y 1) q) = ef (ix3 bb tt q))
    (h1 : ∀ (u : Fin 64) (q : Fin 512), x1 (ix3 (0 : Fin 1) u q) = df (ix3 bb u q))
    (h2 : ∀ (u : Fin 64) (q : Fin 512), x2 (ix3 (0 : Fin 1) u q) = ah (ix3 bb u q))
    (h3 : ∀ y, x3 y = gf1 y) (h4 : ∀ y, x4 y = bnf1 y) (h5 : ∀ y, x5 y = Wf2T y) (h6 : ∀ y, x6 y = bf2 y)
    (h7 : ∀ y, x7 y = gf2 y) (h8 : ∀ y, x8 y = bnf2 y) (h9 : ∀ y, x9 y = W1aT y) (h10 : ∀ y, x10 y = g1 y)
    (h11 : ∀ y, x11 y = bn1 y) (h12 : ∀ y, x12 y = W2T y) (h13 : ∀ y, x13 y = b2 y) (h14 : ∀ y, x14 y = ssw y) :
    k1_pay4 (F := Ideal) (k1_pay3 (k1_pay1 x2) (k1_pay2 x0 x1 x3 x4) x5 x6 x7 x8 x9) x10 x11 x12 x13 x14 y
      = kLogits ef df ah gf1 bnf1 Wf2T bf2 gf2 bnf2 W1aT g1 bn1 W2T b2 ssw (ix4 bb tt (y 2) (y 3)) := by
  obtain ⟨z, t, u, v, rfl⟩ : ∃ (z : Fin 1) (t : Fin 16) (u : Fin 64) (v : Fin 1024), y = ix4 z t u v := ⟨y 0, y 1, y 2, y 3, eq_ix4 y⟩
  exact out_eq_kLogits ef df ah gf1 bnf1 Wf2T bf2 gf2 bnf2 W1aT g1 bn1 W2T b2 ssw x0 x1 x2 x3 x4 x5 x6 x7 x8 x9 x10 x11 x12 x13 x14
    bb tt z t u v h0 h1 h2 h3 h4 h5 h6 h7 h8 h9 h10 h11 h12 h13 h14

end Cert.KernelIdeal.Stage1

end
-- ==== Proof.K1Blocks.lean ====
/-
  From the second stage's blocks to its result array.

  The grid has 64 points; point t works on batch t / 8 and on the tile t % 8 of sixteen t-rows. Its first input block is
  rows 16 · (t % 8) … of batch t / 8 of the first array, its second and third input blocks are batch t / 8 of their
  arrays, its twelve weight blocks are the whole weight arrays, and its result block is rows 16 · (t % 8) … of batch t / 8
  of the result array (all decided over the grid). So what point t writes back is that block of `kLogits` of the arrays
  as the region finds them; the blocks cover the result array — entry (b, tt, u, v) lies in the block of point
  b · 8 + tt / 16 —, hence the array after the run is `kLogits` of the arrays at entry.
-/
import proofs.«140755_j31396210934102_2_alg».proof.Proof.Gen.KernelIdeal.Frame
import proofs.«140755_j31396210934102_2_alg».proof.Proof.K1Out
import Idealize.ShloMosaic.Lib.Pipeline.Value

set_option maxRecDepth 16384

noncomputable section

namespace Cert.KernelIdeal.Stage1

open Cert.KernelIdeal Cert.KernelIdeal.Gen Cert.JointNet Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The last stage of the two-stage network, of the arrays as the region finds them. -/
abbrev G (c : Dev nD) : FVec Ideal ⟨4, ![8, 128, 64, 1024]⟩ .f32 :=
  kLogits (V c main_v14_0) (V c main_v14_1) (V c main_v14_2) (V c main_arg12) (V c main_arg13) (V c main_v16) (V c main_arg15)
    (V c main_arg16) (V c main_arg17) (V c main_v18) (V c main_arg24) (V c main_arg25) (V c main_v20) (V c main_arg27) (V c main_arg28)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps of the result window and of the three moving input windows, decided over the grid. -/
theorem idx_facts : ∀ t : Fin cfg1.N,
      win1_15.index t (0 : Fin 4) = t.val / 8 ∧ win1_15.index t (1 : Fin 4) = t.val % 8
    ∧ win1_15.index t (2 : Fin 4) = 0 ∧ win1_15.index t (3 : Fin 4) = 0
    ∧ win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0 :=
  (by decide +kernel : ∀ t : Fin grid1.N, _)

/-- The weight windows' index maps are constantly zero. -/
theorem idx_facts_w : ∀ t : Fin cfg1.N,
      win1_3.index t (0 : Fin 1) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 1) = 0
    ∧ win1_8.index t (0 : Fin 1) = 0
    ∧ win1_9.index t (0 : Fin 2) = 0 ∧ win1_9.index t (1 : Fin 2) = 0
    ∧ win1_10.index t (0 : Fin 1) = 0
    ∧ win1_11.index t (0 : Fin 1) = 0
    ∧ win1_12.index t (0 : Fin 2) = 0 ∧ win1_12.index t (1 : Fin 2) = 0
    ∧ win1_13.index t (0 : Fin 1) = 0
    ∧ win1_14.index t (0 : Fin 1) = 0 :=
  (by decide +kernel : ∀ t : Fin grid1.N, _)

theorem N_eq : cfg1.N = 64 := N_1

/-- The batch a point works on. -/
def pb (t : Fin cfg1.N) : Fin 8 := ⟨t.val / 8, by have := t.isLt; have h := N_eq; omega⟩
/-- Row t' of a point's tile as a row of the first array. -/
def ptt (t : Fin cfg1.N) (t' : Fin 16) : Fin 128 := ⟨t.val % 8 * 16 + t'.val, by have := t'.isLt; omega⟩

/-! ## The input blocks, read where the region finds them -/

theorem blk0_apply (c : Dev nD) (t : Fin cfg1.N) (y : S1x16x512.Idx) :
    iblk1 V c 0 t y = V c main_v14_0 (ix3 (pb t) (ptt t (y 1)) (y 2)) := by
  show V c main_v14_0 (((cfg1.win 0).blk t).view.emb y) = _
  refine congrArg (V c main_v14_0) (funext fun a => Fin.ext ?_)
  obtain ⟨-, -, -, -, e0, e1, e2, -⟩ := idx_facts t
  match a with
  | ⟨0, _⟩ => show win1_0.index t (0 : Fin 3) * 1 + 1 * (y 0).val = t.val / 8; have : (y 0).val < 1 := (y 0).isLt; omega
  | ⟨1, _⟩ => show win1_0.index t (1 : Fin 3) * 16 + 1 * (y 1).val = t.val % 8 * 16 + (y 1).val; omega
  | ⟨2, _⟩ => show win1_0.index t (2 : Fin 3) * 512 + 1 * (y 2).val = (y 2).val; omega

theorem blk1_apply (c : Dev nD) (t : Fin cfg1.N) (y : S1x64x512.Idx) :
    iblk1 V c 1 t y = V c main_v14_1 (ix3 (pb t) (y 1) (y 2)) := by
  show V c main_v14_1 (((cfg1.win 1).blk t).view.emb y) = _
  refine congrArg (V c main_v14_1) (funext fun a => Fin.ext ?_)
  obtain ⟨-, -, -, -, -, -, -, e0, e1, e2, -⟩ := idx_facts t
  match a with
  | ⟨0, _⟩ => show win1_1.index t (0 : Fin 3) * 1 + 1 * (y 0).val = t.val / 8; have : (y 0).val < 1 := (y 0).isLt; omega
  | ⟨1, _⟩ => show win1_1.index t (1 : Fin 3) * 64 + 1 * (y 1).val = (y 1).val; omega
  | ⟨2, _⟩ => show win1_1.index t (2 : Fin 3) * 512 + 1 * (y 2).val = (y 2).val; omega

theorem blk2_apply (c : Dev nD) (t : Fin cfg1.N) (y : S1x64x512.Idx) :
    iblk1 V c 2 t y = V c main_v14_2 (ix3 (pb t) (y 1) (y 2)) := by
  show V c main_v14_2 (((cfg1.win 2).blk t).view.emb y) = _
  refine congrArg (V c main_v14_2) (funext fun a => Fin.ext ?_)
  obtain ⟨-, -, -, -, -, -, -, -, -, -, e0, e1, e2⟩ := idx_facts t
  match a with
  | ⟨0, _⟩ => show win1_2.index t (0 : Fin 3) * 1 + 1 * (y 0).val = t.val / 8; have : (y 0).val < 1 := (y 0).isLt; omega
  | ⟨1, _⟩ => show win1_2.index t (1 : Fin 3) * 64 + 1 * (y 1).val = (y 1).val; omega
  | ⟨2, _⟩ => show win1_2.index t (2 : Fin 3) * 512 + 1 * (y 2).val = (y 2).val; omega

theorem blk3_apply (c : Dev nD) (t : Fin cfg1.N) (y : S512.Idx) : iblk1 V c 3 t y = V c main_arg12 y := by
  show V c main_arg12 (((cfg1.win 3).blk t).view.emb y) = _
  refine congrArg (V c main_arg12) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_3.index t (0 : Fin 1) * 512 + 1 * (y 0).val = (y 0).val; omega

theorem blk4_apply (c : Dev nD) (t : Fin cfg1.N) (y : S512.Idx) : iblk1 V c 4 t y = V c main_arg13 y := by
  show V c main_arg13 (((cfg1.win 4).blk t).view.emb y) = _
  refine congrArg (V c main_arg13) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_4.index t (0 : Fin 1) * 512 + 1 * (y 0).val = (y 0).val; omega

theorem blk5_apply (c : Dev nD) (t : Fin cfg1.N) (y : S512x256.Idx) : iblk1 V c 5 t y = V c main_v16 y := by
  show V c main_v16 (((cfg1.win 5).blk t).view.emb y) = _
  refine congrArg (V c main_v16) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_5.index t (0 : Fin 2) * 512 + 1 * (y 0).val = (y 0).val; omega
  | ⟨1, _⟩ => show win1_5.index t (1 : Fin 2) * 256 + 1 * (y 1).val = (y 1).val; omega

theorem blk6_apply (c : Dev nD) (t : Fin cfg1.N) (y : S256.Idx) : iblk1 V c 6 t y = V c main_arg15 y := by
  show V c main_arg15 (((cfg1.win 6).blk t).view.emb y) = _
  refine congrArg (V c main_arg15) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_6.index t (0 : Fin 1) * 256 + 1 * (y 0).val = (y 0).val; omega

theorem blk7_apply (c : Dev nD) (t : Fin cfg1.N) (y : S256.Idx) : iblk1 V c 7 t y = V c main_arg16 y := by
  show V c main_arg16 (((cfg1.win 7).blk t).view.emb y) = _
  refine congrArg (V c main_arg16) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_7.index t (0 : Fin 1) * 256 + 1 * (y 0).val = (y 0).val; omega

theorem blk8_apply (c : Dev nD) (t : Fin cfg1.N) (y : S256.Idx) : iblk1 V c 8 t y = V c main_arg17 y := by
  show V c main_arg17 (((cfg1.win 8).blk t).view.emb y) = _
  refine congrArg (V c main_arg17) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_8.index t (0 : Fin 1) * 256 + 1 * (y 0).val = (y 0).val; omega

theorem blk9_apply (c : Dev nD) (t : Fin cfg1.N) (y : S256x512.Idx) : iblk1 V c 9 t y = V c main_v18 y := by
  show V c main_v18 (((cfg1.win 9).blk t).view.emb y) = _
  refine congrArg (V c main_v18) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_9.index t (0 : Fin 2) * 256 + 1 * (y 0).val = (y 0).val; omega
  | ⟨1, _⟩ => show win1_9.index t (1 : Fin 2) * 512 + 1 * (y 1).val = (y 1).val; omega

theorem blk10_apply (c : Dev nD) (t : Fin cfg1.N) (y : S512.Idx) : iblk1 V c 10 t y = V c main_arg24 y := by
  show V c main_arg24 (((cfg1.win 10).blk t).view.emb y) = _
  refine congrArg (V c main_arg24) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_10.index t (0 : Fin 1) * 512 + 1 * (y 0).val = (y 0).val; omega

theorem blk11_apply (c : Dev nD) (t : Fin cfg1.N) (y : S512.Idx) : iblk1 V c 11 t y = V c main_arg25 y := by
  show V c main_arg25 (((cfg1.win 11).blk t).view.emb y) = _
  refine congrArg (V c main_arg25) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_11.index t (0 : Fin 1) * 512 + 1 * (y 0).val = (y 0).val; omega

theorem blk12_apply (c : Dev nD) (t : Fin cfg1.N) (y : S512x1024.Idx) : iblk1 V c 12 t y = V c main_v20 y := by
  show V c main_v20 (((cfg1.win 12).blk t).view.emb y) = _
  refine congrArg (V c main_v20) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_12.index t (0 : Fin 2) * 512 + 1 * (y 0).val = (y 0).val; omega
  | ⟨1, _⟩ => show win1_12.index t (1 : Fin 2) * 1024 + 1 * (y 1).val = (y 1).val; omega

theorem blk13_apply (c : Dev nD) (t : Fin cfg1.N) (y : S1024.Idx) : iblk1 V c 13 t y = V c main_arg27 y := by
  show V c main_arg27 (((cfg1.win 13).blk t).view.emb y) = _
  refine congrArg (V c main_arg27) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_13.index t (0 : Fin 1) * 1024 + 1 * (y 0).val = (y 0).val; omega

theorem blk14_apply (c : Dev nD) (t : Fin cfg1.N) (y : S1024.Idx) : iblk1 V c 14 t y = V c main_arg28 y := by
  show V c main_arg28 (((cfg1.win 14).blk t).view.emb y) = _
  refine congrArg (V c main_arg28) (funext fun a => Fin.ext ?_)
  obtain ⟨w3_0, w4_0, w5_0, w5_1, w6_0, w7_0, w8_0, w9_0, w9_1, w10_0, w11_0, w12_0, w12_1, w13_0, w14_0⟩ := idx_facts_w t
  match a with
  | ⟨0, _⟩ => show win1_14.index t (0 : Fin 1) * 1024 + 1 * (y 0).val = (y 0).val; omega

/-! ## What a point writes back -/

/-- What point `t` writes back is block `t` of `G`. -/
theorem flushed_eq (c : Dev nD) (t : Fin cfg1.N) :
    (dat1 V c).flushed 15 t = ((cfg1.win 15).blk t).view.read (Elt Ideal) (G V c) := by
  show (cfg1.win 15).cut (grid1.coords t) ((dat1 V c).after 15 t) = _
  rw [after1_15]
  unfold out1_15
  rw [View.canon_unit_zero hz4]
  simp only [View.ld_unit_zero (S := S1x16x512) hz3, View.ld_unit_zero (S := S1x64x512) hz3, View.ld_unit_zero (S := S512) hz1,
    View.ld_unit_zero (S := S512x256) hz2, View.ld_unit_zero (S := S256) hz1, View.ld_unit_zero (S := S256x512) hz2,
    View.ld_unit_zero (S := S512x1024) hz2, View.ld_unit_zero (S := S1024) hz1]
  funext y
  refine (out_eq_kLogits' (V c main_v14_0) (V c main_v14_1) (V c main_v14_2) (V c main_arg12) (V c main_arg13) (V c main_v16)
    (V c main_arg15) (V c main_arg16) (V c main_arg17) (V c main_v18) (V c main_arg24) (V c main_arg25) (V c main_v20)
    (V c main_arg27) (V c main_arg28)
    (iblk1 V c 0 t) (iblk1 V c 1 t) (iblk1 V c 2 t) (iblk1 V c 3 t) (iblk1 V c 4 t) (iblk1 V c 5 t) (iblk1 V c 6 t) (iblk1 V c 7 t)
    (iblk1 V c 8 t) (iblk1 V c 9 t) (iblk1 V c 10 t) (iblk1 V c 11 t) (iblk1 V c 12 t) (iblk1 V c 13 t) (iblk1 V c 14 t)
    (pb t) (ptt t (y 1)) y
    (fun q => blk0_apply V c t _) (fun u q => blk1_apply V c t _) (fun u q => blk2_apply V c t _)
    (blk3_apply V c t) (blk4_apply V c t) (blk5_apply V c t) (blk6_apply V c t) (blk7_apply V c t) (blk8_apply V c t)
    (blk9_apply V c t) (blk10_apply V c t) (blk11_apply V c t) (blk12_apply V c t) (blk13_apply V c t) (blk14_apply V c t)).trans ?_
  show G V c (ix4 (pb t) (ptt t (y 1)) (y 2) (y 3)) = G V c (((cfg1.win 15).blk t).view.emb y)
  refine congrArg (G V c) (funext fun a => Fin.ext ?_)
  obtain ⟨e0, e1, e2, e3, -⟩ := idx_facts t
  match a with
  | ⟨0, _⟩ => show t.val / 8 = win1_15.index t (0 : Fin 4) * 1 + 1 * (y 0).val; have : (y 0).val < 1 := (y 0).isLt; omega
  | ⟨1, _⟩ => show t.val % 8 * 16 + (y 1).val = win1_15.index t (1 : Fin 4) * 16 + 1 * (y 1).val; omega
  | ⟨2, _⟩ => show (y 2).val = win1_15.index t (2 : Fin 4) * 64 + 1 * (y 2).val; omega
  | ⟨3, _⟩ => show (y 3).val = win1_15.index t (3 : Fin 4) * 1024 + 1 * (y 3).val; omega

/-! ## The blocks cover the array -/

/-- An index of the result array is in point `t`'s block iff each coordinate is in the block's range on its axis. -/
theorem mem_blk (t : Fin cfg1.N) (i : S8x128x64x1024.Idx) :
    i ∈ ((cfg1.win 15).blk t).view.set ↔ ∀ a : Fin 4, win1_15.index t a * S1x16x64x1024.size a ≤ (i a).val ∧ (i a).val < win1_15.index t a * S1x16x64x1024.size a + S1x16x64x1024.size a := by
  show i ∈ ((View.whole main_v21).slice (win1_15.rect t)).set ↔ _
  rw [View.set_slice_whole, Rect.mem_set_unit]
  exact Iff.rfl

/-- Entry (b, tt, u, v) lies in the block of point b · 8 + tt / 16. -/
theorem cover (i : S8x128x64x1024.Idx) :
    ∃ t : Fin cfg1.N, (cfg1.win 15).flush t = true ∧ i ∈ ((cfg1.win 15).blk t).view.set := by
  have h0 : (i 0).val < 8 := (i 0).isLt
  have h1 : (i 1).val < 128 := (i 1).isLt
  have h2 : (i 2).val < 64 := (i 2).isLt
  have h3 : (i 3).val < 1024 := (i 3).isLt
  obtain ⟨t, ht⟩ : ∃ t : Fin cfg1.N, t.val = (i 0).val * 8 + (i 1).val / 16 :=
    ⟨⟨(i 0).val * 8 + (i 1).val / 16, by rw [N_eq]; omega⟩, rfl⟩
  refine ⟨t, flush1_15 t, ?_⟩
  rw [mem_blk]
  obtain ⟨e0, e1, e2, e3, -⟩ := idx_facts t
  intro a
  match a with
  | ⟨0, _⟩ => show win1_15.index t (0 : Fin 4) * 1 ≤ (i 0).val ∧ (i 0).val < win1_15.index t (0 : Fin 4) * 1 + 1; omega
  | ⟨1, _⟩ => show win1_15.index t (1 : Fin 4) * 16 ≤ (i 1).val ∧ (i 1).val < win1_15.index t (1 : Fin 4) * 16 + 16; omega
  | ⟨2, _⟩ => show win1_15.index t (2 : Fin 4) * 64 ≤ (i 2).val ∧ (i 2).val < win1_15.index t (2 : Fin 4) * 64 + 64; omega
  | ⟨3, _⟩ => show win1_15.index t (3 : Fin 4) * 1024 ≤ (i 3).val ∧ (i 3).val < win1_15.index t (3 : Fin 4) * 1024 + 1024; omega

/-! ## The array after the run -/

/-- The result array after the second stage's run is `kLogits` of the arrays as the stage finds them. -/
theorem final (c : Dev nD) : (dat1 V c).arrAt 15 cfg1.N = G V c :=
  (dat1 V c).arrAt_eq_of_cover 15 (G V c) (fun t _ => flushed_eq V c t) (cover)

end Cert.KernelIdeal.Stage1

end
-- ==== Proof.K1Final.lean ====
/-
  The second stage's result array after its run is the last stage of the two-stage network, of the arrays as the stage
  finds them: the statement of the blocks-to-array module with the specification written out.
-/
import proofs.«140755_j31396210934102_2_alg».proof.Proof.K1Blocks

noncomputable section

namespace Cert.KernelIdeal.Stage1

open Cert.KernelIdeal Cert.KernelIdeal.Gen Idealize.ShloMosaic Idealize.ShloMosaic.TcCoe Idealize.SL.Sem

theorem final15 (V : (c : Dev nD) → (b : Ref sig .tc) → Buf (Elt Ideal) ((c : Thread nD τ).loc b)) (c : Dev nD) :
    (dat1 (F := Ideal) V c).arrAt 15 cfg1.N
      = Cert.JointNet.kLogits (V c main_v14_0) (V c main_v14_1) (V c main_v14_2) (V c main_arg12) (V c main_arg13) (V c main_v16)
          (V c main_arg15) (V c main_arg16) (V c main_arg17) (V c main_v18) (V c main_arg24) (V c main_arg25) (V c main_v20)
          (V c main_arg27) (V c main_arg28) :=
  final V c

end Cert.KernelIdeal.Stage1

end
-- ==== Proof.KOut.lean ====
/-
  The two-stage program's result buffer after its run is the plain network of the launch arguments.

  The last boundary's contents at the result buffer are what stage two's write-backs leave: stage two's network of its
  three data arrays — which are what stage one's write-backs left: stage one's three functions of the arguments and the
  transposed matrices — and of its own transposed matrices and vectors. With every transposed matrix read back as the
  argument's entries, that is the plain network (`kLogits_eq_logits`).
-/
import proofs.«140755_j31396210934102_2_alg».proof.Proof.Algebra
import proofs.«140755_j31396210934102_2_alg».proof.Proof.KHost
import proofs.«140755_j31396210934102_2_alg».proof.Proof.K0Final
import proofs.«140755_j31396210934102_2_alg».proof.Proof.K1Final

set_option maxRecDepth 16384

noncomputable section

namespace Cert.KernelIdeal.Out

open Cert.KernelIdeal Cert.KernelIdeal.Gen Cert.KernelIdeal.HostArrays Cert.JointNet
open Idealize.ShloMosaic Idealize.ShloMosaic.TcCoe Idealize.ShloMosaic.ValueIdx Idealize.SL.Sem

variable (m : (ℓ : Loc nD τ sig) → Buf (Elt Ideal) ℓ) (ρ : Dev nD → PrngReg)

/-! Each stage's value with the region's arrays NAMED: the arrays the region finds are given by equations, so that the
    launch arguments and the transposed matrices can be put in their places without rewriting under the fold. -/

theorem encF_of (V : (c : Dev nD) → (b : Ref sig .tc) → Buf (Elt Ideal) ((c : Thread nD τ).loc b)) (c : Dev nD)
    (enc : FVec Ideal ⟨3, ![8, 128, 768]⟩ .f32) (WeT : FVec Ideal ⟨2, ![768, 512]⟩ .bf16) (be : FVec Ideal ⟨1, ![512]⟩ .f32) (ge : FVec Ideal ⟨1, ![512]⟩ .f32) (bne : FVec Ideal ⟨1, ![512]⟩ .f32) (Wf1T : FVec Ideal ⟨2, ![512, 512]⟩ .bf16)
    (h0 : V c main_arg0 = enc) (h1 : V c main_v1 = WeT) (h2 : V c main_arg3 = be) (h3 : V c main_arg4 = ge) (h4 : V c main_arg5 = bne) (h5 : V c main_v9 = Wf1T) :
    (dat0 (F := Ideal) V c).arrAt 18 cfg0.N = kEncF enc WeT be ge bne Wf1T := by
  subst h0 h1 h2 h3 h4 h5
  exact Cert.KernelIdeal.Stage0.final18 V c

theorem decF_of (V : (c : Dev nD) → (b : Ref sig .tc) → Buf (Elt Ideal) ((c : Thread nD τ).loc b)) (c : Dev nD)
    (dec : FVec Ideal ⟨3, ![8, 64, 768]⟩ .f32) (WdT : FVec Ideal ⟨2, ![768, 512]⟩ .bf16) (bd : FVec Ideal ⟨1, ![512]⟩ .f32) (gd : FVec Ideal ⟨1, ![512]⟩ .f32) (bnd : FVec Ideal ⟨1, ![512]⟩ .f32) (Wf1T : FVec Ideal ⟨2, ![512, 512]⟩ .bf16) (bf1 : FVec Ideal ⟨1, ![512]⟩ .f32)
    (h0 : V c main_arg1 = dec) (h1 : V c main_v3 = WdT) (h2 : V c main_arg7 = bd) (h3 : V c main_arg8 = gd) (h4 : V c main_arg9 = bnd) (h5 : V c main_v9 = Wf1T) (h6 : V c main_arg11 = bf1) :
    (dat0 (F := Ideal) V c).arrAt 19 cfg0.N = kDecF dec WdT bd gd bnd Wf1T bf1 := by
  subst h0 h1 h2 h3 h4 h5 h6
  exact Cert.KernelIdeal.Stage0.final19 V c

theorem attH_of (V : (c : Dev nD) → (b : Ref sig .tc) → Buf (Elt Ideal) ((c : Thread nD τ).loc b)) (c : Dev nD)
    (dec : FVec Ideal ⟨3, ![8, 64, 768]⟩ .f32) (WdT : FVec Ideal ⟨2, ![768, 512]⟩ .bf16) (bd : FVec Ideal ⟨1, ![512]⟩ .f32) (gd : FVec Ideal ⟨1, ![512]⟩ .f32) (bnd : FVec Ideal ⟨1, ![512]⟩ .f32) (WvT : FVec Ideal ⟨2, ![512, 512]⟩ .bf16) (bv : FVec Ideal ⟨1, ![512]⟩ .f32) (WoT : FVec Ideal ⟨2, ![512, 512]⟩ .bf16) (bo : FVec Ideal ⟨1, ![512]⟩ .f32) (W1bT : FVec Ideal ⟨2, ![512, 512]⟩ .bf16) (b1 : FVec Ideal ⟨1, ![512]⟩ .f32)
    (h0 : V c main_arg1 = dec) (h1 : V c main_v3 = WdT) (h2 : V c main_arg7 = bd) (h3 : V c main_arg8 = gd) (h4 : V c main_arg9 = bnd) (h5 : V c main_v5 = WvT) (h6 : V c main_arg19 = bv) (h7 : V c main_v7 = WoT) (h8 : V c main_arg21 = bo) (h9 : V c main_v13 = W1bT) (h10 : V c main_arg23 = b1) :
    (dat0 (F := Ideal) V c).arrAt 20 cfg0.N = kAttH dec WdT bd gd bnd WvT bv WoT bo W1bT b1 := by
  subst h0 h1 h2 h3 h4 h5 h6 h7 h8 h9 h10
  exact Cert.KernelIdeal.Stage0.final20 V c

theorem logits_of (V : (c : Dev nD) → (b : Ref sig .tc) → Buf (Elt Ideal) ((c : Thread nD τ).loc b)) (c : Dev nD)
    (ef : FVec Ideal ⟨3, ![8, 128, 512]⟩ .f32) (df : FVec Ideal ⟨3, ![8, 64, 512]⟩ .f32) (ah : FVec Ideal ⟨3, ![8, 64, 512]⟩ .f32) (gf1 : FVec Ideal ⟨1, ![512]⟩ .f32) (bnf1 : FVec Ideal ⟨1, ![512]⟩ .f32) (Wf2T : FVec Ideal ⟨2, ![512, 256]⟩ .bf16) (bf2 : FVec Ideal ⟨1, ![256]⟩ .f32) (gf2 : FVec Ideal ⟨1, ![256]⟩ .f32) (bnf2 : FVec Ideal ⟨1, ![256]⟩ .f32) (W1aT : FVec Ideal ⟨2, ![256, 512]⟩ .bf16) (g1 : FVec Ideal ⟨1, ![512]⟩ .f32) (bn1 : FVec Ideal ⟨1, ![512]⟩ .f32) (W2T : FVec Ideal ⟨2, ![512, 1024]⟩ .bf16) (b2 : FVec Ideal ⟨1, ![1024]⟩ .f32) (ssw : FVec Ideal ⟨1, ![1024]⟩ .f32)
    (h0 : V c main_v14_0 = ef) (h1 : V c main_v14_1 = df) (h2 : V c main_v14_2 = ah) (h3 : V c main_arg12 = gf1) (h4 : V c main_arg13 = bnf1) (h5 : V c main_v16 = Wf2T) (h6 : V c main_arg15 = bf2) (h7 : V c main_arg16 = gf2) (h8 : V c main_arg17 = bnf2) (h9 : V c main_v18 = W1aT) (h10 : V c main_arg24 = g1) (h11 : V c main_arg25 = bn1) (h12 : V c main_v20 = W2T) (h13 : V c main_arg27 = b2) (h14 : V c main_arg28 = ssw) :
    (dat1 (F := Ideal) V c).arrAt 15 cfg1.N = kLogits ef df ah gf1 bnf1 Wf2T bf2 gf2 bnf2 W1aT g1 bn1 W2T b2 ssw := by
  subst h0 h1 h2 h3 h4 h5 h6 h7 h8 h9 h10 h11 h12 h13 h14
  exact Cert.KernelIdeal.Stage1.final15 V c

/-- The result buffer at the last boundary is the plain network of the launch arguments. -/
theorem out_eq (c : Dev nD) :
    W4 (F := Ideal) m ρ c (Proc.devRef .tc main_v21) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) := by
  refine (W4_arr m ρ c 15).trans ?_
  refine (logits_of (V3 m ρ) c
    (kEncF (m ((c : Thread nD τ).loc main_arg0)) (V1 m ρ c main_v1) (m ((c : Thread nD τ).loc main_arg3)) (m ((c : Thread nD τ).loc main_arg4)) (m ((c : Thread nD τ).loc main_arg5)) (V1 m ρ c main_v9))
    (kDecF (m ((c : Thread nD τ).loc main_arg1)) (V1 m ρ c main_v3) (m ((c : Thread nD τ).loc main_arg7)) (m ((c : Thread nD τ).loc main_arg8)) (m ((c : Thread nD τ).loc main_arg9)) (V1 m ρ c main_v9) (m ((c : Thread nD τ).loc main_arg11)))
    (kAttH (m ((c : Thread nD τ).loc main_arg1)) (V1 m ρ c main_v3) (m ((c : Thread nD τ).loc main_arg7)) (m ((c : Thread nD τ).loc main_arg8)) (m ((c : Thread nD τ).loc main_arg9)) (V1 m ρ c main_v5) (m ((c : Thread nD τ).loc main_arg19)) (V1 m ρ c main_v7) (m ((c : Thread nD τ).loc main_arg21)) (V1 m ρ c main_v13) (m ((c : Thread nD τ).loc main_arg23)))
    (m ((c : Thread nD τ).loc main_arg12)) (m ((c : Thread nD τ).loc main_arg13)) (V3 m ρ c main_v16) (m ((c : Thread nD τ).loc main_arg15)) (m ((c : Thread nD τ).loc main_arg16)) (m ((c : Thread nD τ).loc main_arg17)) (V3 m ρ c main_v18) (m ((c : Thread nD τ).loc main_arg24)) (m ((c : Thread nD τ).loc main_arg25)) (V3 m ρ c main_v20) (m ((c : Thread nD τ).loc main_arg27)) (m ((c : Thread nD τ).loc main_arg28))
    ((V3_v14_0 m ρ c).trans (encF_of (V1 m ρ) c _ _ _ _ _ _ (V1_main_arg0 m ρ c) rfl (V1_main_arg3 m ρ c) (V1_main_arg4 m ρ c) (V1_main_arg5 m ρ c) rfl))
    ((V3_v14_1 m ρ c).trans (decF_of (V1 m ρ) c _ _ _ _ _ _ _ (V1_main_arg1 m ρ c) rfl (V1_main_arg7 m ρ c) (V1_main_arg8 m ρ c) (V1_main_arg9 m ρ c) rfl (V1_main_arg11 m ρ c)))
    ((V3_v14_2 m ρ c).trans (attH_of (V1 m ρ) c _ _ _ _ _ _ _ _ _ _ _ (V1_main_arg1 m ρ c) rfl (V1_main_arg7 m ρ c) (V1_main_arg8 m ρ c) (V1_main_arg9 m ρ c) rfl (V1_main_arg19 m ρ c) rfl (V1_main_arg21 m ρ c) rfl (V1_main_arg23 m ρ c)))
    (V3_main_arg12 m ρ c) (V3_main_arg13 m ρ c) rfl (V3_main_arg15 m ρ c) (V3_main_arg16 m ρ c) (V3_main_arg17 m ρ c) rfl
    (V3_main_arg24 m ρ c) (V3_main_arg25 m ρ c) rfl (V3_main_arg27 m ρ c) (V3_main_arg28 m ρ c)).trans ?_
  exact kLogits_eq_logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28))
    (V1 m ρ c main_v1) (V1 m ρ c main_v3) (V1 m ρ c main_v5) (V1 m ρ c main_v7) (V1 m ρ c main_v9) (V1 m ρ c main_v13)
    (V3 m ρ c main_v16) (V3 m ρ c main_v18) (V3 m ρ c main_v20)
    (V1_v1 m ρ c) (V1_v3 m ρ c) (V1_v5 m ρ c) (V1_v7 m ρ c) (V1_v9 m ρ c) (V1_v13 m ρ c)
    (V3_v16 m ρ c) (V3_v18 m ρ c) (V3_v20 m ρ c)

end Cert.KernelIdeal.Out

end
-- ==== Proof.LogitsCongr.lean ====
/-
  The plain network of equal arguments is equal: twenty-nine equations between argument arrays carry over to the results.
-/
import proofs.«140755_j31396210934102_2_alg».proof.Proof.Spec

noncomputable section

namespace Cert.JointNet

open Idealize.ShloMosaic

theorem logits_congr
    {x0 y0 : FVec Ideal ⟨3, ![8, 128, 768]⟩ .f32}
    {x1 y1 : FVec Ideal ⟨3, ![8, 64, 768]⟩ .f32}
    {x2 y2 : FVec Ideal ⟨2, ![512, 768]⟩ .f32}
    {x3 y3 : FVec Ideal ⟨1, ![512]⟩ .f32}
    {x4 y4 : FVec Ideal ⟨1, ![512]⟩ .f32}
    {x5 y5 : FVec Ideal ⟨1, ![512]⟩ .f32}
    {x6 y6 : FVec Ideal ⟨2, ![512, 768]⟩ .f32}
    {x7 y7 : FVec Ideal ⟨1, ![512]⟩ .f32}
    {x8 y8 : FVec Ideal ⟨1, ![512]⟩ .f32}
    {x9 y9 : FVec Ideal ⟨1, ![512]⟩ .f32}
    {x10 y10 : FVec Ideal ⟨2, ![512, 512]⟩ .f32}
    {x11 y11 : FVec Ideal ⟨1, ![512]⟩ .f32}
    {x12 y12 : FVec Ideal ⟨1, ![512]⟩ .f32}
    {x13 y13 : FVec Ideal ⟨1, ![512]⟩ .f32}
    {x14 y14 : FVec Ideal ⟨2, ![256, 512]⟩ .f32}
    {x15 y15 : FVec Ideal ⟨1, ![256]⟩ .f32}
    {x16 y16 : FVec Ideal ⟨1, ![256]⟩ .f32}
    {x17 y17 : FVec Ideal ⟨1, ![256]⟩ .f32}
    {x18 y18 : FVec Ideal ⟨2, ![512, 512]⟩ .f32}
    {x19 y19 : FVec Ideal ⟨1, ![512]⟩ .f32}
    {x20 y20 : FVec Ideal ⟨2, ![512, 512]⟩ .f32}
    {x21 y21 : FVec Ideal ⟨1, ![512]⟩ .f32}
    {x22 y22 : FVec Ideal ⟨2, ![512, 768]⟩ .f32}
    {x23 y23 : FVec Ideal ⟨1, ![512]⟩ .f32}
    {x24 y24 : FVec Ideal ⟨1, ![512]⟩ .f32}
    {x25 y25 : FVec Ideal ⟨1, ![512]⟩ .f32}
    {x26 y26 : FVec Ideal ⟨2, ![1024, 512]⟩ .f32}
    {x27 y27 : FVec Ideal ⟨1, ![1024]⟩ .f32}
    {x28 y28 : FVec Ideal ⟨1, ![1024]⟩ .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (h16 : x16 = y16) (h17 : x17 = y17) (h18 : x18 = y18) (h19 : x19 = y19) (h20 : x20 = y20) (h21 : x21 = y21) (h22 : x22 = y22) (h23 : x23 = y23) (h24 : x24 = y24) (h25 : x25 = y25) (h26 : x26 = y26) (h27 : x27 = y27) (h28 : x28 = y28) :
    logits x0 x1 x2 x3 x4 x5 x6 x7 x8 x9 x10 x11 x12 x13 x14 x15 x16 x17 x18 x19 x20 x21 x22 x23 x24 x25 x26 x27 x28 = logits y0 y1 y2 y3 y4 y5 y6 y7 y8 y9 y10 y11 y12 y13 y14 y15 y16 y17 y18 y19 y20 y21 y22 y23 y24 y25 y26 y27 y28 := by
  subst h0 h1 h2 h3 h4 h5 h6 h7 h8 h9 h10 h11 h12 h13 h14 h15 h16 h17 h18 h19 h20 h21 h22 h23 h24 h25 h26 h27 h28
  rfl

end Cert.JointNet

end
-- ==== Proof.RefSeg.lean ====
/-
  The plain program's operations cut into seven consecutive stretches, each ending at a layer's result, with the buffers
  each stretch writes; the program's list is the seven stretches in order (`ops_eq`).
-/
import proofs.«140755_j31396210934102_2_alg».proof.Proof.RefRunP
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! The plain program's operations cut into seven consecutive stretches, each ending at a layer's result, with the
    buffers each stretch writes. -/

/-- The operations of the first input's normalised projection. -/
abbrev seg1 : List (HloOp τ sig (Elt F)) :=
  [ binary main_arg0 main_arg2 main_v0 ((fun l r => Host.dotGeneral dot_S8x128x768_S512x768_S8x128x512_2_1_01_0_n_n none l r) : (⟨S8x128x768, .f32⟩ : BufTy).Contents (Elt F) → (⟨S512x768, .f32⟩ : BufTy).Contents (Elt F) → (⟨S8x128x512, .f32⟩ : BufTy).Contents (Elt F)),
    unary main_arg3 main_v1 (broadcastInDim S1x1x512 ![2] bcast_S512_S1x1x512_2 : (⟨S512, .f32⟩ : BufTy).Contents (Elt F) → (⟨S1x1x512, .f32⟩ : BufTy).Contents (Elt F)),
    unary main_v1 main_v2 (broadcastInDim S8x128x512 ![0, 1, 2] bcast_S1x1x512_S8x128x512_0_1_2 : (⟨S1x1x512, .f32⟩ : BufTy).Contents (Elt F) → (⟨S8x128x512, .f32⟩ : BufTy).Contents (Elt F)),
    binary main_v0 main_v2 main_v3 (addf : (⟨S8x128x512, .f32⟩ : BufTy).Contents (Elt F) → (⟨S8x128x512, .f32⟩ : BufTy).Contents (Elt F) → (⟨S8x128x512, .f32⟩ : BufTy).Contents (Elt F)),
    nullary main_cst (constant S_ .f32 0x00000000#32),
    binary main_v3 main_cst main_v4 ((fun x v => Host.reduceAdd x v reducesTo_S8x128x512_S8x128_d2 h_S_) : (⟨S8x128x512, .f32⟩ : BufTy).Contents (Elt F) → (⟨S_, .f32⟩ : BufTy).Contents (Elt F) → (⟨S8x128, .f32⟩ : BufTy).Contents (Elt F)),
    unary main_v4 main_v5 (broadcastInDim S8x128x1 ![0, 1] bcast_S8x128_S8x128x1_0_1 : (⟨S8x128, .f32⟩ : BufTy).Contents (Elt F) → (⟨S8x128x1, .f32⟩ : BufTy).Contents (Elt F)),
    nullary main_cst_0 (constant S_ .f32 0x44000000#32),
    unary main_cst_0 main_v6 (broadcastInDim S8x128x1 ![] bcast_S_S8x128x1 : (⟨S_, .f32⟩ : BufTy).Contents (Elt F) → (⟨S8x128x1, .f32⟩ : BufTy).Contents (Elt F)),
    binary main_v5 main_v6 main_v7 (Host.divf : (⟨S8x128x1, .f32⟩ : BufTy).Contents (Elt F) → (⟨S8x128x1, .f32⟩ : BufTy).Contents (Elt F) → (⟨S8x128x1, .f32⟩ : BufTy).Contents (Elt F)),
    unary main_v7 main_v8 (broadcastInDim S8x128x512 ![0, 1, 2] bcast_S8x128x1_S8x128x512_0_1_2 : (⟨S8x128x1, .f32⟩ : BufTy).Contents (Elt F) → (⟨S8x128x512, .f32⟩ : BufTy).Contents (Elt F)),
    binary main_v3 main_v8 main_v9 (subf : (⟨S8x128x512, .f32⟩ : BufTy).Contents (Elt F) → (⟨S8x128x512, .f32⟩ : BufTy).Contents (Elt F) → (⟨S8x128x512, .f32⟩ : BufTy).Contents (Elt F)),
    binary main_v9 main_v9 main_v10 (mulf : (⟨S8x128x512, .f32⟩ : BufTy).Contents (Elt F) → (⟨S8x128x512, .f32⟩ : BufTy).Contents (Elt F) → (⟨S8x128x512, .f32⟩ : BufTy).Contents (Elt F)),
    nullary main_cst_1 (constant S_ .f32 0x00000000#32),
    binary main_v10 main_cst_1 main_v11 ((fun x v => Host.reduceAdd x v reducesTo_S8x128x512_S8x128_d2 h_S_) : (⟨S8x128x512, .f32⟩ : BufTy).Contents (Elt F) → (⟨S_, .f32⟩ : BufTy).Contents (Elt F) → (⟨S8x128, .f32⟩ : BufTy).Contents (Elt F)),
    unary main_v11 main_v12 (broadcastInDim S8x128x1 ![0, 1] bcast_S8x128_S8x128x1_0_1 : (⟨S8x128, .f32⟩ : BufTy).Contents (Elt F) → (⟨S8x128x1, .f32⟩ : BufTy).Contents (Elt F)),
    nullary main_cst_2 (constant S_ .f32 0x44000000#32),
    unary main_cst_2 main_v13 (broadcastInDim S8x128x1 ![] bcast_S_S8x128x1 : (⟨S_, .f32⟩ : BufTy).Contents (Elt F) → (⟨S8x128x1, .f32⟩ : BufTy).Contents (Elt F)),
    binary main_v12 main_v13 main_v14 (Host.divf : (⟨S8x128x1, .f32⟩ : BufTy).Contents (Elt F) → (⟨S8x128x1, .f32⟩ : BufTy).Contents (Elt F) → (⟨S8x128x1, .f32⟩ : BufTy).Contents (Elt F)),
    unary main_v7 main_v15 (broadcastInDim S8x128x512 ![0, 1, 2] bcast_S8x128x1_S8x128x512_0_1_2 : (⟨S8x128x1, .f32⟩ : BufTy).Contents (Elt F) → (⟨S8x128x512, .f32⟩ : BufTy).Contents (Elt F)),
    binary main_v3 main_v15 main_v16 (subf : (⟨S8x128x512, .f32⟩ : BufTy).Contents (Elt F) → (⟨S8x128x512, .f32⟩ : BufTy).Contents (Elt F) → (⟨S8x128x512, .f32⟩ : BufTy).Contents (Elt F)),
    nullary main_cst_3 (constant S_ .f32 0x3727C5AC#32),
    unary main_cst_3 main_v17 (broadcastInDim S8x128x1 ![] bcast_S_S8x128x1 : (⟨S_, .f32⟩ : BufTy).Contents (Elt F) → (⟨S8x128x1, .f32⟩ : BufTy).Contents (Elt F)),
    binary main_v14 main_v17 main_v18 (addf : (⟨S8x128x1, .f32⟩ : BufTy).Contents (Elt F) → (⟨S8x128x1, .f32⟩ : BufTy).Contents (Elt F) → (⟨S8x128x1, .f32⟩ : BufTy).Contents (Elt F)),
    unary main_v18 main_v19 (Host.rsqrt : (⟨S8x128x1, .f32⟩ : BufTy).Contents (Elt F) → (⟨S8x128x1, .f32⟩ : BufTy).Contents (Elt F)),
    unary main_v19 main_v20 (broadcastInDim S8x128x512 ![0, 1, 2] bcast_S8x128x1_S8x128x512_0_1_2 : (⟨S8x128x1, .f32⟩ : BufTy).Contents (Elt F) → (⟨S8x128x512, .f32⟩ : BufTy).Contents (Elt F)),
    binary main_v16 main_v20 main_v21 (mulf : (⟨S8x128x512, .f32⟩ : BufTy).Contents (Elt F) → (⟨S8x128x512, .f32⟩ : BufTy).Contents (Elt F) → (⟨S8x128x512, .f32⟩ : BufTy).Contents (Elt F)),
    unary main_arg4 main_v22 (broadcastInDim S1x1x512 ![2] bcast_S512_S1x1x512_2 : (⟨S512, .f32⟩ : BufTy).Contents (Elt F) → (⟨S1x1x512, .f32⟩ : BufTy).Contents (Elt F)),
    unary main_v22 main_v23 (broadcastInDim S8x128x512 ![0, 1, 2] bcast_S1x1x512_S8x128x512_0_1_2 : (⟨S1x1x512, .f32⟩ : BufTy).Contents (Elt F) → (⟨S8x128x512, .f32⟩ : BufTy).Contents (Elt F)),
    binary main_v21 main_v23 main_v24 (mulf : (⟨S8x128x512, .f32⟩ : BufTy).Contents (Elt F) → (⟨S8x128x512, .f32⟩ : BufTy).Contents (Elt F) → (⟨S8x128x512, .f32⟩ : BufTy).Contents (Elt F)),
    unary main_arg5 main_v25 (broadcastInDim S1x1x512 ![2] bcast_S512_S1x1x512_2 : (⟨S512, .f32⟩ : BufTy).Contents (Elt F) → (⟨S1x1x512, .f32⟩ : BufTy).Contents (Elt F)),
    unary main_v25 main_v26 (broadcastInDim S8x128x512 ![0, 1, 2] bcast_S1x1x512_S8x128x512_0_1_2 : (⟨S1x1x512, .f32⟩ : BufTy).Contents (Elt F) → (⟨S8x128x512, .f32⟩ : BufTy).Contents (Elt F)),
    binary main_v24 main_v26 main_v27 (addf : (⟨S8x128x512, .f32⟩ : BufTy).Contents (Elt F) → (⟨S8x128x512, .f32⟩ : BufTy).Contents (Elt F) → (⟨S8x128x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x128x512, .f32⟩) main_call0_v0) (broadcastInDim S8x128x512 ![] bcast_S_S8x128x512),
    TRef.binary (TRef.of (T := ⟨S8x128x512, .f32⟩) main_v27) (TRef.of (T := ⟨S8x128x512, .f32⟩) main_call0_v0) (TRef.of (T := ⟨S8x128x512, .f32⟩) main_v28) maximumf ]
/-- The buffers they write. -/
abbrev seg1_W : List (Ref sig .tc) := [main_v0, main_v1, main_v2, main_v3, main_cst, main_v4, main_v5, main_cst_0, main_v6, main_v7, main_v8, main_v9, main_v10, main_cst_1, main_v11, main_v12, main_cst_2, main_v13, main_v14, main_v15, main_v16, main_cst_3, main_v17, main_v18, main_v19, main_v20, main_v21, main_v22, main_v23, main_v24, main_v25, main_v26, main_v27, main_call0_cst, main_call0_v0, main_v28]
theorem seg1_writes : (seg1 : List (HloOp τ sig (Elt F))).Forall fun op =>
    op.writes ⊆ (seg1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of the second input's normalised projection. -/
abbrev seg2 : List (HloOp τ sig (Elt F)) :=
  [ binary main_arg1 main_arg6 main_v29 ((fun l r => Host.dotGeneral dot_S8x64x768_S512x768_S8x64x512_2_1_01_0_n_n none l r) : (⟨S8x64x768, .f32⟩ : BufTy).Contents (Elt F) → (⟨S512x768, .f32⟩ : BufTy).Contents (Elt F) → (⟨S8x64x512, .f32⟩ : BufTy).Contents (Elt F)),
    unary main_arg7 main_v30 (broadcastInDim S1x1x512 ![2] bcast_S512_S1x1x512_2 : (⟨S512, .f32⟩ : BufTy).Contents (Elt F) → (⟨S1x1x512, .f32⟩ : BufTy).Contents (Elt F)),
    unary main_v30 main_v31 (broadcastInDim S8x64x512 ![0, 1, 2] bcast_S1x1x512_S8x64x512_0_1_2 : (⟨S1x1x512, .f32⟩ : BufTy).Contents (Elt F) → (⟨S8x64x512, .f32⟩ : BufTy).Contents (Elt F)),
    binary main_v29 main_v31 main_v32 (addf : (⟨S8x64x512, .f32⟩ : BufTy).Contents (Elt F) → (⟨S8x64x512, .f32⟩ : BufTy).Contents (Elt F) → (⟨S8x64x512, .f32⟩ : BufTy).Contents (Elt F)),
    nullary main_cst_4 (constant S_ .f32 0x00000000#32),
    binary main_v32 main_cst_4 main_v33 ((fun x v => Host.reduceAdd x v reducesTo_S8x64x512_S8x64_d2 h_S_) : (⟨S8x64x512, .f32⟩ : BufTy).Contents (Elt F) → (⟨S_, .f32⟩ : BufTy).Contents (Elt F) → (⟨S8x64, .f32⟩ : BufTy).Contents (Elt F)),
    unary main_v33 main_v34 (broadcastInDim S8x64x1 ![0, 1] bcast_S8x64_S8x64x1_0_1 : (⟨S8x64, .f32⟩ : BufTy).Contents (Elt F) → (⟨S8x64x1, .f32⟩ : BufTy).Contents (Elt F)),
    nullary main_cst_5 (constant S_ .f32 0x44000000#32),
    unary main_cst_5 main_v35 (broadcastInDim S8x64x1 ![] bcast_S_S8x64x1 : (⟨S_, .f32⟩ : BufTy).Contents (Elt F) → (⟨S8x64x1, .f32⟩ : BufTy).Contents (Elt F)),
    binary main_v34 main_v35 main_v36 (Host.divf : (⟨S8x64x1, .f32⟩ : BufTy).Contents (Elt F) → (⟨S8x64x1, .f32⟩ : BufTy).Contents (Elt F) → (⟨S8x64x1, .f32⟩ : BufTy).Contents (Elt F)),
    unary main_v36 main_v37 (broadcastInDim S8x64x512 ![0, 1, 2] bcast_S8x64x1_S8x64x512_0_1_2 : (⟨S8x64x1, .f32⟩ : BufTy).Contents (Elt F) → (⟨S8x64x512, .f32⟩ : BufTy).Contents (Elt F)),
    binary main_v32 main_v37 main_v38 (subf : (⟨S8x64x512, .f32⟩ : BufTy).Contents (Elt F) → (⟨S8x64x512, .f32⟩ : BufTy).Contents (Elt F) → (⟨S8x64x512, .f32⟩ : BufTy).Contents (Elt F)),
    binary main_v38 main_v38 main_v39 (mulf : (⟨S8x64x512, .f32⟩ : BufTy).Contents (Elt F) → (⟨S8x64x512, .f32⟩ : BufTy).Contents (Elt F) → (⟨S8x64x512, .f32⟩ : BufTy).Contents (Elt F)),
    nullary main_cst_6 (constant S_ .f32 0x00000000#32),
    binary main_v39 main_cst_6 main_v40 ((fun x v => Host.reduceAdd x v reducesTo_S8x64x512_S8x64_d2 h_S_) : (⟨S8x64x512, .f32⟩ : BufTy).Contents (Elt F) → (⟨S_, .f32⟩ : BufTy).Contents (Elt F) → (⟨S8x64, .f32⟩ : BufTy).Contents (Elt F)),
    unary main_v40 main_v41 (broadcastInDim S8x64x1 ![0, 1] bcast_S8x64_S8x64x1_0_1 : (⟨S8x64, .f32⟩ : BufTy).Contents (Elt F) → (⟨S8x64x1, .f32⟩ : BufTy).Contents (Elt F)),
    nullary main_cst_7 (constant S_ .f32 0x44000000#32),
    unary main_cst_7 main_v42 (broadcastInDim S8x64x1 ![] bcast_S_S8x64x1 : (⟨S_, .f32⟩ : BufTy).Contents (Elt F) → (⟨S8x64x1, .f32⟩ : BufTy).Contents (Elt F)),
    binary main_v41 main_v42 main_v43 (Host.divf : (⟨S8x64x1, .f32⟩ : BufTy).Contents (Elt F) → (⟨S8x64x1, .f32⟩ : BufTy).Contents (Elt F) → (⟨S8x64x1, .f32⟩ : BufTy).Contents (Elt F)),
    unary main_v36 main_v44 (broadcastInDim S8x64x512 ![0, 1, 2] bcast_S8x64x1_S8x64x512_0_1_2 : (⟨S8x64x1, .f32⟩ : BufTy).Contents (Elt F) → (⟨S8x64x512, .f32⟩ : BufTy).Contents (Elt F)),
    binary main_v32 main_v44 main_v45 (subf : (⟨S8x64x512, .f32⟩ : BufTy).Contents (Elt F) → (⟨S8x64x512, .f32⟩ : BufTy).Contents (Elt F) → (⟨S8x64x512, .f32⟩ : BufTy).Contents (Elt F)),
    nullary main_cst_8 (constant S_ .f32 0x3727C5AC#32),
    unary main_cst_8 main_v46 (broadcastInDim S8x64x1 ![] bcast_S_S8x64x1 : (⟨S_, .f32⟩ : BufTy).Contents (Elt F) → (⟨S8x64x1, .f32⟩ : BufTy).Contents (Elt F)),
    binary main_v43 main_v46 main_v47 (addf : (⟨S8x64x1, .f32⟩ : BufTy).Contents (Elt F) → (⟨S8x64x1, .f32⟩ : BufTy).Contents (Elt F) → (⟨S8x64x1, .f32⟩ : BufTy).Contents (Elt F)),
    unary main_v47 main_v48 (Host.rsqrt : (⟨S8x64x1, .f32⟩ : BufTy).Contents (Elt F) → (⟨S8x64x1, .f32⟩ : BufTy).Contents (Elt F)),
    unary main_v48 main_v49 (broadcastInDim S8x64x512 ![0, 1, 2] bcast_S8x64x1_S8x64x512_0_1_2 : (⟨S8x64x1, .f32⟩ : BufTy).Contents (Elt F) → (⟨S8x64x512, .f32⟩ : BufTy).Contents (Elt F)),
    binary main_v45 main_v49 main_v50 (mulf : (⟨S8x64x512, .f32⟩ : BufTy).Contents (Elt F) → (⟨S8x64x512, .f32⟩ : BufTy).Contents (Elt F) → (⟨S8x64x512, .f32⟩ : BufTy).Contents (Elt F)),
    unary main_arg8 main_v51 (broadcastInDim S1x1x512 ![2] bcast_S512_S1x1x512_2 : (⟨S512, .f32⟩ : BufTy).Contents (Elt F) → (⟨S1x1x512, .f32⟩ : BufTy).Contents (Elt F)),
    unary main_v51 main_v52 (broadcastInDim S8x64x512 ![0, 1, 2] bcast_S1x1x512_S8x64x512_0_1_2 : (⟨S1x1x512, .f32⟩ : BufTy).Contents (Elt F) → (⟨S8x64x512, .f32⟩ : BufTy).Contents (Elt F)),
    binary main_v50 main_v52 main_v53 (mulf : (⟨S8x64x512, .f32⟩ : BufTy).Contents (Elt F) → (⟨S8x64x512, .f32⟩ : BufTy).Contents (Elt F) → (⟨S8x64x512, .f32⟩ : BufTy).Contents (Elt F)),
    unary main_arg9 main_v54 (broadcastInDim S1x1x512 ![2] bcast_S512_S1x1x512_2 : (⟨S512, .f32⟩ : BufTy).Contents (Elt F) → (⟨S1x1x512, .f32⟩ : BufTy).Contents (Elt F)),
    unary main_v54 main_v55 (broadcastInDim S8x64x512 ![0, 1, 2] bcast_S1x1x512_S8x64x512_0_1_2 : (⟨S1x1x512, .f32⟩ : BufTy).Contents (Elt F) → (⟨S8x64x512, .f32⟩ : BufTy).Contents (Elt F)),
    binary main_v53 main_v55 main_v56 (addf : (⟨S8x64x512, .f32⟩ : BufTy).Contents (Elt F) → (⟨S8x64x512, .f32⟩ : BufTy).Contents (Elt F) → (⟨S8x64x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x64x512, .f32⟩) main_call1_v0) (broadcastInDim S8x64x512 ![] bcast_S_S8x64x512),
    TRef.binary (TRef.of (T := ⟨S8x64x512, .f32⟩) main_v56) (TRef.of (T := ⟨S8x64x512, .f32⟩) main_call1_v0) (TRef.of (T := ⟨S8x64x512, .f32⟩) main_v57) maximumf ]
/-- The buffers they write. -/
abbrev seg2_W : List (Ref sig .tc) := [main_v29, main_v30, main_v31, main_v32, main_cst_4, main_v33, main_v34, main_cst_5, main_v35, main_v36, main_v37, main_v38, main_v39, main_cst_6, main_v40, main_v41, main_cst_7, main_v42, main_v43, main_v44, main_v45, main_cst_8, main_v46, main_v47, main_v48, main_v49, main_v50, main_v51, main_v52, main_v53, main_v54, main_v55, main_v56, main_call1_cst, main_call1_v0, main_v57]
theorem seg2_writes : (seg2 : List (HloOp τ sig (Elt F))).Forall fun op =>
    op.writes ⊆ (seg2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of the first joint layer. -/
abbrev seg3 : List (HloOp τ sig (Elt F)) :=
  [ unary main_v28 main_v58 (broadcastInDim S8x128x1x512 ![0, 1, 3] bcast_S8x128x512_S8x128x1x512_0_1_3 : (⟨S8x128x512, .f32⟩ : BufTy).Contents (Elt F) → (⟨S8x128x1x512, .f32⟩ : BufTy).Contents (Elt F)),
    unary main_v57 main_v59 (broadcastInDim S8x1x64x512 ![0, 2, 3] bcast_S8x64x512_S8x1x64x512_0_2_3 : (⟨S8x64x512, .f32⟩ : BufTy).Contents (Elt F) → (⟨S8x1x64x512, .f32⟩ : BufTy).Contents (Elt F)),
    unary main_v58 main_v60 (broadcastInDim S8x128x64x512 ![0, 1, 2, 3] bcast_S8x128x1x512_S8x128x64x512_0_1_2_3 : (⟨S8x128x1x512, .f32⟩ : BufTy).Contents (Elt F) → (⟨S8x128x64x512, .f32⟩ : BufTy).Contents (Elt F)),
    unary main_v59 main_v61 (broadcastInDim S8x128x64x512 ![0, 1, 2, 3] bcast_S8x1x64x512_S8x128x64x512_0_1_2_3 : (⟨S8x1x64x512, .f32⟩ : BufTy).Contents (Elt F) → (⟨S8x128x64x512, .f32⟩ : BufTy).Contents (Elt F)),
    binary main_v60 main_v61 main_v62 (addf : (⟨S8x128x64x512, .f32⟩ : BufTy).Contents (Elt F) → (⟨S8x128x64x512, .f32⟩ : BufTy).Contents (Elt F) → (⟨S8x128x64x512, .f32⟩ : BufTy).Contents (Elt F)),
    binary main_v62 main_arg10 main_v63 ((fun l r => Host.dotGeneral dot_S8x128x64x512_S512x512_S8x128x64x512_3_1_012_0_n_n none l r) : (⟨S8x128x64x512, .f32⟩ : BufTy).Contents (Elt F) → (⟨S512x512, .f32⟩ : BufTy).Contents (Elt F) → (⟨S8x128x64x512, .f32⟩ : BufTy).Contents (Elt F)),
    unary main_arg11 main_v64 (broadcastInDim S1x1x1x512 ![3] bcast_S512_S1x1x1x512_3 : (⟨S512, .f32⟩ : BufTy).Contents (Elt F) → (⟨S1x1x1x512, .f32⟩ : BufTy).Contents (Elt F)),
    unary main_v64 main_v65 (broadcastInDim S8x128x64x512 ![0, 1, 2, 3] bcast_S1x1x1x512_S8x128x64x512_0_1_2_3 : (⟨S1x1x1x512, .f32⟩ : BufTy).Contents (Elt F) → (⟨S8x128x64x512, .f32⟩ : BufTy).Contents (Elt F)),
    binary main_v63 main_v65 main_v66 (addf : (⟨S8x128x64x512, .f32⟩ : BufTy).Contents (Elt F) → (⟨S8x128x64x512, .f32⟩ : BufTy).Contents (Elt F) → (⟨S8x128x64x512, .f32⟩ : BufTy).Contents (Elt F)),
    nullary main_cst_9 (constant S_ .f32 0x00000000#32),
    binary main_v66 main_cst_9 main_v67 ((fun x v => Host.reduceAdd x v reducesTo_S8x128x64x512_S8x128x64_d3 h_S_) : (⟨S8x128x64x512, .f32⟩ : BufTy).Contents (Elt F) → (⟨S_, .f32⟩ : BufTy).Contents (Elt F) → (⟨S8x128x64, .f32⟩ : BufTy).Contents (Elt F)),
    unary main_v67 main_v68 (broadcastInDim S8x128x64x1 ![0, 1, 2] bcast_S8x128x64_S8x128x64x1_0_1_2 : (⟨S8x128x64, .f32⟩ : BufTy).Contents (Elt F) → (⟨S8x128x64x1, .f32⟩ : BufTy).Contents (Elt F)),
    nullary main_cst_10 (constant S_ .f32 0x44000000#32),
    unary main_cst_10 main_v69 (broadcastInDim S8x128x64x1 ![] bcast_S_S8x128x64x1 : (⟨S_, .f32⟩ : BufTy).Contents (Elt F) → (⟨S8x128x64x1, .f32⟩ : BufTy).Contents (Elt F)),
    binary main_v68 main_v69 main_v70 (Host.divf : (⟨S8x128x64x1, .f32⟩ : BufTy).Contents (Elt F) → (⟨S8x128x64x1, .f32⟩ : BufTy).Contents (Elt F) → (⟨S8x128x64x1, .f32⟩ : BufTy).Contents (Elt F)),
    unary main_v70 main_v71 (broadcastInDim S8x128x64x512 ![0, 1, 2, 3] bcast_S8x128x64x1_S8x128x64x512_0_1_2_3 : (⟨S8x128x64x1, .f32⟩ : BufTy).Contents (Elt F) → (⟨S8x128x64x512, .f32⟩ : BufTy).Contents (Elt F)),
    binary main_v66 main_v71 main_v72 (subf : (⟨S8x128x64x512, .f32⟩ : BufTy).Contents (Elt F) → (⟨S8x128x64x512, .f32⟩ : BufTy).Contents (Elt F) → (⟨S8x128x64x512, .f32⟩ : BufTy).Contents (Elt F)),
    binary main_v72 main_v72 main_v73 (mulf : (⟨S8x128x64x512, .f32⟩ : BufTy).Contents (Elt F) → (⟨S8x128x64x512, .f32⟩ : BufTy).Contents (Elt F) → (⟨S8x128x64x512, .f32⟩ : BufTy).Contents (Elt F)),
    nullary main_cst_11 (constant S_ .f32 0x00000000#32),
    binary main_v73 main_cst_11 main_v74 ((fun x v => Host.reduceAdd x v reducesTo_S8x128x64x512_S8x128x64_d3 h_S_) : (⟨S8x128x64x512, .f32⟩ : BufTy).Contents (Elt F) → (⟨S_, .f32⟩ : BufTy).Contents (Elt F) → (⟨S8x128x64, .f32⟩ : BufTy).Contents (Elt F)),
    unary main_v74 main_v75 (broadcastInDim S8x128x64x1 ![0, 1, 2] bcast_S8x128x64_S8x128x64x1_0_1_2 : (⟨S8x128x64, .f32⟩ : BufTy).Contents (Elt F) → (⟨S8x128x64x1, .f32⟩ : BufTy).Contents (Elt F)),
    nullary main_cst_12 (constant S_ .f32 0x44000000#32),
    unary main_cst_12 main_v76 (broadcastInDim S8x128x64x1 ![] bcast_S_S8x128x64x1 : (⟨S_, .f32⟩ : BufTy).Contents (Elt F) → (⟨S8x128x64x1, .f32⟩ : BufTy).Contents (Elt F)),
    binary main_v75 main_v76 main_v77 (Host.divf : (⟨S8x128x64x1, .f32⟩ : BufTy).Contents (Elt F) → (⟨S8x128x64x1, .f32⟩ : BufTy).Contents (Elt F) → (⟨S8x128x64x1, .f32⟩ : BufTy).Contents (Elt F)),
    unary main_v70 main_v78 (broadcastInDim S8x128x64x512 ![0, 1, 2, 3] bcast_S8x128x64x1_S8x128x64x512_0_1_2_3 : (⟨S8x128x64x1, .f32⟩ : BufTy).Contents (Elt F) → (⟨S8x128x64x512, .f32⟩ : BufTy).Contents (Elt F)),
    binary main_v66 main_v78 main_v79 (subf : (⟨S8x128x64x512, .f32⟩ : BufTy).Contents (Elt F) → (⟨S8x128x64x512, .f32⟩ : BufTy).Contents (Elt F) → (⟨S8x128x64x512, .f32⟩ : BufTy).Contents (Elt F)),
    nullary main_cst_13 (constant S_ .f32 0x3727C5AC#32),
    unary main_cst_13 main_v80 (broadcastInDim S8x128x64x1 ![] bcast_S_S8x128x64x1 : (⟨S_, .f32⟩ : BufTy).Contents (Elt F) → (⟨S8x128x64x1, .f32⟩ : BufTy).Contents (Elt F)),
    binary main_v77 main_v80 main_v81 (addf : (⟨S8x128x64x1, .f32⟩ : BufTy).Contents (Elt F) → (⟨S8x128x64x1, .f32⟩ : BufTy).Contents (Elt F) → (⟨S8x128x64x1, .f32⟩ : BufTy).Contents (Elt F)),
    unary main_v81 main_v82 (Host.rsqrt : (⟨S8x128x64x1, .f32⟩ : BufTy).Contents (Elt F) → (⟨S8x128x64x1, .f32⟩ : BufTy).Contents (Elt F)),
    unary main_v82 main_v83 (broadcastInDim S8x128x64x512 ![0, 1, 2, 3] bcast_S8x128x64x1_S8x128x64x512_0_1_2_3 : (⟨S8x128x64x1, .f32⟩ : BufTy).Contents (Elt F) → (⟨S8x128x64x512, .f32⟩ : BufTy).Contents (Elt F)),
    binary main_v79 main_v83 main_v84 (mulf : (⟨S8x128x64x512, .f32⟩ : BufTy).Contents (Elt F) → (⟨S8x128x64x512, .f32⟩ : BufTy).Contents (Elt F) → (⟨S8x128x64x512, .f32⟩ : BufTy).Contents (Elt F)),
    unary main_arg12 main_v85 (broadcastInDim S1x1x1x512 ![3] bcast_S512_S1x1x1x512_3 : (⟨S512, .f32⟩ : BufTy).Contents (Elt F) → (⟨S1x1x1x512, .f32⟩ : BufTy).Contents (Elt F)),
    unary main_v85 main_v86 (broadcastInDim S8x128x64x512 ![0, 1, 2, 3] bcast_S1x1x1x512_S8x128x64x512_0_1_2_3 : (⟨S1x1x1x512, .f32⟩ : BufTy).Contents (Elt F) → (⟨S8x128x64x512, .f32⟩ : BufTy).Contents (Elt F)),
    binary main_v84 main_v86 main_v87 (mulf : (⟨S8x128x64x512, .f32⟩ : BufTy).Contents (Elt F) → (⟨S8x128x64x512, .f32⟩ : BufTy).Contents (Elt F) → (⟨S8x128x64x512, .f32⟩ : BufTy).Contents (Elt F)),
    unary main_arg13 main_v88 (broadcastInDim S1x1x1x512 ![3] bcast_S512_S1x1x1x512_3 : (⟨S512, .f32⟩ : BufTy).Contents (Elt F) → (⟨S1x1x1x512, .f32⟩ : BufTy).Contents (Elt F)),
    unary main_v88 main_v89 (broadcastInDim S8x128x64x512 ![0, 1, 2, 3] bcast_S1x1x1x512_S8x128x64x512_0_1_2_3 : (⟨S1x1x1x512, .f32⟩ : BufTy).Contents (Elt F) → (⟨S8x128x64x512, .f32⟩ : BufTy).Contents (Elt F)),
    binary main_v87 main_v89 main_v90 (addf : (⟨S8x128x64x512, .f32⟩ : BufTy).Contents (Elt F) → (⟨S8x128x64x512, .f32⟩ : BufTy).Contents (Elt F) → (⟨S8x128x64x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8x128x64x512, .f32⟩) main_call2_v0) (broadcastInDim S8x128x64x512 ![] bcast_S_S8x128x64x512),
    TRef.binary (TRef.of (T := ⟨S8x128x64x512, .f32⟩) main_v90) (TRef.of (T := ⟨S8x128x64x512, .f32⟩) main_call2_v0) (TRef.of (T := ⟨S8x128x64x512, .f32⟩) main_v91) maximumf ]
/-- The buffers they write. -/
abbrev seg3_W : List (Ref sig .tc) := [main_v58, main_v59, main_v60, main_v61, main_v62, main_v63, main_v64, main_v65, main_v66, main_cst_9, main_v67, main_v68, main_cst_10, main_v69, main_v70, main_v71, main_v72, main_v73, main_cst_11, main_v74, main_v75, main_cst_12, main_v76, main_v77, main_v78, main_v79, main_cst_13, main_v80, main_v81, main_v82, main_v83, main_v84, main_v85, main_v86, main_v87, main_v88, main_v89, main_v90, main_call2_cst, main_call2_v0, main_v91]
theorem seg3_writes : (seg3 : List (HloOp τ sig (Elt F))).Forall fun op =>
    op.writes ⊆ (seg3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of the second joint layer. -/
abbrev seg4 : List (HloOp τ sig (Elt F)) :=
  [ binary main_v91 main_arg14 main_v92 ((fun l r => Host.dotGeneral dot_S8x128x64x512_S256x512_S8x128x64x256_3_1_012_0_n_n none l r) : (⟨S8x128x64x512, .f32⟩ : BufTy).Contents (Elt F) → (⟨S256x512, .f32⟩ : BufTy).Contents (Elt F) → (⟨S8x128x64x256, .f32⟩ : BufTy).Contents (Elt F)),
    unary main_arg15 main_v93 (broadcastInDim S1x1x1x256 ![3] bcast_S256_S1x1x1x256_3 : (⟨S256, .f32⟩ : BufTy).Contents (Elt F) → (⟨S1x1x1x256, .f32⟩ : BufTy).Contents (Elt F)),
    unary main_v93 main_v94 (broadcastInDim S8x128x64x256 ![0, 1, 2, 3] bcast_S1x1x1x256_S8x128x64x256_0_1_2_3 : (⟨S1x1x1x256, .f32⟩ : BufTy).Contents (Elt F) → (⟨S8x128x64x256, .f32⟩ : BufTy).Contents (Elt F)),
    binary main_v92 main_v94 main_v95 (addf : (⟨S8x128x64x256, .f32⟩ : BufTy).Contents (Elt F) → (⟨S8x128x64x256, .f32⟩ : BufTy).Contents (Elt F) → (⟨S8x128x64x256, .f32⟩ : BufTy).Contents (Elt F)),
    nullary main_cst_14 (constant S_ .f32 0x00000000#32),
    binary main_v95 main_cst_14 main_v96 ((fun x v => Host.reduceAdd x v reducesTo_S8x128x64x256_S8x128x64_d3 h_S_) : (⟨S8x128x64x256, .f32⟩ : BufTy).Contents (Elt F) → (⟨S_, .f32⟩ : BufTy).Contents (Elt F) → (⟨S8x128x64, .f32⟩ : BufTy).Contents (Elt F)),
    unary main_v96 main_v97 (broadcastInDim S8x128x64x1 ![0, 1, 2] bcast_S8x128x64_S8x128x64x1_0_1_2 : (⟨S8x128x64, .f32⟩ : BufTy).Contents (Elt F) → (⟨S8x128x64x1, .f32⟩ : BufTy).Contents (Elt F)),
    nullary main_cst_15 (constant S_ .f32 0x43800000#32),
    unary main_cst_15 main_v98 (broadcastInDim S8x128x64x1 ![] bcast_S_S8x128x64x1 : (⟨S_, .f32⟩ : BufTy).Contents (Elt F) → (⟨S8x128x64x1, .f32⟩ : BufTy).Contents (Elt F)),
    binary main_v97 main_v98 main_v99 (Host.divf : (⟨S8x128x64x1, .f32⟩ : BufTy).Contents (Elt F) → (⟨S8x128x64x1, .f32⟩ : BufTy).Contents (Elt F) → (⟨S8x128x64x1, .f32⟩ : BufTy).Contents (Elt F)),
    unary main_v99 main_v100 (broadcastInDim S8x128x64x256 ![0, 1, 2, 3] bcast_S8x128x64x1_S8x128x64x256_0_1_2_3 : (⟨S8x128x64x1, .f32⟩ : BufTy).Contents (Elt F) → (⟨S8x128x64x256, .f32⟩ : BufTy).Contents (Elt F)),
    binary main_v95 main_v100 main_v101 (subf : (⟨S8x128x64x256, .f32⟩ : BufTy).Contents (Elt F) → (⟨S8x128x64x256, .f32⟩ : BufTy).Contents (Elt F) → (⟨S8x128x64x256, .f32⟩ : BufTy).Contents (Elt F)),
    binary main_v101 main_v101 main_v102 (mulf : (⟨S8x128x64x256, .f32⟩ : BufTy).Contents (Elt F) → (⟨S8x128x64x256, .f32⟩ : BufTy).Contents (Elt F) → (⟨S8x128x64x256, .f32⟩ : BufTy).Contents (Elt F)),
    nullary main_cst_16 (constant S_ .f32 0x00000000#32),
    binary main_v102 main_cst_16 main_v103 ((fun x v => Host.reduceAdd x v reducesTo_S8x128x64x256_S8x128x64_d3 h_S_) : (⟨S8x128x64x256, .f32⟩ : BufTy).Contents (Elt F) → (⟨S_, .f32⟩ : BufTy).Contents (Elt F) → (⟨S8x128x64, .f32⟩ : BufTy).Contents (Elt F)),
    unary main_v103 main_v104 (broadcastInDim S8x128x64x1 ![0, 1, 2] bcast_S8x128x64_S8x128x64x1_0_1_2 : (⟨S8x128x64, .f32⟩ : BufTy).Contents (Elt F) → (⟨S8x128x64x1, .f32⟩ : BufTy).Contents (Elt F)),
    nullary main_cst_17 (constant S_ .f32 0x43800000#32),
    unary main_cst_17 main_v105 (broadcastInDim S8x128x64x1 ![] bcast_S_S8x128x64x1 : (⟨S_, .f32⟩ : BufTy).Contents (Elt F) → (⟨S8x128x64x1, .f32⟩ : BufTy).Contents (Elt F)),
    binary main_v104 main_v105 main_v106 (Host.divf : (⟨S8x128x64x1, .f32⟩ : BufTy).Contents (Elt F) → (⟨S8x128x64x1, .f32⟩ : BufTy).Contents (Elt F) → (⟨S8x128x64x1, .f32⟩ : BufTy).Contents (Elt F)),
    unary main_v99 main_v107 (broadcastInDim S8x128x64x256 ![0, 1, 2, 3] bcast_S8x128x64x1_S8x128x64x256_0_1_2_3 : (⟨S8x128x64x1, .f32⟩ : BufTy).Contents (Elt F) → (⟨S8x128x64x256, .f32⟩ : BufTy).Contents (Elt F)),
    binary main_v95 main_v107 main_v108 (subf : (⟨S8x128x64x256, .f32⟩ : BufTy).Contents (Elt F) → (⟨S8x128x64x256, .f32⟩ : BufTy).Contents (Elt F) → (⟨S8x128x64x256, .f32⟩ : BufTy).Contents (Elt F)),
    nullary main_cst_18 (constant S_ .f32 0x3727C5AC#32),
    unary main_cst_18 main_v109 (broadcastInDim S8x128x64x1 ![] bcast_S_S8x128x64x1 : (⟨S_, .f32⟩ : BufTy).Contents (Elt F) → (⟨S8x128x64x1, .f32⟩ : BufTy).Contents (Elt F)),
    binary main_v106 main_v109 main_v110 (addf : (⟨S8x128x64x1, .f32⟩ : BufTy).Contents (Elt F) → (⟨S8x128x64x1, .f32⟩ : BufTy).Contents (Elt F) → (⟨S8x128x64x1, .f32⟩ : BufTy).Contents (Elt F)),
    unary main_v110 main_v111 (Host.rsqrt : (⟨S8x128x64x1, .f32⟩ : BufTy).Contents (Elt F) → (⟨S8x128x64x1, .f32⟩ : BufTy).Contents (Elt F)),
    unary main_v111 main_v112 (broadcastInDim S8x128x64x256 ![0, 1, 2, 3] bcast_S8x128x64x1_S8x128x64x256_0_1_2_3 : (⟨S8x128x64x1, .f32⟩ : BufTy).Contents (Elt F) → (⟨S8x128x64x256, .f32⟩ : BufTy).Contents (Elt F)),
    binary main_v108 main_v112 main_v113 (mulf : (⟨S8x128x64x256, .f32⟩ : BufTy).Contents (Elt F) → (⟨S8x128x64x256, .f32⟩ : BufTy).Contents (Elt F) → (⟨S8x128x64x256, .f32⟩ : BufTy).Contents (Elt F)),
    unary main_arg16 main_v114 (broadcastInDim S1x1x1x256 ![3] bcast_S256_S1x1x1x256_3 : (⟨S256, .f32⟩ : BufTy).Contents (Elt F) → (⟨S1x1x1x256, .f32⟩ : BufTy).Contents (Elt F)),
    unary main_v114 main_v115 (broadcastInDim S8x128x64x256 ![0, 1, 2, 3] bcast_S1x1x1x256_S8x128x64x256_0_1_2_3 : (⟨S1x1x1x256, .f32⟩ : BufTy).Contents (Elt F) → (⟨S8x128x64x256, .f32⟩ : BufTy).Contents (Elt F)),
    binary main_v113 main_v115 main_v116 (mulf : (⟨S8x128x64x256, .f32⟩ : BufTy).Contents (Elt F) → (⟨S8x128x64x256, .f32⟩ : BufTy).Contents (Elt F) → (⟨S8x128x64x256, .f32⟩ : BufTy).Contents (Elt F)),
    unary main_arg17 main_v117 (broadcastInDim S1x1x1x256 ![3] bcast_S256_S1x1x1x256_3 : (⟨S256, .f32⟩ : BufTy).Contents (Elt F) → (⟨S1x1x1x256, .f32⟩ : BufTy).Contents (Elt F)),
    unary main_v117 main_v118 (broadcastInDim S8x128x64x256 ![0, 1, 2, 3] bcast_S1x1x1x256_S8x128x64x256_0_1_2_3 : (⟨S1x1x1x256, .f32⟩ : BufTy).Contents (Elt F) → (⟨S8x128x64x256, .f32⟩ : BufTy).Contents (Elt F)),
    binary main_v116 main_v118 main_v119 (addf : (⟨S8x128x64x256, .f32⟩ : BufTy).Contents (Elt F) → (⟨S8x128x64x256, .f32⟩ : BufTy).Contents (Elt F) → (⟨S8x128x64x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x128x64x256, .f32⟩) main_call3_v0) (broadcastInDim S8x128x64x256 ![] bcast_S_S8x128x64x256),
    TRef.binary (TRef.of (T := ⟨S8x128x64x256, .f32⟩) main_v119) (TRef.of (T := ⟨S8x128x64x256, .f32⟩) main_call3_v0) (TRef.of (T := ⟨S8x128x64x256, .f32⟩) main_v120) maximumf ]
/-- The buffers they write. -/
abbrev seg4_W : List (Ref sig .tc) := [main_v92, main_v93, main_v94, main_v95, main_cst_14, main_v96, main_v97, main_cst_15, main_v98, main_v99, main_v100, main_v101, main_v102, main_cst_16, main_v103, main_v104, main_cst_17, main_v105, main_v106, main_v107, main_v108, main_cst_18, main_v109, main_v110, main_v111, main_v112, main_v113, main_v114, main_v115, main_v116, main_v117, main_v118, main_v119, main_call3_cst, main_call3_v0, main_v120]
theorem seg4_writes : (seg4 : List (HloOp τ sig (Elt F))).Forall fun op =>
    op.writes ⊆ (seg4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of the attention rows, repeated along `t`. -/
abbrev seg5 : List (HloOp τ sig (Elt F)) :=
  [ binary main_v57 main_arg18 main_v121 ((fun l r => Host.dotGeneral dot_S8x64x512_S512x512_S8x64x512_2_1_01_0_n_n none l r) : (⟨S8x64x512, .f32⟩ : BufTy).Contents (Elt F) → (⟨S512x512, .f32⟩ : BufTy).Contents (Elt F) → (⟨S8x64x512, .f32⟩ : BufTy).Contents (Elt F)),
    unary main_arg19 main_v122 (broadcastInDim S1x1x512 ![2] bcast_S512_S1x1x512_2 : (⟨S512, .f32⟩ : BufTy).Contents (Elt F) → (⟨S1x1x512, .f32⟩ : BufTy).Contents (Elt F)),
    unary main_v122 main_v123 (broadcastInDim S8x64x512 ![0, 1, 2] bcast_S1x1x512_S8x64x512_0_1_2 : (⟨S1x1x512, .f32⟩ : BufTy).Contents (Elt F) → (⟨S8x64x512, .f32⟩ : BufTy).Contents (Elt F)),
    binary main_v121 main_v123 main_v124 (addf : (⟨S8x64x512, .f32⟩ : BufTy).Contents (Elt F) → (⟨S8x64x512, .f32⟩ : BufTy).Contents (Elt F) → (⟨S8x64x512, .f32⟩ : BufTy).Contents (Elt F)),
    binary main_v124 main_arg20 main_v125 ((fun l r => Host.dotGeneral dot_S8x64x512_S512x512_S8x64x512_2_1_01_0_n_n none l r) : (⟨S8x64x512, .f32⟩ : BufTy).Contents (Elt F) → (⟨S512x512, .f32⟩ : BufTy).Contents (Elt F) → (⟨S8x64x512, .f32⟩ : BufTy).Contents (Elt F)),
    unary main_arg21 main_v126 (broadcastInDim S1x1x512 ![2] bcast_S512_S1x1x512_2 : (⟨S512, .f32⟩ : BufTy).Contents (Elt F) → (⟨S1x1x512, .f32⟩ : BufTy).Contents (Elt F)),
    unary main_v126 main_v127 (broadcastInDim S8x64x512 ![0, 1, 2] bcast_S1x1x512_S8x64x512_0_1_2 : (⟨S1x1x512, .f32⟩ : BufTy).Contents (Elt F) → (⟨S8x64x512, .f32⟩ : BufTy).Contents (Elt F)),
    binary main_v125 main_v127 main_v128 (addf : (⟨S8x64x512, .f32⟩ : BufTy).Contents (Elt F) → (⟨S8x64x512, .f32⟩ : BufTy).Contents (Elt F) → (⟨S8x64x512, .f32⟩ : BufTy).Contents (Elt F)),
    unary main_v128 main_v129 (broadcastInDim S8x1x64x512 ![0, 2, 3] bcast_S8x64x512_S8x1x64x512_0_2_3 : (⟨S8x64x512, .f32⟩ : BufTy).Contents (Elt F) → (⟨S8x1x64x512, .f32⟩ : BufTy).Contents (Elt F)),
    unary main_v129 main_v130 (broadcastInDim S8x128x64x512 ![0, 1, 2, 3] bcast_S8x1x64x512_S8x128x64x512_0_1_2_3 : (⟨S8x1x64x512, .f32⟩ : BufTy).Contents (Elt F) → (⟨S8x128x64x512, .f32⟩ : BufTy).Contents (Elt F)) ]
/-- The buffers they write. -/
abbrev seg5_W : List (Ref sig .tc) := [main_v121, main_v122, main_v123, main_v124, main_v125, main_v126, main_v127, main_v128, main_v129, main_v130]
theorem seg5_writes : (seg5 : List (HloOp τ sig (Elt F))).Forall fun op =>
    op.writes ⊆ (seg5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of the third normalised layer. -/
abbrev seg6 : List (HloOp τ sig (Elt F)) :=
  [ binary main_v120 main_v130 main_v131 ((fun a b => concatenate S8x128x64x768 3 [⟨S8x128x64x256, a⟩, ⟨S8x128x64x512, b⟩] concatenates_S8x128x64x256_S8x128x64x512_S8x128x64x768_d3) : (⟨S8x128x64x256, .f32⟩ : BufTy).Contents (Elt F) → (⟨S8x128x64x512, .f32⟩ : BufTy).Contents (Elt F) → (⟨S8x128x64x768, .f32⟩ : BufTy).Contents (Elt F)),
    binary main_v131 main_arg22 main_v132 ((fun l r => Host.dotGeneral dot_S8x128x64x768_S512x768_S8x128x64x512_3_1_012_0_n_n none l r) : (⟨S8x128x64x768, .f32⟩ : BufTy).Contents (Elt F) → (⟨S512x768, .f32⟩ : BufTy).Contents (Elt F) → (⟨S8x128x64x512, .f32⟩ : BufTy).Contents (Elt F)),
    unary main_arg23 main_v133 (broadcastInDim S1x1x1x512 ![3] bcast_S512_S1x1x1x512_3 : (⟨S512, .f32⟩ : BufTy).Contents (Elt F) → (⟨S1x1x1x512, .f32⟩ : BufTy).Contents (Elt F)),
    unary main_v133 main_v134 (broadcastInDim S8x128x64x512 ![0, 1, 2, 3] bcast_S1x1x1x512_S8x128x64x512_0_1_2_3 : (⟨S1x1x1x512, .f32⟩ : BufTy).Contents (Elt F) → (⟨S8x128x64x512, .f32⟩ : BufTy).Contents (Elt F)),
    binary main_v132 main_v134 main_v135 (addf : (⟨S8x128x64x512, .f32⟩ : BufTy).Contents (Elt F) → (⟨S8x128x64x512, .f32⟩ : BufTy).Contents (Elt F) → (⟨S8x128x64x512, .f32⟩ : BufTy).Contents (Elt F)),
    nullary main_cst_19 (constant S_ .f32 0x00000000#32),
    binary main_v135 main_cst_19 main_v136 ((fun x v => Host.reduceAdd x v reducesTo_S8x128x64x512_S8x128x64_d3 h_S_) : (⟨S8x128x64x512, .f32⟩ : BufTy).Contents (Elt F) → (⟨S_, .f32⟩ : BufTy).Contents (Elt F) → (⟨S8x128x64, .f32⟩ : BufTy).Contents (Elt F)),
    unary main_v136 main_v137 (broadcastInDim S8x128x64x1 ![0, 1, 2] bcast_S8x128x64_S8x128x64x1_0_1_2 : (⟨S8x128x64, .f32⟩ : BufTy).Contents (Elt F) → (⟨S8x128x64x1, .f32⟩ : BufTy).Contents (Elt F)),
    nullary main_cst_20 (constant S_ .f32 0x44000000#32),
    unary main_cst_20 main_v138 (broadcastInDim S8x128x64x1 ![] bcast_S_S8x128x64x1 : (⟨S_, .f32⟩ : BufTy).Contents (Elt F) → (⟨S8x128x64x1, .f32⟩ : BufTy).Contents (Elt F)),
    binary main_v137 main_v138 main_v139 (Host.divf : (⟨S8x128x64x1, .f32⟩ : BufTy).Contents (Elt F) → (⟨S8x128x64x1, .f32⟩ : BufTy).Contents (Elt F) → (⟨S8x128x64x1, .f32⟩ : BufTy).Contents (Elt F)),
    unary main_v139 main_v140 (broadcastInDim S8x128x64x512 ![0, 1, 2, 3] bcast_S8x128x64x1_S8x128x64x512_0_1_2_3 : (⟨S8x128x64x1, .f32⟩ : BufTy).Contents (Elt F) → (⟨S8x128x64x512, .f32⟩ : BufTy).Contents (Elt F)),
    binary main_v135 main_v140 main_v141 (subf : (⟨S8x128x64x512, .f32⟩ : BufTy).Contents (Elt F) → (⟨S8x128x64x512, .f32⟩ : BufTy).Contents (Elt F) → (⟨S8x128x64x512, .f32⟩ : BufTy).Contents (Elt F)),
    binary main_v141 main_v141 main_v142 (mulf : (⟨S8x128x64x512, .f32⟩ : BufTy).Contents (Elt F) → (⟨S8x128x64x512, .f32⟩ : BufTy).Contents (Elt F) → (⟨S8x128x64x512, .f32⟩ : BufTy).Contents (Elt F)),
    nullary main_cst_21 (constant S_ .f32 0x00000000#32),
    binary main_v142 main_cst_21 main_v143 ((fun x v => Host.reduceAdd x v reducesTo_S8x128x64x512_S8x128x64_d3 h_S_) : (⟨S8x128x64x512, .f32⟩ : BufTy).Contents (Elt F) → (⟨S_, .f32⟩ : BufTy).Contents (Elt F) → (⟨S8x128x64, .f32⟩ : BufTy).Contents (Elt F)),
    unary main_v143 main_v144 (broadcastInDim S8x128x64x1 ![0, 1, 2] bcast_S8x128x64_S8x128x64x1_0_1_2 : (⟨S8x128x64, .f32⟩ : BufTy).Contents (Elt F) → (⟨S8x128x64x1, .f32⟩ : BufTy).Contents (Elt F)),
    nullary main_cst_22 (constant S_ .f32 0x44000000#32),
    unary main_cst_22 main_v145 (broadcastInDim S8x128x64x1 ![] bcast_S_S8x128x64x1 : (⟨S_, .f32⟩ : BufTy).Contents (Elt F) → (⟨S8x128x64x1, .f32⟩ : BufTy).Contents (Elt F)),
    binary main_v144 main_v145 main_v146 (Host.divf : (⟨S8x128x64x1, .f32⟩ : BufTy).Contents (Elt F) → (⟨S8x128x64x1, .f32⟩ : BufTy).Contents (Elt F) → (⟨S8x128x64x1, .f32⟩ : BufTy).Contents (Elt F)),
    unary main_v139 main_v147 (broadcastInDim S8x128x64x512 ![0, 1, 2, 3] bcast_S8x128x64x1_S8x128x64x512_0_1_2_3 : (⟨S8x128x64x1, .f32⟩ : BufTy).Contents (Elt F) → (⟨S8x128x64x512, .f32⟩ : BufTy).Contents (Elt F)),
    binary main_v135 main_v147 main_v148 (subf : (⟨S8x128x64x512, .f32⟩ : BufTy).Contents (Elt F) → (⟨S8x128x64x512, .f32⟩ : BufTy).Contents (Elt F) → (⟨S8x128x64x512, .f32⟩ : BufTy).Contents (Elt F)),
    nullary main_cst_23 (constant S_ .f32 0x3727C5AC#32),
    unary main_cst_23 main_v149 (broadcastInDim S8x128x64x1 ![] bcast_S_S8x128x64x1 : (⟨S_, .f32⟩ : BufTy).Contents (Elt F) → (⟨S8x128x64x1, .f32⟩ : BufTy).Contents (Elt F)),
    binary main_v146 main_v149 main_v150 (addf : (⟨S8x128x64x1, .f32⟩ : BufTy).Contents (Elt F) → (⟨S8x128x64x1, .f32⟩ : BufTy).Contents (Elt F) → (⟨S8x128x64x1, .f32⟩ : BufTy).Contents (Elt F)),
    unary main_v150 main_v151 (Host.rsqrt : (⟨S8x128x64x1, .f32⟩ : BufTy).Contents (Elt F) → (⟨S8x128x64x1, .f32⟩ : BufTy).Contents (Elt F)),
    unary main_v151 main_v152 (broadcastInDim S8x128x64x512 ![0, 1, 2, 3] bcast_S8x128x64x1_S8x128x64x512_0_1_2_3 : (⟨S8x128x64x1, .f32⟩ : BufTy).Contents (Elt F) → (⟨S8x128x64x512, .f32⟩ : BufTy).Contents (Elt F)),
    binary main_v148 main_v152 main_v153 (mulf : (⟨S8x128x64x512, .f32⟩ : BufTy).Contents (Elt F) → (⟨S8x128x64x512, .f32⟩ : BufTy).Contents (Elt F) → (⟨S8x128x64x512, .f32⟩ : BufTy).Contents (Elt F)),
    unary main_arg24 main_v154 (broadcastInDim S1x1x1x512 ![3] bcast_S512_S1x1x1x512_3 : (⟨S512, .f32⟩ : BufTy).Contents (Elt F) → (⟨S1x1x1x512, .f32⟩ : BufTy).Contents (Elt F)),
    unary main_v154 main_v155 (broadcastInDim S8x128x64x512 ![0, 1, 2, 3] bcast_S1x1x1x512_S8x128x64x512_0_1_2_3 : (⟨S1x1x1x512, .f32⟩ : BufTy).Contents (Elt F) → (⟨S8x128x64x512, .f32⟩ : BufTy).Contents (Elt F)),
    binary main_v153 main_v155 main_v156 (mulf : (⟨S8x128x64x512, .f32⟩ : BufTy).Contents (Elt F) → (⟨S8x128x64x512, .f32⟩ : BufTy).Contents (Elt F) → (⟨S8x128x64x512, .f32⟩ : BufTy).Contents (Elt F)),
    unary main_arg25 main_v157 (broadcastInDim S1x1x1x512 ![3] bcast_S512_S1x1x1x512_3 : (⟨S512, .f32⟩ : BufTy).Contents (Elt F) → (⟨S1x1x1x512, .f32⟩ : BufTy).Contents (Elt F)),
    unary main_v157 main_v158 (broadcastInDim S8x128x64x512 ![0, 1, 2, 3] bcast_S1x1x1x512_S8x128x64x512_0_1_2_3 : (⟨S1x1x1x512, .f32⟩ : BufTy).Contents (Elt F) → (⟨S8x128x64x512, .f32⟩ : BufTy).Contents (Elt F)),
    binary main_v156 main_v158 main_v159 (addf : (⟨S8x128x64x512, .f32⟩ : BufTy).Contents (Elt F) → (⟨S8x128x64x512, .f32⟩ : BufTy).Contents (Elt F) → (⟨S8x128x64x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S8x128x64x512, .f32⟩) main_call4_v0) (broadcastInDim S8x128x64x512 ![] bcast_S_S8x128x64x512),
    TRef.binary (TRef.of (T := ⟨S8x128x64x512, .f32⟩) main_v159) (TRef.of (T := ⟨S8x128x64x512, .f32⟩) main_call4_v0) (TRef.of (T := ⟨S8x128x64x512, .f32⟩) main_v160) maximumf ]
/-- The buffers they write. -/
abbrev seg6_W : List (Ref sig .tc) := [main_v131, main_v132, main_v133, main_v134, main_v135, main_cst_19, main_v136, main_v137, main_cst_20, main_v138, main_v139, main_v140, main_v141, main_v142, main_cst_21, main_v143, main_v144, main_cst_22, main_v145, main_v146, main_v147, main_v148, main_cst_23, main_v149, main_v150, main_v151, main_v152, main_v153, main_v154, main_v155, main_v156, main_v157, main_v158, main_v159, main_call4_cst, main_call4_v0, main_v160]
theorem seg6_writes : (seg6 : List (HloOp τ sig (Elt F))).Forall fun op =>
    op.writes ⊆ (seg6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The operations of the output layer. -/
abbrev seg7 : List (HloOp τ sig (Elt F)) :=
  [ binary main_v160 main_arg26 main_v161 ((fun l r => Host.dotGeneral dot_S8x128x64x512_S1024x512_S8x128x64x1024_3_1_012_0_n_n none l r) : (⟨S8x128x64x512, .f32⟩ : BufTy).Contents (Elt F) → (⟨S1024x512, .f32⟩ : BufTy).Contents (Elt F) → (⟨S8x128x64x1024, .f32⟩ : BufTy).Contents (Elt F)),
    unary main_arg27 main_v162 (broadcastInDim S1x1x1x1024 ![3] bcast_S1024_S1x1x1x1024_3 : (⟨S1024, .f32⟩ : BufTy).Contents (Elt F) → (⟨S1x1x1x1024, .f32⟩ : BufTy).Contents (Elt F)),
    unary main_v162 main_v163 (broadcastInDim S8x128x64x1024 ![0, 1, 2, 3] bcast_S1x1x1x1024_S8x128x64x1024_0_1_2_3 : (⟨S1x1x1x1024, .f32⟩ : BufTy).Contents (Elt F) → (⟨S8x128x64x1024, .f32⟩ : BufTy).Contents (Elt F)),
    binary main_v161 main_v163 main_v164 (addf : (⟨S8x128x64x1024, .f32⟩ : BufTy).Contents (Elt F) → (⟨S8x128x64x1024, .f32⟩ : BufTy).Contents (Elt F) → (⟨S8x128x64x1024, .f32⟩ : BufTy).Contents (Elt F)),
    unary main_arg28 main_v165 (broadcastInDim S1x1x1x1024 ![3] bcast_S1024_S1x1x1x1024_3 : (⟨S1024, .f32⟩ : BufTy).Contents (Elt F) → (⟨S1x1x1x1024, .f32⟩ : BufTy).Contents (Elt F)),
    unary main_v165 main_v166 (broadcastInDim S8x128x64x1024 ![0, 1, 2, 3] bcast_S1x1x1x1024_S8x128x64x1024_0_1_2_3 : (⟨S1x1x1x1024, .f32⟩ : BufTy).Contents (Elt F) → (⟨S8x128x64x1024, .f32⟩ : BufTy).Contents (Elt F)),
    binary main_v164 main_v166 main_v167 (mulf : (⟨S8x128x64x1024, .f32⟩ : BufTy).Contents (Elt F) → (⟨S8x128x64x1024, .f32⟩ : BufTy).Contents (Elt F) → (⟨S8x128x64x1024, .f32⟩ : BufTy).Contents (Elt F)) ]
/-- The buffers they write. -/
abbrev seg7_W : List (Ref sig .tc) := [main_v161, main_v162, main_v163, main_v164, main_v165, main_v166, main_v167]
theorem seg7_writes : (seg7 : List (HloOp τ sig (Elt F))).Forall fun op =>
    op.writes ⊆ (seg7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- The program's operations are the seven stretches in order. -/
theorem ops_eq : (ValueP.ops : List (HloOp τ sig (Elt F))) = seg1 ++ (seg2 ++ (seg3 ++ (seg4 ++ (seg5 ++ (seg6 ++ seg7))))) := rfl

end Cert.ReferenceIdeal.RefValue

end
-- ==== Proof.RefFold1.lean ====
/-
  Stretch 1 of the plain program's operations (the first input's normalised projection): from any buffer contents that hold the arguments it
  reads and the earlier layers' stages, it leaves that layer's stage in the layer's buffer (`seg1_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the first input's normalised projection
    leave that layer's stage in its buffer. -/
theorem seg1_out (W : Valuation τ sig (Elt Ideal)) (x0 : (⟨S8x128x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal))
    (h_arg0 : W (Proc.devRef .tc main_arg0) = x0)
    (h_arg2 : W (Proc.devRef .tc main_arg2) = x2)
    (h_arg3 : W (Proc.devRef .tc main_arg3) = x3)
    (h_arg4 : W (Proc.devRef .tc main_arg4) = x4)
    (h_arg5 : W (Proc.devRef .tc main_arg5) = x5) :
    after (seg1 (F := Ideal)) W (Proc.devRef .tc main_v28) = val_main_v28 (F := Ideal) x0 x2 x3 x4 x5 := by
  simp only [seg1]
  after_results_simp
  simp only [h_arg0, h_arg2, h_arg3, h_arg4, h_arg5]
  rfl

end Cert.ReferenceIdeal.RefValue

end
-- ==== Proof.RefFold2.lean ====
/-
  Stretch 2 of the plain program's operations (the second input's normalised projection): from any buffer contents that hold the arguments it
  reads and the earlier layers' stages, it leaves that layer's stage in the layer's buffer (`seg2_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the second input's normalised projection
    leave that layer's stage in its buffer. -/
theorem seg2_out (W : Valuation τ sig (Elt Ideal)) (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal))
    (h_arg1 : W (Proc.devRef .tc main_arg1) = x1)
    (h_arg6 : W (Proc.devRef .tc main_arg6) = x6)
    (h_arg7 : W (Proc.devRef .tc main_arg7) = x7)
    (h_arg8 : W (Proc.devRef .tc main_arg8) = x8)
    (h_arg9 : W (Proc.devRef .tc main_arg9) = x9) :
    after (seg2 (F := Ideal)) W (Proc.devRef .tc main_v57) = val_main_v57 (F := Ideal) x1 x6 x7 x8 x9 := by
  simp only [seg2]
  after_results_simp
  simp only [h_arg1, h_arg6, h_arg7, h_arg8, h_arg9]
  rfl

end Cert.ReferenceIdeal.RefValue

end
-- ==== Proof.RefFold3.lean ====
/-
  Stretch 3 of the plain program's operations (the first joint layer): from any buffer contents that hold the arguments it
  reads and the earlier layers' stages, it leaves that layer's stage in the layer's buffer (`seg3_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the first joint layer
    leave that layer's stage in its buffer. -/
theorem seg3_out (W : Valuation τ sig (Elt Ideal)) (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal))
    (h_v28 : W (Proc.devRef .tc main_v28) = val_main_v28 (F := Ideal) x0 x2 x3 x4 x5)
    (h_v57 : W (Proc.devRef .tc main_v57) = val_main_v57 (F := Ideal) x1 x6 x7 x8 x9)
    (h_arg10 : W (Proc.devRef .tc main_arg10) = x10)
    (h_arg11 : W (Proc.devRef .tc main_arg11) = x11)
    (h_arg12 : W (Proc.devRef .tc main_arg12) = x12)
    (h_arg13 : W (Proc.devRef .tc main_arg13) = x13) :
    after (seg3 (F := Ideal)) W (Proc.devRef .tc main_v91) = val_main_v91 (F := Ideal) x0 x1 x2 x3 x4 x5 x6 x7 x8 x9 x10 x11 x12 x13 := by
  simp only [seg3]
  after_results_simp
  simp only [h_v28, h_v57, h_arg10, h_arg11, h_arg12, h_arg13]
  rfl

end Cert.ReferenceIdeal.RefValue

end
-- ==== Proof.RefFold4.lean ====
/-
  Stretch 4 of the plain program's operations (the second joint layer): from any buffer contents that hold the arguments it
  reads and the earlier layers' stages, it leaves that layer's stage in the layer's buffer (`seg4_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the second joint layer
    leave that layer's stage in its buffer. -/
theorem seg4_out (W : Valuation τ sig (Elt Ideal)) (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal))
    (h_v91 : W (Proc.devRef .tc main_v91) = val_main_v91 (F := Ideal) x0 x1 x2 x3 x4 x5 x6 x7 x8 x9 x10 x11 x12 x13)
    (h_arg14 : W (Proc.devRef .tc main_arg14) = x14)
    (h_arg15 : W (Proc.devRef .tc main_arg15) = x15)
    (h_arg16 : W (Proc.devRef .tc main_arg16) = x16)
    (h_arg17 : W (Proc.devRef .tc main_arg17) = x17) :
    after (seg4 (F := Ideal)) W (Proc.devRef .tc main_v120) = val_main_v120 (F := Ideal) x0 x1 x2 x3 x4 x5 x6 x7 x8 x9 x10 x11 x12 x13 x14 x15 x16 x17 := by
  simp only [seg4]
  after_results_simp
  simp only [h_v91, h_arg14, h_arg15, h_arg16, h_arg17]
  rfl

end Cert.ReferenceIdeal.RefValue

end
-- ==== Proof.RefFold5.lean ====
/-
  Stretch 5 of the plain program's operations (the attention rows, repeated along `t`): from any buffer contents that hold the arguments it
  reads and the earlier layers' stages, it leaves that layer's stage in the layer's buffer (`seg5_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the attention rows, repeated along `t`
    leave that layer's stage in its buffer. -/
theorem seg5_out (W : Valuation τ sig (Elt Ideal)) (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal))
    (h_v57 : W (Proc.devRef .tc main_v57) = val_main_v57 (F := Ideal) x1 x6 x7 x8 x9)
    (h_arg18 : W (Proc.devRef .tc main_arg18) = x18)
    (h_arg19 : W (Proc.devRef .tc main_arg19) = x19)
    (h_arg20 : W (Proc.devRef .tc main_arg20) = x20)
    (h_arg21 : W (Proc.devRef .tc main_arg21) = x21) :
    after (seg5 (F := Ideal)) W (Proc.devRef .tc main_v130) = val_main_v130 (F := Ideal) x1 x6 x7 x8 x9 x18 x19 x20 x21 := by
  simp only [seg5]
  after_results_simp
  simp only [h_v57, h_arg18, h_arg19, h_arg20, h_arg21]
  rfl

end Cert.ReferenceIdeal.RefValue

end
-- ==== Proof.RefFold6.lean ====
/-
  Stretch 6 of the plain program's operations (the third normalised layer): from any buffer contents that hold the arguments it
  reads and the earlier layers' stages, it leaves that layer's stage in the layer's buffer (`seg6_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the third normalised layer
    leave that layer's stage in its buffer. -/
theorem seg6_out (W : Valuation τ sig (Elt Ideal)) (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (x24 : (⟨S512, .f32⟩ : BufTy).Contents (Elt Ideal)) (x25 : (⟨S512, .f32⟩ : BufTy).Contents (Elt Ideal))
    (h_v120 : W (Proc.devRef .tc main_v120) = val_main_v120 (F := Ideal) x0 x1 x2 x3 x4 x5 x6 x7 x8 x9 x10 x11 x12 x13 x14 x15 x16 x17)
    (h_v130 : W (Proc.devRef .tc main_v130) = val_main_v130 (F := Ideal) x1 x6 x7 x8 x9 x18 x19 x20 x21)
    (h_arg22 : W (Proc.devRef .tc main_arg22) = x22)
    (h_arg23 : W (Proc.devRef .tc main_arg23) = x23)
    (h_arg24 : W (Proc.devRef .tc main_arg24) = x24)
    (h_arg25 : W (Proc.devRef .tc main_arg25) = x25) :
    after (seg6 (F := Ideal)) W (Proc.devRef .tc main_v160) = val_main_v160 (F := Ideal) x0 x1 x2 x3 x4 x5 x6 x7 x8 x9 x10 x11 x12 x13 x14 x15 x16 x17 x18 x19 x20 x21 x22 x23 x24 x25 := by
  simp only [seg6]
  after_results_simp
  simp only [h_arg22, h_arg23, h_arg24, h_arg25]
  rw [h_v120, h_v130]
  rfl

end Cert.ReferenceIdeal.RefValue

end
-- ==== Proof.RefFold7.lean ====
/-
  Stretch 7 of the plain program's operations (the output layer): from any buffer contents that hold the arguments it
  reads and the earlier layers' stages, it leaves that layer's stage in the layer's buffer (`seg7_out`).
-/
import proofs.«140755_j31396210934102_2_alg».proof.Proof.RefRunP
import proofs.«140755_j31396210934102_2_alg».proof.Proof.RefReadP
import proofs.«140755_j31396210934102_2_alg».proof.Proof.RefSeg

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

/-- From any buffer contents holding the arguments and the earlier layers' results, the operations of the output layer
    leave that layer's stage in its buffer. -/
theorem seg7_out (W : Valuation τ sig (Elt Ideal)) (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (x24 : (⟨S512, .f32⟩ : BufTy).Contents (Elt Ideal)) (x25 : (⟨S512, .f32⟩ : BufTy).Contents (Elt Ideal)) (x26 : (⟨S1024x512, .f32⟩ : BufTy).Contents (Elt Ideal)) (x27 : (⟨S1024, .f32⟩ : BufTy).Contents (Elt Ideal)) (x28 : (⟨S1024, .f32⟩ : BufTy).Contents (Elt Ideal))
    (h_v160 : W (Proc.devRef .tc main_v160) = val_main_v160 (F := Ideal) x0 x1 x2 x3 x4 x5 x6 x7 x8 x9 x10 x11 x12 x13 x14 x15 x16 x17 x18 x19 x20 x21 x22 x23 x24 x25)
    (h_arg26 : W (Proc.devRef .tc main_arg26) = x26)
    (h_arg27 : W (Proc.devRef .tc main_arg27) = x27)
    (h_arg28 : W (Proc.devRef .tc main_arg28) = x28) :
    after (seg7 (F := Ideal)) W (Proc.devRef .tc main_v167) = val_main_v167 (F := Ideal) x0 x1 x2 x3 x4 x5 x6 x7 x8 x9 x10 x11 x12 x13 x14 x15 x16 x17 x18 x19 x20 x21 x22 x23 x24 x25 x26 x27 x28 := by
  simp only [seg7]
  after_results_simp
  simp only [h_v160, h_arg26, h_arg27, h_arg28]
  rfl

end Cert.ReferenceIdeal.RefValue

end
-- ==== Proof.RefFold.lean ====
/-
  The fold of the plain program's operations over the launch contents: stretch by stretch, the argument buffers keep their
  contents and each layer's buffer holds that layer's stage from the stretch that computes it on, so the result buffer ends
  holding the last stage of the argument arrays (`fold_eq`).
-/
import proofs.«140755_j31396210934102_2_alg».proof.Proof.RefRunP
import proofs.«140755_j31396210934102_2_alg».proof.Proof.RefReadP
import proofs.«140755_j31396210934102_2_alg».proof.Proof.RefSeg
import proofs.«140755_j31396210934102_2_alg».proof.Proof.RefFold1
import proofs.«140755_j31396210934102_2_alg».proof.Proof.RefFold2
import proofs.«140755_j31396210934102_2_alg».proof.Proof.RefFold3
import proofs.«140755_j31396210934102_2_alg».proof.Proof.RefFold4
import proofs.«140755_j31396210934102_2_alg».proof.Proof.RefFold5
import proofs.«140755_j31396210934102_2_alg».proof.Proof.RefFold6
import proofs.«140755_j31396210934102_2_alg».proof.Proof.RefFold7

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo

variable (m : (ℓ : Loc nD τ sig) → Buf (Elt Ideal) ℓ) (c : Dev nD)

/-! The buffer contents after each stretch of the program, from the launch contents. -/

/-- The launch contents. -/
def V0 : Valuation τ sig (Elt Ideal) := launchContents m c
/-- The contents after the first stretch. -/
def V1 : Valuation τ sig (Elt Ideal) := after (seg1 (F := Ideal)) (V0 m c)
/-- A buffer stretch 1 does not write keeps its contents through it. -/
theorem keep1 (r : Ref sig .tc) (h : r ∉ seg1_W) : V1 m c (Proc.devRef .tc r) = V0 m c (Proc.devRef .tc r) :=
  after_of_writes_sub seg1 _ seg1_writes h
/-- The contents after the first 2 stretches. -/
def V2 : Valuation τ sig (Elt Ideal) := after (seg2 (F := Ideal)) (V1 m c)
/-- A buffer stretch 2 does not write keeps its contents through it. -/
theorem keep2 (r : Ref sig .tc) (h : r ∉ seg2_W) : V2 m c (Proc.devRef .tc r) = V1 m c (Proc.devRef .tc r) :=
  after_of_writes_sub seg2 _ seg2_writes h
/-- The contents after the first 3 stretches. -/
def V3 : Valuation τ sig (Elt Ideal) := after (seg3 (F := Ideal)) (V2 m c)
/-- A buffer stretch 3 does not write keeps its contents through it. -/
theorem keep3 (r : Ref sig .tc) (h : r ∉ seg3_W) : V3 m c (Proc.devRef .tc r) = V2 m c (Proc.devRef .tc r) :=
  after_of_writes_sub seg3 _ seg3_writes h
/-- The contents after the first 4 stretches. -/
def V4 : Valuation τ sig (Elt Ideal) := after (seg4 (F := Ideal)) (V3 m c)
/-- A buffer stretch 4 does not write keeps its contents through it. -/
theorem keep4 (r : Ref sig .tc) (h : r ∉ seg4_W) : V4 m c (Proc.devRef .tc r) = V3 m c (Proc.devRef .tc r) :=
  after_of_writes_sub seg4 _ seg4_writes h
/-- The contents after the first 5 stretches. -/
def V5 : Valuation τ sig (Elt Ideal) := after (seg5 (F := Ideal)) (V4 m c)
/-- A buffer stretch 5 does not write keeps its contents through it. -/
theorem keep5 (r : Ref sig .tc) (h : r ∉ seg5_W) : V5 m c (Proc.devRef .tc r) = V4 m c (Proc.devRef .tc r) :=
  after_of_writes_sub seg5 _ seg5_writes h
/-- The contents after the first 6 stretches. -/
def V6 : Valuation τ sig (Elt Ideal) := after (seg6 (F := Ideal)) (V5 m c)
/-- A buffer stretch 6 does not write keeps its contents through it. -/
theorem keep6 (r : Ref sig .tc) (h : r ∉ seg6_W) : V6 m c (Proc.devRef .tc r) = V5 m c (Proc.devRef .tc r) :=
  after_of_writes_sub seg6 _ seg6_writes h
/-- The contents after the first 7 stretches. -/
def V7 : Valuation τ sig (Elt Ideal) := after (seg7 (F := Ideal)) (V6 m c)
/-- A buffer stretch 7 does not write keeps its contents through it. -/
theorem keep7 (r : Ref sig .tc) (h : r ∉ seg7_W) : V7 m c (Proc.devRef .tc r) = V6 m c (Proc.devRef .tc r) :=
  after_of_writes_sub seg7 _ seg7_writes h

/-! The argument buffers are never written. -/
theorem V0_arg0 : V0 m c (Proc.devRef .tc main_arg0) = m ((c.tc : Thread nD τ).loc main_arg0) := rfl
theorem V0_arg1 : V0 m c (Proc.devRef .tc main_arg1) = m ((c.tc : Thread nD τ).loc main_arg1) := rfl
theorem V1_arg1 : V1 m c (Proc.devRef .tc main_arg1) = m ((c.tc : Thread nD τ).loc main_arg1) :=
  (keep1 m c main_arg1 (by decide)).trans (V0_arg1 m c)
theorem V0_arg2 : V0 m c (Proc.devRef .tc main_arg2) = m ((c.tc : Thread nD τ).loc main_arg2) := rfl
theorem V0_arg3 : V0 m c (Proc.devRef .tc main_arg3) = m ((c.tc : Thread nD τ).loc main_arg3) := rfl
theorem V0_arg4 : V0 m c (Proc.devRef .tc main_arg4) = m ((c.tc : Thread nD τ).loc main_arg4) := rfl
theorem V0_arg5 : V0 m c (Proc.devRef .tc main_arg5) = m ((c.tc : Thread nD τ).loc main_arg5) := rfl
theorem V0_arg6 : V0 m c (Proc.devRef .tc main_arg6) = m ((c.tc : Thread nD τ).loc main_arg6) := rfl
theorem V1_arg6 : V1 m c (Proc.devRef .tc main_arg6) = m ((c.tc : Thread nD τ).loc main_arg6) :=
  (keep1 m c main_arg6 (by decide)).trans (V0_arg6 m c)
theorem V0_arg7 : V0 m c (Proc.devRef .tc main_arg7) = m ((c.tc : Thread nD τ).loc main_arg7) := rfl
theorem V1_arg7 : V1 m c (Proc.devRef .tc main_arg7) = m ((c.tc : Thread nD τ).loc main_arg7) :=
  (keep1 m c main_arg7 (by decide)).trans (V0_arg7 m c)
theorem V0_arg8 : V0 m c (Proc.devRef .tc main_arg8) = m ((c.tc : Thread nD τ).loc main_arg8) := rfl
theorem V1_arg8 : V1 m c (Proc.devRef .tc main_arg8) = m ((c.tc : Thread nD τ).loc main_arg8) :=
  (keep1 m c main_arg8 (by decide)).trans (V0_arg8 m c)
theorem V0_arg9 : V0 m c (Proc.devRef .tc main_arg9) = m ((c.tc : Thread nD τ).loc main_arg9) := rfl
theorem V1_arg9 : V1 m c (Proc.devRef .tc main_arg9) = m ((c.tc : Thread nD τ).loc main_arg9) :=
  (keep1 m c main_arg9 (by decide)).trans (V0_arg9 m c)
theorem V0_arg10 : V0 m c (Proc.devRef .tc main_arg10) = m ((c.tc : Thread nD τ).loc main_arg10) := rfl
theorem V1_arg10 : V1 m c (Proc.devRef .tc main_arg10) = m ((c.tc : Thread nD τ).loc main_arg10) :=
  (keep1 m c main_arg10 (by decide)).trans (V0_arg10 m c)
theorem V2_arg10 : V2 m c (Proc.devRef .tc main_arg10) = m ((c.tc : Thread nD τ).loc main_arg10) :=
  (keep2 m c main_arg10 (by decide)).trans (V1_arg10 m c)
theorem V0_arg11 : V0 m c (Proc.devRef .tc main_arg11) = m ((c.tc : Thread nD τ).loc main_arg11) := rfl
theorem V1_arg11 : V1 m c (Proc.devRef .tc main_arg11) = m ((c.tc : Thread nD τ).loc main_arg11) :=
  (keep1 m c main_arg11 (by decide)).trans (V0_arg11 m c)
theorem V2_arg11 : V2 m c (Proc.devRef .tc main_arg11) = m ((c.tc : Thread nD τ).loc main_arg11) :=
  (keep2 m c main_arg11 (by decide)).trans (V1_arg11 m c)
theorem V0_arg12 : V0 m c (Proc.devRef .tc main_arg12) = m ((c.tc : Thread nD τ).loc main_arg12) := rfl
theorem V1_arg12 : V1 m c (Proc.devRef .tc main_arg12) = m ((c.tc : Thread nD τ).loc main_arg12) :=
  (keep1 m c main_arg12 (by decide)).trans (V0_arg12 m c)
theorem V2_arg12 : V2 m c (Proc.devRef .tc main_arg12) = m ((c.tc : Thread nD τ).loc main_arg12) :=
  (keep2 m c main_arg12 (by decide)).trans (V1_arg12 m c)
theorem V0_arg13 : V0 m c (Proc.devRef .tc main_arg13) = m ((c.tc : Thread nD τ).loc main_arg13) := rfl
theorem V1_arg13 : V1 m c (Proc.devRef .tc main_arg13) = m ((c.tc : Thread nD τ).loc main_arg13) :=
  (keep1 m c main_arg13 (by decide)).trans (V0_arg13 m c)
theorem V2_arg13 : V2 m c (Proc.devRef .tc main_arg13) = m ((c.tc : Thread nD τ).loc main_arg13) :=
  (keep2 m c main_arg13 (by decide)).trans (V1_arg13 m c)
theorem V0_arg14 : V0 m c (Proc.devRef .tc main_arg14) = m ((c.tc : Thread nD τ).loc main_arg14) := rfl
theorem V1_arg14 : V1 m c (Proc.devRef .tc main_arg14) = m ((c.tc : Thread nD τ).loc main_arg14) :=
  (keep1 m c main_arg14 (by decide)).trans (V0_arg14 m c)
theorem V2_arg14 : V2 m c (Proc.devRef .tc main_arg14) = m ((c.tc : Thread nD τ).loc main_arg14) :=
  (keep2 m c main_arg14 (by decide)).trans (V1_arg14 m c)
theorem V3_arg14 : V3 m c (Proc.devRef .tc main_arg14) = m ((c.tc : Thread nD τ).loc main_arg14) :=
  (keep3 m c main_arg14 (by decide)).trans (V2_arg14 m c)
theorem V0_arg15 : V0 m c (Proc.devRef .tc main_arg15) = m ((c.tc : Thread nD τ).loc main_arg15) := rfl
theorem V1_arg15 : V1 m c (Proc.devRef .tc main_arg15) = m ((c.tc : Thread nD τ).loc main_arg15) :=
  (keep1 m c main_arg15 (by decide)).trans (V0_arg15 m c)
theorem V2_arg15 : V2 m c (Proc.devRef .tc main_arg15) = m ((c.tc : Thread nD τ).loc main_arg15) :=
  (keep2 m c main_arg15 (by decide)).trans (V1_arg15 m c)
theorem V3_arg15 : V3 m c (Proc.devRef .tc main_arg15) = m ((c.tc : Thread nD τ).loc main_arg15) :=
  (keep3 m c main_arg15 (by decide)).trans (V2_arg15 m c)
theorem V0_arg16 : V0 m c (Proc.devRef .tc main_arg16) = m ((c.tc : Thread nD τ).loc main_arg16) := rfl
theorem V1_arg16 : V1 m c (Proc.devRef .tc main_arg16) = m ((c.tc : Thread nD τ).loc main_arg16) :=
  (keep1 m c main_arg16 (by decide)).trans (V0_arg16 m c)
theorem V2_arg16 : V2 m c (Proc.devRef .tc main_arg16) = m ((c.tc : Thread nD τ).loc main_arg16) :=
  (keep2 m c main_arg16 (by decide)).trans (V1_arg16 m c)
theorem V3_arg16 : V3 m c (Proc.devRef .tc main_arg16) = m ((c.tc : Thread nD τ).loc main_arg16) :=
  (keep3 m c main_arg16 (by decide)).trans (V2_arg16 m c)
theorem V0_arg17 : V0 m c (Proc.devRef .tc main_arg17) = m ((c.tc : Thread nD τ).loc main_arg17) := rfl
theorem V1_arg17 : V1 m c (Proc.devRef .tc main_arg17) = m ((c.tc : Thread nD τ).loc main_arg17) :=
  (keep1 m c main_arg17 (by decide)).trans (V0_arg17 m c)
theorem V2_arg17 : V2 m c (Proc.devRef .tc main_arg17) = m ((c.tc : Thread nD τ).loc main_arg17) :=
  (keep2 m c main_arg17 (by decide)).trans (V1_arg17 m c)
theorem V3_arg17 : V3 m c (Proc.devRef .tc main_arg17) = m ((c.tc : Thread nD τ).loc main_arg17) :=
  (keep3 m c main_arg17 (by decide)).trans (V2_arg17 m c)
theorem V0_arg18 : V0 m c (Proc.devRef .tc main_arg18) = m ((c.tc : Thread nD τ).loc main_arg18) := rfl
theorem V1_arg18 : V1 m c (Proc.devRef .tc main_arg18) = m ((c.tc : Thread nD τ).loc main_arg18) :=
  (keep1 m c main_arg18 (by decide)).trans (V0_arg18 m c)
theorem V2_arg18 : V2 m c (Proc.devRef .tc main_arg18) = m ((c.tc : Thread nD τ).loc main_arg18) :=
  (keep2 m c main_arg18 (by decide)).trans (V1_arg18 m c)
theorem V3_arg18 : V3 m c (Proc.devRef .tc main_arg18) = m ((c.tc : Thread nD τ).loc main_arg18) :=
  (keep3 m c main_arg18 (by decide)).trans (V2_arg18 m c)
theorem V4_arg18 : V4 m c (Proc.devRef .tc main_arg18) = m ((c.tc : Thread nD τ).loc main_arg18) :=
  (keep4 m c main_arg18 (by decide)).trans (V3_arg18 m c)
theorem V0_arg19 : V0 m c (Proc.devRef .tc main_arg19) = m ((c.tc : Thread nD τ).loc main_arg19) := rfl
theorem V1_arg19 : V1 m c (Proc.devRef .tc main_arg19) = m ((c.tc : Thread nD τ).loc main_arg19) :=
  (keep1 m c main_arg19 (by decide)).trans (V0_arg19 m c)
theorem V2_arg19 : V2 m c (Proc.devRef .tc main_arg19) = m ((c.tc : Thread nD τ).loc main_arg19) :=
  (keep2 m c main_arg19 (by decide)).trans (V1_arg19 m c)
theorem V3_arg19 : V3 m c (Proc.devRef .tc main_arg19) = m ((c.tc : Thread nD τ).loc main_arg19) :=
  (keep3 m c main_arg19 (by decide)).trans (V2_arg19 m c)
theorem V4_arg19 : V4 m c (Proc.devRef .tc main_arg19) = m ((c.tc : Thread nD τ).loc main_arg19) :=
  (keep4 m c main_arg19 (by decide)).trans (V3_arg19 m c)
theorem V0_arg20 : V0 m c (Proc.devRef .tc main_arg20) = m ((c.tc : Thread nD τ).loc main_arg20) := rfl
theorem V1_arg20 : V1 m c (Proc.devRef .tc main_arg20) = m ((c.tc : Thread nD τ).loc main_arg20) :=
  (keep1 m c main_arg20 (by decide)).trans (V0_arg20 m c)
theorem V2_arg20 : V2 m c (Proc.devRef .tc main_arg20) = m ((c.tc : Thread nD τ).loc main_arg20) :=
  (keep2 m c main_arg20 (by decide)).trans (V1_arg20 m c)
theorem V3_arg20 : V3 m c (Proc.devRef .tc main_arg20) = m ((c.tc : Thread nD τ).loc main_arg20) :=
  (keep3 m c main_arg20 (by decide)).trans (V2_arg20 m c)
theorem V4_arg20 : V4 m c (Proc.devRef .tc main_arg20) = m ((c.tc : Thread nD τ).loc main_arg20) :=
  (keep4 m c main_arg20 (by decide)).trans (V3_arg20 m c)
theorem V0_arg21 : V0 m c (Proc.devRef .tc main_arg21) = m ((c.tc : Thread nD τ).loc main_arg21) := rfl
theorem V1_arg21 : V1 m c (Proc.devRef .tc main_arg21) = m ((c.tc : Thread nD τ).loc main_arg21) :=
  (keep1 m c main_arg21 (by decide)).trans (V0_arg21 m c)
theorem V2_arg21 : V2 m c (Proc.devRef .tc main_arg21) = m ((c.tc : Thread nD τ).loc main_arg21) :=
  (keep2 m c main_arg21 (by decide)).trans (V1_arg21 m c)
theorem V3_arg21 : V3 m c (Proc.devRef .tc main_arg21) = m ((c.tc : Thread nD τ).loc main_arg21) :=
  (keep3 m c main_arg21 (by decide)).trans (V2_arg21 m c)
theorem V4_arg21 : V4 m c (Proc.devRef .tc main_arg21) = m ((c.tc : Thread nD τ).loc main_arg21) :=
  (keep4 m c main_arg21 (by decide)).trans (V3_arg21 m c)
theorem V0_arg22 : V0 m c (Proc.devRef .tc main_arg22) = m ((c.tc : Thread nD τ).loc main_arg22) := rfl
theorem V1_arg22 : V1 m c (Proc.devRef .tc main_arg22) = m ((c.tc : Thread nD τ).loc main_arg22) :=
  (keep1 m c main_arg22 (by decide)).trans (V0_arg22 m c)
theorem V2_arg22 : V2 m c (Proc.devRef .tc main_arg22) = m ((c.tc : Thread nD τ).loc main_arg22) :=
  (keep2 m c main_arg22 (by decide)).trans (V1_arg22 m c)
theorem V3_arg22 : V3 m c (Proc.devRef .tc main_arg22) = m ((c.tc : Thread nD τ).loc main_arg22) :=
  (keep3 m c main_arg22 (by decide)).trans (V2_arg22 m c)
theorem V4_arg22 : V4 m c (Proc.devRef .tc main_arg22) = m ((c.tc : Thread nD τ).loc main_arg22) :=
  (keep4 m c main_arg22 (by decide)).trans (V3_arg22 m c)
theorem V5_arg22 : V5 m c (Proc.devRef .tc main_arg22) = m ((c.tc : Thread nD τ).loc main_arg22) :=
  (keep5 m c main_arg22 (by decide)).trans (V4_arg22 m c)
theorem V0_arg23 : V0 m c (Proc.devRef .tc main_arg23) = m ((c.tc : Thread nD τ).loc main_arg23) := rfl
theorem V1_arg23 : V1 m c (Proc.devRef .tc main_arg23) = m ((c.tc : Thread nD τ).loc main_arg23) :=
  (keep1 m c main_arg23 (by decide)).trans (V0_arg23 m c)
theorem V2_arg23 : V2 m c (Proc.devRef .tc main_arg23) = m ((c.tc : Thread nD τ).loc main_arg23) :=
  (keep2 m c main_arg23 (by decide)).trans (V1_arg23 m c)
theorem V3_arg23 : V3 m c (Proc.devRef .tc main_arg23) = m ((c.tc : Thread nD τ).loc main_arg23) :=
  (keep3 m c main_arg23 (by decide)).trans (V2_arg23 m c)
theorem V4_arg23 : V4 m c (Proc.devRef .tc main_arg23) = m ((c.tc : Thread nD τ).loc main_arg23) :=
  (keep4 m c main_arg23 (by decide)).trans (V3_arg23 m c)
theorem V5_arg23 : V5 m c (Proc.devRef .tc main_arg23) = m ((c.tc : Thread nD τ).loc main_arg23) :=
  (keep5 m c main_arg23 (by decide)).trans (V4_arg23 m c)
theorem V0_arg24 : V0 m c (Proc.devRef .tc main_arg24) = m ((c.tc : Thread nD τ).loc main_arg24) := rfl
theorem V1_arg24 : V1 m c (Proc.devRef .tc main_arg24) = m ((c.tc : Thread nD τ).loc main_arg24) :=
  (keep1 m c main_arg24 (by decide)).trans (V0_arg24 m c)
theorem V2_arg24 : V2 m c (Proc.devRef .tc main_arg24) = m ((c.tc : Thread nD τ).loc main_arg24) :=
  (keep2 m c main_arg24 (by decide)).trans (V1_arg24 m c)
theorem V3_arg24 : V3 m c (Proc.devRef .tc main_arg24) = m ((c.tc : Thread nD τ).loc main_arg24) :=
  (keep3 m c main_arg24 (by decide)).trans (V2_arg24 m c)
theorem V4_arg24 : V4 m c (Proc.devRef .tc main_arg24) = m ((c.tc : Thread nD τ).loc main_arg24) :=
  (keep4 m c main_arg24 (by decide)).trans (V3_arg24 m c)
theorem V5_arg24 : V5 m c (Proc.devRef .tc main_arg24) = m ((c.tc : Thread nD τ).loc main_arg24) :=
  (keep5 m c main_arg24 (by decide)).trans (V4_arg24 m c)
theorem V0_arg25 : V0 m c (Proc.devRef .tc main_arg25) = m ((c.tc : Thread nD τ).loc main_arg25) := rfl
theorem V1_arg25 : V1 m c (Proc.devRef .tc main_arg25) = m ((c.tc : Thread nD τ).loc main_arg25) :=
  (keep1 m c main_arg25 (by decide)).trans (V0_arg25 m c)
theorem V2_arg25 : V2 m c (Proc.devRef .tc main_arg25) = m ((c.tc : Thread nD τ).loc main_arg25) :=
  (keep2 m c main_arg25 (by decide)).trans (V1_arg25 m c)
theorem V3_arg25 : V3 m c (Proc.devRef .tc main_arg25) = m ((c.tc : Thread nD τ).loc main_arg25) :=
  (keep3 m c main_arg25 (by decide)).trans (V2_arg25 m c)
theorem V4_arg25 : V4 m c (Proc.devRef .tc main_arg25) = m ((c.tc : Thread nD τ).loc main_arg25) :=
  (keep4 m c main_arg25 (by decide)).trans (V3_arg25 m c)
theorem V5_arg25 : V5 m c (Proc.devRef .tc main_arg25) = m ((c.tc : Thread nD τ).loc main_arg25) :=
  (keep5 m c main_arg25 (by decide)).trans (V4_arg25 m c)
theorem V0_arg26 : V0 m c (Proc.devRef .tc main_arg26) = m ((c.tc : Thread nD τ).loc main_arg26) := rfl
theorem V1_arg26 : V1 m c (Proc.devRef .tc main_arg26) = m ((c.tc : Thread nD τ).loc main_arg26) :=
  (keep1 m c main_arg26 (by decide)).trans (V0_arg26 m c)
theorem V2_arg26 : V2 m c (Proc.devRef .tc main_arg26) = m ((c.tc : Thread nD τ).loc main_arg26) :=
  (keep2 m c main_arg26 (by decide)).trans (V1_arg26 m c)
theorem V3_arg26 : V3 m c (Proc.devRef .tc main_arg26) = m ((c.tc : Thread nD τ).loc main_arg26) :=
  (keep3 m c main_arg26 (by decide)).trans (V2_arg26 m c)
theorem V4_arg26 : V4 m c (Proc.devRef .tc main_arg26) = m ((c.tc : Thread nD τ).loc main_arg26) :=
  (keep4 m c main_arg26 (by decide)).trans (V3_arg26 m c)
theorem V5_arg26 : V5 m c (Proc.devRef .tc main_arg26) = m ((c.tc : Thread nD τ).loc main_arg26) :=
  (keep5 m c main_arg26 (by decide)).trans (V4_arg26 m c)
theorem V6_arg26 : V6 m c (Proc.devRef .tc main_arg26) = m ((c.tc : Thread nD τ).loc main_arg26) :=
  (keep6 m c main_arg26 (by decide)).trans (V5_arg26 m c)
theorem V0_arg27 : V0 m c (Proc.devRef .tc main_arg27) = m ((c.tc : Thread nD τ).loc main_arg27) := rfl
theorem V1_arg27 : V1 m c (Proc.devRef .tc main_arg27) = m ((c.tc : Thread nD τ).loc main_arg27) :=
  (keep1 m c main_arg27 (by decide)).trans (V0_arg27 m c)
theorem V2_arg27 : V2 m c (Proc.devRef .tc main_arg27) = m ((c.tc : Thread nD τ).loc main_arg27) :=
  (keep2 m c main_arg27 (by decide)).trans (V1_arg27 m c)
theorem V3_arg27 : V3 m c (Proc.devRef .tc main_arg27) = m ((c.tc : Thread nD τ).loc main_arg27) :=
  (keep3 m c main_arg27 (by decide)).trans (V2_arg27 m c)
theorem V4_arg27 : V4 m c (Proc.devRef .tc main_arg27) = m ((c.tc : Thread nD τ).loc main_arg27) :=
  (keep4 m c main_arg27 (by decide)).trans (V3_arg27 m c)
theorem V5_arg27 : V5 m c (Proc.devRef .tc main_arg27) = m ((c.tc : Thread nD τ).loc main_arg27) :=
  (keep5 m c main_arg27 (by decide)).trans (V4_arg27 m c)
theorem V6_arg27 : V6 m c (Proc.devRef .tc main_arg27) = m ((c.tc : Thread nD τ).loc main_arg27) :=
  (keep6 m c main_arg27 (by decide)).trans (V5_arg27 m c)
theorem V0_arg28 : V0 m c (Proc.devRef .tc main_arg28) = m ((c.tc : Thread nD τ).loc main_arg28) := rfl
theorem V1_arg28 : V1 m c (Proc.devRef .tc main_arg28) = m ((c.tc : Thread nD τ).loc main_arg28) :=
  (keep1 m c main_arg28 (by decide)).trans (V0_arg28 m c)
theorem V2_arg28 : V2 m c (Proc.devRef .tc main_arg28) = m ((c.tc : Thread nD τ).loc main_arg28) :=
  (keep2 m c main_arg28 (by decide)).trans (V1_arg28 m c)
theorem V3_arg28 : V3 m c (Proc.devRef .tc main_arg28) = m ((c.tc : Thread nD τ).loc main_arg28) :=
  (keep3 m c main_arg28 (by decide)).trans (V2_arg28 m c)
theorem V4_arg28 : V4 m c (Proc.devRef .tc main_arg28) = m ((c.tc : Thread nD τ).loc main_arg28) :=
  (keep4 m c main_arg28 (by decide)).trans (V3_arg28 m c)
theorem V5_arg28 : V5 m c (Proc.devRef .tc main_arg28) = m ((c.tc : Thread nD τ).loc main_arg28) :=
  (keep5 m c main_arg28 (by decide)).trans (V4_arg28 m c)
theorem V6_arg28 : V6 m c (Proc.devRef .tc main_arg28) = m ((c.tc : Thread nD τ).loc main_arg28) :=
  (keep6 m c main_arg28 (by decide)).trans (V5_arg28 m c)

/-! Each layer's buffer holds its stage, from the stretch that computes it until its last reader. -/
theorem V1_v28 : V1 m c (Proc.devRef .tc main_v28) = val_main_v28 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  seg1_out (V0 m c) _ _ _ _ _ (V0_arg0 m c) (V0_arg2 m c) (V0_arg3 m c) (V0_arg4 m c) (V0_arg5 m c)
theorem V2_v28 : V2 m c (Proc.devRef .tc main_v28) = val_main_v28 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) :=
  (keep2 m c main_v28 (by decide)).trans (V1_v28 m c)
theorem V2_v57 : V2 m c (Proc.devRef .tc main_v57) = val_main_v57 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  seg2_out (V1 m c) _ _ _ _ _ (V1_arg1 m c) (V1_arg6 m c) (V1_arg7 m c) (V1_arg8 m c) (V1_arg9 m c)
theorem V3_v57 : V3 m c (Proc.devRef .tc main_v57) = val_main_v57 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  (keep3 m c main_v57 (by decide)).trans (V2_v57 m c)
theorem V4_v57 : V4 m c (Proc.devRef .tc main_v57) = val_main_v57 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  (keep4 m c main_v57 (by decide)).trans (V3_v57 m c)
theorem V3_v91 : V3 m c (Proc.devRef .tc main_v91) = val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  seg3_out (V2 m c) _ _ _ _ _ _ _ _ _ _ _ _ _ _ (V2_v28 m c) (V2_v57 m c) (V2_arg10 m c) (V2_arg11 m c) (V2_arg12 m c) (V2_arg13 m c)
theorem V4_v120 : V4 m c (Proc.devRef .tc main_v120) = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  seg4_out (V3 m c) _ _ _ _ _ _ _ _ _ _ _ _ _ _ _ _ _ _ (V3_v91 m c) (V3_arg14 m c) (V3_arg15 m c) (V3_arg16 m c) (V3_arg17 m c)
theorem V5_v120 : V5 m c (Proc.devRef .tc main_v120) = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) :=
  (keep5 m c main_v120 (by decide)).trans (V4_v120 m c)
theorem V5_v130 : V5 m c (Proc.devRef .tc main_v130) = val_main_v130 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18)) (m ((c.tc : Thread nD τ).loc main_arg19)) (m ((c.tc : Thread nD τ).loc main_arg20)) (m ((c.tc : Thread nD τ).loc main_arg21)) :=
  seg5_out (V4 m c) _ _ _ _ _ _ _ _ _ (V4_v57 m c) (V4_arg18 m c) (V4_arg19 m c) (V4_arg20 m c) (V4_arg21 m c)
theorem V6_v160 : V6 m c (Proc.devRef .tc main_v160) = val_main_v160 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  seg6_out (V5 m c) _ _ _ _ _ _ _ _ _ _ _ _ _ _ _ _ _ _ _ _ _ _ _ _ _ _ (V5_v120 m c) (V5_v130 m c) (V5_arg22 m c) (V5_arg23 m c) (V5_arg24 m c) (V5_arg25 m c)
theorem V7_v167 : V7 m c (Proc.devRef .tc main_v167) = val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) :=
  seg7_out (V6 m c) _ _ _ _ _ _ _ _ _ _ _ _ _ _ _ _ _ _ _ _ _ _ _ _ _ _ _ _ _ (V6_v160 m c) (V6_arg26 m c) (V6_arg27 m c) (V6_arg28 m c)

/-- The fold of the program's operations over the launch contents, at the result buffer, is the last stage of the
    argument arrays. -/
theorem fold_eq : after (ValueP.ops (F := Ideal)) (launchContents m c) (Proc.devRef .tc main_v167) =
    val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) := by
  rw [ops_eq, after_append, after_append, after_append, after_append, after_append, after_append]
  exact V7_v167 m c

end Cert.ReferenceIdeal.RefValue

end
-- ==== Proof.RefIdx.lean ====
/-
  The programs' index functions on indices written by coordinates: each copies coordinates, inserts the summation
  variable, or inserts the one coordinate of an axis of extent one.
-/
import proofs.«140755_j31396210934102_2_alg».proof.Proof.RefReadP

noncomputable section

open scoped BigOperators

namespace Cert.ReferenceIdeal.RefValue

open Cert.ReferenceIdeal Cert.ReferenceIdeal.Gen Cert.ReferenceIdeal.ReadP Idealize.ShloMosaic Idealize.ShloMosaic.ValueIdx

/-! The programs' index functions on indices written by coordinates: each copies coordinates, inserts the summation
    variable, or inserts the one coordinate of an axis of extent one. -/

theorem lidx_main_v0_ix (a0 : Fin 8) (a1 : Fin 128) (a2 : Fin 512) (k : Fin 768) :
    lidx_main_v0 (ix3 a0 a1 a2) k = ix3 a0 a1 k :=
  funext fun a => by match a with | ⟨0, _⟩ => rfl | ⟨1, _⟩ => rfl | ⟨2, _⟩ => rfl
theorem ridx_main_v0_ix (a0 : Fin 8) (a1 : Fin 128) (a2 : Fin 512) (k : Fin 768) :
    ridx_main_v0 (ix3 a0 a1 a2) k = ix2 a2 k :=
  funext fun a => by match a with | ⟨0, _⟩ => rfl | ⟨1, _⟩ => rfl
theorem idx_main_v1_ix (a0 : Fin 1) (a1 : Fin 1) (a2 : Fin 512) :
    idx_main_v1 (ix3 a0 a1 a2) = ix1 a2 :=
  funext fun a => by match a with | ⟨0, _⟩ => rfl
theorem idx_main_v2_ix (a0 : Fin 8) (a1 : Fin 128) (a2 : Fin 512) :
    idx_main_v2 (ix3 a0 a1 a2) = ix3 (0 : Fin 1) (0 : Fin 1) a2 :=
  funext fun a => by match a with | ⟨0, _⟩ => rfl | ⟨1, _⟩ => rfl | ⟨2, _⟩ => rfl
theorem idx_main_v4_ix (a0 : Fin 8) (a1 : Fin 128) (k : Fin 512) :
    idx_main_v4 (ix2 a0 a1) k = ix3 a0 a1 k :=
  funext fun a => by match a with | ⟨0, _⟩ => rfl | ⟨1, _⟩ => rfl | ⟨2, _⟩ => rfl
theorem idx_main_v5_ix (a0 : Fin 8) (a1 : Fin 128) (a2 : Fin 1) :
    idx_main_v5 (ix3 a0 a1 a2) = ix2 a0 a1 :=
  funext fun a => by match a with | ⟨0, _⟩ => rfl | ⟨1, _⟩ => rfl
theorem idx_main_v8_ix (a0 : Fin 8) (a1 : Fin 128) (a2 : Fin 512) :
    idx_main_v8 (ix3 a0 a1 a2) = ix3 a0 a1 (0 : Fin 1) :=
  funext fun a => by match a with | ⟨0, _⟩ => rfl | ⟨1, _⟩ => rfl | ⟨2, _⟩ => rfl
theorem idx_main_v11_ix (a0 : Fin 8) (a1 : Fin 128) (k : Fin 512) :
    idx_main_v11 (ix2 a0 a1) k = ix3 a0 a1 k :=
  funext fun a => by match a with | ⟨0, _⟩ => rfl | ⟨1, _⟩ => rfl | ⟨2, _⟩ => rfl
theorem idx_main_v12_ix (a0 : Fin 8) (a1 : Fin 128) (a2 : Fin 1) :
    idx_main_v12 (ix3 a0 a1 a2) = ix2 a0 a1 :=
  funext fun a => by match a with | ⟨0, _⟩ => rfl | ⟨1, _⟩ => rfl
theorem idx_main_v15_ix (a0 : Fin 8) (a1 : Fin 128) (a2 : Fin 512) :
    idx_main_v15 (ix3 a0 a1 a2) = ix3 a0 a1 (0 : Fin 1) :=
  funext fun a => by match a with | ⟨0, _⟩ => rfl | ⟨1, _⟩ => rfl | ⟨2, _⟩ => rfl
theorem idx_main_v20_ix (a0 : Fin 8) (a1 : Fin 128) (a2 : Fin 512) :
    idx_main_v20 (ix3 a0 a1 a2) = ix3 a0 a1 (0 : Fin 1) :=
  funext fun a => by match a with | ⟨0, _⟩ => rfl | ⟨1, _⟩ => rfl | ⟨2, _⟩ => rfl
theorem idx_main_v22_ix (a0 : Fin 1) (a1 : Fin 1) (a2 : Fin 512) :
    idx_main_v22 (ix3 a0 a1 a2) = ix1 a2 :=
  funext fun a => by match a with | ⟨0, _⟩ => rfl
theorem idx_main_v23_ix (a0 : Fin 8) (a1 : Fin 128) (a2 : Fin 512) :
    idx_main_v23 (ix3 a0 a1 a2) = ix3 (0 : Fin 1) (0 : Fin 1) a2 :=
  funext fun a => by match a with | ⟨0, _⟩ => rfl | ⟨1, _⟩ => rfl | ⟨2, _⟩ => rfl
theorem idx_main_v25_ix (a0 : Fin 1) (a1 : Fin 1) (a2 : Fin 512) :
    idx_main_v25 (ix3 a0 a1 a2) = ix1 a2 :=
  funext fun a => by match a with | ⟨0, _⟩ => rfl
theorem idx_main_v26_ix (a0 : Fin 8) (a1 : Fin 128) (a2 : Fin 512) :
    idx_main_v26 (ix3 a0 a1 a2) = ix3 (0 : Fin 1) (0 : Fin 1) a2 :=
  funext fun a => by match a with | ⟨0, _⟩ => rfl | ⟨1, _⟩ => rfl | ⟨2, _⟩ => rfl
theorem lidx_main_v29_ix (a0 : Fin 8) (a1 : Fin 64) (a2 : Fin 512) (k : Fin 768) :
    lidx_main_v29 (ix3 a0 a1 a2) k = ix3 a0 a1 k :=
  funext fun a => by match a with | ⟨0, _⟩ => rfl | ⟨1, _⟩ => rfl | ⟨2, _⟩ => rfl
theorem ridx_main_v29_ix (a0 : Fin 8) (a1 : Fin 64) (a2 : Fin 512) (k : Fin 768) :
    ridx_main_v29 (ix3 a0 a1 a2) k = ix2 a2 k :=
  funext fun a => by match a with | ⟨0, _⟩ => rfl | ⟨1, _⟩ => rfl
theorem idx_main_v30_ix (a0 : Fin 1) (a1 : Fin 1) (a2 : Fin 512) :
    idx_main_v30 (ix3 a0 a1 a2) = ix1 a2 :=
  funext fun a => by match a with | ⟨0, _⟩ => rfl
theorem idx_main_v31_ix (a0 : Fin 8) (a1 : Fin 64) (a2 : Fin 512) :
    idx_main_v31 (ix3 a0 a1 a2) = ix3 (0 : Fin 1) (0 : Fin 1) a2 :=
  funext fun a => by match a with | ⟨0, _⟩ => rfl | ⟨1, _⟩ => rfl | ⟨2, _⟩ => rfl
theorem idx_main_v33_ix (a0 : Fin 8) (a1 : Fin 64) (k : Fin 512) :
    idx_main_v33 (ix2 a0 a1) k = ix3 a0 a1 k :=
  funext fun a => by match a with | ⟨0, _⟩ => rfl | ⟨1, _⟩ => rfl | ⟨2, _⟩ => rfl
theorem idx_main_v34_ix (a0 : Fin 8) (a1 : Fin 64) (a2 : Fin 1) :
    idx_main_v34 (ix3 a0 a1 a2) = ix2 a0 a1 :=
  funext fun a => by match a with | ⟨0, _⟩ => rfl | ⟨1, _⟩ => rfl
theorem idx_main_v37_ix (a0 : Fin 8) (a1 : Fin 64) (a2 : Fin 512) :
    idx_main_v37 (ix3 a0 a1 a2) = ix3 a0 a1 (0 : Fin 1) :=
  funext fun a => by match a with | ⟨0, _⟩ => rfl | ⟨1, _⟩ => rfl | ⟨2, _⟩ => rfl
theorem idx_main_v40_ix (a0 : Fin 8) (a1 : Fin 64) (k : Fin 512) :
    idx_main_v40 (ix2 a0 a1) k = ix3 a0 a1 k :=
  funext fun a => by match a with | ⟨0, _⟩ => rfl | ⟨1, _⟩ => rfl | ⟨2, _⟩ => rfl
theorem idx_main_v41_ix (a0 : Fin 8) (a1 : Fin 64) (a2 : Fin 1) :
    idx_main_v41 (ix3 a0 a1 a2) = ix2 a0 a1 :=
  funext fun a => by match a with | ⟨0, _⟩ => rfl | ⟨1, _⟩ => rfl
theorem idx_main_v44_ix (a0 : Fin 8) (a1 : Fin 64) (a2 : Fin 512) :
    idx_main_v44 (ix3 a0 a1 a2) = ix3 a0 a1 (0 : Fin 1) :=
  funext fun a => by match a with | ⟨0, _⟩ => rfl | ⟨1, _⟩ => rfl | ⟨2, _⟩ => rfl
theorem idx_main_v49_ix (a0 : Fin 8) (a1 : Fin 64) (a2 : Fin 512) :
    idx_main_v49 (ix3 a0 a1 a2) = ix3 a0 a1 (0 : Fin 1) :=
  funext fun a => by match a with | ⟨0, _⟩ => rfl | ⟨1, _⟩ => rfl | ⟨2, _⟩ => rfl
theorem idx_main_v51_ix (a0 : Fin 1) (a1 : Fin 1) (a2 : Fin 512) :
    idx_main_v51 (ix3 a0 a1 a2) = ix1 a2 :=
  funext fun a => by match a with | ⟨0, _⟩ => rfl
theorem idx_main_v52_ix (a0 : Fin 8) (a1 : Fin 64) (a2 : Fin 512) :
    idx_main_v52 (ix3 a0 a1 a2) = ix3 (0 : Fin 1) (0 : Fin 1) a2 :=
  funext fun a => by match a with | ⟨0, _⟩ => rfl | ⟨1, _⟩ => rfl | ⟨2, _⟩ => rfl
theorem idx_main_v54_ix (a0 : Fin 1) (a1 : Fin 1) (a2 : Fin 512) :
    idx_main_v54 (ix3 a0 a1 a2) = ix1 a2 :=
  funext fun a => by match a with | ⟨0, _⟩ => rfl
theorem idx_main_v55_ix (a0 : Fin 8) (a1 : Fin 64) (a2 : Fin 512) :
    idx_main_v55 (ix3 a0 a1 a2) = ix3 (0 : Fin 1) (0 : Fin 1) a2 :=
  funext fun a => by match a with | ⟨0, _⟩ => rfl | ⟨1, _⟩ => rfl | ⟨2, _⟩ => rfl
theorem idx_main_v58_ix (a0 : Fin 8) (a1 : Fin 128) (a2 : Fin 1) (a3 : Fin 512) :
    idx_main_v58 (ix4 a0 a1 a2 a3) = ix3 a0 a1 a3 :=
  funext fun a => by match a with | ⟨0, _⟩ => rfl | ⟨1, _⟩ => rfl | ⟨2, _⟩ => rfl
theorem idx_main_v59_ix (a0 : Fin 8) (a1 : Fin 1) (a2 : Fin 64) (a3 : Fin 512) :
    idx_main_v59 (ix4 a0 a1 a2 a3) = ix3 a0 a2 a3 :=
  funext fun a => by match a with | ⟨0, _⟩ => rfl | ⟨1, _⟩ => rfl | ⟨2, _⟩ => rfl
theorem idx_main_v60_ix (a0 : Fin 8) (a1 : Fin 128) (a2 : Fin 64) (a3 : Fin 512) :
    idx_main_v60 (ix4 a0 a1 a2 a3) = ix4 a0 a1 (0 : Fin 1) a3 :=
  funext fun a => by match a with | ⟨0, _⟩ => rfl | ⟨1, _⟩ => rfl | ⟨2, _⟩ => rfl | ⟨3, _⟩ => rfl
theorem idx_main_v61_ix (a0 : Fin 8) (a1 : Fin 128) (a2 : Fin 64) (a3 : Fin 512) :
    idx_main_v61 (ix4 a0 a1 a2 a3) = ix4 a0 (0 : Fin 1) a2 a3 :=
  funext fun a => by match a with | ⟨0, _⟩ => rfl | ⟨1, _⟩ => rfl | ⟨2, _⟩ => rfl | ⟨3, _⟩ => rfl
theorem lidx_main_v63_ix (a0 : Fin 8) (a1 : Fin 128) (a2 : Fin 64) (a3 : Fin 512) (k : Fin 512) :
    lidx_main_v63 (ix4 a0 a1 a2 a3) k = ix4 a0 a1 a2 k :=
  funext fun a => by match a with | ⟨0, _⟩ => rfl | ⟨1, _⟩ => rfl | ⟨2, _⟩ => rfl | ⟨3, _⟩ => rfl
theorem ridx_main_v63_ix (a0 : Fin 8) (a1 : Fin 128) (a2 : Fin 64) (a3 : Fin 512) (k : Fin 512) :
    ridx_main_v63 (ix4 a0 a1 a2 a3) k = ix2 a3 k :=
  funext fun a => by match a with | ⟨0, _⟩ => rfl | ⟨1, _⟩ => rfl
theorem idx_main_v64_ix (a0 : Fin 1) (a1 : Fin 1) (a2 : Fin 1) (a3 : Fin 512) :
    idx_main_v64 (ix4 a0 a1 a2 a3) = ix1 a3 :=
  funext fun a => by match a with | ⟨0, _⟩ => rfl
theorem idx_main_v65_ix (a0 : Fin 8) (a1 : Fin 128) (a2 : Fin 64) (a3 : Fin 512) :
    idx_main_v65 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v67_ix (a0 : Fin 8) (a1 : Fin 128) (a2 : Fin 64) (k : Fin 512) :
    idx_main_v67 (ix3 a0 a1 a2) k = ix4 a0 a1 a2 k :=
  funext fun a => by match a with | ⟨0, _⟩ => rfl | ⟨1, _⟩ => rfl | ⟨2, _⟩ => rfl | ⟨3, _⟩ => rfl
theorem idx_main_v68_ix (a0 : Fin 8) (a1 : Fin 128) (a2 : Fin 64) (a3 : Fin 1) :
    idx_main_v68 (ix4 a0 a1 a2 a3) = ix3 a0 a1 a2 :=
  funext fun a => by match a with | ⟨0, _⟩ => rfl | ⟨1, _⟩ => rfl | ⟨2, _⟩ => rfl
theorem idx_main_v71_ix (a0 : Fin 8) (a1 : Fin 128) (a2 : Fin 64) (a3 : Fin 512) :
    idx_main_v71 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v74_ix (a0 : Fin 8) (a1 : Fin 128) (a2 : Fin 64) (k : Fin 512) :
    idx_main_v74 (ix3 a0 a1 a2) k = ix4 a0 a1 a2 k :=
  funext fun a => by match a with | ⟨0, _⟩ => rfl | ⟨1, _⟩ => rfl | ⟨2, _⟩ => rfl | ⟨3, _⟩ => rfl
theorem idx_main_v75_ix (a0 : Fin 8) (a1 : Fin 128) (a2 : Fin 64) (a3 : Fin 1) :
    idx_main_v75 (ix4 a0 a1 a2 a3) = ix3 a0 a1 a2 :=
  funext fun a => by match a with | ⟨0, _⟩ => rfl | ⟨1, _⟩ => rfl | ⟨2, _⟩ => rfl
theorem idx_main_v78_ix (a0 : Fin 8) (a1 : Fin 128) (a2 : Fin 64) (a3 : Fin 512) :
    idx_main_v78 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v83_ix (a0 : Fin 8) (a1 : Fin 128) (a2 : Fin 64) (a3 : Fin 512) :
    idx_main_v83 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v85_ix (a0 : Fin 1) (a1 : Fin 1) (a2 : Fin 1) (a3 : Fin 512) :
    idx_main_v85 (ix4 a0 a1 a2 a3) = ix1 a3 :=
  funext fun a => by match a with | ⟨0, _⟩ => rfl
theorem idx_main_v86_ix (a0 : Fin 8) (a1 : Fin 128) (a2 : Fin 64) (a3 : Fin 512) :
    idx_main_v86 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v88_ix (a0 : Fin 1) (a1 : Fin 1) (a2 : Fin 1) (a3 : Fin 512) :
    idx_main_v88 (ix4 a0 a1 a2 a3) = ix1 a3 :=
  funext fun a => by match a with | ⟨0, _⟩ => rfl
theorem idx_main_v89_ix (a0 : Fin 8) (a1 : Fin 128) (a2 : Fin 64) (a3 : Fin 512) :
    idx_main_v89 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem lidx_main_v92_ix (a0 : Fin 8) (a1 : Fin 128) (a2 : Fin 64) (a3 : Fin 256) (k : Fin 512) :
    lidx_main_v92 (ix4 a0 a1 a2 a3) k = ix4 a0 a1 a2 k :=
  funext fun a => by match a with | ⟨0, _⟩ => rfl | ⟨1, _⟩ => rfl | ⟨2, _⟩ => rfl | ⟨3, _⟩ => rfl
theorem ridx_main_v92_ix (a0 : Fin 8) (a1 : Fin 128) (a2 : Fin 64) (a3 : Fin 256) (k : Fin 512) :
    ridx_main_v92 (ix4 a0 a1 a2 a3) k = ix2 a3 k :=
  funext fun a => by match a with | ⟨0, _⟩ => rfl | ⟨1, _⟩ => rfl
theorem idx_main_v93_ix (a0 : Fin 1) (a1 : Fin 1) (a2 : Fin 1) (a3 : Fin 256) :
    idx_main_v93 (ix4 a0 a1 a2 a3) = ix1 a3 :=
  funext fun a => by match a with | ⟨0, _⟩ => rfl
theorem idx_main_v94_ix (a0 : Fin 8) (a1 : Fin 128) (a2 : Fin 64) (a3 : Fin 256) :
    idx_main_v94 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v96_ix (a0 : Fin 8) (a1 : Fin 128) (a2 : Fin 64) (k : Fin 256) :
    idx_main_v96 (ix3 a0 a1 a2) k = ix4 a0 a1 a2 k :=
  funext fun a => by match a with | ⟨0, _⟩ => rfl | ⟨1, _⟩ => rfl | ⟨2, _⟩ => rfl | ⟨3, _⟩ => rfl
theorem idx_main_v97_ix (a0 : Fin 8) (a1 : Fin 128) (a2 : Fin 64) (a3 : Fin 1) :
    idx_main_v97 (ix4 a0 a1 a2 a3) = ix3 a0 a1 a2 :=
  funext fun a => by match a with | ⟨0, _⟩ => rfl | ⟨1, _⟩ => rfl | ⟨2, _⟩ => rfl
theorem idx_main_v100_ix (a0 : Fin 8) (a1 : Fin 128) (a2 : Fin 64) (a3 : Fin 256) :
    idx_main_v100 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v103_ix (a0 : Fin 8) (a1 : Fin 128) (a2 : Fin 64) (k : Fin 256) :
    idx_main_v103 (ix3 a0 a1 a2) k = ix4 a0 a1 a2 k :=
  funext fun a => by match a with | ⟨0, _⟩ => rfl | ⟨1, _⟩ => rfl | ⟨2, _⟩ => rfl | ⟨3, _⟩ => rfl
theorem idx_main_v104_ix (a0 : Fin 8) (a1 : Fin 128) (a2 : Fin 64) (a3 : Fin 1) :
    idx_main_v104 (ix4 a0 a1 a2 a3) = ix3 a0 a1 a2 :=
  funext fun a => by match a with | ⟨0, _⟩ => rfl | ⟨1, _⟩ => rfl | ⟨2, _⟩ => rfl
theorem idx_main_v107_ix (a0 : Fin 8) (a1 : Fin 128) (a2 : Fin 64) (a3 : Fin 256) :
    idx_main_v107 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v112_ix (a0 : Fin 8) (a1 : Fin 128) (a2 : Fin 64) (a3 : Fin 256) :
    idx_main_v112 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v114_ix (a0 : Fin 1) (a1 : Fin 1) (a2 : Fin 1) (a3 : Fin 256) :
    idx_main_v114 (ix4 a0 a1 a2 a3) = ix1 a3 :=
  funext fun a => by match a with | ⟨0, _⟩ => rfl
theorem idx_main_v115_ix (a0 : Fin 8) (a1 : Fin 128) (a2 : Fin 64) (a3 : Fin 256) :
    idx_main_v115 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v117_ix (a0 : Fin 1) (a1 : Fin 1) (a2 : Fin 1) (a3 : Fin 256) :
    idx_main_v117 (ix4 a0 a1 a2 a3) = ix1 a3 :=
  funext fun a => by match a with | ⟨0, _⟩ => rfl
theorem idx_main_v118_ix (a0 : Fin 8) (a1 : Fin 128) (a2 : Fin 64) (a3 : Fin 256) :
    idx_main_v118 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem lidx_main_v121_ix (a0 : Fin 8) (a1 : Fin 64) (a2 : Fin 512) (k : Fin 512) :
    lidx_main_v121 (ix3 a0 a1 a2) k = ix3 a0 a1 k :=
  funext fun a => by match a with | ⟨0, _⟩ => rfl | ⟨1, _⟩ => rfl | ⟨2, _⟩ => rfl
theorem ridx_main_v121_ix (a0 : Fin 8) (a1 : Fin 64) (a2 : Fin 512) (k : Fin 512) :
    ridx_main_v121 (ix3 a0 a1 a2) k = ix2 a2 k :=
  funext fun a => by match a with | ⟨0, _⟩ => rfl | ⟨1, _⟩ => rfl
theorem idx_main_v122_ix (a0 : Fin 1) (a1 : Fin 1) (a2 : Fin 512) :
    idx_main_v122 (ix3 a0 a1 a2) = ix1 a2 :=
  funext fun a => by match a with | ⟨0, _⟩ => rfl
theorem idx_main_v123_ix (a0 : Fin 8) (a1 : Fin 64) (a2 : Fin 512) :
    idx_main_v123 (ix3 a0 a1 a2) = ix3 (0 : Fin 1) (0 : Fin 1) a2 :=
  funext fun a => by match a with | ⟨0, _⟩ => rfl | ⟨1, _⟩ => rfl | ⟨2, _⟩ => rfl
theorem lidx_main_v125_ix (a0 : Fin 8) (a1 : Fin 64) (a2 : Fin 512) (k : Fin 512) :
    lidx_main_v125 (ix3 a0 a1 a2) k = ix3 a0 a1 k :=
  funext fun a => by match a with | ⟨0, _⟩ => rfl | ⟨1, _⟩ => rfl | ⟨2, _⟩ => rfl
theorem ridx_main_v125_ix (a0 : Fin 8) (a1 : Fin 64) (a2 : Fin 512) (k : Fin 512) :
    ridx_main_v125 (ix3 a0 a1 a2) k = ix2 a2 k :=
  funext fun a => by match a with | ⟨0, _⟩ => rfl | ⟨1, _⟩ => rfl
theorem idx_main_v126_ix (a0 : Fin 1) (a1 : Fin 1) (a2 : Fin 512) :
    idx_main_v126 (ix3 a0 a1 a2) = ix1 a2 :=
  funext fun a => by match a with | ⟨0, _⟩ => rfl
theorem idx_main_v127_ix (a0 : Fin 8) (a1 : Fin 64) (a2 : Fin 512) :
    idx_main_v127 (ix3 a0 a1 a2) = ix3 (0 : Fin 1) (0 : Fin 1) a2 :=
  funext fun a => by match a with | ⟨0, _⟩ => rfl | ⟨1, _⟩ => rfl | ⟨2, _⟩ => rfl
theorem idx_main_v129_ix (a0 : Fin 8) (a1 : Fin 1) (a2 : Fin 64) (a3 : Fin 512) :
    idx_main_v129 (ix4 a0 a1 a2 a3) = ix3 a0 a2 a3 :=
  funext fun a => by match a with | ⟨0, _⟩ => rfl | ⟨1, _⟩ => rfl | ⟨2, _⟩ => rfl
theorem idx_main_v130_ix (a0 : Fin 8) (a1 : Fin 128) (a2 : Fin 64) (a3 : Fin 512) :
    idx_main_v130 (ix4 a0 a1 a2 a3) = ix4 a0 (0 : Fin 1) a2 a3 :=
  funext fun a => by match a with | ⟨0, _⟩ => rfl | ⟨1, _⟩ => rfl | ⟨2, _⟩ => rfl | ⟨3, _⟩ => rfl
theorem lidx_main_v132_ix (a0 : Fin 8) (a1 : Fin 128) (a2 : Fin 64) (a3 : Fin 512) (k : Fin 768) :
    lidx_main_v132 (ix4 a0 a1 a2 a3) k = ix4 a0 a1 a2 k :=
  funext fun a => by match a with | ⟨0, _⟩ => rfl | ⟨1, _⟩ => rfl | ⟨2, _⟩ => rfl | ⟨3, _⟩ => rfl
theorem ridx_main_v132_ix (a0 : Fin 8) (a1 : Fin 128) (a2 : Fin 64) (a3 : Fin 512) (k : Fin 768) :
    ridx_main_v132 (ix4 a0 a1 a2 a3) k = ix2 a3 k :=
  funext fun a => by match a with | ⟨0, _⟩ => rfl | ⟨1, _⟩ => rfl
theorem idx_main_v133_ix (a0 : Fin 1) (a1 : Fin 1) (a2 : Fin 1) (a3 : Fin 512) :
    idx_main_v133 (ix4 a0 a1 a2 a3) = ix1 a3 :=
  funext fun a => by match a with | ⟨0, _⟩ => rfl
theorem idx_main_v134_ix (a0 : Fin 8) (a1 : Fin 128) (a2 : Fin 64) (a3 : Fin 512) :
    idx_main_v134 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v136_ix (a0 : Fin 8) (a1 : Fin 128) (a2 : Fin 64) (k : Fin 512) :
    idx_main_v136 (ix3 a0 a1 a2) k = ix4 a0 a1 a2 k :=
  funext fun a => by match a with | ⟨0, _⟩ => rfl | ⟨1, _⟩ => rfl | ⟨2, _⟩ => rfl | ⟨3, _⟩ => rfl
theorem idx_main_v137_ix (a0 : Fin 8) (a1 : Fin 128) (a2 : Fin 64) (a3 : Fin 1) :
    idx_main_v137 (ix4 a0 a1 a2 a3) = ix3 a0 a1 a2 :=
  funext fun a => by match a with | ⟨0, _⟩ => rfl | ⟨1, _⟩ => rfl | ⟨2, _⟩ => rfl
theorem idx_main_v140_ix (a0 : Fin 8) (a1 : Fin 128) (a2 : Fin 64) (a3 : Fin 512) :
    idx_main_v140 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v143_ix (a0 : Fin 8) (a1 : Fin 128) (a2 : Fin 64) (k : Fin 512) :
    idx_main_v143 (ix3 a0 a1 a2) k = ix4 a0 a1 a2 k :=
  funext fun a => by match a with | ⟨0, _⟩ => rfl | ⟨1, _⟩ => rfl | ⟨2, _⟩ => rfl | ⟨3, _⟩ => rfl
theorem idx_main_v144_ix (a0 : Fin 8) (a1 : Fin 128) (a2 : Fin 64) (a3 : Fin 1) :
    idx_main_v144 (ix4 a0 a1 a2 a3) = ix3 a0 a1 a2 :=
  funext fun a => by match a with | ⟨0, _⟩ => rfl | ⟨1, _⟩ => rfl | ⟨2, _⟩ => rfl
theorem idx_main_v147_ix (a0 : Fin 8) (a1 : Fin 128) (a2 : Fin 64) (a3 : Fin 512) :
    idx_main_v147 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v152_ix (a0 : Fin 8) (a1 : Fin 128) (a2 : Fin 64) (a3 : Fin 512) :
    idx_main_v152 (ix4 a0 a1 a2 a3) = ix4 a0 a1 a2 (0 : Fin 1) :=
  funext fun a => by match a with | ⟨0, _⟩ => rfl | ⟨1, _⟩ => rfl | ⟨2, _⟩ => rfl | ⟨3, _⟩ => rfl
theorem idx_main_v154_ix (a0 : Fin 1) (a1 : Fin 1) (a2 : Fin 1) (a3 : Fin 512) :
    idx_main_v154 (ix4 a0 a1 a2 a3) = ix1 a3 :=
  funext fun a => by match a with | ⟨0, _⟩ => rfl
theorem idx_main_v155_ix (a0 : Fin 8) (a1 : Fin 128) (a2 : Fin 64) (a3 : Fin 512) :
    idx_main_v155 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v157_ix (a0 : Fin 1) (a1 : Fin 1) (a2 : Fin 1) (a3 : Fin 512) :
    idx_main_v157 (ix4 a0 a1 a2 a3) = ix1 a3 :=
  funext fun a => by match a with | ⟨0, _⟩ => rfl
theorem idx_main_v158_ix (a0 : Fin 8) (a1 : Fin 128) (a2 : Fin 64) (a3 : Fin 512) :
    idx_main_v158 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem lidx_main_v161_ix (a0 : Fin 8) (a1 : Fin 128) (a2 : Fin 64) (a3 : Fin 1024) (k : Fin 512) :
    lidx_main_v161 (ix4 a0 a1 a2 a3) k = ix4 a0 a1 a2 k :=
  funext fun a => by match a with | ⟨0, _⟩ => rfl | ⟨1, _⟩ => rfl | ⟨2, _⟩ => rfl | ⟨3, _⟩ => rfl
theorem ridx_main_v161_ix (a0 : Fin 8) (a1 : Fin 128) (a2 : Fin 64) (a3 : Fin 1024) (k : Fin 512) :
    ridx_main_v161 (ix4 a0 a1 a2 a3) k = ix2 a3 k :=
  funext fun a => by match a with | ⟨0, _⟩ => rfl | ⟨1, _⟩ => rfl
theorem idx_main_v162_ix (a0 : Fin 1) (a1 : Fin 1) (a2 : Fin 1) (a3 : Fin 1024) :
    idx_main_v162 (ix4 a0 a1 a2 a3) = ix1 a3 :=
  funext fun a => by match a with | ⟨0, _⟩ => rfl
theorem idx_main_v163_ix (a0 : Fin 8) (a1 : Fin 128) (a2 : Fin 64) (a3 : Fin 1024) :
    idx_main_v163 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl
theorem idx_main_v165_ix (a0 : Fin 1) (a1 : Fin 1) (a2 : Fin 1) (a3 : Fin 1024) :
    idx_main_v165 (ix4 a0 a1 a2 a3) = ix1 a3 :=
  funext fun a => by match a with | ⟨0, _⟩ => rfl
theorem idx_main_v166_ix (a0 : Fin 8) (a1 : Fin 128) (a2 : Fin 64) (a3 : Fin 1024) :
    idx_main_v166 (ix4 a0 a1 a2 a3) = ix4 (0 : Fin 1) (0 : Fin 1) (0 : Fin 1) a3 :=
  funext fun a => by match a with | ⟨0, _⟩ => rfl | ⟨1, _⟩ => rfl | ⟨2, _⟩ => rfl | ⟨3, _⟩ => rfl

end Cert.ReferenceIdeal.RefValue

end
-- ==== Proof.RefEnc.lean ====
/-
  The plain program's first projection, read at an index. Row (b, t) of the first input times the matrix plus the bias
  (`v3_at`); its rows' mean, variance, rsqrt, scale, shift and maximum with zero are the layer normalisation of those rows
  (`v28_at`); so the stage is the specification's `encP` (`enc_eq`).
-/
import proofs.«140755_j31396210934102_2_alg».proof.Proof.RefReadP
import proofs.«140755_j31396210934102_2_alg».proof.Proof.Spec
import proofs.«140755_j31396210934102_2_alg».proof.Proof.RefIdx

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The first input's projection before normalisation, at row `(b, t)` and feature `i`. -/
theorem v3_at (x0 : (⟨S8x128x768, .f32⟩ : BufTy).Contents (Elt Ideal)) (x2 : (⟨S512x768, .f32⟩ : BufTy).Contents (Elt Ideal)) (x3 : (⟨S512, .f32⟩ : BufTy).Contents (Elt Ideal)) (b : Fin 8) (t : Fin 128) (i : Fin 512) :
    val_main_v3 (F := Ideal) x0 x2 x3 (ix3 b t i) =
      (∑ k : Fin 768, x0 (ix3 b t k) * x2 (ix2 i k)) + x3 (ix1 i) := by
  simp only [val_main_cst_apply, val_main_v3_apply, val_main_v2_apply, val_main_v1_apply, val_main_v0_apply,
    lidx_main_v0_ix, ridx_main_v0_ix, idx_main_v1_ix, idx_main_v2_ix,
    Ideal.addf_def, Ideal.subf_def, Ideal.mulf_def, Ideal.maximumf_def, Ideal.hostDivf_def, Ideal.hostUnary_rsqrt_def, Ideal.ofBits_def, Ideal.ofBits_zero_f32, zero_add]

/-- The first input's projected rows, normalised and clipped: the layer normalisation of the rows of the projection. -/
theorem v28_at (x0 : (⟨S8x128x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (b : Fin 8) (t : Fin 128) (i : Fin 512) :
    val_main_v28 (F := Ideal) x0 x2 x3 x4 x5 (ix3 b t i) =
      lnRelu n512 eps (fun j => val_main_v3 (F := Ideal) x0 x2 x3 (ix3 b t j)) (fun j => x4 (ix1 j)) (fun j => x5 (ix1 j)) i := by
  simp only [val_main_v28_apply, val_main_call0_v0_apply, val_main_call0_cst_apply, val_main_v27_apply, val_main_v26_apply, val_main_v25_apply, val_main_v24_apply, val_main_v23_apply, val_main_v22_apply, val_main_v21_apply, val_main_v20_apply, val_main_v19_apply, val_main_v18_apply, val_main_v17_apply, val_main_cst_3_apply, val_main_v16_apply, val_main_v15_apply, val_main_v14_apply, val_main_v13_apply, val_main_cst_2_apply, val_main_v12_apply, val_main_v11_apply, val_main_cst_1_apply, val_main_v10_apply, val_main_v9_apply, val_main_v8_apply, val_main_v7_apply, val_main_v6_apply, val_main_cst_0_apply, val_main_v5_apply, val_main_v4_apply, val_main_cst_apply,
    idx_main_v4_ix, idx_main_v5_ix, idx_main_v8_ix, idx_main_v11_ix, idx_main_v12_ix, idx_main_v15_ix, idx_main_v20_ix, idx_main_v22_ix, idx_main_v23_ix, idx_main_v25_ix, idx_main_v26_ix,
    Ideal.addf_def, Ideal.subf_def, Ideal.mulf_def, Ideal.maximumf_def, Ideal.hostDivf_def, Ideal.hostUnary_rsqrt_def, Ideal.ofBits_def, Ideal.ofBits_zero_f32, zero_add, lnRelu, rowVar, rowMean]

/-- Row `(b, t)` of the first input, projected, normalised and clipped, is the specification's. -/
theorem enc_eq (x0 : (⟨S8x128x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (b : Fin 8) (t : Fin 128) (i : Fin 512) :
    val_main_v28 (F := Ideal) x0 x2 x3 x4 x5 (ix3 b t i) = encP x0 x2 x3 x4 x5 b t i := by
  rw [v28_at]
  exact congrFun (lnRelu_congr n512 eps _ _ (fun j => v3_at x0 x2 x3 b t j)) i

end Cert.ReferenceIdeal.RefValue

end
-- ==== Proof.RefDec.lean ====
/-
  The plain program's second projection, read at an index. Row (b, u) of the second input times the matrix plus the bias
  (`v32_at`); its rows' mean, variance, rsqrt, scale, shift and maximum with zero are the layer normalisation of those rows
  (`v57_at`); so the stage is the specification's `decP` (`dec_eq`).
-/
import proofs.«140755_j31396210934102_2_alg».proof.Proof.RefReadP
import proofs.«140755_j31396210934102_2_alg».proof.Proof.Spec
import proofs.«140755_j31396210934102_2_alg».proof.Proof.RefIdx

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The second input's projection before normalisation, at row `(b, u)` and feature `i`. -/
theorem v32_at (x1 : (⟨S8x64x768, .f32⟩ : BufTy).Contents (Elt Ideal)) (x6 : (⟨S512x768, .f32⟩ : BufTy).Contents (Elt Ideal)) (x7 : (⟨S512, .f32⟩ : BufTy).Contents (Elt Ideal)) (b : Fin 8) (u : Fin 64) (i : Fin 512) :
    val_main_v32 (F := Ideal) x1 x6 x7 (ix3 b u i) =
      (∑ k : Fin 768, x1 (ix3 b u k) * x6 (ix2 i k)) + x7 (ix1 i) := by
  simp only [val_main_cst_4_apply, val_main_v32_apply, val_main_v31_apply, val_main_v30_apply, val_main_v29_apply,
    lidx_main_v29_ix, ridx_main_v29_ix, idx_main_v30_ix, idx_main_v31_ix,
    Ideal.addf_def, Ideal.subf_def, Ideal.mulf_def, Ideal.maximumf_def, Ideal.hostDivf_def, Ideal.hostUnary_rsqrt_def, Ideal.ofBits_def, Ideal.ofBits_zero_f32, zero_add]

/-- The second input's projected rows, normalised and clipped: the layer normalisation of the rows of the projection. -/
theorem v57_at (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (b : Fin 8) (u : Fin 64) (i : Fin 512) :
    val_main_v57 (F := Ideal) x1 x6 x7 x8 x9 (ix3 b u i) =
      lnRelu n512 eps (fun j => val_main_v32 (F := Ideal) x1 x6 x7 (ix3 b u j)) (fun j => x8 (ix1 j)) (fun j => x9 (ix1 j)) i := by
  simp only [val_main_v57_apply, val_main_call1_v0_apply, val_main_call1_cst_apply, val_main_v56_apply, val_main_v55_apply, val_main_v54_apply, val_main_v53_apply, val_main_v52_apply, val_main_v51_apply, val_main_v50_apply, val_main_v49_apply, val_main_v48_apply, val_main_v47_apply, val_main_v46_apply, val_main_cst_8_apply, val_main_v45_apply, val_main_v44_apply, val_main_v43_apply, val_main_v42_apply, val_main_cst_7_apply, val_main_v41_apply, val_main_v40_apply, val_main_cst_6_apply, val_main_v39_apply, val_main_v38_apply, val_main_v37_apply, val_main_v36_apply, val_main_v35_apply, val_main_cst_5_apply, val_main_v34_apply, val_main_v33_apply, val_main_cst_4_apply,
    idx_main_v33_ix, idx_main_v34_ix, idx_main_v37_ix, idx_main_v40_ix, idx_main_v41_ix, idx_main_v44_ix, idx_main_v49_ix, idx_main_v51_ix, idx_main_v52_ix, idx_main_v54_ix, idx_main_v55_ix,
    Ideal.addf_def, Ideal.subf_def, Ideal.mulf_def, Ideal.maximumf_def, Ideal.hostDivf_def, Ideal.hostUnary_rsqrt_def, Ideal.ofBits_def, Ideal.ofBits_zero_f32, zero_add, lnRelu, rowVar, rowMean]

/-- Row `(b, u)` of the second input, projected, normalised and clipped, is the specification's. -/
theorem dec_eq (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (b : Fin 8) (u : Fin 64) (i : Fin 512) :
    val_main_v57 (F := Ideal) x1 x6 x7 x8 x9 (ix3 b u i) = decP x1 x6 x7 x8 x9 b u i := by
  rw [v57_at]
  exact congrFun (lnRelu_congr n512 eps _ _ (fun j => v32_at x1 x6 x7 b u j)) i

end Cert.ReferenceIdeal.RefValue

end
-- ==== Proof.RefF.lean ====
/-
  The first joint layer, read at an index: the matrix on the sum of a t row and a u row plus the bias (`v66_at`), its rows
  normalised and clipped (`v91_at`), hence the specification's `fRow` (`f_eq`).
-/
import proofs.«140755_j31396210934102_2_alg».proof.Proof.RefReadP
import proofs.«140755_j31396210934102_2_alg».proof.Proof.Spec
import proofs.«140755_j31396210934102_2_alg».proof.Proof.RefIdx
import proofs.«140755_j31396210934102_2_alg».proof.Proof.RefEnc
import proofs.«140755_j31396210934102_2_alg».proof.Proof.RefDec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The first joint layer before normalisation: the matrix on the sum of a `t` row and a `u` row, plus the bias. -/
theorem v66_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (b : Fin 8) (t : Fin 128) (u : Fin 64) (o : Fin 512) :
    val_main_v66 (F := Ideal) x0 x1 x2 x3 x4 x5 x6 x7 x8 x9 x10 x11 (ix4 b t u o) =
      (∑ k : Fin 512, (val_main_v28 (F := Ideal) x0 x2 x3 x4 x5 (ix3 b t k) + val_main_v57 (F := Ideal) x1 x6 x7 x8 x9 (ix3 b u k)) * x10 (ix2 o k)) + x11 (ix1 o) := by
  simp only [val_main_cst_9_apply, val_main_v66_apply, val_main_v65_apply, val_main_v64_apply, val_main_v63_apply, val_main_v62_apply, val_main_v61_apply, val_main_v60_apply, val_main_v59_apply, val_main_v58_apply,
    idx_main_v58_ix, idx_main_v59_ix, idx_main_v60_ix, idx_main_v61_ix, lidx_main_v63_ix, ridx_main_v63_ix, idx_main_v64_ix, idx_main_v65_ix,
    Ideal.addf_def, Ideal.subf_def, Ideal.mulf_def, Ideal.maximumf_def, Ideal.hostDivf_def, Ideal.hostUnary_rsqrt_def, Ideal.ofBits_def, Ideal.ofBits_zero_f32, zero_add]

/-- The first joint layer's rows, normalised and clipped: the layer normalisation of the rows before it. -/
theorem v91_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (b : Fin 8) (t : Fin 128) (u : Fin 64) (i : Fin 512) :
    val_main_v91 (F := Ideal) x0 x1 x2 x3 x4 x5 x6 x7 x8 x9 x10 x11 x12 x13 (ix4 b t u i) =
      lnRelu n512 eps (fun j => val_main_v66 (F := Ideal) x0 x1 x2 x3 x4 x5 x6 x7 x8 x9 x10 x11 (ix4 b t u j)) (fun j => x12 (ix1 j)) (fun j => x13 (ix1 j)) i := by
  simp only [val_main_v91_apply, val_main_call2_v0_apply, val_main_call2_cst_apply, val_main_v90_apply, val_main_v89_apply, val_main_v88_apply, val_main_v87_apply, val_main_v86_apply, val_main_v85_apply, val_main_v84_apply, val_main_v83_apply, val_main_v82_apply, val_main_v81_apply, val_main_v80_apply, val_main_cst_13_apply, val_main_v79_apply, val_main_v78_apply, val_main_v77_apply, val_main_v76_apply, val_main_cst_12_apply, val_main_v75_apply, val_main_v74_apply, val_main_cst_11_apply, val_main_v73_apply, val_main_v72_apply, val_main_v71_apply, val_main_v70_apply, val_main_v69_apply, val_main_cst_10_apply, val_main_v68_apply, val_main_v67_apply, val_main_cst_9_apply,
    idx_main_v67_ix, idx_main_v68_ix, idx_main_v71_ix, idx_main_v74_ix, idx_main_v75_ix, idx_main_v78_ix, idx_main_v83_ix, idx_main_v85_ix, idx_main_v86_ix, idx_main_v88_ix, idx_main_v89_ix,
    Ideal.addf_def, Ideal.subf_def, Ideal.mulf_def, Ideal.maximumf_def, Ideal.hostDivf_def, Ideal.hostUnary_rsqrt_def, Ideal.ofBits_def, Ideal.ofBits_zero_f32, zero_add, lnRelu, rowVar, rowMean]

/-- The first joint layer's row `(b, t, u)` is the specification's. -/
theorem f_eq (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (b : Fin 8) (t : Fin 128) (u : Fin 64) (i : Fin 512) :
    val_main_v91 (F := Ideal) x0 x1 x2 x3 x4 x5 x6 x7 x8 x9 x10 x11 x12 x13 (ix4 b t u i) = fRow x0 x1 x2 x3 x4 x5 x6 x7 x8 x9 x10 x11 x12 x13 b t u i := by
  rw [v91_at]
  exact congrFun (lnRelu_congr n512 eps _ _ (fun j => by simp only [v66_at, enc_eq, dec_eq])) i

end Cert.ReferenceIdeal.RefValue

end
-- ==== Proof.RefFused.lean ====
/-
  The second joint layer, read at an index: the matrix on the first joint layer's row plus the bias (`v95_at`), its rows of
  256 features normalised and clipped (`v120_at`), hence the specification's `fusedRow` (`fused_eq`).
-/
import proofs.«140755_j31396210934102_2_alg».proof.Proof.RefReadP
import proofs.«140755_j31396210934102_2_alg».proof.Proof.Spec
import proofs.«140755_j31396210934102_2_alg».proof.Proof.RefIdx
import proofs.«140755_j31396210934102_2_alg».proof.Proof.RefF

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The second joint layer before normalisation: the matrix on the first layer's row, plus the bias. -/
theorem v95_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (b : Fin 8) (t : Fin 128) (u : Fin 64) (o : Fin 256) :
    val_main_v95 (F := Ideal) x0 x1 x2 x3 x4 x5 x6 x7 x8 x9 x10 x11 x12 x13 x14 x15 (ix4 b t u o) =
      (∑ k : Fin 512, val_main_v91 (F := Ideal) x0 x1 x2 x3 x4 x5 x6 x7 x8 x9 x10 x11 x12 x13 (ix4 b t u k) * x14 (ix2 o k)) + x15 (ix1 o) := by
  simp only [val_main_cst_14_apply, val_main_v95_apply, val_main_v94_apply, val_main_v93_apply, val_main_v92_apply,
    lidx_main_v92_ix, ridx_main_v92_ix, idx_main_v93_ix, idx_main_v94_ix,
    Ideal.addf_def, Ideal.subf_def, Ideal.mulf_def, Ideal.maximumf_def, Ideal.hostDivf_def, Ideal.hostUnary_rsqrt_def, Ideal.ofBits_def, Ideal.ofBits_zero_f32, zero_add]

/-- The second joint layer's rows, normalised and clipped: the layer normalisation of the rows before it. -/
theorem v120_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (b : Fin 8) (t : Fin 128) (u : Fin 64) (i : Fin 256) :
    val_main_v120 (F := Ideal) x0 x1 x2 x3 x4 x5 x6 x7 x8 x9 x10 x11 x12 x13 x14 x15 x16 x17 (ix4 b t u i) =
      lnRelu n256 eps (fun j => val_main_v95 (F := Ideal) x0 x1 x2 x3 x4 x5 x6 x7 x8 x9 x10 x11 x12 x13 x14 x15 (ix4 b t u j)) (fun j => x16 (ix1 j)) (fun j => x17 (ix1 j)) i := by
  simp only [val_main_v120_apply, val_main_call3_v0_apply, val_main_call3_cst_apply, val_main_v119_apply, val_main_v118_apply, val_main_v117_apply, val_main_v116_apply, val_main_v115_apply, val_main_v114_apply, val_main_v113_apply, val_main_v112_apply, val_main_v111_apply, val_main_v110_apply, val_main_v109_apply, val_main_cst_18_apply, val_main_v108_apply, val_main_v107_apply, val_main_v106_apply, val_main_v105_apply, val_main_cst_17_apply, val_main_v104_apply, val_main_v103_apply, val_main_cst_16_apply, val_main_v102_apply, val_main_v101_apply, val_main_v100_apply, val_main_v99_apply, val_main_v98_apply, val_main_cst_15_apply, val_main_v97_apply, val_main_v96_apply, val_main_cst_14_apply,
    idx_main_v96_ix, idx_main_v97_ix, idx_main_v100_ix, idx_main_v103_ix, idx_main_v104_ix, idx_main_v107_ix, idx_main_v112_ix, idx_main_v114_ix, idx_main_v115_ix, idx_main_v117_ix, idx_main_v118_ix,
    Ideal.addf_def, Ideal.subf_def, Ideal.mulf_def, Ideal.maximumf_def, Ideal.hostDivf_def, Ideal.hostUnary_rsqrt_def, Ideal.ofBits_def, Ideal.ofBits_zero_f32, zero_add, lnRelu, rowVar, rowMean]

/-- The second joint layer's row `(b, t, u)` is the specification's. -/
theorem fused_eq (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (b : Fin 8) (t : Fin 128) (u : Fin 64) (i : Fin 256) :
    val_main_v120 (F := Ideal) x0 x1 x2 x3 x4 x5 x6 x7 x8 x9 x10 x11 x12 x13 x14 x15 x16 x17 (ix4 b t u i) = fusedRow x0 x1 x2 x3 x4 x5 x6 x7 x8 x9 x10 x11 x12 x13 x14 x15 x16 x17 b t u i := by
  rw [v120_at]
  exact congrFun (lnRelu_congr n256 eps _ _ (fun j => by simp only [v95_at, f_eq])) i

end Cert.ReferenceIdeal.RefValue

end
-- ==== Proof.RefAtt.lean ====
/-
  The attention branch, read at an index: the value projection of a u row (`v124_at`, the specification's `vRow`: `v_eq`),
  the output projection of that (`v128_at`, the specification's `attRow`: `att_eq`), and the rows repeated along t
  (`v130_at`).
-/
import proofs.«140755_j31396210934102_2_alg».proof.Proof.RefReadP
import proofs.«140755_j31396210934102_2_alg».proof.Proof.Spec
import proofs.«140755_j31396210934102_2_alg».proof.Proof.RefIdx
import proofs.«140755_j31396210934102_2_alg».proof.Proof.RefDec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The value projection of a `u` row. -/
theorem v124_at (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x18 : (⟨S512x512, .f32⟩ : BufTy).Contents (Elt Ideal)) (x19 : (⟨S512, .f32⟩ : BufTy).Contents (Elt Ideal)) (b : Fin 8) (u : Fin 64) (j : Fin 512) :
    val_main_v124 (F := Ideal) x1 x6 x7 x8 x9 x18 x19 (ix3 b u j) =
      (∑ k : Fin 512, val_main_v57 (F := Ideal) x1 x6 x7 x8 x9 (ix3 b u k) * x18 (ix2 j k)) + x19 (ix1 j) := by
  simp only [val_main_v124_apply, val_main_v123_apply, val_main_v122_apply, val_main_v121_apply,
    lidx_main_v121_ix, ridx_main_v121_ix, idx_main_v122_ix, idx_main_v123_ix,
    Ideal.addf_def, Ideal.subf_def, Ideal.mulf_def, Ideal.maximumf_def, Ideal.hostDivf_def, Ideal.hostUnary_rsqrt_def, Ideal.ofBits_def, Ideal.ofBits_zero_f32, zero_add]

theorem v_eq (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x18 : (⟨S512x512, .f32⟩ : BufTy).Contents (Elt Ideal)) (x19 : (⟨S512, .f32⟩ : BufTy).Contents (Elt Ideal)) (b : Fin 8) (u : Fin 64) (j : Fin 512) :
    val_main_v124 (F := Ideal) x1 x6 x7 x8 x9 x18 x19 (ix3 b u j) = vRow x1 x6 x7 x8 x9 x18 x19 b u j := by
  simp only [v124_at, dec_eq, vRow]

/-- The attention output of a `u` row. -/
theorem v128_at (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (b : Fin 8) (u : Fin 64) (o : Fin 512) :
    val_main_v128 (F := Ideal) x1 x6 x7 x8 x9 x18 x19 x20 x21 (ix3 b u o) =
      (∑ k : Fin 512, val_main_v124 (F := Ideal) x1 x6 x7 x8 x9 x18 x19 (ix3 b u k) * x20 (ix2 o k)) + x21 (ix1 o) := by
  simp only [val_main_v128_apply, val_main_v127_apply, val_main_v126_apply, val_main_v125_apply,
    lidx_main_v125_ix, ridx_main_v125_ix, idx_main_v126_ix, idx_main_v127_ix,
    Ideal.addf_def, Ideal.subf_def, Ideal.mulf_def, Ideal.maximumf_def, Ideal.hostDivf_def, Ideal.hostUnary_rsqrt_def, Ideal.ofBits_def, Ideal.ofBits_zero_f32, zero_add]

theorem att_eq (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (b : Fin 8) (u : Fin 64) (o : Fin 512) :
    val_main_v128 (F := Ideal) x1 x6 x7 x8 x9 x18 x19 x20 x21 (ix3 b u o) = attRow x1 x6 x7 x8 x9 x18 x19 x20 x21 b u o := by
  simp only [v128_at, v_eq, attRow]

/-- The attention rows repeated along `t`. -/
theorem v130_at (x1 : (⟨S8x64x768, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (b : Fin 8) (t : Fin 128) (u : Fin 64) (k : Fin 512) :
    val_main_v130 (F := Ideal) x1 x6 x7 x8 x9 x18 x19 x20 x21 (ix4 b t u k) =
      attRow x1 x6 x7 x8 x9 x18 x19 x20 x21 b u k := by
  simp only [val_main_v130_apply, val_main_v129_apply,
    idx_main_v129_ix, idx_main_v130_ix,
    Ideal.addf_def, Ideal.subf_def, Ideal.mulf_def, Ideal.maximumf_def, Ideal.hostDivf_def, Ideal.hostUnary_rsqrt_def, Ideal.ofBits_def, Ideal.ofBits_zero_f32, zero_add, att_eq]

end Cert.ReferenceIdeal.RefValue

end
-- ==== Proof.RefCat.lean ====
/-
  The concatenation along the feature axis, read at an index: it reads the 256 features of the second joint layer below 256
  and the 512 attention features from 256 on, which is the specification's `catRow` (`cat_eq`).
-/
import proofs.«140755_j31396210934102_2_alg».proof.Proof.RefReadP
import proofs.«140755_j31396210934102_2_alg».proof.Proof.Spec
import proofs.«140755_j31396210934102_2_alg».proof.Proof.RefIdx
import proofs.«140755_j31396210934102_2_alg».proof.Proof.RefFused
import proofs.«140755_j31396210934102_2_alg».proof.Proof.RefAtt

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The joined row: an index below 256 on the feature axis reads the second joint layer's row, one at or past 256 the
    attention row, 256 less. -/
theorem cat_eq (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (b : Fin 8) (t : Fin 128) (u : Fin 64) (k : Fin 768) :
    val_main_v131 (F := Ideal) x0 x1 x2 x3 x4 x5 x6 x7 x8 x9 x10 x11 x12 x13 x14 x15 x16 x17 x18 x19 x20 x21 (ix4 b t u k) = catRow x0 x1 x2 x3 x4 x5 x6 x7 x8 x9 x10 x11 x12 x13 x14 x15 x16 x17 x18 x19 x20 x21 b t u k := by
  unfold val_main_v131 catRow
  by_cases h : k.val < 256
  · rw [dif_pos h]
    refine (concatenate_pair_apply_left (t := S8x128x64x768) (s₁ := S8x128x64x256) (s₂ := S8x128x64x512) _ _ _ _ (ix4 b t u k) rfl (ix4 b t u (⟨k.val, h⟩ : Fin 256)) (fun a => by
      match a with | ⟨0, _⟩ => rfl | ⟨1, _⟩ => rfl | ⟨2, _⟩ => rfl | ⟨3, _⟩ => rfl)).trans ?_
    exact fused_eq x0 x1 x2 x3 x4 x5 x6 x7 x8 x9 x10 x11 x12 x13 x14 x15 x16 x17 b t u ⟨k.val, h⟩
  · rw [dif_neg h]
    refine (concatenate_pair_apply_right (t := S8x128x64x768) (s₁ := S8x128x64x256) (s₂ := S8x128x64x512) _ _ _ _ (ix4 b t u k) rfl rfl (ix4 b t u (⟨k.val - 256, by omega⟩ : Fin 512)) (fun a ha => by
      match a with | ⟨0, _⟩ => rfl | ⟨1, _⟩ => rfl | ⟨2, _⟩ => rfl | ⟨3, _⟩ => exact (ha rfl).elim) (by
      show k.val - 256 + 256 = k.val
      omega)).trans ?_
    exact v130_at x1 x6 x7 x8 x9 x18 x19 x20 x21 b t u ⟨k.val - 256, by omega⟩

end Cert.ReferenceIdeal.RefValue

end
-- ==== Proof.RefH.lean ====
/-
  The third normalised layer, read at an index: the matrix on the joined row of 768 features plus the bias (`v135_at`), its
  rows normalised and clipped (`v160_at`), hence the specification's `hRow` (`h_eq`).
-/
import proofs.«140755_j31396210934102_2_alg».proof.Proof.RefReadP
import proofs.«140755_j31396210934102_2_alg».proof.Proof.Spec
import proofs.«140755_j31396210934102_2_alg».proof.Proof.RefIdx
import proofs.«140755_j31396210934102_2_alg».proof.Proof.RefCat

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The third layer before normalisation: the matrix on the joined row, plus the bias. -/
theorem v135_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (b : Fin 8) (t : Fin 128) (u : Fin 64) (o : Fin 512) :
    val_main_v135 (F := Ideal) x0 x1 x2 x3 x4 x5 x6 x7 x8 x9 x10 x11 x12 x13 x14 x15 x16 x17 x18 x19 x20 x21 x22 x23 (ix4 b t u o) =
      (∑ k : Fin 768, val_main_v131 (F := Ideal) x0 x1 x2 x3 x4 x5 x6 x7 x8 x9 x10 x11 x12 x13 x14 x15 x16 x17 x18 x19 x20 x21 (ix4 b t u k) * x22 (ix2 o k)) + x23 (ix1 o) := by
  simp only [val_main_cst_19_apply, val_main_v135_apply, val_main_v134_apply, val_main_v133_apply, val_main_v132_apply,
    lidx_main_v132_ix, ridx_main_v132_ix, idx_main_v133_ix, idx_main_v134_ix,
    Ideal.addf_def, Ideal.subf_def, Ideal.mulf_def, Ideal.maximumf_def, Ideal.hostDivf_def, Ideal.hostUnary_rsqrt_def, Ideal.ofBits_def, Ideal.ofBits_zero_f32, zero_add]

/-- The third normalised layer's rows: the layer normalisation of the rows before it, clipped. -/
theorem v160_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (x24 : (⟨S512, .f32⟩ : BufTy).Contents (Elt Ideal)) (x25 : (⟨S512, .f32⟩ : BufTy).Contents (Elt Ideal)) (b : Fin 8) (t : Fin 128) (u : Fin 64) (i : Fin 512) :
    val_main_v160 (F := Ideal) x0 x1 x2 x3 x4 x5 x6 x7 x8 x9 x10 x11 x12 x13 x14 x15 x16 x17 x18 x19 x20 x21 x22 x23 x24 x25 (ix4 b t u i) =
      lnRelu n512 eps (fun j => val_main_v135 (F := Ideal) x0 x1 x2 x3 x4 x5 x6 x7 x8 x9 x10 x11 x12 x13 x14 x15 x16 x17 x18 x19 x20 x21 x22 x23 (ix4 b t u j)) (fun j => x24 (ix1 j)) (fun j => x25 (ix1 j)) i := by
  simp only [val_main_v160_apply, val_main_call4_v0_apply, val_main_call4_cst_apply, val_main_v159_apply, val_main_v158_apply, val_main_v157_apply, val_main_v156_apply, val_main_v155_apply, val_main_v154_apply, val_main_v153_apply, val_main_v152_apply, val_main_v151_apply, val_main_v150_apply, val_main_v149_apply, val_main_cst_23_apply, val_main_v148_apply, val_main_v147_apply, val_main_v146_apply, val_main_v145_apply, val_main_cst_22_apply, val_main_v144_apply, val_main_v143_apply, val_main_cst_21_apply, val_main_v142_apply, val_main_v141_apply, val_main_v140_apply, val_main_v139_apply, val_main_v138_apply, val_main_cst_20_apply, val_main_v137_apply, val_main_v136_apply, val_main_cst_19_apply,
    idx_main_v136_ix, idx_main_v137_ix, idx_main_v140_ix, idx_main_v143_ix, idx_main_v144_ix, idx_main_v147_ix, idx_main_v152_ix, idx_main_v154_ix, idx_main_v155_ix, idx_main_v157_ix, idx_main_v158_ix,
    Ideal.addf_def, Ideal.subf_def, Ideal.mulf_def, Ideal.maximumf_def, Ideal.hostDivf_def, Ideal.hostUnary_rsqrt_def, Ideal.ofBits_def, Ideal.ofBits_zero_f32, zero_add, lnRelu, rowVar, rowMean]

/-- The third normalised layer's row `(b, t, u)` is the specification's. -/
theorem h_eq (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (x24 : (⟨S512, .f32⟩ : BufTy).Contents (Elt Ideal)) (x25 : (⟨S512, .f32⟩ : BufTy).Contents (Elt Ideal)) (b : Fin 8) (t : Fin 128) (u : Fin 64) (i : Fin 512) :
    val_main_v160 (F := Ideal) x0 x1 x2 x3 x4 x5 x6 x7 x8 x9 x10 x11 x12 x13 x14 x15 x16 x17 x18 x19 x20 x21 x22 x23 x24 x25 (ix4 b t u i) = hRow x0 x1 x2 x3 x4 x5 x6 x7 x8 x9 x10 x11 x12 x13 x14 x15 x16 x17 x18 x19 x20 x21 x22 x23 x24 x25 b t u i := by
  rw [v160_at]
  exact congrFun (lnRelu_congr n512 eps _ _ (fun j => by simp only [v135_at, cat_eq])) i

end Cert.ReferenceIdeal.RefValue

end
-- ==== Proof.RefLogits.lean ====
/-
  The output layer, read at an index: the matrix on the third layer's row plus the bias, scaled column by column
  (`v167_at`); so the plain program's last stage is the specification's `logits` (`stage_eq_logits`).
-/
import proofs.«140755_j31396210934102_2_alg».proof.Proof.RefReadP
import proofs.«140755_j31396210934102_2_alg».proof.Proof.Spec
import proofs.«140755_j31396210934102_2_alg».proof.Proof.RefIdx
import proofs.«140755_j31396210934102_2_alg».proof.Proof.RefH

noncomputable section

open scoped BigOperators

namespace Cert.ReferenceIdeal.RefValue

open Cert.ReferenceIdeal Cert.ReferenceIdeal.Gen Cert.ReferenceIdeal.ReadP Idealize.ShloMosaic Idealize.ShloMosaic.ValueIdx Cert.JointNet

/-- The output layer: the matrix on the third layer's row, plus the bias, scaled column by column. -/
theorem v167_at (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (x24 : (⟨S512, .f32⟩ : BufTy).Contents (Elt Ideal)) (x25 : (⟨S512, .f32⟩ : BufTy).Contents (Elt Ideal)) (x26 : (⟨S1024x512, .f32⟩ : BufTy).Contents (Elt Ideal)) (x27 : (⟨S1024, .f32⟩ : BufTy).Contents (Elt Ideal)) (x28 : (⟨S1024, .f32⟩ : BufTy).Contents (Elt Ideal)) (b : Fin 8) (t : Fin 128) (u : Fin 64) (o : Fin 1024) :
    val_main_v167 (F := Ideal) x0 x1 x2 x3 x4 x5 x6 x7 x8 x9 x10 x11 x12 x13 x14 x15 x16 x17 x18 x19 x20 x21 x22 x23 x24 x25 x26 x27 x28 (ix4 b t u o) =
      ((∑ k : Fin 512, val_main_v160 (F := Ideal) x0 x1 x2 x3 x4 x5 x6 x7 x8 x9 x10 x11 x12 x13 x14 x15 x16 x17 x18 x19 x20 x21 x22 x23 x24 x25 (ix4 b t u k) * x26 (ix2 o k)) + x27 (ix1 o)) * x28 (ix1 o) := by
  simp only [val_main_v167_apply, val_main_v166_apply, val_main_v165_apply, val_main_v164_apply, val_main_v163_apply, val_main_v162_apply, val_main_v161_apply,
    lidx_main_v161_ix, ridx_main_v161_ix, idx_main_v162_ix, idx_main_v163_ix, idx_main_v165_ix, idx_main_v166_ix,
    Ideal.addf_def, Ideal.subf_def, Ideal.mulf_def, Ideal.maximumf_def, Ideal.hostDivf_def, Ideal.hostUnary_rsqrt_def, Ideal.ofBits_def, Ideal.ofBits_zero_f32, zero_add]

/-- The plain program's last stage is the specification's network. -/
theorem stage_eq_logits (x0 : (⟨S8x128x768, .f32⟩ : BufTy).Contents (Elt Ideal)) (x1 : (⟨S8x64x768, .f32⟩ : BufTy).Contents (Elt Ideal)) (x2 : (⟨S512x768, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512x768, .f32⟩ : BufTy).Contents (Elt Ideal)) (x7 : (⟨S512, .f32⟩ : BufTy).Contents (Elt Ideal)) (x8 : (⟨S512, .f32⟩ : BufTy).Contents (Elt Ideal)) (x9 : (⟨S512, .f32⟩ : BufTy).Contents (Elt Ideal)) (x10 : (⟨S512x512, .f32⟩ : BufTy).Contents (Elt Ideal)) (x11 : (⟨S512, .f32⟩ : BufTy).Contents (Elt Ideal)) (x12 : (⟨S512, .f32⟩ : BufTy).Contents (Elt Ideal)) (x13 : (⟨S512, .f32⟩ : BufTy).Contents (Elt Ideal)) (x14 : (⟨S256x512, .f32⟩ : BufTy).Contents (Elt Ideal)) (x15 : (⟨S256, .f32⟩ : BufTy).Contents (Elt Ideal)) (x16 : (⟨S256, .f32⟩ : BufTy).Contents (Elt Ideal)) (x17 : (⟨S256, .f32⟩ : BufTy).Contents (Elt Ideal)) (x18 : (⟨S512x512, .f32⟩ : BufTy).Contents (Elt Ideal)) (x19 : (⟨S512, .f32⟩ : BufTy).Contents (Elt Ideal)) (x20 : (⟨S512x512, .f32⟩ : BufTy).Contents (Elt Ideal)) (x21 : (⟨S512, .f32⟩ : BufTy).Contents (Elt Ideal)) (x22 : (⟨S512x768, .f32⟩ : BufTy).Contents (Elt Ideal)) (x23 : (⟨S512, .f32⟩ : BufTy).Contents (Elt Ideal)) (x24 : (⟨S512, .f32⟩ : BufTy).Contents (Elt Ideal)) (x25 : (⟨S512, .f32⟩ : BufTy).Contents (Elt Ideal)) (x26 : (⟨S1024x512, .f32⟩ : BufTy).Contents (Elt Ideal)) (x27 : (⟨S1024, .f32⟩ : BufTy).Contents (Elt Ideal)) (x28 : (⟨S1024, .f32⟩ : BufTy).Contents (Elt Ideal)) :
    val_main_v167 (F := Ideal) x0 x1 x2 x3 x4 x5 x6 x7 x8 x9 x10 x11 x12 x13 x14 x15 x16 x17 x18 x19 x20 x21 x22 x23 x24 x25 x26 x27 x28 = logits x0 x1 x2 x3 x4 x5 x6 x7 x8 x9 x10 x11 x12 x13 x14 x15 x16 x17 x18 x19 x20 x21 x22 x23 x24 x25 x26 x27 x28 := by
  funext j
  obtain ⟨b, t, u, o, rfl⟩ : ∃ (b : Fin 8) (t : Fin 128) (u : Fin 64) (o : Fin 1024), j = ix4 b t u o := ⟨j 0, j 1, j 2, j 3, eq_ix4 j⟩
  rw [v167_at]
  simp only [h_eq]
  rfl

end Cert.ReferenceIdeal.RefValue

end
-- ==== Proof.lean ====
/-
  The certificate of the two-stage joint network against the plain one.

  Both word-level and idealized two-stage programs run, fault-free, with their arguments unchanged (their generated frame
  certificates); the plain program is a straight line of host operations, which runs with its arguments unchanged. The
  idealization changed no operation. On the extended reals the two-stage program's result is the plain network of its
  arguments (the two stages' values, and `kLogits_eq_logits`), and the plain program's result is the same function of
  arguments that agree.
-/
import proofs.«140755_j31396210934102_2_alg».proof.Defs
import proofs.«140755_j31396210934102_2_alg».proof.Proof.Gen.Kernel
import proofs.«140755_j31396210934102_2_alg».proof.Proof.Gen.Kernel.Frame
import proofs.«140755_j31396210934102_2_alg».proof.Proof.Gen.KernelIdeal
import proofs.«140755_j31396210934102_2_alg».proof.Proof.Gen.KernelIdeal.Frame
import proofs.«140755_j31396210934102_2_alg».proof.Proof.Gen.ReferenceIdeal
import proofs.«140755_j31396210934102_2_alg».proof.Proof.Gen.Pre_finite_inputs
import proofs.«140755_j31396210934102_2_alg».proof.Proof.KRun
import proofs.«140755_j31396210934102_2_alg».proof.Proof.RefRun
import proofs.«140755_j31396210934102_2_alg».proof.Proof.KOut
import proofs.«140755_j31396210934102_2_alg».proof.Proof.LogitsCongr
import proofs.«140755_j31396210934102_2_alg».proof.Proof.RefFold
import proofs.«140755_j31396210934102_2_alg».proof.Proof.RefLogits
import Idealize.ShloMosaic.Adequacy
import Idealize.ShloMosaic.Init

set_option maxRecDepth 16384

noncomputable section

namespace Cert.Proof

open Idealize.ShloMosaic Idealize.ShloMosaic.TcCoe Idealize.SL.Sem

/-- The word-level two-stage program runs and leaves its arguments unchanged. -/
theorem frame_k : Cert.frame_Kernel := fun m ρ _ => Cert.Kernel.Gen.frame m ρ

/-- So does the idealized one. -/
theorem frame_ki : Cert.frame_KernelIdeal := fun m ρ _ => Cert.KernelIdeal.Gen.frame m ρ

/-- The plain program runs and leaves its arguments unchanged. -/
theorem frame_ri : Cert.frame_ReferenceIdeal := fun m ρ _ =>
  (θ_run Cert.ReferenceIdeal.defs _ _).mono (fun _ h c => (h c).2) (Cert.ReferenceIdeal.RefRun.run (F := Ideal) m ρ)

/-- On the extended reals both programs end with the plain network of the arguments in their result buffers. -/
theorem algebraic : Cert.algebraic_KernelIdeal_ReferenceIdeal := by
  intro m ρ m' ρ' _ hagree
  refine ⟨fun c => Cert.JointNet.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)), ?_, ?_⟩
  · exact (θ_run Cert.KernelIdeal.defs _ _).mono (fun r h c =>
      ⟨(h c _ (Cert.KernelIdeal.Gen.mem_uc Cert.KernelIdeal.main_v21 (by decide))).trans (Cert.KernelIdeal.Out.out_eq m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c),
       (h c _ (Cert.KernelIdeal.Gen.mem_uc Cert.KernelIdeal.main_arg7 (by decide))).trans (Cert.KernelIdeal.Gen.W4_main_arg7 m ρ c),
       (h c _ (Cert.KernelIdeal.Gen.mem_uc Cert.KernelIdeal.main_arg8 (by decide))).trans (Cert.KernelIdeal.Gen.W4_main_arg8 m ρ c),
       (h c _ (Cert.KernelIdeal.Gen.mem_uc Cert.KernelIdeal.main_arg9 (by decide))).trans (Cert.KernelIdeal.Gen.W4_main_arg9 m ρ c),
       (h c _ (Cert.KernelIdeal.Gen.mem_uc Cert.KernelIdeal.main_arg10 (by decide))).trans (Cert.KernelIdeal.Gen.W4_main_arg10 m ρ c),
       (h c _ (Cert.KernelIdeal.Gen.mem_uc Cert.KernelIdeal.main_arg11 (by decide))).trans (Cert.KernelIdeal.Gen.W4_main_arg11 m ρ c),
       (h c _ (Cert.KernelIdeal.Gen.mem_uc Cert.KernelIdeal.main_arg12 (by decide))).trans (Cert.KernelIdeal.Gen.W4_main_arg12 m ρ c),
       (h c _ (Cert.KernelIdeal.Gen.mem_uc Cert.KernelIdeal.main_arg13 (by decide))).trans (Cert.KernelIdeal.Gen.W4_main_arg13 m ρ c),
       (h c _ (Cert.KernelIdeal.Gen.mem_uc Cert.KernelIdeal.main_arg14 (by decide))).trans (Cert.KernelIdeal.Gen.W4_main_arg14 m ρ c),
       (h c _ (Cert.KernelIdeal.Gen.mem_uc Cert.KernelIdeal.main_arg15 (by decide))).trans (Cert.KernelIdeal.Gen.W4_main_arg15 m ρ c),
       (h c _ (Cert.KernelIdeal.Gen.mem_uc Cert.KernelIdeal.main_arg16 (by decide))).trans (Cert.KernelIdeal.Gen.W4_main_arg16 m ρ c),
       (h c _ (Cert.KernelIdeal.Gen.mem_uc Cert.KernelIdeal.main_arg17 (by decide))).trans (Cert.KernelIdeal.Gen.W4_main_arg17 m ρ c),
       (h c _ (Cert.KernelIdeal.Gen.mem_uc Cert.KernelIdeal.main_arg18 (by decide))).trans (Cert.KernelIdeal.Gen.W4_main_arg18 m ρ c),
       (h c _ (Cert.KernelIdeal.Gen.mem_uc Cert.KernelIdeal.main_arg19 (by decide))).trans (Cert.KernelIdeal.Gen.W4_main_arg19 m ρ c),
       (h c _ (Cert.KernelIdeal.Gen.mem_uc Cert.KernelIdeal.main_arg20 (by decide))).trans (Cert.KernelIdeal.Gen.W4_main_arg20 m ρ c),
       (h c _ (Cert.KernelIdeal.Gen.mem_uc Cert.KernelIdeal.main_arg21 (by decide))).trans (Cert.KernelIdeal.Gen.W4_main_arg21 m ρ c),
       (h c _ (Cert.KernelIdeal.Gen.mem_uc Cert.KernelIdeal.main_arg22 (by decide))).trans (Cert.KernelIdeal.Gen.W4_main_arg22 m ρ c),
       (h c _ (Cert.KernelIdeal.Gen.mem_uc Cert.KernelIdeal.main_arg23 (by decide))).trans (Cert.KernelIdeal.Gen.W4_main_arg23 m ρ c),
       (h c _ (Cert.KernelIdeal.Gen.mem_uc Cert.KernelIdeal.main_arg24 (by decide))).trans (Cert.KernelIdeal.Gen.W4_main_arg24 m ρ c),
       (h c _ (Cert.KernelIdeal.Gen.mem_uc Cert.KernelIdeal.main_arg25 (by decide))).trans (Cert.KernelIdeal.Gen.W4_main_arg25 m ρ c),
       (h c _ (Cert.KernelIdeal.Gen.mem_uc Cert.KernelIdeal.main_arg26 (by decide))).trans (Cert.KernelIdeal.Gen.W4_main_arg26 m ρ c),
       (h c _ (Cert.KernelIdeal.Gen.mem_uc Cert.KernelIdeal.main_arg27 (by decide))).trans (Cert.KernelIdeal.Gen.W4_main_arg27 m ρ c),
       (h c _ (Cert.KernelIdeal.Gen.mem_uc Cert.KernelIdeal.main_arg28 (by decide))).trans (Cert.KernelIdeal.Gen.W4_main_arg28 m ρ c)⟩)
      (Cert.KernelIdeal.RunOut.run_held (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11, h12, h13, h14, h15, h16, h17, h18, h19, h20, h21, h22, h23, h24, h25, h26, h27, h28⟩ := hagree c
    refine ((Cert.ReferenceIdeal.RefValue.fold_eq m' c).trans
      (Cert.ReferenceIdeal.RefValue.stage_eq_logits _ _ _ _ _ _ _ _ _ _ _ _ _ _ _ _ _ _ _ _ _ _ _ _ _ _ _ _ _)).trans ?_
    exact Cert.JointNet.logits_congr h0 h1 h2 h3 h4 h5 h6 h7 h8 h9 h10 h11 h12 h13 h14 h15 h16 h17 h18 h19 h20 h21 h22 h23 h24 h25 h26 h27 h28

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
